-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S1x64 : Shape := ⟨2, ![1, 64]⟩
abbrev S64x64 : Shape := ⟨2, ![64, 64]⟩
abbrev S11x64x64 : Shape := ⟨3, ![11, 64, 64]⟩
abbrev S11x64 : Shape := ⟨2, ![11, 64]⟩
abbrev S64x3 : Shape := ⟨2, ![64, 3]⟩
abbrev S3 : Shape := ⟨1, ![3]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S11x64x64 : S_.BroadcastsInDim S11x64x64 (![] : Fin 0 → Fin S11x64x64.rank)
  reducesTo_S11x64x64_S_d0_1_2 : S11x64x64.ReducesTo [0, 1, 2] S_
  bcast_S_S11x64 : S_.BroadcastsInDim S11x64 (![] : Fin 0 → Fin S11x64.rank)
  reducesTo_S11x64_S_d0_1 : S11x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S11x64 .f32) (main_arg15 : FVec F S64x3 .f32) (main_arg16 : FVec F S3 .f32) (main_v63 : IVec S_ 1) (main_v67 : IVec S_ 1) : IVec S_ 1 :=
  let main_v68 : IVec S_ 1 := andi main_v63 main_v67
  let main_v69 : FVec F S11x64 .f32 := Host.absf main_arg14
  let main_cst_26 : FVec F S_ .f32 := constant S_ .f32 0x7F800000#32
  let main_v70 : FVec F S11x64 .f32 := broadcastInDim S11x64 ![] bcast_S_S11x64 main_cst_26
  let main_v71 : IVec S11x64 1 := cmpf .olt main_v69 main_v70
  let main_c_27 : IVec S_ 1 := constantI S_ 1 1#1
  let main_v72 : IVec S_ 1 := (fun x v => Host.reduce IntOp.andi x v reducesTo_S11x64_S_d0_1 h_S_) main_v71 main_c_27
  let main_v73 : IVec S_ 1 := andi main_v68 main_v72
  let main_v74 : FVec F S64x3 .f32 := Host.absf main_arg15
  let main_cst_28 : FVec F S_ .f32 := constant S_ .f32 0x7F800000#32
  let main_v75 : FVec F S64x3 .f32 := broadcastInDim S64x3 ![] bcast_S_S64x3 main_cst_28
  let main_v76 : IVec S64x3 1 := cmpf .olt main_v74 main_v75
  let main_c_29 : IVec S_ 1 := constantI S_ 1 1#1
  let main_v77 : IVec S_ 1 := (fun x v => Host.reduce IntOp.andi x v reducesTo_S64x3_S_d0_1 h_S_) main_v76 main_c_29
  let main_v78 : IVec S_ 1 := andi main_v73 main_v77
  let main_v79 : FVec F S3 .f32 := Host.absf main_arg16
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg11 : FVec F S64x64 .f32) (main_arg12 : FVec F S64 .f32) (main_arg13 : FVec F S11x64x64 .f32) (main_arg14 : FVec F S11x64 .f32) (main_arg15 : FVec F S64x3 .f32) (main_arg16 : FVec F S3 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S11x64x64 .f32 := Host.absf main_arg13
  let main_cst_24 : FVec F S_ .f32 := constant S_ .f32 0x7F800000#32
  let main_v65 : FVec F S11x64x64 .f32 := broadcastInDim S11x64x64 ![] bcast_S_S11x64x64 main_cst_24
  let main_v66 : IVec S11x64x64 1 := cmpf .olt main_v64 main_v65
  let main_c_25 : IVec S_ 1 := constantI S_ 1 1#1
  let main_v67 : IVec S_ 1 := (fun x v => Host.reduce IntOp.andi x v reducesTo_S11x64x64_S_d0_1_2 h_S_) main_v66 main_c_25
  fn_part4 (F := F) main_arg14 main_arg15 main_arg16 main_v63 main_v67

def fn_part2 {F : FTy → Type} [FloatOps F] (main_arg7 : FVec F S1x64 .f32) (main_arg8 : FVec F S1x64 .f32) (main_arg9 : FVec F S1x64 .f32) (main_arg10 : FVec F S1x64 .f32) (main_arg11 : FVec F S64x64 .f32) (main_arg12 : FVec F S64 .f32) (main_arg13 : FVec F S11x64x64 .f32) (main_arg14 : FVec F S11x64 .f32) (main_arg15 : FVec F S64x3 .f32) (main_arg16 : FVec F S3 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_arg13 main_arg14 main_arg15 main_arg16 main_v48 main_v49 main_v50

def fn_part1 {F : FTy → Type} [FloatOps F] (main_arg4 : FVec F S262144x16 .f32) (main_arg5 : FVec F S16x64 .f32) (main_arg6 : FVec F S64 .f32) (main_arg7 : FVec F S1x64 .f32) (main_arg8 : FVec F S1x64 .f32) (main_arg9 : FVec F S1x64 .f32) (main_arg10 : FVec F S1x64 .f32) (main_arg11 : FVec F S64x64 .f32) (main_arg12 : FVec F S64 .f32) (main_arg13 : FVec F S11x64x64 .f32) (main_arg14 : FVec F S11x64 .f32) (main_arg15 : FVec F S64x3 .f32) (main_arg16 : FVec F S3 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S262144x16 .f32 := Host.absf main_arg4
  let main_cst_6 : FVec F S_ .f32 := constant S_ .f32 0x7F800000#32
  let main_v20 : FVec F S262144x16 .f32 := broadcastInDim S262144x16 ![] bcast_S_S262144x16 main_cst_6
  let main_v21 : IVec S262144x16 1 := cmpf .olt main_v19 main_v20
  let main_c_7 : IVec S_ 1 := constantI S_ 1 1#1
  let main_v22 : IVec S_ 1 := (fun x v => Host.reduce IntOp.andi x v reducesTo_S262144x16_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S262144x1 .f32) (main_arg1 : FVec F S262144x1 .f32) (main_arg2 : FVec F S262144x1 .f32) (main_arg3 : FVec F S262144x1 .f32) (main_arg4 : FVec F S262144x16 .f32) (main_arg5 : FVec F S16x64 .f32) (main_arg6 : FVec F S64 .f32) (main_arg7 : FVec F S1x64 .f32) (main_arg8 : FVec F S1x64 .f32) (main_arg9 : FVec F S1x64 .f32) (main_arg10 : FVec F S1x64 .f32) (main_arg11 : FVec F S64x64 .f32) (main_arg12 : FVec F S64 .f32) (main_arg13 : FVec F S11x64x64 .f32) (main_arg14 : FVec F S11x64 .f32) (main_arg15 : FVec F S64x3 .f32) (main_arg16 : FVec F S3 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x1 .f32 := Host.absf main_arg2
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S262144x1 .f32 := Host.absf main_arg3
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S1x64 : Shape := ⟨2, ![1, 64]⟩
abbrev S64x64 : Shape := ⟨2, ![64, 64]⟩
abbrev S11x64x64 : Shape := ⟨3, ![11, 64, 64]⟩
abbrev S11x64 : Shape := ⟨2, ![11, 64]⟩
abbrev S64x3 : Shape := ⟨2, ![64, 3]⟩
abbrev S3 : Shape := ⟨1, ![3]⟩
abbrev S65536x4 : Shape := ⟨2, ![65536, 4]⟩
abbrev S65536x64 : Shape := ⟨2, ![65536, 64]⟩
abbrev S_ : Shape := ⟨0, ![]⟩
abbrev S1x256 : Shape := ⟨2, ![1, 256]⟩
abbrev S4x256 : Shape := ⟨2, ![4, 256]⟩
abbrev S16x256 : Shape := ⟨2, ![16, 256]⟩
abbrev S64x256 : Shape := ⟨2, ![64, 256]⟩
abbrev S4x64 : Shape := ⟨2, ![4, 64]⟩
abbrev S256 : Shape := ⟨1, ![256]⟩
abbrev S256x256 : Shape := ⟨2, ![256, 256]⟩
abbrev S11x64x256 : Shape := ⟨3, ![11, 64, 256]⟩
abbrev S11x256x256 : Shape := ⟨3, ![11, 256, 256]⟩
abbrev S1x11x1x64 : Shape := ⟨4, ![1, 11, 1, 64]⟩
abbrev S1x11x4x64 : Shape := ⟨4, ![1, 11, 4, 64]⟩
abbrev S11x256 : Shape := ⟨2, ![11, 256]⟩
abbrev S64x12 : Shape := ⟨2, ![64, 12]⟩
abbrev S256x12 : Shape := ⟨2, ![256, 12]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S65536x12 : Shape := ⟨2, ![65536, 12]⟩
abbrev S1024x4 : Shape := ⟨2, ![1024, 4]⟩
abbrev S1024x64 : Shape := ⟨2, ![1024, 64]⟩
abbrev S1024x12 : Shape := ⟨2, ![1024, 12]⟩
abbrev S1024x256 : Shape := ⟨2, ![1024, 256]⟩
abbrev S1x256x256 : Shape := ⟨3, ![1, 256, 256]⟩
abbrev S262144x3 : Shape := ⟨2, ![262144, 3]⟩

abbrev nBuf : Space → Nat
  | .hbm => 163
  | .vmem => 24
  | .smem => 0
  | _ => 0

abbrev hbmTy0_0 (i : Nat) : BufTy := match i % 128 with
  | 0 => ⟨S262144x1, .f32⟩
  | 1 => ⟨S262144x1, .f32⟩
  | 2 => ⟨S262144x1, .f32⟩
  | 3 => ⟨S262144x1, .f32⟩
  | 4 => ⟨S262144x16, .f32⟩
  | 5 => ⟨S16x64, .f32⟩
  | 6 => ⟨S64, .f32⟩
  | 7 => ⟨S1x64, .f32⟩
  | 8 => ⟨S1x64, .f32⟩
  | 9 => ⟨S1x64, .f32⟩
  | 10 => ⟨S1x64, .f32⟩
  | 11 => ⟨S64x64, .f32⟩
  | 12 => ⟨S64, .f32⟩
  | 13 => ⟨S11x64x64, .f32⟩
  | 14 => ⟨S11x64, .f32⟩
  | 15 => ⟨S64x3, .f32⟩
  | 16 => ⟨S3, .f32⟩
  | 17 => ⟨S65536x4, .f32⟩
  | 18 => ⟨S65536x4, .f32⟩
  | 19 => ⟨S65536x4, .f32⟩
  | 20 => ⟨S65536x4, .f32⟩
  | 21 => ⟨S65536x64, .f32⟩
  | 22 => ⟨S_, .f32⟩
  | 23 => ⟨S1x64, .f32⟩
  | 24 => ⟨S1x256, .f32⟩
  | 25 => ⟨S_, .f32⟩
  | 26 => ⟨S1x64, .f32⟩
  | 27 => ⟨S1x256, .f32⟩
  | 28 => ⟨S_, .f32⟩
  | 29 => ⟨S1x64, .f32⟩
  | 30 => ⟨S1x256, .f32⟩
  | 31 => ⟨S_, .f32⟩
  | 32 => ⟨S1x64, .f32⟩
  | 33 => ⟨S1x256, .f32⟩
  | 34 => ⟨S4x256, .f32⟩
  | 35 => ⟨S4x256, .bf16⟩
  | 36 => ⟨S_, .f32⟩
  | 37 => ⟨S1x64, .f32⟩
  | 38 => ⟨S1x256, .f32⟩
  | 39 => ⟨S_, .f32⟩
  | 40 => ⟨S1x64, .f32⟩
  | 41 => ⟨S1x256, .f32⟩
  | 42 => ⟨S_, .f32⟩
  | 43 => ⟨S1x64, .f32⟩
  | 44 => ⟨S1x256, .f32⟩
  | 45 => ⟨S_, .f32⟩
  | 46 => ⟨S1x64, .f32⟩
  | 47 => ⟨S1x256, .f32⟩
  | 48 => ⟨S4x256, .f32⟩
  | 49 => ⟨S4x256, .bf16⟩
  | 50 => ⟨S_, .f32⟩
  | 51 => ⟨S1x64, .f32⟩
  | 52 => ⟨S1x256, .f32⟩
  | 53 => ⟨S_, .f32⟩
  | 54 => ⟨S1x64, .f32⟩
  | 55 => ⟨S1x256, .f32⟩
  | 56 => ⟨S_, .f32⟩
  | 57 => ⟨S1x64, .f32⟩
  | 58 => ⟨S1x256, .f32⟩
  | 59 => ⟨S_, .f32⟩
  | 60 => ⟨S1x64, .f32⟩
  | 61 => ⟨S1x256, .f32⟩
  | 62 => ⟨S4x256, .f32⟩
  | 63 => ⟨S4x256, .bf16⟩
  | 64 => ⟨S_, .f32⟩
  | 65 => ⟨S1x64, .f32⟩
  | 66 => ⟨S1x256, .f32⟩
  | 67 => ⟨S_, .f32⟩
  | 68 => ⟨S1x64, .f32⟩
  | 69 => ⟨S1x256, .f32⟩
  | 70 => ⟨S_, .f32⟩
  | 71 => ⟨S1x64, .f32⟩
  | 72 => ⟨S1x256, .f32⟩
  | 73 => ⟨S_, .f32⟩
  | 74 => ⟨S1x64, .f32⟩
  | 75 => ⟨S1x256, .f32⟩
  | 76 => ⟨S4x256, .f32⟩
  | 77 => ⟨S4x256, .bf16⟩
  | 78 => ⟨S_, .f32⟩
  | 79 => ⟨S16x64, .f32⟩
  | 80 => ⟨S16x256, .f32⟩
  | 81 => ⟨S_, .f32⟩
  | 82 => ⟨S16x64, .f32⟩
  | 83 => ⟨S16x256, .f32⟩
  | 84 => ⟨S_, .f32⟩
  | 85 => ⟨S16x64, .f32⟩
  | 86 => ⟨S16x256, .f32⟩
  | 87 => ⟨S_, .f32⟩
  | 88 => ⟨S16x64, .f32⟩
  | 89 => ⟨S16x256, .f32⟩
  | 90 => ⟨S64x256, .f32⟩
  | 91 => ⟨S64x256, .bf16⟩
  | 92 => ⟨S1x64, .f32⟩
  | 93 => ⟨S4x64, .f32⟩
  | 94 => ⟨S256, .f32⟩
  | 95 => ⟨S1x256, .f32⟩
  | 96 => ⟨S_, .f32⟩
  | 97 => ⟨S64x64, .f32⟩
  | 98 => ⟨S64x256, .f32⟩
  | 99 => ⟨S_, .f32⟩
  | 100 => ⟨S64x64, .f32⟩
  | 101 => ⟨S64x256, .f32⟩
  | 102 => ⟨S_, .f32⟩
  | 103 => ⟨S64x64, .f32⟩
  | 104 => ⟨S64x256, .f32⟩
  | 105 => ⟨S_, .f32⟩
  | 106 => ⟨S64x64, .f32⟩
  | 107 => ⟨S64x256, .f32⟩
  | 108 => ⟨S256x256, .f32⟩
  | 109 => ⟨S256x256, .bf16⟩
  | 110 => ⟨S1x64, .f32⟩
  | 111 => ⟨S4x64, .f32⟩
  | 112 => ⟨S256, .f32⟩
  | 113 => ⟨S1x256, .f32⟩
  | 114 => ⟨S_, .f32⟩
  | 115 => ⟨S64x64, .f32⟩
  | 116 => ⟨S11x64x64, .f32⟩
  | 117 => ⟨S11x64x64, .f32⟩
  | 118 => ⟨S11x64x64, .f32⟩
  | 119 => ⟨S11x64x256, .f32⟩
  | 120 => ⟨S_, .f32⟩
  | 121 => ⟨S64x64, .f32⟩
  | 122 => ⟨S11x64x64, .f32⟩
  | 123 => ⟨S11x64x64, .f32⟩
  | 124 => ⟨S11x64x64, .f32⟩
  | 125 => ⟨S11x64x256, .f32⟩
  | 126 => ⟨S_, .f32⟩
  | 127 => ⟨S64x64, .f32⟩
  | _ => ⟨S262144x1, .f32⟩

abbrev hbmTy0_1 (i : Nat) : BufTy := match i % 128 with
  | 0 => ⟨S11x64x64, .f32⟩
  | 1 => ⟨S11x64x64, .f32⟩
  | 2 => ⟨S11x64x64, .f32⟩
  | 3 => ⟨S11x64x256, .f32⟩
  | 4 => ⟨S_, .f32⟩
  | 5 => ⟨S64x64, .f32⟩
  | 6 => ⟨S11x64x64, .f32⟩
  | 7 => ⟨S11x64x64, .f32⟩
  | 8 => ⟨S11x64x64, .f32⟩
  | 9 => ⟨S11x64x256, .f32⟩
  | 10 => ⟨S11x256x256, .f32⟩
  | 11 => ⟨S11x256x256, .bf16⟩
  | 12 => ⟨S1x11x1x64, .f32⟩
  | 13 => ⟨S1x11x4x64, .f32⟩
  | 14 => ⟨S11x256, .f32⟩
  | 15 => ⟨S_, .f32⟩
  | 16 => ⟨S64x3, .f32⟩
  | 17 => ⟨S64x12, .f32⟩
  | 18 => ⟨S_, .f32⟩
  | 19 => ⟨S64x3, .f32⟩
  | 20 => ⟨S64x12, .f32⟩
  | 21 => ⟨S_, .f32⟩
  | 22 => ⟨S64x3, .f32⟩
  | 23 => ⟨S64x12, .f32⟩
  | 24 => ⟨S_, .f32⟩
  | 25 => ⟨S64x3, .f32⟩
  | 26 => ⟨S64x12, .f32⟩
  | 27 => ⟨S256x12, .f32⟩
  | 28 => ⟨S256x12, .bf16⟩
  | 29 => ⟨S1x3, .f32⟩
  | 30 => ⟨S4x3, .f32⟩
  | 31 => ⟨S12, .f32⟩
  | 32 => ⟨S1x12, .f32⟩
  | 33 => ⟨S65536x12, .f32⟩
  | 34 => ⟨S262144x3, .f32⟩
  | _ => ⟨S262144x1, .f32⟩

abbrev hbmTy (i : Nat) : BufTy := match i / 128 with
  | 0 => hbmTy0_0 i
  | 1 => hbmTy0_1 i
  | _ => ⟨S262144x1, .f32⟩

abbrev bufTy : (tb : Table) → Fin (tcTables nBuf tb) → BufTy
  | .hbm, ⟨i, _⟩ => hbmTy i
  | .local _ .vmem, ⟨0, _⟩ => ⟨S1024x4, .f32⟩
  | .local _ .vmem, ⟨1, _⟩ => ⟨S1024x4, .f32⟩
  | .local _ .vmem, ⟨2, _⟩ => ⟨S1024x4, .f32⟩
  | .local _ .vmem, ⟨3, _⟩ => ⟨S1024x4, .f32⟩
  | .local _ .vmem, ⟨4, _⟩ => ⟨S1024x4, .f32⟩
  | .local _ .vmem, ⟨5, _⟩ => ⟨S1024x4, .f32⟩
  | .local _ .vmem, ⟨6, _⟩ => ⟨S1024x4, .f32⟩
  | .local _ .vmem, ⟨7, _⟩ => ⟨S1024x4, .f32⟩
  | .local _ .vmem, ⟨8, _⟩ => ⟨S1024x64, .f32⟩
  | .local _ .vmem, ⟨9, _⟩ => ⟨S1024x64, .f32⟩
  | .local _ .vmem, ⟨10, _⟩ => ⟨S4x256, .bf16⟩
  | .local _ .vmem, ⟨11, _⟩ => ⟨S4x256, .bf16⟩
  | .local _ .vmem, ⟨12, _⟩ => ⟨S4x256, .bf16⟩
  | .local _ .vmem, ⟨13, _⟩ => ⟨S4x256, .bf16⟩
  | .local _ .vmem, ⟨14, _⟩ => ⟨S64x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S11x256x256, .bf16⟩
  | .local _ .vmem, ⟨19, _⟩ => ⟨S11x256, .f32⟩
  | .local _ .vmem, ⟨20, _⟩ => ⟨S256x12, .bf16⟩
  | .local _ .vmem, ⟨21, _⟩ => ⟨S1x12, .f32⟩
  | .local _ .vmem, ⟨22, _⟩ => ⟨S1024x12, .f32⟩
  | .local _ .vmem, ⟨23, _⟩ => ⟨S1024x12, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_11 : Ref sig .tc := ⟨.hbm, 64, rfl⟩
abbrev main_v35 : Ref sig .tc := ⟨.hbm, 65, rfl⟩
abbrev main_v36 : Ref sig .tc := ⟨.hbm, 66, rfl⟩
abbrev main_cst_12 : Ref sig .tc := ⟨.hbm, 67, rfl⟩
abbrev main_v37 : Ref sig .tc := ⟨.hbm, 68, rfl⟩
abbrev main_v38 : Ref sig .tc := ⟨.hbm, 69, rfl⟩
abbrev main_cst_13 : Ref sig .tc := ⟨.hbm, 70, rfl⟩
abbrev main_v39 : Ref sig .tc := ⟨.hbm, 71, rfl⟩
abbrev main_v40 : Ref sig .tc := ⟨.hbm, 72, rfl⟩
abbrev main_cst_14 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_15 : Ref sig .tc := ⟨.hbm, 78, rfl⟩
abbrev main_v45 : Ref sig .tc := ⟨.hbm, 79, rfl⟩
abbrev main_v46 : Ref sig .tc := ⟨.hbm, 80, rfl⟩
abbrev main_cst_16 : Ref sig .tc := ⟨.hbm, 81, rfl⟩
abbrev main_v47 : Ref sig .tc := ⟨.hbm, 82, rfl⟩
abbrev main_v48 : Ref sig .tc := ⟨.hbm, 83, rfl⟩
abbrev main_cst_17 : Ref sig .tc := ⟨.hbm, 84, rfl⟩
abbrev main_v49 : Ref sig .tc := ⟨.hbm, 85, rfl⟩
abbrev main_v50 : Ref sig .tc := ⟨.hbm, 86, rfl⟩
abbrev main_cst_18 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_19 : Ref sig .tc := ⟨.hbm, 96, rfl⟩
abbrev main_v59 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_cst_21 : Ref sig .tc := ⟨.hbm, 102, rfl⟩
abbrev main_v63 : Ref sig .tc := ⟨.hbm, 103, rfl⟩
abbrev main_v64 : Ref sig .tc := ⟨.hbm, 104, rfl⟩
abbrev main_cst_22 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_23 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_24 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_25 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_26 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_27 : Ref sig .tc := ⟨.hbm, 143, rfl⟩
abbrev main_v98 : Ref sig .tc := ⟨.hbm, 144, rfl⟩
abbrev main_v99 : Ref sig .tc := ⟨.hbm, 145, rfl⟩
abbrev main_cst_28 : Ref sig .tc := ⟨.hbm, 146, rfl⟩
abbrev main_v100 : Ref sig .tc := ⟨.hbm, 147, rfl⟩
abbrev main_v101 : Ref sig .tc := ⟨.hbm, 148, rfl⟩
abbrev main_cst_29 : Ref sig .tc := ⟨.hbm, 149, rfl⟩
abbrev main_v102 : Ref sig .tc := ⟨.hbm, 150, rfl⟩
abbrev main_v103 : Ref sig .tc := ⟨.hbm, 151, rfl⟩
abbrev main_cst_30 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S11x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S11x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x12 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x12 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x12 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S262144x1_S65536x4 : S262144x1.ShapeCasts S65536x4
  shapeCasts_S262144x16_S65536x64 : S262144x16.ShapeCasts S65536x64
  bcast_S_S1x64 : S_.BroadcastsInDim S1x64 (![] : Fin 0 → Fin S1x64.rank)
  concatenates_S1x64_S1x64_S1x64_S1x64_S1x256_d1 : Shape.Concatenates [S1x64, S1x64, S1x64, S1x64] S1x256 1
  concatenates_S1x256_S1x256_S1x256_S1x256_S4x256_d0 : Shape.Concatenates [S1x256, S1x256, S1x256, S1x256] S4x256 0
  bitsLt_bf16_f32 : FTy.bits .bf16 < FTy.bits .f32
  bcast_S_S16x64 : S_.BroadcastsInDim S16x64 (![] : Fin 0 → Fin S16x64.rank)
  concatenates_S16x64_S16x64_S16x64_S16x64_S16x256_d1 : Shape.Concatenates [S16x64, S16x64, S16x64, S16x64] S16x256 1
  concatenates_S16x256_S16x256_S16x256_S16x256_S64x256_d0 : Shape.Concatenates [S16x256, S16x256, S16x256, S16x256] S64x256 0
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S256_S1x256 : S256.ShapeCasts S1x256
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  bcast_S64x64_S11x64x64_1_2 : S64x64.BroadcastsInDim S11x64x64 (![1, 2] : Fin 2 → Fin S11x64x64.rank)
  concatenates_S11x64x64_S11x64x64_S11x64x64_S11x64x64_S11x64x256_d2 : Shape.Concatenates [S11x64x64, S11x64x64, S11x64x64, S11x64x64] S11x64x256 2
  concatenates_S11x64x256_S11x64x256_S11x64x256_S11x64x256_S11x256x256_d1 : Shape.Concatenates [S11x64x256, S11x64x256, S11x64x256, S11x64x256] S11x256x256 1
  shapeCasts_S11x64_S1x11x1x64 : S11x64.ShapeCasts S1x11x1x64
  bcast_S1x11x1x64_S1x11x4x64_0_1_2_3 : S1x11x1x64.BroadcastsInDim S1x11x4x64 (![0, 1, 2, 3] : Fin 4 → Fin S1x11x4x64.rank)
  shapeCasts_S1x11x4x64_S11x256 : S1x11x4x64.ShapeCasts S11x256
  bcast_S_S64x3 : S_.BroadcastsInDim S64x3 (![] : Fin 0 → Fin S64x3.rank)
  concatenates_S64x3_S64x3_S64x3_S64x3_S64x12_d1 : Shape.Concatenates [S64x3, S64x3, S64x3, S64x3] S64x12 1
  concatenates_S64x12_S64x12_S64x12_S64x12_S256x12_d0 : Shape.Concatenates [S64x12, S64x12, S64x12, S64x12] S256x12 0
  shapeCasts_S3_S1x3 : S3.ShapeCasts S1x3
  bcast_S1x3_S4x3_0_1 : S1x3.BroadcastsInDim S4x3 (![0, 1] : Fin 2 → Fin S4x3.rank)
  shapeCasts_S4x3_S12 : S4x3.ShapeCasts S12
  shapeCasts_S12_S1x12 : S12.ShapeCasts S1x12
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S11x256x256_S1x256x256_0_0_0 : ∀ a, (![0, 0, 0] : Fin 3 → Nat) a + S1x256x256.size a ≤ S11x256x256.size a
  h_S1x256x256 : 0 < S1x256x256.numel
  shapeCasts_S1x256x256_S256x256 : S1x256x256.ShapeCasts S256x256
  inb_S11x256_S1x256_0_0 : ∀ a, (![0, 0] : Fin 2 → Nat) a + S1x256.size a ≤ S11x256.size a
  shapeCasts_S1x256_S256 : S1x256.ShapeCasts S256
  inb_S11x256x256_S1x256x256_1_0_0 : ∀ a, (![1, 0, 0] : Fin 3 → Nat) a + S1x256x256.size a ≤ S11x256x256.size a
  inb_S11x256_S1x256_1_0 : ∀ a, (![1, 0] : Fin 2 → Nat) a + S1x256.size a ≤ S11x256.size a
  inb_S11x256x256_S1x256x256_2_0_0 : ∀ a, (![2, 0, 0] : Fin 3 → Nat) a + S1x256x256.size a ≤ S11x256x256.size a
  inb_S11x256_S1x256_2_0 : ∀ a, (![2, 0] : Fin 2 → Nat) a + S1x256.size a ≤ S11x256.size a
  inb_S11x256x256_S1x256x256_3_0_0 : ∀ a, (![3, 0, 0] : Fin 3 → Nat) a + S1x256x256.size a ≤ S11x256x256.size a
  inb_S11x256_S1x256_3_0 : ∀ a, (![3, 0] : Fin 2 → Nat) a + S1x256.size a ≤ S11x256.size a
  inb_S11x256x256_S1x256x256_4_0_0 : ∀ a, (![4, 0, 0] : Fin 3 → Nat) a + S1x256x256.size a ≤ S11x256x256.size a
  inb_S11x256_S1x256_4_0 : ∀ a, (![4, 0] : Fin 2 → Nat) a + S1x256.size a ≤ S11x256.size a
  inb_S11x256x256_S1x256x256_5_0_0 : ∀ a, (![5, 0, 0] : Fin 3 → Nat) a + S1x256x256.size a ≤ S11x256x256.size a
  inb_S11x256_S1x256_5_0 : ∀ a, (![5, 0] : Fin 2 → Nat) a + S1x256.size a ≤ S11x256.size a
  inb_S11x256x256_S1x256x256_6_0_0 : ∀ a, (![6, 0, 0] : Fin 3 → Nat) a + S1x256x256.size a ≤ S11x256x256.size a
  inb_S11x256_S1x256_6_0 : ∀ a, (![6, 0] : Fin 2 → Nat) a + S1x256.size a ≤ S11x256.size a
  inb_S11x256x256_S1x256x256_7_0_0 : ∀ a, (![7, 0, 0] : Fin 3 → Nat) a + S1x256x256.size a ≤ S11x256x256.size a
  inb_S11x256_S1x256_7_0 : ∀ a, (![7, 0] : Fin 2 → Nat) a + S1x256.size a ≤ S11x256.size a
  inb_S11x256x256_S1x256x256_8_0_0 : ∀ a, (![8, 0, 0] : Fin 3 → Nat) a + S1x256x256.size a ≤ S11x256x256.size a
  inb_S11x256_S1x256_8_0 : ∀ a, (![8, 0] : Fin 2 → Nat) a + S1x256.size a ≤ S11x256.size a
  inb_S11x256x256_S1x256x256_9_0_0 : ∀ a, (![9, 0, 0] : Fin 3 → Nat) a + S1x256x256.size a ≤ S11x256x256.size a
  inb_S11x256_S1x256_9_0 : ∀ a, (![9, 0] : Fin 2 → Nat) a + S1x256.size a ≤ S11x256.size a
  inb_S11x256x256_S1x256x256_10_0_0 : ∀ a, (![10, 0, 0] : Fin 3 → Nat) a + S1x256x256.size a ≤ S11x256x256.size a
  inb_S11x256_S1x256_10_0 : ∀ a, (![10, 0] : Fin 2 → Nat) a + S1x256.size a ≤ S11x256.size a
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1024x12 : S1x12.Broadcasts S1024x12
  inb_S1024x12_S1024x12_0_0 : ∀ a, (![0, 0] : Fin 2 → Nat) a + S1024x12.size a ≤ S1024x12.size a
  h_S1024x12 : 0 < S1024x12.numel
  shapeCasts_S65536x12_S262144x3 : S65536x12.ShapeCasts S262144x3
  dot_S1024x4_S4x256_S1024x256_1_0_0_1_n_n_wf : DotDims.WF S1024x4 S4x256 S1024x256 [1] [0] [0] [1] [] []
  dot_S1024x64_S64x256_S1024x256_1_0_0_1_n_n_wf : DotDims.WF S1024x64 S64x256 S1024x256 [1] [0] [0] [1] [] []
  dot_S1024x256_S256x256_S1024x256_1_0_0_1_n_n_wf : DotDims.WF S1024x256 S256x256 S1024x256 [1] [0] [0] [1] [] []
  dot_S1024x256_S256x12_S1024x12_1_0_0_1_n_n_wf : DotDims.WF S1024x256 S256x12 S1024x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S65536x4.size a
  hwx0_0 : ∀ i : grid0.Coords, EltTy.bits .f32 = 32 ∨ (Rect.block (s := S65536x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S65536x4.size a
  hwx0_1 : ∀ i : grid0.Coords, EltTy.bits .f32 = 32 ∨ (Rect.block (s := S65536x4) S1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S65536x4.size a
  hwx0_2 : ∀ i : grid0.Coords, EltTy.bits .f32 = 32 ∨ (Rect.block (s := S65536x4) S1024x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S65536x4.size a
  hwx0_3 : ∀ i : grid0.Coords, EltTy.bits .f32 = 32 ∨ (Rect.block (s := S65536x4) S1024x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .bf16 = 32 ∨ (Rect.block (s := S4x256) S4x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x256.size a
  hwx0_6 : ∀ i : grid0.Coords, EltTy.bits .bf16 = 32 ∨ (Rect.block (s := S4x256) S4x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x256.size a
  hwx0_7 : ∀ i : grid0.Coords, EltTy.bits .bf16 = 32 ∨ (Rect.block (s := S4x256) S4x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .bf16 = 32 ∨ (Rect.block (s := S4x256) S4x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .bf16 = 32 ∨ (Rect.block (s := S64x256) S64x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S11x256x256.size a ≤ S11x256x256.size a
  hwx0_13 : ∀ i : grid0.Coords, EltTy.bits .bf16 = 32 ∨ (Rect.block (s := S11x256x256) S11x256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S11x256.size a ≤ S11x256.size a
  hwx0_14 : ∀ i : grid0.Coords, EltTy.bits .f32 = 32 ∨ (Rect.block (s := S11x256) S11x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x12.size a ≤ S256x12.size a
  hwx0_15 : ∀ i : grid0.Coords, EltTy.bits .bf16 = 32 ∨ (Rect.block (s := S256x12) S256x12.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x12.size a ≤ S1x12.size a
  hwx0_16 : ∀ i : grid0.Coords, EltTy.bits .f32 = 32 ∨ (Rect.block (s := S1x12) S1x12.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x12.size a ≤ S65536x12.size a
  hwx0_17 : ∀ i : grid0.Coords, EltTy.bits .f32 = 32 ∨ (Rect.block (s := S65536x12) S1024x12.size (cc0_transform_17 i) (hinb0_17 i)).WholeWords (EltTy.packing .f32)

variable [Facts₀]

def dot_S1024x4_S4x256_S1024x256_1_0_0_1_n_n : DotDims S1024x4 S4x256 S1024x256 where
  lhsContracting := [1]
  rhsContracting := [0]
  lhsNonContracting := [0]
  rhsNonContracting := [1]
  lhsBatch := []
  rhsBatch := []
  wf := dot_S1024x4_S4x256_S1024x256_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x12_S1024x12_1_0_0_1_n_n : DotDims S1024x256 S256x12 S1024x12 where
  lhsContracting := [1]
  rhsContracting := [0]
  lhsNonContracting := [0]
  rhsNonContracting := [1]
  lhsBatch := []
  rhsBatch := []
  wf := dot_S1024x256_S256x12_S1024x12_1_0_0_1_n_n_wf

abbrev win0_0 : Pipeline.Window sig grid0 :=
  Pipeline.Window.ofSpec (Memref.whole main_v0) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S4x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v68) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v72) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v94) S11x256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v97) S11x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v107) S256x12.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v111) S1x12.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v112) S1024x12.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S1x64 : Shape := ⟨2, ![1, 64]⟩
abbrev S64x64 : Shape := ⟨2, ![64, 64]⟩
abbrev S11x64x64 : Shape := ⟨3, ![11, 64, 64]⟩
abbrev S11x64 : Shape := ⟨2, ![11, 64]⟩
abbrev S64x3 : Shape := ⟨2, ![64, 3]⟩
abbrev S3 : Shape := ⟨1, ![3]⟩
abbrev S262144x64 : Shape := ⟨2, ![262144, 64]⟩
abbrev S_ : Shape := ⟨0, ![]⟩
abbrev S1x64x64 : Shape := ⟨3, ![1, 64, 64]⟩
abbrev S262144x3 : Shape := ⟨2, ![262144, 3]⟩
abbrev S1x3 : Shape := ⟨2, ![1, 3]⟩

abbrev nBuf : Space → Nat
  | .hbm => 262
  | .vmem => 0
  | .smem => 0
  | _ => 0

abbrev hbmTy0_0 (i : Nat) : BufTy := match i % 128 with
  | 0 => ⟨S262144x1, .f32⟩
  | 1 => ⟨S262144x1, .f32⟩
  | 2 => ⟨S262144x1, .f32⟩
  | 3 => ⟨S262144x1, .f32⟩
  | 4 => ⟨S262144x16, .f32⟩
  | 5 => ⟨S16x64, .f32⟩
  | 6 => ⟨S64, .f32⟩
  | 7 => ⟨S1x64, .f32⟩
  | 8 => ⟨S1x64, .f32⟩
  | 9 => ⟨S1x64, .f32⟩
  | 10 => ⟨S1x64, .f32⟩
  | 11 => ⟨S64x64, .f32⟩
  | 12 => ⟨S64, .f32⟩
  | 13 => ⟨S11x64x64, .f32⟩
  | 14 => ⟨S11x64, .f32⟩
  | 15 => ⟨S64x3, .f32⟩
  | 16 => ⟨S3, .f32⟩
  | 17 => ⟨S262144x64, .f32⟩
  | 18 => ⟨S1x64, .f32⟩
  | 19 => ⟨S262144x64, .f32⟩
  | 20 => ⟨S262144x64, .f32⟩
  | 21 => ⟨S262144x64, .f32⟩
  | 22 => ⟨S262144x64, .f32⟩
  | 23 => ⟨S_, .f32⟩
  | 24 => ⟨S262144x64, .f32⟩
  | 25 => ⟨S262144x64, .i1⟩
  | 26 => ⟨S_, .f32⟩
  | 27 => ⟨S262144x64, .f32⟩
  | 28 => ⟨S262144x64, .i1⟩
  | 29 => ⟨S_, .f32⟩
  | 30 => ⟨S_, .f32⟩
  | 31 => ⟨S262144x64, .f32⟩
  | 32 => ⟨S262144x64, .f32⟩
  | 33 => ⟨S262144x64, .f32⟩
  | 34 => ⟨S_, .f32⟩
  | 35 => ⟨S262144x64, .f32⟩
  | 36 => ⟨S262144x64, .f32⟩
  | 37 => ⟨S262144x64, .f32⟩
  | 38 => ⟨S262144x64, .f32⟩
  | 39 => ⟨S_, .f32⟩
  | 40 => ⟨S262144x64, .f32⟩
  | 41 => ⟨S262144x64, .f32⟩
  | 42 => ⟨S262144x64, .f32⟩
  | 43 => ⟨S262144x64, .f32⟩
  | 44 => ⟨S262144x64, .i1⟩
  | 45 => ⟨S262144x64, .f32⟩
  | 46 => ⟨S262144x64, .f32⟩
  | 47 => ⟨S262144x64, .f32⟩
  | 48 => ⟨S262144x64, .f32⟩
  | 49 => ⟨S262144x64, .f32⟩
  | 50 => ⟨S262144x64, .f32⟩
  | 51 => ⟨S262144x64, .f32⟩
  | 52 => ⟨S262144x64, .f32⟩
  | 53 => ⟨S262144x64, .f32⟩
  | 54 => ⟨S262144x64, .f32⟩
  | 55 => ⟨S262144x64, .f32⟩
  | 56 => ⟨S_, .f32⟩
  | 57 => ⟨S262144x64, .f32⟩
  | 58 => ⟨S262144x64, .f32⟩
  | 59 => ⟨S262144x64, .f32⟩
  | 60 => ⟨S262144x64, .f32⟩
  | 61 => ⟨S262144x64, .f32⟩
  | 62 => ⟨S262144x64, .f32⟩
  | 63 => ⟨S262144x64, .f32⟩
  | 64 => ⟨S262144x64, .f32⟩
  | 65 => ⟨S262144x64, .f32⟩
  | 66 => ⟨S262144x64, .f32⟩
  | 67 => ⟨S1x64, .f32⟩
  | 68 => ⟨S262144x64, .f32⟩
  | 69 => ⟨S262144x64, .f32⟩
  | 70 => ⟨S262144x64, .f32⟩
  | 71 => ⟨S1x64x64, .f32⟩
  | 72 => ⟨S64x64, .f32⟩
  | 73 => ⟨S262144x64, .f32⟩
  | 74 => ⟨S1x64, .f32⟩
  | 75 => ⟨S64, .f32⟩
  | 76 => ⟨S1x64, .f32⟩
  | 77 => ⟨S262144x64, .f32⟩
  | 78 => ⟨S262144x64, .f32⟩
  | 79 => ⟨S262144x64, .f32⟩
  | 80 => ⟨S1x64x64, .f32⟩
  | 81 => ⟨S64x64, .f32⟩
  | 82 => ⟨S262144x64, .f32⟩
  | 83 => ⟨S1x64, .f32⟩
  | 84 => ⟨S64, .f32⟩
  | 85 => ⟨S1x64, .f32⟩
  | 86 => ⟨S262144x64, .f32⟩
  | 87 => ⟨S262144x64, .f32⟩
  | 88 => ⟨S_, .f32⟩
  | 89 => ⟨S262144x64, .f32⟩
  | 90 => ⟨S262144x64, .i1⟩
  | 91 => ⟨S_, .f32⟩
  | 92 => ⟨S262144x64, .f32⟩
  | 93 => ⟨S262144x64, .i1⟩
  | 94 => ⟨S_, .f32⟩
  | 95 => ⟨S_, .f32⟩
  | 96 => ⟨S262144x64, .f32⟩
  | 97 => ⟨S262144x64, .f32⟩
  | 98 => ⟨S262144x64, .f32⟩
  | 99 => ⟨S_, .f32⟩
  | 100 => ⟨S262144x64, .f32⟩
  | 101 => ⟨S262144x64, .f32⟩
  | 102 => ⟨S262144x64, .f32⟩
  | 103 => ⟨S262144x64, .f32⟩
  | 104 => ⟨S1x64x64, .f32⟩
  | 105 => ⟨S64x64, .f32⟩
  | 106 => ⟨S262144x64, .f32⟩
  | 107 => ⟨S1x64, .f32⟩
  | 108 => ⟨S64, .f32⟩
  | 109 => ⟨S1x64, .f32⟩
  | 110 => ⟨S262144x64, .f32⟩
  | 111 => ⟨S262144x64, .f32⟩
  | 112 => ⟨S_, .f32⟩
  | 113 => ⟨S262144x64, .f32⟩
  | 114 => ⟨S262144x64, .f32⟩
  | 115 => ⟨S262144x64, .f32⟩
  | 116 => ⟨S262144x64, .f32⟩
  | 117 => ⟨S262144x64, .i1⟩
  | 118 => ⟨S262144x64, .f32⟩
  | 119 => ⟨S262144x64, .f32⟩
  | 120 => ⟨S262144x64, .f32⟩
  | 121 => ⟨S262144x64, .f32⟩
  | 122 => ⟨S262144x64, .f32⟩
  | 123 => ⟨S262144x64, .f32⟩
  | 124 => ⟨S262144x64, .f32⟩
  | 125 => ⟨S262144x64, .f32⟩
  | 126 => ⟨S262144x64, .f32⟩
  | 127 => ⟨S262144x64, .f32⟩
  | _ => ⟨S262144x1, .f32⟩

abbrev hbmTy0_1 (i : Nat) : BufTy := match i % 128 with
  | 0 => ⟨S1x64x64, .f32⟩
  | 1 => ⟨S64x64, .f32⟩
  | 2 => ⟨S262144x64, .f32⟩
  | 3 => ⟨S1x64, .f32⟩
  | 4 => ⟨S64, .f32⟩
  | 5 => ⟨S1x64, .f32⟩
  | 6 => ⟨S262144x64, .f32⟩
  | 7 => ⟨S262144x64, .f32⟩
  | 8 => ⟨S262144x64, .f32⟩
  | 9 => ⟨S262144x64, .f32⟩
  | 10 => ⟨S1x64x64, .f32⟩
  | 11 => ⟨S64x64, .f32⟩
  | 12 => ⟨S262144x64, .f32⟩
  | 13 => ⟨S1x64, .f32⟩
  | 14 => ⟨S64, .f32⟩
  | 15 => ⟨S1x64, .f32⟩
  | 16 => ⟨S262144x64, .f32⟩
  | 17 => ⟨S262144x64, .f32⟩
  | 18 => ⟨S_, .f32⟩
  | 19 => ⟨S262144x64, .f32⟩
  | 20 => ⟨S262144x64, .f32⟩
  | 21 => ⟨S262144x64, .f32⟩
  | 22 => ⟨S262144x64, .f32⟩
  | 23 => ⟨S262144x64, .f32⟩
  | 24 => ⟨S1x64x64, .f32⟩
  | 25 => ⟨S64x64, .f32⟩
  | 26 => ⟨S262144x64, .f32⟩
  | 27 => ⟨S1x64, .f32⟩
  | 28 => ⟨S64, .f32⟩
  | 29 => ⟨S1x64, .f32⟩
  | 30 => ⟨S262144x64, .f32⟩
  | 31 => ⟨S262144x64, .f32⟩
  | 32 => ⟨S262144x64, .f32⟩
  | 33 => ⟨S262144x64, .f32⟩
  | 34 => ⟨S_, .f32⟩
  | 35 => ⟨S262144x64, .f32⟩
  | 36 => ⟨S262144x64, .f32⟩
  | 37 => ⟨S_, .f32⟩
  | 38 => ⟨S262144x64, .f32⟩
  | 39 => ⟨S262144x64, .f32⟩
  | 40 => ⟨S262144x64, .f32⟩
  | 41 => ⟨S1x64x64, .f32⟩
  | 42 => ⟨S64x64, .f32⟩
  | 43 => ⟨S262144x64, .f32⟩
  | 44 => ⟨S1x64, .f32⟩
  | 45 => ⟨S64, .f32⟩
  | 46 => ⟨S1x64, .f32⟩
  | 47 => ⟨S262144x64, .f32⟩
  | 48 => ⟨S262144x64, .f32⟩
  | 49 => ⟨S262144x64, .f32⟩
  | 50 => ⟨S262144x64, .f32⟩
  | 51 => ⟨S262144x64, .f32⟩
  | 52 => ⟨S1x64x64, .f32⟩
  | 53 => ⟨S64x64, .f32⟩
  | 54 => ⟨S262144x64, .f32⟩
  | 55 => ⟨S1x64, .f32⟩
  | 56 => ⟨S64, .f32⟩
  | 57 => ⟨S1x64, .f32⟩
  | 58 => ⟨S262144x64, .f32⟩
  | 59 => ⟨S262144x64, .f32⟩
  | 60 => ⟨S_, .f32⟩
  | 61 => ⟨S262144x64, .f32⟩
  | 62 => ⟨S262144x64, .i1⟩
  | 63 => ⟨S_, .f32⟩
  | 64 => ⟨S262144x64, .f32⟩
  | 65 => ⟨S262144x64, .i1⟩
  | 66 => ⟨S_, .f32⟩
  | 67 => ⟨S_, .f32⟩
  | 68 => ⟨S262144x64, .f32⟩
  | 69 => ⟨S262144x64, .f32⟩
  | 70 => ⟨S262144x64, .f32⟩
  | 71 => ⟨S_, .f32⟩
  | 72 => ⟨S262144x64, .f32⟩
  | 73 => ⟨S262144x64, .f32⟩
  | 74 => ⟨S262144x64, .f32⟩
  | 75 => ⟨S262144x64, .f32⟩
  | 76 => ⟨S1x64x64, .f32⟩
  | 77 => ⟨S64x64, .f32⟩
  | 78 => ⟨S262144x64, .f32⟩
  | 79 => ⟨S1x64, .f32⟩
  | 80 => ⟨S64, .f32⟩
  | 81 => ⟨S1x64, .f32⟩
  | 82 => ⟨S262144x64, .f32⟩
  | 83 => ⟨S262144x64, .f32⟩
  | 84 => ⟨S_, .f32⟩
  | 85 => ⟨S262144x64, .f32⟩
  | 86 => ⟨S262144x64, .f32⟩
  | 87 => ⟨S262144x64, .f32⟩
  | 88 => ⟨S262144x64, .f32⟩
  | 89 => ⟨S262144x64, .i1⟩
  | 90 => ⟨S262144x64, .f32⟩
  | 91 => ⟨S262144x64, .f32⟩
  | 92 => ⟨S262144x64, .f32⟩
  | 93 => ⟨S262144x64, .f32⟩
  | 94 => ⟨S262144x64, .f32⟩
  | 95 => ⟨S262144x64, .f32⟩
  | 96 => ⟨S262144x64, .f32⟩
  | 97 => ⟨S262144x64, .f32⟩
  | 98 => ⟨S262144x64, .f32⟩
  | 99 => ⟨S1x64x64, .f32⟩
  | 100 => ⟨S64x64, .f32⟩
  | 101 => ⟨S262144x64, .f32⟩
  | 102 => ⟨S1x64, .f32⟩
  | 103 => ⟨S64, .f32⟩
  | 104 => ⟨S1x64, .f32⟩
  | 105 => ⟨S262144x64, .f32⟩
  | 106 => ⟨S262144x64, .f32⟩
  | 107 => ⟨S262144x64, .f32⟩
  | 108 => ⟨S262144x64, .f32⟩
  | 109 => ⟨S1x64x64, .f32⟩
  | 110 => ⟨S64x64, .f32⟩
  | 111 => ⟨S262144x64, .f32⟩
  | 112 => ⟨S1x64, .f32⟩
  | 113 => ⟨S64, .f32⟩
  | 114 => ⟨S1x64, .f32⟩
  | 115 => ⟨S262144x64, .f32⟩
  | 116 => ⟨S262144x64, .f32⟩
  | 117 => ⟨S_, .f32⟩
  | 118 => ⟨S262144x64, .f32⟩
  | 119 => ⟨S262144x64, .f32⟩
  | 120 => ⟨S262144x64, .f32⟩
  | 121 => ⟨S262144x64, .f32⟩
  | 122 => ⟨S262144x3, .f32⟩
  | 123 => ⟨S1x3, .f32⟩
  | 124 => ⟨S262144x3, .f32⟩
  | 125 => ⟨S262144x3, .f32⟩
  | 126 => ⟨S262144x3, .f32⟩
  | 127 => ⟨S262144x3, .f32⟩
  | _ => ⟨S262144x1, .f32⟩

abbrev hbmTy0_2 (i : Nat) : BufTy := match i % 128 with
  | 0 => ⟨S_, .f32⟩
  | 1 => ⟨S262144x3, .f32⟩
  | 2 => ⟨S262144x3, .f32⟩
  | 3 => ⟨S_, .f32⟩
  | 4 => ⟨S262144x3, .f32⟩
  | 5 => ⟨S262144x3, .f32⟩
  | _ => ⟨S262144x1, .f32⟩

abbrev hbmTy (i : Nat) : BufTy := match i / 128 with
  | 0 => hbmTy0_0 i
  | 1 => hbmTy0_1 i
  | 2 => hbmTy0_2 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_cst_1 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v4 : Ref sig .tc := ⟨.hbm, 32, rfl⟩
abbrev main_call0_v5 : Ref sig .tc := ⟨.hbm, 33, rfl⟩
abbrev main_call0_cst_2 : Ref sig .tc := ⟨.hbm, 34, rfl⟩
abbrev main_call0_v6 : Ref sig .tc := ⟨.hbm, 35, rfl⟩
abbrev main_call0_v7 : Ref sig .tc := ⟨.hbm, 36, rfl⟩
abbrev main_v6 : Ref sig .tc := ⟨.hbm, 37, rfl⟩
abbrev main_v7 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_cst_1 : Ref sig .tc := ⟨.hbm, 94, rfl⟩
abbrev main_call2_call0_v0 : Ref sig .tc := ⟨.hbm, 95, rfl⟩
abbrev main_call2_call0_v1 : Ref sig .tc := ⟨.hbm, 96, rfl⟩
abbrev main_call2_v4 : Ref sig .tc := ⟨.hbm, 97, rfl⟩
abbrev main_call2_v5 : Ref sig .tc := ⟨.hbm, 98, rfl⟩
abbrev main_call2_cst_2 : Ref sig .tc := ⟨.hbm, 99, rfl⟩
abbrev main_call2_v6 : Ref sig .tc := ⟨.hbm, 100, rfl⟩
abbrev main_call2_v7 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_0 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_1 : Ref sig .tc := ⟨.hbm, 162, rfl⟩
abbrev main_v89 : Ref sig .tc := ⟨.hbm, 163, rfl⟩
abbrev main_v90 : Ref sig .tc := ⟨.hbm, 164, rfl⟩
abbrev main_cst_2 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_cst_1 : Ref sig .tc := ⟨.hbm, 194, rfl⟩
abbrev main_call4_call0_v0 : Ref sig .tc := ⟨.hbm, 195, rfl⟩
abbrev main_call4_call0_v1 : Ref sig .tc := ⟨.hbm, 196, rfl⟩
abbrev main_call4_v4 : Ref sig .tc := ⟨.hbm, 197, rfl⟩
abbrev main_call4_v5 : Ref sig .tc := ⟨.hbm, 198, rfl⟩
abbrev main_call4_cst_2 : Ref sig .tc := ⟨.hbm, 199, rfl⟩
abbrev main_call4_v6 : Ref sig .tc := ⟨.hbm, 200, rfl⟩
abbrev main_call4_v7 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_call5_cst : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_cst_3 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_cst_4 : Ref sig .tc := ⟨.hbm, 256, rfl⟩
abbrev main_v153 : Ref sig .tc := ⟨.hbm, 257, rfl⟩
abbrev main_v154 : Ref sig .tc := ⟨.hbm, 258, rfl⟩
abbrev main_cst_5 : Ref sig .tc := ⟨.hbm, 259, rfl⟩
abbrev main_v155 : Ref sig .tc := ⟨.hbm, 260, rfl⟩
abbrev main_v156 : Ref sig .tc := ⟨.hbm, 261, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S11x64x64_S1x64x64_0_0_0 : S11x64x64.Slices ![0, 0, 0] S1x64x64
  shapeCasts_S1x64x64_S64x64 : S1x64x64.ShapeCasts S64x64
  slices_S11x64_S1x64_0_0 : S11x64.Slices ![0, 0] S1x64
  shapeCasts_S1x64_S64 : S1x64.ShapeCasts S64
  slices_S11x64x64_S1x64x64_1_0_0 : S11x64x64.Slices ![1, 0, 0] S1x64x64
  slices_S11x64_S1x64_1_0 : S11x64.Slices ![1, 0] S1x64
  slices_S11x64x64_S1x64x64_2_0_0 : S11x64x64.Slices ![2, 0, 0] S1x64x64
  slices_S11x64_S1x64_2_0 : S11x64.Slices ![2, 0] S1x64
  slices_S11x64x64_S1x64x64_3_0_0 : S11x64x64.Slices ![3, 0, 0] S1x64x64
  slices_S11x64_S1x64_3_0 : S11x64.Slices ![3, 0] S1x64
  slices_S11x64x64_S1x64x64_4_0_0 : S11x64x64.Slices ![4, 0, 0] S1x64x64
  slices_S11x64_S1x64_4_0 : S11x64.Slices ![4, 0] S1x64
  slices_S11x64x64_S1x64x64_5_0_0 : S11x64x64.Slices ![5, 0, 0] S1x64x64
  slices_S11x64_S1x64_5_0 : S11x64.Slices ![5, 0] S1x64
  slices_S11x64x64_S1x64x64_6_0_0 : S11x64x64.Slices ![6, 0, 0] S1x64x64
  slices_S11x64_S1x64_6_0 : S11x64.Slices ![6, 0] S1x64
  slices_S11x64x64_S1x64x64_7_0_0 : S11x64x64.Slices ![7, 0, 0] S1x64x64
  slices_S11x64_S1x64_7_0 : S11x64.Slices ![7, 0] S1x64
  slices_S11x64x64_S1x64x64_8_0_0 : S11x64x64.Slices ![8, 0, 0] S1x64x64
  slices_S11x64_S1x64_8_0 : S11x64.Slices ![8, 0] S1x64
  slices_S11x64x64_S1x64x64_9_0_0 : S11x64x64.Slices ![9, 0, 0] S1x64x64
  slices_S11x64_S1x64_9_0 : S11x64.Slices ![9, 0] S1x64
  slices_S11x64x64_S1x64x64_10_0_0 : S11x64x64.Slices ![10, 0, 0] S1x64x64
  slices_S11x64_S1x64_10_0 : S11x64.Slices ![10, 0] S1x64
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  dot_S262144x16_S16x64_S262144x64_1_0_0_1_n_n_wf : DotDims.WF S262144x16 S16x64 S262144x64 [1] [0] [0] [1] [] []
  dot_S262144x1_S1x64_S262144x64_1_0_0_1_n_n_wf : DotDims.WF S262144x1 S1x64 S262144x64 [1] [0] [0] [1] [] []
  dot_S262144x64_S64x64_S262144x64_1_0_0_1_n_n_wf : DotDims.WF S262144x64 S64x64 S262144x64 [1] [0] [0] [1] [] []
  dot_S262144x64_S64x3_S262144x3_1_0_0_1_n_n_wf : DotDims.WF S262144x64 S64x3 S262144x3 [1] [0] [0] [1] [] []

variable [Facts₀]

def dot_S262144x16_S16x64_S262144x64_1_0_0_1_n_n : DotDims S262144x16 S16x64 S262144x64 where
  lhsContracting := [1]
  rhsContracting := [0]
  lhsNonContracting := [0]
  rhsNonContracting := [1]
  lhsBatch := []
  rhsBatch := []
  wf := dot_S262144x16_S16x64_S262144x64_1_0_0_1_n_n_wf
def dot_S262144x1_S1x64_S262144x64_1_0_0_1_n_n : DotDims S262144x1 S1x64 S262144x64 where
  lhsContracting := [1]
  rhsContracting := [0]
  lhsNonContracting := [0]
  rhsNonContracting := [1]
  lhsBatch := []
  rhsBatch := []
  wf := dot_S262144x1_S1x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x3_S262144x3_1_0_0_1_n_n : DotDims S262144x64 S64x3 S262144x3 where
  lhsContracting := [1]
  rhsContracting := [0]
  lhsNonContracting := [0]
  rhsNonContracting := [1]
  lhsBatch := []
  rhsBatch := []
  wf := dot_S262144x64_S64x3_S262144x3_1_0_0_1_n_n_wf

class Facts : Prop extends Facts₀ where

variable [Facts]
-- ==== Proof.KBFrameA.lean ====
/-
  The program around its one region. Before the region the host lays the inputs out for the packed kernel: the five
  per-point inputs are re-read four rows to a packed row, each weight matrix is placed four times along the diagonal of a
  four-by-four block matrix whose other blocks are zero, and each bias is repeated four times along its row. After the
  region one host line re-reads the packed result [65536, 12] as [262144, 3]. This module states what the region finds in
  every buffer (the host lines before it applied to the launch memory), that no host line writes an argument array, what a
  window's block at a grid point is, and that a run reaching the library's frame post leaves every argument as launched.
-/
import proofs.«136870_j44341242364139_2_alg».proof.Proof.Gen.Kernel.Launch
import proofs.«136870_j44341242364139_2_alg».proof.Proof.Gen.Kernel.Skeleton
import proofs.«136870_j44341242364139_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core `c`'s buffers hold when the region is entered: the host lines before it, applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not (a
    window whose block index does not move is fetched once), for any proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not (a
    window whose block index does not move is fetched once), for any proof data over these arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not (a
    window whose block index does not move is fetched once), for any proof data over these arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not (a
    window whose block index does not move is fetched once), for any proof data over these arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not (a
    window whose block index does not move is fetched once), for any proof data over these arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or not (a
    window whose block index does not move is fetched once), for any proof data over these arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the point fetches it or not (a
    window whose block index does not move is fetched once), for any proof data over these arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the point fetches it or not (a
    window whose block index does not move is fetched once), for any proof data over these arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the point fetches it or not (a
    window whose block index does not move is fetched once), for any proof data over these arrays whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the point fetches it or not (a
    window whose block index does not move is fetched once), for any proof data over these arrays whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the point fetches it or not (a
    window whose block index does not move is fetched once), for any proof data over these arrays whose body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, whether the point fetches it or not (a
    window whose block index does not move is fetched once), for any proof data over these arrays whose body leaves
    the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, whether the point fetches it or not (a
    window whose block index does not move is fetched once), for any proof data over these arrays whose body leaves
    the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, whether the point fetches it or not (a
    window whose block index does not move is fetched once), for any proof data over these arrays whose body leaves
    the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, whether the point fetches it or not (a
    window whose block index does not move is fetched once), for any proof data over these arrays whose body leaves
    the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, whether the point fetches it or not (a
    window whose block index does not move is fetched once), for any proof data over these arrays whose body leaves
    the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current staging buffer holds its block at every point, whether the point fetches it or not (a
    window whose block index does not move is fetched once), for any proof data over these arrays whose body leaves
    the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

/-- Every argument array is unscoped and is no window's array (the windows stage the re-laid copies the host lines
    made), so the library's post has each at what the line after the region leaves, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c))⟩) h

end Cert.Kernel.Hand

end
-- ==== Proof.KBRun.lean ====
/-
  The kernel body on any whole staging memrefs. The inputs' memrefs are held at read contents x0 … x16, the output's at
  anything; the body reads the inputs, and its single store into the output's memref is recorded as a list of pieces that
  the symbolic run of the body finds (the stored value is the body's arithmetic over the loaded values; it is never
  written out here). The inputs' memrefs come back as they were.
-/
import proofs.«136870_j44341242364139_2_alg».proof.Proof.KBFrameA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's first staging buffer, as a view: its pieces are read back through it. -/
abbrev VO0_17 : View sig .tc .vmem S1024x12 .f32 := (Memref.whole cc0_stg17_0 : Memref sig .tc .vmem S1024x12 .f32).view
abbrev ms0_0 (t : Fin cfg0.N) : Memref sig .tc .vmem S1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S11x256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S11x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x12 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x12 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x12 .f32 := win0_17.stage (cfg0.slots t 17)
abbrev hs0_17 (t : Fin cfg0.N) : (ms0_17 t).IsWhole := hstage0_17 ((cfg0.slots t 17).cast nbuf0_17)

set_option maxHeartbeats 40000000 in
noncomputable def kernelRun0 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) :
    { L17 : List (View.Piece (Elt F) S1024x12 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; iexact H17

end Cert.Kernel.Hand

end
-- ==== Proof.KBFrameB.lean ====
/-
  The pipeline's proof data and the run. After the body at a grid point every input's staging buffer still holds its
  block, and the output's holds the body's stored pieces read back; the pieces tile the output block, so what was in the
  buffer before does not matter. With that the body meets the library's obligation at every point, the library's frame
  run around the region applies, and its post gives the frame: every argument array ends as it was launched.
-/
import proofs.«136870_j44341242364139_2_alg».proof.Proof.KBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stored pieces tile the output block, so they cover it. -/
theorem cover0_17 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) (y : S1024x12.Idx) :
    ∃ pc ∈ (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1 S1024x12.size (by sl_kernel_rfl) y

/-- What the body leaves in the output's staging buffer: its pieces read back over anything. -/
def out0_17 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : Vec F S1024x12 .f32 :=
  VO0_17.read (Elt F) (VO0_17.writes (Elt F) VO0_17.junk (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1)

/-- The proof data: the arrays as the region finds them; after the body at point `t` each input's buffer at its block
    and the output's at the body's pieces over the input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold out0_17
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0 c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (cover0_17 c _ _ _ _ _ _ _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; at the end every array of the pipeline holds what the library
    computes from the proof data, and every other unscoped buffer what the line after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.Kernel.Hand

end
-- ==== Proof.KIFrameA.lean ====
/-
  The program around its one region. Before the region the host lays the inputs out for the packed kernel: the five
  per-point inputs are re-read four rows to a packed row, each weight matrix is placed four times along the diagonal of a
  four-by-four block matrix whose other blocks are zero, and each bias is repeated four times along its row. After the
  region one host line re-reads the packed result [65536, 12] as [262144, 3]. This module states what the region finds in
  every buffer (the host lines before it applied to the launch memory), that no host line writes an argument array, what a
  window's block at a grid point is, and that a run reaching the library's frame post leaves every argument as launched.
-/
import proofs.«136870_j44341242364139_2_alg».proof.Proof.Gen.KernelIdeal.Launch
import proofs.«136870_j44341242364139_2_alg».proof.Proof.Gen.KernelIdeal.Skeleton
import proofs.«136870_j44341242364139_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core `c`'s buffers hold when the region is entered: the host lines before it, applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not (a
    window whose block index does not move is fetched once), for any proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not (a
    window whose block index does not move is fetched once), for any proof data over these arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not (a
    window whose block index does not move is fetched once), for any proof data over these arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not (a
    window whose block index does not move is fetched once), for any proof data over these arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not (a
    window whose block index does not move is fetched once), for any proof data over these arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or not (a
    window whose block index does not move is fetched once), for any proof data over these arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the point fetches it or not (a
    window whose block index does not move is fetched once), for any proof data over these arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the point fetches it or not (a
    window whose block index does not move is fetched once), for any proof data over these arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the point fetches it or not (a
    window whose block index does not move is fetched once), for any proof data over these arrays whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the point fetches it or not (a
    window whose block index does not move is fetched once), for any proof data over these arrays whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the point fetches it or not (a
    window whose block index does not move is fetched once), for any proof data over these arrays whose body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, whether the point fetches it or not (a
    window whose block index does not move is fetched once), for any proof data over these arrays whose body leaves
    the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, whether the point fetches it or not (a
    window whose block index does not move is fetched once), for any proof data over these arrays whose body leaves
    the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, whether the point fetches it or not (a
    window whose block index does not move is fetched once), for any proof data over these arrays whose body leaves
    the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, whether the point fetches it or not (a
    window whose block index does not move is fetched once), for any proof data over these arrays whose body leaves
    the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, whether the point fetches it or not (a
    window whose block index does not move is fetched once), for any proof data over these arrays whose body leaves
    the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current staging buffer holds its block at every point, whether the point fetches it or not (a
    window whose block index does not move is fetched once), for any proof data over these arrays whose body leaves
    the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

/-- Every argument array is unscoped and is no window's array (the windows stage the re-laid copies the host lines
    made), so the library's post has each at what the line after the region leaves, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c))⟩) h

end Cert.KernelIdeal.Hand

end
-- ==== Proof.KIRun.lean ====
/-
  The kernel body on any whole staging memrefs. The inputs' memrefs are held at read contents x0 … x16, the output's at
  anything; the body reads the inputs, and its single store into the output's memref is recorded as a list of pieces that
  the symbolic run of the body finds (the stored value is the body's arithmetic over the loaded values; it is never
  written out here). The inputs' memrefs come back as they were.
-/
import proofs.«136870_j44341242364139_2_alg».proof.Proof.KIFrameA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's first staging buffer, as a view: its pieces are read back through it. -/
abbrev VO0_17 : View sig .tc .vmem S1024x12 .f32 := (Memref.whole cc0_stg17_0 : Memref sig .tc .vmem S1024x12 .f32).view
abbrev ms0_0 (t : Fin cfg0.N) : Memref sig .tc .vmem S1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S11x256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S11x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x12 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x12 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x12 .f32 := win0_17.stage (cfg0.slots t 17)
abbrev hs0_17 (t : Fin cfg0.N) : (ms0_17 t).IsWhole := hstage0_17 ((cfg0.slots t 17).cast nbuf0_17)

set_option maxHeartbeats 40000000 in
noncomputable def kernelRun0 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) :
    { L17 : List (View.Piece (Elt F) S1024x12 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; iexact H17

end Cert.KernelIdeal.Hand

end
-- ==== Proof.KIFrameB.lean ====
/-
  The pipeline's proof data and the run. After the body at a grid point every input's staging buffer still holds its
  block, and the output's holds the body's stored pieces read back; the pieces tile the output block, so what was in the
  buffer before does not matter. With that the body meets the library's obligation at every point, the library's frame
  run around the region applies, and its post gives the frame: every argument array ends as it was launched.
-/
import proofs.«136870_j44341242364139_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stored pieces tile the output block, so they cover it. -/
theorem cover0_17 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) (y : S1024x12.Idx) :
    ∃ pc ∈ (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1 S1024x12.size (by sl_kernel_rfl) y

/-- What the body leaves in the output's staging buffer: its pieces read back over anything. -/
def out0_17 (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : Vec F S1024x12 .f32 :=
  VO0_17.read (Elt F) (VO0_17.writes (Elt F) VO0_17.junk (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1)

/-- The proof data: the arrays as the region finds them; after the body at point `t` each input's buffer at its block
    and the output's at the body's pieces over the input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold out0_17
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0 c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (cover0_17 c _ _ _ _ _ _ _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; at the end every array of the pipeline holds what the library
    computes from the proof data, and every other unscoped buffer what the line after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.KernelIdeal.Hand

end
-- ==== Proof.KIPay.lean ====
/-
  What the body stores, as one function of the seventeen input blocks. The body computes the packed network block by
  block: the five input branches, the first dense layer, the eleven graph layers (each loading its own 256×256 slab and
  bias row from the stacked graph weights) and the output layer. Each intermediate array the body passes on is named
  here after its line in the kernel's text (V73 is the first dense layer's output, V83, V98, … the graph nodes, V240 the
  output layer's product), and the pieces the symbolic run of the body found are exactly one whole-block store of the
  last of them with the bias added and the logistic function applied.
-/
import proofs.«136870_j44341242364139_2_alg».proof.Proof.KIFrameB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

def V11 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x4 .bf16 :=
  k0_pay2 x3
def V14 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x64 .bf16 :=
  k0_pay3 x4
def V21 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay4 x0 x5
def V25 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay5 x1 x6
def V34 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay6 x2 x7
def V73 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay7 (V11 x0 x1 x2 x3 x4 x5 x6 x7 x8 x9 x10 x11 x12 x13 x14 x15 x16) (V14 x0 x1 x2 x3 x4 x5 x6 x7 x8 x9 x10 x11 x12 x13 x14 x15 x16) (V21 x0 x1 x2 x3 x4 x5 x6 x7 x8 x9 x10 x11 x12 x13 x14 x15 x16) (V25 x0 x1 x2 x3 x4 x5 x6 x7 x8 x9 x10 x11 x12 x13 x14 x15 x16) (V34 x0 x1 x2 x3 x4 x5 x6 x7 x8 x9 x10 x11 x12 x13 x14 x15 x16) x8 x9 x10 x11 x12
def V77 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay8 (V11 x0 x1 x2 x3 x4 x5 x6 x7 x8 x9 x10 x11 x12 x13 x14 x15 x16) (V14 x0 x1 x2 x3 x4 x5 x6 x7 x8 x9 x10 x11 x12 x13 x14 x15 x16) (V21 x0 x1 x2 x3 x4 x5 x6 x7 x8 x9 x10 x11 x12 x13 x14 x15 x16) (V25 x0 x1 x2 x3 x4 x5 x6 x7 x8 x9 x10 x11 x12 x13 x14 x15 x16) (V34 x0 x1 x2 x3 x4 x5 x6 x7 x8 x9 x10 x11 x12 x13 x14 x15 x16) x8 x9 x10 x11 x12 (View.ld x13 (Rect.unit (s := S11x256x256) ![0, 0, 0] S1x256x256.size inb_S11x256x256_S1x256x256_0_0_0))
def V83 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay9 (V77 x0 x1 x2 x3 x4 x5 x6 x7 x8 x9 x10 x11 x12 x13 x14 x15 x16) (View.ld x14 (Rect.unit (s := S11x256) ![0, 0] S1x256.size inb_S11x256_S1x256_0_0))
def V98 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay10 (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0))
def V108 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay11 (V73 x0 x1 x2 x3 x4 x5 x6 x7 x8 x9 x10 x11 x12 x13 x14 x15 x16) (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0)) (View.ld x13 (Rect.unit (s := S11x256x256) ![2, 0, 0] S1x256x256.size inb_S11x256x256_S1x256x256_2_0_0)) (View.ld x14 (Rect.unit (s := S11x256) ![2, 0] S1x256.size inb_S11x256_S1x256_2_0))
def V110 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay12 (V73 x0 x1 x2 x3 x4 x5 x6 x7 x8 x9 x10 x11 x12 x13 x14 x15 x16) (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0)) (View.ld x13 (Rect.unit (s := S11x256x256) ![2, 0, 0] S1x256x256.size inb_S11x256x256_S1x256x256_2_0_0)) (View.ld x14 (Rect.unit (s := S11x256) ![2, 0] S1x256.size inb_S11x256_S1x256_2_0))
def V113 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : IVec S1024x256 1 :=
  k0_pay14 (V73 x0 x1 x2 x3 x4 x5 x6 x7 x8 x9 x10 x11 x12 x13 x14 x15 x16) (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0)) (View.ld x13 (Rect.unit (s := S11x256x256) ![2, 0, 0] S1x256x256.size inb_S11x256x256_S1x256x256_2_0_0)) (View.ld x14 (Rect.unit (s := S11x256) ![2, 0] S1x256.size inb_S11x256_S1x256_2_0))
def V115 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay15 (V73 x0 x1 x2 x3 x4 x5 x6 x7 x8 x9 x10 x11 x12 x13 x14 x15 x16) (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0)) (View.ld x13 (Rect.unit (s := S11x256x256) ![2, 0, 0] S1x256x256.size inb_S11x256x256_S1x256x256_2_0_0)) (View.ld x14 (Rect.unit (s := S11x256) ![2, 0] S1x256.size inb_S11x256_S1x256_2_0))
def V119 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay16 (V73 x0 x1 x2 x3 x4 x5 x6 x7 x8 x9 x10 x11 x12 x13 x14 x15 x16) (V77 x0 x1 x2 x3 x4 x5 x6 x7 x8 x9 x10 x11 x12 x13 x14 x15 x16) (View.ld x14 (Rect.unit (s := S11x256) ![0, 0] S1x256.size inb_S11x256_S1x256_0_0)) (View.ld x13 (Rect.unit (s := S11x256x256) ![1, 0, 0] S1x256x256.size inb_S11x256x256_S1x256x256_1_0_0)) (View.ld x14 (Rect.unit (s := S11x256) ![1, 0] S1x256.size inb_S11x256_S1x256_1_0)) (View.ld x13 (Rect.unit (s := S11x256x256) ![2, 0, 0] S1x256x256.size inb_S11x256x256_S1x256x256_2_0_0)) (View.ld x14 (Rect.unit (s := S11x256) ![2, 0] S1x256.size inb_S11x256_S1x256_2_0))
def V122 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay17 (V110 x0 x1 x2 x3 x4 x5 x6 x7 x8 x9 x10 x11 x12 x13 x14 x15 x16) (V113 x0 x1 x2 x3 x4 x5 x6 x7 x8 x9 x10 x11 x12 x13 x14 x15 x16) (V115 x0 x1 x2 x3 x4 x5 x6 x7 x8 x9 x10 x11 x12 x13 x14 x15 x16) (V119 x0 x1 x2 x3 x4 x5 x6 x7 x8 x9 x10 x11 x12 x13 x14 x15 x16)
def V134 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay18 (V73 x0 x1 x2 x3 x4 x5 x6 x7 x8 x9 x10 x11 x12 x13 x14 x15 x16) (V83 x0 x1 x2 x3 x4 x5 x6 x7 x8 x9 x10 x11 x12 x13 x14 x15 x16) (V110 x0 x1 x2 x3 x4 x5 x6 x7 x8 x9 x10 x11 x12 x13 x14 x15 x16) (V113 x0 x1 x2 x3 x4 x5 x6 x7 x8 x9 x10 x11 x12 x13 x14 x15 x16) (V115 x0 x1 x2 x3 x4 x5 x6 x7 x8 x9 x10 x11 x12 x13 x14 x15 x16) (V119 x0 x1 x2 x3 x4 x5 x6 x7 x8 x9 x10 x11 x12 x13 x14 x15 x16) (View.ld x13 (Rect.unit (s := S11x256x256) ![3, 0, 0] S1x256x256.size inb_S11x256x256_S1x256x256_3_0_0)) (View.ld x14 (Rect.unit (s := S11x256) ![3, 0] S1x256.size inb_S11x256_S1x256_3_0))
def V148 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay19 (V73 x0 x1 x2 x3 x4 x5 x6 x7 x8 x9 x10 x11 x12 x13 x14 x15 x16) (V83 x0 x1 x2 x3 x4 x5 x6 x7 x8 x9 x10 x11 x12 x13 x14 x15 x16) (V98 x0 x1 x2 x3 x4 x5 x6 x7 x8 x9 x10 x11 x12 x13 x14 x15 x16) (V110 x0 x1 x2 x3 x4 x5 x6 x7 x8 x9 x10 x11 x12 x13 x14 x15 x16) (V113 x0 x1 x2 x3 x4 x5 x6 x7 x8 x9 x10 x11 x12 x13 x14 x15 x16) (V115 x0 x1 x2 x3 x4 x5 x6 x7 x8 x9 x10 x11 x12 x13 x14 x15 x16) (V119 x0 x1 x2 x3 x4 x5 x6 x7 x8 x9 x10 x11 x12 x13 x14 x15 x16) (View.ld x13 (Rect.unit (s := S11x256x256) ![3, 0, 0] S1x256x256.size inb_S11x256x256_S1x256x256_3_0_0)) (View.ld x14 (Rect.unit (s := S11x256) ![3, 0] S1x256.size inb_S11x256_S1x256_3_0)) (View.ld x13 (Rect.unit (s := S11x256x256) ![4, 0, 0] S1x256x256.size inb_S11x256x256_S1x256x256_4_0_0)) (View.ld x14 (Rect.unit (s := S11x256) ![4, 0] S1x256.size inb_S11x256_S1x256_4_0))
def V159 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay20 (V73 x0 x1 x2 x3 x4 x5 x6 x7 x8 x9 x10 x11 x12 x13 x14 x15 x16) (V83 x0 x1 x2 x3 x4 x5 x6 x7 x8 x9 x10 x11 x12 x13 x14 x15 x16) (V98 x0 x1 x2 x3 x4 x5 x6 x7 x8 x9 x10 x11 x12 x13 x14 x15 x16) (V110 x0 x1 x2 x3 x4 x5 x6 x7 x8 x9 x10 x11 x12 x13 x14 x15 x16) (V113 x0 x1 x2 x3 x4 x5 x6 x7 x8 x9 x10 x11 x12 x13 x14 x15 x16) (V115 x0 x1 x2 x3 x4 x5 x6 x7 x8 x9 x10 x11 x12 x13 x14 x15 x16) (V119 x0 x1 x2 x3 x4 x5 x6 x7 x8 x9 x10 x11 x12 x13 x14 x15 x16) (View.ld x13 (Rect.unit (s := S11x256x256) ![3, 0, 0] S1x256x256.size inb_S11x256x256_S1x256x256_3_0_0)) (View.ld x14 (Rect.unit (s := S11x256) ![3, 0] S1x256.size inb_S11x256_S1x256_3_0)) (View.ld x13 (Rect.unit (s := S11x256x256) ![4, 0, 0] S1x256x256.size inb_S11x256x256_S1x256x256_4_0_0)) (View.ld x14 (Rect.unit (s := S11x256) ![4, 0] S1x256.size inb_S11x256_S1x256_4_0)) (View.ld x13 (Rect.unit (s := S11x256x256) ![5, 0, 0] S1x256x256.size inb_S11x256x256_S1x256x256_5_0_0)) (View.ld x14 (Rect.unit (s := S11x256) ![5, 0] S1x256.size inb_S11x256_S1x256_5_0))
def V160 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay21 (V73 x0 x1 x2 x3 x4 x5 x6 x7 x8 x9 x10 x11 x12 x13 x14 x15 x16) (V83 x0 x1 x2 x3 x4 x5 x6 x7 x8 x9 x10 x11 x12 x13 x14 x15 x16) (V98 x0 x1 x2 x3 x4 x5 x6 x7 x8 x9 x10 x11 x12 x13 x14 x15 x16) (V110 x0 x1 x2 x3 x4 x5 x6 x7 x8 x9 x10 x11 x12 x13 x14 x15 x16) (V113 x0 x1 x2 x3 x4 x5 x6 x7 x8 x9 x10 x11 x12 x13 x14 x15 x16) (V115 x0 x1 x2 x3 x4 x5 x6 x7 x8 x9 x10 x11 x12 x13 x14 x15 x16) (V119 x0 x1 x2 x3 x4 x5 x6 x7 x8 x9 x10 x11 x12 x13 x14 x15 x16) (View.ld x13 (Rect.unit (s := S11x256x256) ![3, 0, 0] S1x256x256.size inb_S11x256x256_S1x256x256_3_0_0)) (View.ld x14 (Rect.unit (s := S11x256) ![3, 0] S1x256.size inb_S11x256_S1x256_3_0)) (View.ld x13 (Rect.unit (s := S11x256x256) ![4, 0, 0] S1x256x256.size inb_S11x256x256_S1x256x256_4_0_0)) (View.ld x14 (Rect.unit (s := S11x256) ![4, 0] S1x256.size inb_S11x256_S1x256_4_0)) (View.ld x13 (Rect.unit (s := S11x256x256) ![5, 0, 0] S1x256x256.size inb_S11x256x256_S1x256x256_5_0_0)) (View.ld x14 (Rect.unit (s := S11x256) ![5, 0] S1x256.size inb_S11x256_S1x256_5_0))
def V170 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay22 (V160 x0 x1 x2 x3 x4 x5 x6 x7 x8 x9 x10 x11 x12 x13 x14 x15 x16) (View.ld x13 (Rect.unit (s := S11x256x256) ![6, 0, 0] S1x256x256.size inb_S11x256x256_S1x256x256_6_0_0)) (View.ld x14 (Rect.unit (s := S11x256) ![6, 0] S1x256.size inb_S11x256_S1x256_6_0))
def V187 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay23 (V73 x0 x1 x2 x3 x4 x5 x6 x7 x8 x9 x10 x11 x12 x13 x14 x15 x16) (V148 x0 x1 x2 x3 x4 x5 x6 x7 x8 x9 x10 x11 x12 x13 x14 x15 x16) (V160 x0 x1 x2 x3 x4 x5 x6 x7 x8 x9 x10 x11 x12 x13 x14 x15 x16) (View.ld x13 (Rect.unit (s := S11x256x256) ![6, 0, 0] S1x256x256.size inb_S11x256x256_S1x256x256_6_0_0)) (View.ld x14 (Rect.unit (s := S11x256) ![6, 0] S1x256.size inb_S11x256_S1x256_6_0)) (View.ld x13 (Rect.unit (s := S11x256x256) ![7, 0, 0] S1x256x256.size inb_S11x256x256_S1x256x256_7_0_0)) (View.ld x14 (Rect.unit (s := S11x256) ![7, 0] S1x256.size inb_S11x256_S1x256_7_0))
def V197 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay24 (V73 x0 x1 x2 x3 x4 x5 x6 x7 x8 x9 x10 x11 x12 x13 x14 x15 x16) (V148 x0 x1 x2 x3 x4 x5 x6 x7 x8 x9 x10 x11 x12 x13 x14 x15 x16) (V159 x0 x1 x2 x3 x4 x5 x6 x7 x8 x9 x10 x11 x12 x13 x14 x15 x16) (V160 x0 x1 x2 x3 x4 x5 x6 x7 x8 x9 x10 x11 x12 x13 x14 x15 x16) (View.ld x13 (Rect.unit (s := S11x256x256) ![6, 0, 0] S1x256x256.size inb_S11x256x256_S1x256x256_6_0_0)) (View.ld x14 (Rect.unit (s := S11x256) ![6, 0] S1x256.size inb_S11x256_S1x256_6_0)) (View.ld x13 (Rect.unit (s := S11x256x256) ![7, 0, 0] S1x256x256.size inb_S11x256x256_S1x256x256_7_0_0)) (View.ld x14 (Rect.unit (s := S11x256) ![7, 0] S1x256.size inb_S11x256_S1x256_7_0)) (View.ld x13 (Rect.unit (s := S11x256x256) ![8, 0, 0] S1x256x256.size inb_S11x256x256_S1x256x256_8_0_0)) (View.ld x14 (Rect.unit (s := S11x256) ![8, 0] S1x256.size inb_S11x256_S1x256_8_0))
def V199 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x256 .f32 :=
  k0_pay25 (V73 x0 x1 x2 x3 x4 x5 x6 x7 x8 x9 x10 x11 x12 x13 x14 x15 x16) (V148 x0 x1 x2 x3 x4 x5 x6 x7 x8 x9 x10 x11 x12 x13 x14 x15 x16) (V159 x0 x1 x2 x3 x4 x5 x6 x7 x8 x9 x10 x11 x12 x13 x14 x15 x16) (V160 x0 x1 x2 x3 x4 x5 x6 x7 x8 x9 x10 x11 x12 x13 x14 x15 x16) (View.ld x13 (Rect.unit (s := S11x256x256) ![6, 0, 0] S1x256x256.size inb_S11x256x256_S1x256x256_6_0_0)) (View.ld x14 (Rect.unit (s := S11x256) ![6, 0] S1x256.size inb_S11x256_S1x256_6_0)) (View.ld x13 (Rect.unit (s := S11x256x256) ![7, 0, 0] S1x256x256.size inb_S11x256x256_S1x256x256_7_0_0)) (View.ld x14 (Rect.unit (s := S11x256) ![7, 0] S1x256.size inb_S11x256_S1x256_7_0)) (View.ld x13 (Rect.unit (s := S11x256x256) ![8, 0, 0] S1x256x256.size inb_S11x256x256_S1x256x256_8_0_0)) (View.ld x14 (Rect.unit (s := S11x256) ![8, 0] S1x256.size inb_S11x256_S1x256_8_0))
def V240 (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : FVec F S1024x12 .f32 :=
  k0_pay26 (V170 x0 x1 x2 x3 x4 x5 x6 x7 x8 x9 x10 x11 x12 x13 x14 x15 x16) (V187 x0 x1 x2 x3 x4 x5 x6 x7 x8 x9 x10 x11 x12 x13 x14 x15 x16) (V197 x0 x1 x2 x3 x4 x5 x6 x7 x8 x9 x10 x11 x12 x13 x14 x15 x16) (Scalar.ofBits .f32 0x00000000#32) (V199 x0 x1 x2 x3 x4 x5 x6 x7 x8 x9 x10 x11 x12 x13 x14 x15 x16) (View.ld x13 (Rect.unit (s := S11x256x256) ![9, 0, 0] S1x256x256.size inb_S11x256x256_S1x256x256_9_0_0)) (View.ld x14 (Rect.unit (s := S11x256) ![9, 0] S1x256.size inb_S11x256_S1x256_9_0)) (View.ld x13 (Rect.unit (s := S11x256x256) ![10, 0, 0] S1x256x256.size inb_S11x256x256_S1x256x256_10_0_0)) (View.ld x14 (Rect.unit (s := S11x256) ![10, 0] S1x256.size inb_S11x256_S1x256_10_0)) x15
def PAY (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : Vec F S1024x12 .f32 :=
  k0_pay1 (V240 x0 x1 x2 x3 x4 x5 x6 x7 x8 x9 x10 x11 x12 x13 x14 x15 x16) x16

set_option maxHeartbeats 4000000 in
/-- The output block after the body is that function of the input blocks. -/
theorem out0_17_eq (c : Dev nD) (i : grid0.Coords) (arg1 : Memref sig .tc .vmem S1024x4 .f32) (harg1 : arg1.IsWhole) (arg2 : Memref sig .tc .vmem S1024x4 .f32) (harg2 : arg2.IsWhole) (arg3 : Memref sig .tc .vmem S1024x4 .f32) (harg3 : arg3.IsWhole) (arg4 : Memref sig .tc .vmem S1024x4 .f32) (harg4 : arg4.IsWhole) (arg5 : Memref sig .tc .vmem S1024x64 .f32) (harg5 : arg5.IsWhole) (arg6 : Memref sig .tc .vmem S4x256 .bf16) (harg6 : arg6.IsWhole) (arg7 : Memref sig .tc .vmem S4x256 .bf16) (harg7 : arg7.IsWhole) (arg8 : Memref sig .tc .vmem S4x256 .bf16) (harg8 : arg8.IsWhole) (arg9 : Memref sig .tc .vmem S4x256 .bf16) (harg9 : arg9.IsWhole) (arg10 : Memref sig .tc .vmem S64x256 .bf16) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S11x256x256 .bf16) (harg14 : arg14.IsWhole) (arg15 : Memref sig .tc .vmem S11x256 .f32) (harg15 : arg15.IsWhole) (arg16 : Memref sig .tc .vmem S256x12 .bf16) (harg16 : arg16.IsWhole) (arg17 : Memref sig .tc .vmem S1x12 .f32) (harg17 : arg17.IsWhole) (arg18 : Memref sig .tc .vmem S1024x12 .f32) (harg18 : arg18.IsWhole)
    (x0 : Vec F S1024x4 .f32) (x1 : Vec F S1024x4 .f32) (x2 : Vec F S1024x4 .f32) (x3 : Vec F S1024x4 .f32) (x4 : Vec F S1024x64 .f32) (x5 : Vec F S4x256 .bf16) (x6 : Vec F S4x256 .bf16) (x7 : Vec F S4x256 .bf16) (x8 : Vec F S4x256 .bf16) (x9 : Vec F S64x256 .bf16) (x10 : Vec F S1x256 .f32) (x11 : Vec F S256x256 .bf16) (x12 : Vec F S1x256 .f32) (x13 : Vec F S11x256x256 .bf16) (x14 : Vec F S11x256 .f32) (x15 : Vec F S256x12 .bf16) (x16 : Vec F S1x12 .f32) : out0_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 = PAY x0 x1 x2 x3 x4 x5 x6 x7 x8 x9 x10 x11 x12 x13 x14 x15 x16 := by
  unfold out0_17
  rw [View.read_writes_eq_canon _ _ _ (cover0_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16)]
  unfold kernelRun0
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x4) hz2, View.ld_unit_zero (S := S1024x64) hz2, View.ld_unit_zero (S := S4x256) hz2, View.ld_unit_zero (S := S64x256) hz2, View.ld_unit_zero (S := S1x256) hz2, View.ld_unit_zero (S := S256x256) hz2, View.ld_unit_zero (S := S256x12) hz2, View.ld_unit_zero (S := S1x12) hz2]
  rfl

end Cert.KernelIdeal.Hand

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.LibBlockDiag.lean ====
/-
  Contracting a row against one column of a block-diagonal matrix. A matrix of B×B blocks whose off-diagonal blocks are
  zero has, in a column of column-block k, the entries of one column of the diagonal block on row-block k and zero on
  every other row-block. The inner product of a row of length B·n with such a column is therefore the inner product of
  the row's k-th stretch with that column of the diagonal block: every other term is a product with zero, which is zero
  on the extended reals whatever the other factor is, so nothing is asked of the row.
-/
import Mathlib
import proofs.«136870_j44341242364139_2_alg».proof.Proof.LibSumBlocks

namespace Cert.LibBlockDiag

open Cert.LibSumBlocks

/-- The inner product of a row `a` of length `N = B·n` with a column `col` that is `W` on row-block `k` and zero on the
    other row-blocks is the inner product of the row's stretch `k` with `W`. -/
theorem sum_blockdiag (B n N : ℕ) (hN : N = B * n) (a col : Fin N → EReal) (W : Fin n → EReal) (k : Fin B)
    (hcol : ∀ (t : Fin B) (i : Fin n), col ⟨t.val * n + i.val, hN ▸ block_lt t i⟩ = if t = k then W i else 0) :
    ∑ q : Fin N, a q * col q = ∑ i : Fin n, a ⟨k.val * n + i.val, hN ▸ block_lt k i⟩ * W i := by
  rw [sum_blocks B n N hN]
  have hblk : ∀ t : Fin B, (∑ i : Fin n, a ⟨t.val * n + i.val, hN ▸ block_lt t i⟩ * col ⟨t.val * n + i.val, hN ▸ block_lt t i⟩)
      = if t = k then ∑ i : Fin n, a ⟨k.val * n + i.val, hN ▸ block_lt k i⟩ * W i else 0 := by
    intro t
    by_cases htk : t = k
    · subst htk
      rw [if_pos rfl]
      refine Finset.sum_congr rfl fun i _ => ?_
      rw [hcol t i, if_pos rfl]
    · rw [if_neg htk]
      refine Finset.sum_eq_zero fun i _ => ?_
      rw [hcol t i, if_neg htk, mul_zero]
  rw [Finset.sum_congr rfl fun t _ => hblk t, Finset.sum_ite_eq' Finset.univ k, if_pos (Finset.mem_univ k)]

end Cert.LibBlockDiag
-- ==== Proof.Spec.lean ====
/-
  The network both programs compute, one logical row at a time, on the extended reals.

  A row carries four scalars x, y, z, r and sixteen noise values. Five input branches map it to 64 features each:
  a Gaussian bump of x·W_x, tanh of y·W_y, an exponential linear unit of z·W_z, a softplus of r·W_r and tanh of
  noise·W_noise + b_noise. The sine of their sum goes through a tanh layer (W1, b1) to give node 0 of a fixed graph of
  eleven further nodes; node l+1 applies its own 64×64 layer (Wg l, bg l) to the sum of its predecessors and then an
  activation cycling through tanh, exponential linear unit, softplus, sine, Gaussian bump, logistic. The last node goes
  through a 64×3 layer and the logistic function.

  The three activations that the two programs spell differently (exponential linear unit, softplus, logistic) are
  parameters here, so that each program is read with its own spelling and the spellings are compared once, as functions
  of one extended real.
-/
import Idealize.ShloMosaic.PureOps.Ideal

noncomputable section

namespace Cert.Spec

open Idealize.ShloMosaic

/-- The weights, as functions on finite index types. The four scalar branches' weights are rows of length 64. -/
structure Weights where
  Wn : Fin 16 → Fin 64 → EReal
  bn : Fin 64 → EReal
  Wx : Fin 64 → EReal
  Wy : Fin 64 → EReal
  Wz : Fin 64 → EReal
  Wr : Fin 64 → EReal
  W1 : Fin 64 → Fin 64 → EReal
  b1 : Fin 64 → EReal
  Wg : Fin 11 → Fin 64 → Fin 64 → EReal
  bg : Fin 11 → Fin 64 → EReal
  Wo : Fin 64 → Fin 3 → EReal
  bo : Fin 3 → EReal

/-- The literal -0.5 of the Gaussian bump, as both programs spell it. -/
abbrev negHalf : EReal := Ideal.ofBits .f32 0xBF000000#32

/-- exp(-t²/2), multiplied out in the programs' order. -/
def gauss (t : EReal) : EReal := Ideal.exp ((negHalf * t) * t)

/-- One dense layer at output feature `j`: the inner product with column `j` plus the bias. -/
def lin {n k : Nat} (a : Fin n → EReal) (W : Fin n → Fin k → EReal) (b : Fin k → EReal) (j : Fin k) : EReal :=
  (∑ i, a i * W i j) + b j

section
variable (elu sp sg : EReal → EReal) (P : Weights) (x y z r : EReal) (nz : Fin 16 → EReal)

/-- The sine of the five input branches' sum. -/
def s (j : Fin 64) : EReal :=
  Ideal.sin ((((elu (z * P.Wz j) + gauss (x * P.Wx j)) + Ideal.tanh (y * P.Wy j)) + sp (r * P.Wr j))
    + Ideal.tanh (lin nz P.Wn P.bn j))

def h0 (j : Fin 64) : EReal := Ideal.tanh (lin (s elu sp P x y z r nz) P.W1 P.b1 j)
def h1 (j : Fin 64) : EReal := Ideal.tanh (lin (h0 elu sp P x y z r nz) (P.Wg 0) (P.bg 0) j)
def h2 (j : Fin 64) : EReal := elu (lin (h1 elu sp P x y z r nz) (P.Wg 1) (P.bg 1) j)
def h3 (j : Fin 64) : EReal :=
  sp (lin (fun i => h2 elu sp P x y z r nz i + h0 elu sp P x y z r nz i) (P.Wg 2) (P.bg 2) j)
def h4 (j : Fin 64) : EReal :=
  Ideal.sin (lin (fun i => (h3 elu sp P x y z r nz i + h1 elu sp P x y z r nz i) + h0 elu sp P x y z r nz i) (P.Wg 3) (P.bg 3) j)
def h5 (j : Fin 64) : EReal :=
  gauss (lin (fun i => h4 elu sp P x y z r nz i + h2 elu sp P x y z r nz i) (P.Wg 4) (P.bg 4) j)
def h6 (j : Fin 64) : EReal :=
  sg (lin (fun i => h5 elu sp P x y z r nz i + h3 elu sp P x y z r nz i) (P.Wg 5) (P.bg 5) j)
def h7 (j : Fin 64) : EReal :=
  Ideal.tanh (lin (fun i => h6 elu sp sg P x y z r nz i + h4 elu sp P x y z r nz i) (P.Wg 6) (P.bg 6) j)
def h8 (j : Fin 64) : EReal :=
  elu (lin (fun i => (h7 elu sp sg P x y z r nz i + h5 elu sp P x y z r nz i) + h0 elu sp P x y z r nz i) (P.Wg 7) (P.bg 7) j)
def h9 (j : Fin 64) : EReal :=
  sp (lin (fun i => h8 elu sp sg P x y z r nz i + h6 elu sp sg P x y z r nz i) (P.Wg 8) (P.bg 8) j)
def h10 (j : Fin 64) : EReal :=
  Ideal.sin (lin (fun i => h9 elu sp sg P x y z r nz i + h7 elu sp sg P x y z r nz i) (P.Wg 9) (P.bg 9) j)
def h11 (j : Fin 64) : EReal :=
  gauss (lin (fun i => h10 elu sp sg P x y z r nz i + h8 elu sp sg P x y z r nz i) (P.Wg 10) (P.bg 10) j)

/-- The row's three outputs. -/
def out (c : Fin 3) : EReal := sg (lin (h11 elu sp sg P x y z r nz) P.Wo P.bo c)

end

/-! ## The activations as each program spells them -/

/-- The literal 0.0 and the literal 1.0. -/
abbrev zeroLit : EReal := Ideal.ofBits .f32 0x00000000#32
abbrev oneLit : EReal := Ideal.ofBits .f32 0x3F800000#32

theorem zeroLit_eq : zeroLit = 0 := by
  simp [zeroLit, Ideal.ofBits, Ideal.ieee]
theorem oneLit_eq : oneLit = 1 := by
  simp [oneLit, Ideal.ofBits, Ideal.ieee, -EReal.coe_mul]; norm_num

/-- The reference's exponential linear unit: u above zero, else 1·(exp(u') − 1) with u' the input clamped to at most
    zero by the same comparison. -/
def eluRef (u : EReal) : EReal :=
  Scalar.select (Ideal.cmp .ogt u zeroLit) u
    (oneLit * (Ideal.exp (Scalar.select (Ideal.cmp .ogt u zeroLit) zeroLit u) - 1))

/-- The kernel's: u above zero, else exp(u) − 1. -/
def eluK (u : EReal) : EReal :=
  Scalar.select (Ideal.cmp .ogt u zeroLit) u (Ideal.exp u - oneLit)

theorem eluK_eq_eluRef : eluK = eluRef := by
  funext u
  unfold eluK eluRef
  rw [oneLit_eq, one_mul]
  by_cases h : Ideal.cmp .ogt u zeroLit = 1
  · simp only [Scalar.select, if_pos h]
  · simp only [Scalar.select, if_neg h]

/-- The reference's softplus of u: with d = u − 0, it is u + 0 where d differs from itself, else
    max(u, 0) + log(1 + exp(−|d|)). -/
def spRef (u : EReal) : EReal :=
  Scalar.select (Ideal.cmp .une (u - zeroLit) (u - zeroLit)) (u + zeroLit)
    (max u zeroLit + Ideal.log1p (Ideal.exp (-(max (u - zeroLit) (-(u - zeroLit))))))

/-- The kernel's: the same with the negation written as a subtraction from the literal zero. -/
def spK (u : EReal) : EReal :=
  Scalar.select (Ideal.cmp .one (u - zeroLit) (u - zeroLit)) (u + zeroLit)
    (max u zeroLit + Ideal.log1p (Ideal.exp (zeroLit - (max (u - zeroLit) (-(u - zeroLit))))))

theorem spK_eq_spRef : spK = spRef := by
  funext u
  unfold spK spRef
  have h1 : Ideal.cmp .one (u - zeroLit) (u - zeroLit) = Ideal.cmp .une (u - zeroLit) (u - zeroLit) := rfl
  rw [h1, zeroLit_eq, zero_sub]

/-- The reference's logistic function, spelt out; the kernel's is the one operation. -/
def sgRef (u : EReal) : EReal := Ideal.div oneLit (oneLit + Ideal.exp (-u))

theorem sgK_eq_sgRef : Ideal.logistic = sgRef := by
  funext u
  unfold sgRef Ideal.logistic
  rw [oneLit_eq]

/-- So the network read with the kernel's spellings is the network read with the reference's. -/
theorem out_kernel_eq_out_ref :
    out eluK spK Ideal.logistic = out eluRef spRef sgRef := by
  rw [eluK_eq_eluRef, spK_eq_spRef, sgK_eq_sgRef]

end Cert.Spec

end
-- ==== Proof.KIPk.lean ====
/-
  Four logical rows side by side in one packed row. A packed activation [1024, 256] holds, in packed row p at columns
  64k … 64k+63, the 64 features of logical row k of p. Against a block-diagonal weight matrix (the 64×64 matrix W on the
  four diagonal blocks, zero elsewhere) the matrix product of such an array is, in the same packing, each logical row's
  product with W: the terms from the other three row-blocks are products with zero. Adding a bias row that repeats b four
  times adds b to every logical row. The same holds for the first layers' narrower packings (one scalar per logical row
  against a 1×64 row; sixteen noise values against a 16×64 matrix) and for the last layer's 64×3 matrix.
-/
import proofs.«136870_j44341242364139_2_alg».proof.Proof.Gen.KernelIdeal.Skeleton
import proofs.«136870_j44341242364139_2_alg».proof.Proof.LibDot
import proofs.«136870_j44341242364139_2_alg».proof.Proof.LibBlockDiag
import proofs.«136870_j44341242364139_2_alg».proof.Proof.Spec
import Idealize.ShloMosaic.Lib.ValueLayout
import Idealize.ShloMosaic.Lib.Pipeline.Value

set_option maxRecDepth 16384

noncomputable section

namespace Cert.KernelIdeal.HandPay

open Cert.KernelIdeal Cert.KernelIdeal.Gen
open Idealize.ShloMosaic Idealize.ShloMosaic.ValueIdx

/-- Column 64k + j of a packed row: feature j of logical row k. -/
abbrev q64 (k : Fin 4) (j : Fin 64) : Fin 256 := ⟨k.val * 64 + j.val, by have := k.isLt; have := j.isLt; omega⟩
/-- Column 16k + i of the packed noise row. -/
abbrev q16 (k : Fin 4) (i : Fin 16) : Fin 64 := ⟨k.val * 16 + i.val, by have := k.isLt; have := i.isLt; omega⟩
/-- Column 3k + c of the packed output row. -/
abbrev q3 (k : Fin 4) (c : Fin 3) : Fin 12 := ⟨k.val * 3 + c.val, by have := k.isLt; have := c.isLt; omega⟩

theorem plain4 : Cert.LibDot.Plain dot_S1024x4_S4x256_S1024x256_1_0_0_1_n_n where
  hrank := rfl
  hs := rfl
  hl0 := fun _ _ => rfl
  hl1 := fun j k => DotDims.lhsIdx_val_of_single (d := dot_S1024x4_S4x256_S1024x256_1_0_0_1_n_n) rfl j k
  hr0 := fun j k => DotDims.rhsIdx_val_of_single (d := dot_S1024x4_S4x256_S1024x256_1_0_0_1_n_n) rfl j k
  hr1 := fun _ _ => rfl

theorem plain64 : Cert.LibDot.Plain dot_S1024x64_S64x256_S1024x256_1_0_0_1_n_n where
  hrank := rfl
  hs := rfl
  hl0 := fun _ _ => rfl
  hl1 := fun j k => DotDims.lhsIdx_val_of_single (d := dot_S1024x64_S64x256_S1024x256_1_0_0_1_n_n) rfl j k
  hr0 := fun j k => DotDims.rhsIdx_val_of_single (d := dot_S1024x64_S64x256_S1024x256_1_0_0_1_n_n) rfl j k
  hr1 := fun _ _ => rfl

theorem plain256 : Cert.LibDot.Plain dot_S1024x256_S256x256_S1024x256_1_0_0_1_n_n where
  hrank := rfl
  hs := rfl
  hl0 := fun _ _ => rfl
  hl1 := fun j k => DotDims.lhsIdx_val_of_single (d := dot_S1024x256_S256x256_S1024x256_1_0_0_1_n_n) rfl j k
  hr0 := fun j k => DotDims.rhsIdx_val_of_single (d := dot_S1024x256_S256x256_S1024x256_1_0_0_1_n_n) rfl j k
  hr1 := fun _ _ => rfl

theorem plain12 : Cert.LibDot.Plain dot_S1024x256_S256x12_S1024x12_1_0_0_1_n_n where
  hrank := rfl
  hs := rfl
  hl0 := fun _ _ => rfl
  hl1 := fun j k => DotDims.lhsIdx_val_of_single (d := dot_S1024x256_S256x12_S1024x12_1_0_0_1_n_n) rfl j k
  hr0 := fun j k => DotDims.rhsIdx_val_of_single (d := dot_S1024x256_S256x12_S1024x12_1_0_0_1_n_n) rfl j k
  hr1 := fun _ _ => rfl

/-- `A` packs the logical rows' features `H p k`. -/
@[reducible] def IsPk (A : S1024x256.Idx → EReal) (H : Fin 1024 → Fin 4 → Fin 64 → EReal) : Prop :=
  ∀ p k j, A (ix2 p (q64 k j)) = H p k j
/-- `Wb` is `W` on the four diagonal blocks and zero elsewhere. -/
@[reducible] def IsBD (Wb : S256x256.Idx → EReal) (W : Fin 64 → Fin 64 → EReal) : Prop :=
  ∀ (t k : Fin 4) (i j : Fin 64), Wb (ix2 (q64 t i) (q64 k j)) = if t = k then W i j else 0
/-- `bv` repeats `b` four times. -/
@[reducible] def IsTile (bv : S1x256.Idx → EReal) (b : Fin 64 → EReal) : Prop :=
  ∀ k j, bv (ix2 (0 : Fin 1) (q64 k j)) = b j

theorem IsPk.add {A B : S1024x256.Idx → EReal} {H K : Fin 1024 → Fin 4 → Fin 64 → EReal} (hA : IsPk A H) (hB : IsPk B K) :
    IsPk (addf (F := Ideal) (φ := .f32) A B) (fun p k j => H p k j + K p k j) := fun p k j => by
  show A _ + B _ = _
  rw [hA, hB]

/-- The packed product with a block-diagonal matrix, one logical row at a time. -/
theorem mm256_pk {A : FVec Ideal S1024x256 .f32} {Wb : FVec Ideal S256x256 .bf16} {H : Fin 1024 → Fin 4 → Fin 64 → EReal} {W : Fin 64 → Fin 64 → EReal}
    (hA : IsPk A H) (hW : IsBD Wb W) (p : Fin 1024) (k : Fin 4) (j : Fin 64) :
    (matmul dot_S1024x256_S256x256_S1024x256_1_0_0_1_n_n none (truncf .bf16 A bitsLt_bf16_f32) Wb (constant S1024x256 .f32 0x00000000#32)) (ix2 p (q64 k j)) = ∑ i : Fin 64, H p k i * W i j := by
  refine (Cert.LibDot.matmul_ix2 plain256 none _ Wb p (q64 k j)).trans ?_
  refine (Cert.LibBlockDiag.sum_blockdiag 4 64 256 rfl (fun q => A (ix2 p q)) (fun q => Wb (ix2 q (q64 k j))) (fun i => W i j) k
    (fun t i => hW t k i j)).trans ?_
  exact Finset.sum_congr rfl fun i _ => congrArg (· * W i j) (hA p k i)

theorem bias2_apply (v : Vec Ideal S1x256 .f32) (p : Fin 1024) (q : Fin 256) :
    (broadcastTo S1024x256 (shapeCast S1x256 (shapeCast S256 v shapeCasts_S1x256_S256) shapeCasts_S256_S1x256) broadcasts_S1x256_S1024x256) (ix2 p q) = v (ix2 (0 : Fin 1) q) := by
  rw [shapeCast_shapeCast]
  exact broadcastTo_1b_ab_apply v _ p q

theorem bias1_apply (v : Vec Ideal S1x256 .f32) (p : Fin 1024) (q : Fin 256) :
    (broadcastTo S1024x256 (shapeCast S1x256 v shapeCasts_S1x256_S1x256) broadcasts_S1x256_S1024x256) (ix2 p q) = v (ix2 (0 : Fin 1) q) := by
  rw [shapeCast_self]
  exact broadcastTo_1b_ab_apply v _ p q

theorem slab_apply (v : Vec Ideal S1x256x256 .bf16) (a q : Fin 256) :
    (shapeCast S256x256 v shapeCasts_S1x256x256_S256x256 : FVec Ideal S256x256 .bf16) (ix2 a q) = v (ix3 (0 : Fin 1) a q) :=
  shapeCast_1ab_ab_apply v _ a q

/-- One graph layer in the packing: the product with the layer's block-diagonal matrix plus the repeated bias is each
    logical row's dense layer. -/
theorem layer_pk {A : FVec Ideal S1024x256 .f32} {v : Vec Ideal S1x256x256 .bf16} {bv : Vec Ideal S1x256 .f32}
    {H : Fin 1024 → Fin 4 → Fin 64 → EReal} {W : Fin 64 → Fin 64 → EReal} {b : Fin 64 → EReal}
    (hA : IsPk A H) (hW : IsBD (shapeCast S256x256 v shapeCasts_S1x256x256_S256x256 : FVec Ideal S256x256 .bf16) W) (hb : IsTile bv b) :
    IsPk (addf (matmul dot_S1024x256_S256x256_S1024x256_1_0_0_1_n_n none (truncf .bf16 A bitsLt_bf16_f32) (shapeCast S256x256 v shapeCasts_S1x256x256_S256x256 : FVec Ideal S256x256 .bf16) (constant S1024x256 .f32 0x00000000#32)) (broadcastTo S1024x256 (shapeCast S1x256 (shapeCast S256 bv shapeCasts_S1x256_S256) shapeCasts_S256_S1x256) broadcasts_S1x256_S1024x256)) (fun p k j => Cert.Spec.lin (H p k) W b j) := fun p k j => by
  show (matmul dot_S1024x256_S256x256_S1024x256_1_0_0_1_n_n none (truncf .bf16 A bitsLt_bf16_f32) (shapeCast S256x256 v shapeCasts_S1x256x256_S256x256 : FVec Ideal S256x256 .bf16) (constant S1024x256 .f32 0x00000000#32)) (ix2 p (q64 k j)) + (broadcastTo S1024x256 (shapeCast S1x256 (shapeCast S256 bv shapeCasts_S1x256_S256) shapeCasts_S256_S1x256) broadcasts_S1x256_S1024x256) (ix2 p (q64 k j)) = _
  rw [mm256_pk hA hW, bias2_apply, hb]
  rfl

/-- The first dense layer's weights and bias reach the body uncast: the same layer with identity casts. -/
theorem layer1_pk {A : FVec Ideal S1024x256 .f32} {v : Vec Ideal S256x256 .bf16} {bv : Vec Ideal S1x256 .f32}
    {H : Fin 1024 → Fin 4 → Fin 64 → EReal} {W : Fin 64 → Fin 64 → EReal} {b : Fin 64 → EReal}
    (hA : IsPk A H) (hW : IsBD v W) (hb : IsTile bv b) :
    IsPk (addf (matmul dot_S1024x256_S256x256_S1024x256_1_0_0_1_n_n none (truncf .bf16 A bitsLt_bf16_f32) (shapeCast S256x256 v shapeCasts_S256x256_S256x256 : FVec Ideal S256x256 .bf16) (constant S1024x256 .f32 0x00000000#32)) (broadcastTo S1024x256 (shapeCast S1x256 bv shapeCasts_S1x256_S1x256) broadcasts_S1x256_S1024x256)) (fun p k j => Cert.Spec.lin (H p k) W b j) := fun p k j => by
  have hW' : IsBD (shapeCast S256x256 v shapeCasts_S256x256_S256x256 : FVec Ideal S256x256 .bf16) W := by rw [shapeCast_self]; exact hW
  show (matmul dot_S1024x256_S256x256_S1024x256_1_0_0_1_n_n none (truncf .bf16 A bitsLt_bf16_f32) (shapeCast S256x256 v shapeCasts_S256x256_S256x256 : FVec Ideal S256x256 .bf16) (constant S1024x256 .f32 0x00000000#32)) (ix2 p (q64 k j)) + (broadcastTo S1024x256 (shapeCast S1x256 bv shapeCasts_S1x256_S1x256) broadcasts_S1x256_S1024x256) (ix2 p (q64 k j)) = _
  rw [mm256_pk hA hW', bias1_apply, hb]
  rfl

/-- A scalar branch: one scalar per logical row against a row of 64 weights placed block-diagonally in [4, 256]. -/
theorem mm4_pk (X : Vec Ideal S1024x4 .f32) (Wv : Vec Ideal S4x256 .bf16) {ξ : Fin 1024 → Fin 4 → EReal} {w : Fin 64 → EReal}
    (hX : ∀ p k, X (ix2 p k) = ξ p k) (hW : ∀ (t k : Fin 4) (j : Fin 64), Wv (ix2 t (q64 k j)) = if t = k then w j else 0)
    (p : Fin 1024) (k : Fin 4) (j : Fin 64) :
    (matmul dot_S1024x4_S4x256_S1024x256_1_0_0_1_n_n none (truncf .bf16 (shapeCast S1024x4 X shapeCasts_S1024x4_S1024x4 : FVec Ideal S1024x4 .f32) bitsLt_bf16_f32) (shapeCast S4x256 Wv shapeCasts_S4x256_S4x256 : FVec Ideal S4x256 .bf16) (constant S1024x256 .f32 0x00000000#32)) (ix2 p (q64 k j)) = ξ p k * w j := by
  refine (Cert.LibDot.matmul_ix2 plain4 none _ _ p (q64 k j)).trans ?_
  rw [shapeCast_self, shapeCast_self]
  rw [Finset.sum_eq_single k]
  · show X (ix2 p k) * Wv (ix2 k (q64 k j)) = _
    rw [hX, hW, if_pos rfl]
  · intro t _ htk
    show X (ix2 p t) * Wv (ix2 t (q64 k j)) = 0
    rw [hW, if_neg htk, mul_zero]
  · intro h; exact absurd (Finset.mem_univ k) h

/-- The noise branch: sixteen values per logical row against the 16×64 matrix placed block-diagonally in [64, 256]. -/
theorem mm64_pk (X : Vec Ideal S1024x64 .f32) (Wv : Vec Ideal S64x256 .bf16) {ν : Fin 1024 → Fin 4 → Fin 16 → EReal} {Wn : Fin 16 → Fin 64 → EReal}
    (hX : ∀ p k i, X (ix2 p (q16 k i)) = ν p k i)
    (hW : ∀ (t k : Fin 4) (i : Fin 16) (j : Fin 64), Wv (ix2 (q16 t i) (q64 k j)) = if t = k then Wn i j else 0)
    (p : Fin 1024) (k : Fin 4) (j : Fin 64) :
    (matmul dot_S1024x64_S64x256_S1024x256_1_0_0_1_n_n none (truncf .bf16 (shapeCast S1024x64 X shapeCasts_S1024x64_S1024x64 : FVec Ideal S1024x64 .f32) bitsLt_bf16_f32) (shapeCast S64x256 Wv shapeCasts_S64x256_S64x256 : FVec Ideal S64x256 .bf16) (constant S1024x256 .f32 0x00000000#32)) (ix2 p (q64 k j)) = ∑ i : Fin 16, ν p k i * Wn i j := by
  refine (Cert.LibDot.matmul_ix2 plain64 none _ _ p (q64 k j)).trans ?_
  rw [shapeCast_self, shapeCast_self]
  refine (Cert.LibBlockDiag.sum_blockdiag 4 16 64 rfl (fun q => X (ix2 p q)) (fun q => Wv (ix2 q (q64 k j))) (fun i => Wn i j) k
    (fun t i => hW t k i j)).trans ?_
  exact Finset.sum_congr rfl fun i _ => congrArg (· * Wn i j) (hX p k i)

/-- `A` packs three outputs per logical row. -/
@[reducible] def IsPk3 (A : S1024x12.Idx → EReal) (H : Fin 1024 → Fin 4 → Fin 3 → EReal) : Prop :=
  ∀ p k c, A (ix2 p (q3 k c)) = H p k c

/-- The output layer: the 64×3 matrix placed block-diagonally in [256, 12]. -/
theorem mm12_pk {A : FVec Ideal S1024x256 .f32} (Wv : Vec Ideal S256x12 .bf16) {H : Fin 1024 → Fin 4 → Fin 64 → EReal} {Wo : Fin 64 → Fin 3 → EReal}
    (hA : IsPk A H) (hW : ∀ (t k : Fin 4) (i : Fin 64) (c : Fin 3), Wv (ix2 (q64 t i) (q3 k c)) = if t = k then Wo i c else 0)
    (p : Fin 1024) (k : Fin 4) (c : Fin 3) :
    (matmul dot_S1024x256_S256x12_S1024x12_1_0_0_1_n_n none (truncf .bf16 A bitsLt_bf16_f32) (shapeCast S256x12 Wv shapeCasts_S256x12_S256x12 : FVec Ideal S256x12 .bf16) (constant S1024x12 .f32 0x00000000#32)) (ix2 p (q3 k c)) = ∑ i : Fin 64, H p k i * Wo i c := by
  refine (Cert.LibDot.matmul_ix2 plain12 none _ _ p (q3 k c)).trans ?_
  rw [shapeCast_self]
  refine (Cert.LibBlockDiag.sum_blockdiag 4 64 256 rfl (fun q => A (ix2 p q)) (fun q => Wv (ix2 q (q3 k c))) (fun i => Wo i c) k
    (fun t i => hW t k i c)).trans ?_
  exact Finset.sum_congr rfl fun i _ => congrArg (· * Wo i c) (hA p k i)

theorem bias12_apply (v : Vec Ideal S1x12 .f32) (p : Fin 1024) (q : Fin 12) :
    (broadcastTo S1024x12 (shapeCast S1x12 v shapeCasts_S1x12_S1x12) broadcasts_S1x12_S1024x12) (ix2 p q) = v (ix2 (0 : Fin 1) q) := by
  rw [shapeCast_self]
  exact broadcastTo_1b_ab_apply v _ p q

/-- Slab `l` of the stacked graph weights, loaded by the body, read at an entry. -/
theorem ld_slab (x13 : Vec Ideal S11x256x256 .bf16) (l : Fin 11) (inb) (a q : Fin 256) :
    View.ld x13 (Rect.unit (s := S11x256x256) ![l.val, 0, 0] S1x256x256.size inb) (ix3 (0 : Fin 1) a q) = x13 (ix3 l a q) := by
  show x13 ((Rect.unit (s := S11x256x256) ![l.val, 0, 0] S1x256x256.size inb).emb (ix3 (0 : Fin 1) a q)) = _
  congr 1
  funext ax
  apply Fin.ext
  match ax with
  | ⟨0, _⟩ => show (l.val + 1 * 0 : ℕ) = l.val; omega
  | ⟨1, _⟩ => show (0 + 1 * a.val : ℕ) = a.val; omega
  | ⟨2, _⟩ => show (0 + 1 * q.val : ℕ) = q.val; omega

/-- Row `l` of the stacked graph biases, loaded by the body, read at an entry. -/
theorem ld_row (x14 : Vec Ideal S11x256 .f32) (l : Fin 11) (inb) (q : Fin 256) :
    View.ld x14 (Rect.unit (s := S11x256) ![l.val, 0] S1x256.size inb) (ix2 (0 : Fin 1) q) = x14 (ix2 l q) := by
  show x14 ((Rect.unit (s := S11x256) ![l.val, 0] S1x256.size inb).emb (ix2 (0 : Fin 1) q)) = _
  congr 1
  funext ax
  apply Fin.ext
  match ax with
  | ⟨0, _⟩ => show (l.val + 1 * 0 : ℕ) = l.val; omega
  | ⟨1, _⟩ => show (0 + 1 * q.val : ℕ) = q.val; omega

/-- The loaded slab, cast to a matrix, is block-diagonal when the stacked weights are, slab by slab. -/
theorem slab_bd (x13 : Vec Ideal S11x256x256 .bf16) (l : Fin 11) (inb) {Wg : Fin 11 → Fin 64 → Fin 64 → EReal}
    (h13 : ∀ (l : Fin 11) (t k : Fin 4) (i j : Fin 64), x13 (ix3 l (q64 t i) (q64 k j)) = if t = k then Wg l i j else 0) :
    IsBD (shapeCast S256x256 (View.ld x13 (Rect.unit (s := S11x256x256) ![l.val, 0, 0] S1x256x256.size inb)) shapeCasts_S1x256x256_S256x256 : FVec Ideal S256x256 .bf16) (Wg l) := fun t k i j => by
  rw [slab_apply, ld_slab, h13]

theorem row_tile (x14 : Vec Ideal S11x256 .f32) (l : Fin 11) (inb) {bg : Fin 11 → Fin 64 → EReal}
    (h14 : ∀ (l : Fin 11) (k : Fin 4) (j : Fin 64), x14 (ix2 l (q64 k j)) = bg l j) :
    IsTile (View.ld x14 (Rect.unit (s := S11x256) ![l.val, 0] S1x256.size inb)) (bg l) := fun k j => by
  rw [ld_row, h14]

end Cert.KernelIdeal.HandPay

end
-- ==== Proof.KIPayValue.lean ====
/-
  The body's stored value, one logical row at a time. Under what the blocks hold — the four scalars and the sixteen
  noise values of each logical row side by side in a packed row, every weight matrix on the diagonal blocks of its packed
  matrix, every bias repeated four times — each intermediate array of the body packs the corresponding node of the
  network computed for each logical row, and so the stored block packs the network's three outputs for each logical row.
  Every step is the packed dense layer (the block-diagonal product keeps logical rows apart) followed by an activation
  applied entry by entry.
-/
import proofs.«136870_j44341242364139_2_alg».proof.Proof.KIPay
import proofs.«136870_j44341242364139_2_alg».proof.Proof.KIPk

set_option maxRecDepth 16384

noncomputable section

namespace Cert.KernelIdeal.HandPay

open Cert.KernelIdeal Cert.KernelIdeal.Gen Cert.KernelIdeal.Hand
open Idealize.ShloMosaic Idealize.ShloMosaic.ValueIdx

/-- What the input blocks hold, entry by entry: the logical rows' data side by side, the weights block-diagonal, the
    biases repeated. -/
structure Blocks (P : Cert.Spec.Weights) (ξx ξy ξz ξr : Fin 1024 → Fin 4 → EReal) (ν : Fin 1024 → Fin 4 → Fin 16 → EReal)
    (x0 : Vec Ideal S1024x4 .f32) (x1 : Vec Ideal S1024x4 .f32) (x2 : Vec Ideal S1024x4 .f32) (x3 : Vec Ideal S1024x4 .f32) (x4 : Vec Ideal S1024x64 .f32) (x5 : Vec Ideal S4x256 .bf16) (x6 : Vec Ideal S4x256 .bf16) (x7 : Vec Ideal S4x256 .bf16) (x8 : Vec Ideal S4x256 .bf16) (x9 : Vec Ideal S64x256 .bf16) (x10 : Vec Ideal S1x256 .f32) (x11 : Vec Ideal S256x256 .bf16) (x12 : Vec Ideal S1x256 .f32) (x13 : Vec Ideal S11x256x256 .bf16) (x14 : Vec Ideal S11x256 .f32) (x15 : Vec Ideal S256x12 .bf16) (x16 : Vec Ideal S1x12 .f32) : Prop where
  h0 : ∀ p k, x0 (ix2 p k) = ξx p k
  h1 : ∀ p k, x1 (ix2 p k) = ξy p k
  h2 : ∀ p k, x2 (ix2 p k) = ξz p k
  h3 : ∀ p k, x3 (ix2 p k) = ξr p k
  h4 : ∀ p k i, x4 (ix2 p (q16 k i)) = ν p k i
  h5 : ∀ (t k : Fin 4) (j : Fin 64), x5 (ix2 t (q64 k j)) = if t = k then P.Wx j else 0
  h6 : ∀ (t k : Fin 4) (j : Fin 64), x6 (ix2 t (q64 k j)) = if t = k then P.Wy j else 0
  h7 : ∀ (t k : Fin 4) (j : Fin 64), x7 (ix2 t (q64 k j)) = if t = k then P.Wz j else 0
  h8 : ∀ (t k : Fin 4) (j : Fin 64), x8 (ix2 t (q64 k j)) = if t = k then P.Wr j else 0
  h9 : ∀ (t k : Fin 4) (i : Fin 16) (j : Fin 64), x9 (ix2 (q16 t i) (q64 k j)) = if t = k then P.Wn i j else 0
  h10 : ∀ (k : Fin 4) (j : Fin 64), x10 (ix2 (0 : Fin 1) (q64 k j)) = P.bn j
  h11 : ∀ (t k : Fin 4) (i j : Fin 64), x11 (ix2 (q64 t i) (q64 k j)) = if t = k then P.W1 i j else 0
  h12 : ∀ (k : Fin 4) (j : Fin 64), x12 (ix2 (0 : Fin 1) (q64 k j)) = P.b1 j
  h13 : ∀ (l : Fin 11) (t k : Fin 4) (i j : Fin 64), x13 (ix3 l (q64 t i) (q64 k j)) = if t = k then P.Wg l i j else 0
  h14 : ∀ (l : Fin 11) (k : Fin 4) (j : Fin 64), x14 (ix2 l (q64 k j)) = P.bg l j
  h15 : ∀ (t k : Fin 4) (i : Fin 64) (c : Fin 3), x15 (ix2 (q64 t i) (q3 k c)) = if t = k then P.Wo i c else 0
  h16 : ∀ (k : Fin 4) (c : Fin 3), x16 (ix2 (0 : Fin 1) (q3 k c)) = P.bo c

section
variable {P : Cert.Spec.Weights} {ξx ξy ξz ξr : Fin 1024 → Fin 4 → EReal} {ν : Fin 1024 → Fin 4 → Fin 16 → EReal}
variable {x0 : Vec Ideal S1024x4 .f32} {x1 : Vec Ideal S1024x4 .f32} {x2 : Vec Ideal S1024x4 .f32} {x3 : Vec Ideal S1024x4 .f32} {x4 : Vec Ideal S1024x64 .f32} {x5 : Vec Ideal S4x256 .bf16} {x6 : Vec Ideal S4x256 .bf16} {x7 : Vec Ideal S4x256 .bf16} {x8 : Vec Ideal S4x256 .bf16} {x9 : Vec Ideal S64x256 .bf16} {x10 : Vec Ideal S1x256 .f32} {x11 : Vec Ideal S256x256 .bf16} {x12 : Vec Ideal S1x256 .f32} {x13 : Vec Ideal S11x256x256 .bf16} {x14 : Vec Ideal S11x256 .f32} {x15 : Vec Ideal S256x12 .bf16} {x16 : Vec Ideal S1x12 .f32}

theorem pk21 (hB : Blocks P ξx ξy ξz ξr ν x0 x1 x2 x3 x4 x5 x6 x7 x8 x9 x10 x11 x12 x13 x14 x15 x16) : IsPk (V21 (F := Ideal) x0 x1 x2 x3 x4 x5 x6 x7 x8 x9 x10 x11 x12 x13 x14 x15 x16) (fun p k j => Cert.Spec.gauss (ξx p k * P.Wx j)) := fun p k j =>
  congrArg Cert.Spec.gauss (mm4_pk x0 x5 hB.h0 hB.h5 p k j)

theorem pk25 (hB : Blocks P ξx ξy ξz ξr ν x0 x1 x2 x3 x4 x5 x6 x7 x8 x9 x10 x11 x12 x13 x14 x15 x16) : IsPk (V25 (F := Ideal) x0 x1 x2 x3 x4 x5 x6 x7 x8 x9 x10 x11 x12 x13 x14 x15 x16) (fun p k j => Ideal.tanh (ξy p k * P.Wy j)) := fun p k j =>
  congrArg Ideal.tanh (mm4_pk x1 x6 hB.h1 hB.h6 p k j)

theorem pk34 (hB : Blocks P ξx ξy ξz ξr ν x0 x1 x2 x3 x4 x5 x6 x7 x8 x9 x10 x11 x12 x13 x14 x15 x16) : IsPk (V34 (F := Ideal) x0 x1 x2 x3 x4 x5 x6 x7 x8 x9 x10 x11 x12 x13 x14 x15 x16) (fun p k j => Cert.Spec.eluK (ξz p k * P.Wz j)) := fun p k j =>
  congrArg Cert.Spec.eluK (mm4_pk x2 x7 hB.h2 hB.h7 p k j)

/-- The sine of the five branches' sum, as an array. -/
def Sarr (x0 : Vec Ideal S1024x4 .f32) (x1 : Vec Ideal S1024x4 .f32) (x2 : Vec Ideal S1024x4 .f32) (x3 : Vec Ideal S1024x4 .f32) (x4 : Vec Ideal S1024x64 .f32) (x5 : Vec Ideal S4x256 .bf16) (x6 : Vec Ideal S4x256 .bf16) (x7 : Vec Ideal S4x256 .bf16) (x8 : Vec Ideal S4x256 .bf16) (x9 : Vec Ideal S64x256 .bf16) (x10 : Vec Ideal S1x256 .f32) (x11 : Vec Ideal S256x256 .bf16) (x12 : Vec Ideal S1x256 .f32) (x13 : Vec Ideal S11x256x256 .bf16) (x14 : Vec Ideal S11x256 .f32) (x15 : Vec Ideal S256x12 .bf16) (x16 : Vec Ideal S1x12 .f32) : FVec Ideal S1024x256 .f32 := fun i =>
  Ideal.sin ((((V34 (F := Ideal) x0 x1 x2 x3 x4 x5 x6 x7 x8 x9 x10 x11 x12 x13 x14 x15 x16 i + V21 (F := Ideal) x0 x1 x2 x3 x4 x5 x6 x7 x8 x9 x10 x11 x12 x13 x14 x15 x16 i) + V25 (F := Ideal) x0 x1 x2 x3 x4 x5 x6 x7 x8 x9 x10 x11 x12 x13 x14 x15 x16 i) + Cert.Spec.spK ((matmul dot_S1024x4_S4x256_S1024x256_1_0_0_1_n_n none (truncf .bf16 (shapeCast S1024x4 x3 shapeCasts_S1024x4_S1024x4 : FVec Ideal S1024x4 .f32) bitsLt_bf16_f32) (shapeCast S4x256 x8 shapeCasts_S4x256_S4x256 : FVec Ideal S4x256 .bf16) (constant S1024x256 .f32 0x00000000#32)) i))
    + Ideal.tanh ((matmul dot_S1024x64_S64x256_S1024x256_1_0_0_1_n_n none (truncf .bf16 (shapeCast S1024x64 x4 shapeCasts_S1024x64_S1024x64 : FVec Ideal S1024x64 .f32) bitsLt_bf16_f32) (shapeCast S64x256 x9 shapeCasts_S64x256_S64x256 : FVec Ideal S64x256 .bf16) (constant S1024x256 .f32 0x00000000#32)) i + (broadcastTo S1024x256 (shapeCast S1x256 x10 shapeCasts_S1x256_S1x256) broadcasts_S1x256_S1024x256) i))

theorem pkS (hB : Blocks P ξx ξy ξz ξr ν x0 x1 x2 x3 x4 x5 x6 x7 x8 x9 x10 x11 x12 x13 x14 x15 x16) : IsPk (Sarr x0 x1 x2 x3 x4 x5 x6 x7 x8 x9 x10 x11 x12 x13 x14 x15 x16) (fun (p : Fin 1024) (k : Fin 4) (j : Fin 64) => Cert.Spec.s Cert.Spec.eluK Cert.Spec.spK P (ξx p k) (ξy p k) (ξz p k) (ξr p k) (ν p k) j) := fun p k j => by
  show Ideal.sin ((((V34 (F := Ideal) x0 x1 x2 x3 x4 x5 x6 x7 x8 x9 x10 x11 x12 x13 x14 x15 x16 (ix2 p (q64 k j)) + V21 (F := Ideal) x0 x1 x2 x3 x4 x5 x6 x7 x8 x9 x10 x11 x12 x13 x14 x15 x16 (ix2 p (q64 k j))) + V25 (F := Ideal) x0 x1 x2 x3 x4 x5 x6 x7 x8 x9 x10 x11 x12 x13 x14 x15 x16 (ix2 p (q64 k j))) + Cert.Spec.spK ((matmul dot_S1024x4_S4x256_S1024x256_1_0_0_1_n_n none (truncf .bf16 (shapeCast S1024x4 x3 shapeCasts_S1024x4_S1024x4 : FVec Ideal S1024x4 .f32) bitsLt_bf16_f32) (shapeCast S4x256 x8 shapeCasts_S4x256_S4x256 : FVec Ideal S4x256 .bf16) (constant S1024x256 .f32 0x00000000#32)) (ix2 p (q64 k j))))
    + Ideal.tanh ((matmul dot_S1024x64_S64x256_S1024x256_1_0_0_1_n_n none (truncf .bf16 (shapeCast S1024x64 x4 shapeCasts_S1024x64_S1024x64 : FVec Ideal S1024x64 .f32) bitsLt_bf16_f32) (shapeCast S64x256 x9 shapeCasts_S64x256_S64x256 : FVec Ideal S64x256 .bf16) (constant S1024x256 .f32 0x00000000#32)) (ix2 p (q64 k j)) + (broadcastTo S1024x256 (shapeCast S1x256 x10 shapeCasts_S1x256_S1x256) broadcasts_S1x256_S1024x256) (ix2 p (q64 k j)))) = _
  rw [pk34 hB p k j, pk21 hB p k j, pk25 hB p k j, mm4_pk x3 x8 hB.h3 hB.h8, mm64_pk x4 x9 hB.h4 hB.h9, bias1_apply, hB.h10]
  rfl

theorem pk73 (hB : Blocks P ξx ξy ξz ξr ν x0 x1 x2 x3 x4 x5 x6 x7 x8 x9 x10 x11 x12 x13 x14 x15 x16) : IsPk (V73 (F := Ideal) x0 x1 x2 x3 x4 x5 x6 x7 x8 x9 x10 x11 x12 x13 x14 x15 x16) (fun (p : Fin 1024) (k : Fin 4) (j : Fin 64) => Cert.Spec.h0 Cert.Spec.eluK Cert.Spec.spK P (ξx p k) (ξy p k) (ξz p k) (ξr p k) (ν p k) j) := fun p k j =>
  congrArg Ideal.tanh (layer1_pk (A := Sarr x0 x1 x2 x3 x4 x5 x6 x7 x8 x9 x10 x11 x12 x13 x14 x15 x16) (pkS hB) hB.h11 hB.h12 p k j)

theorem pk83 (hB : Blocks P ξx ξy ξz ξr ν x0 x1 x2 x3 x4 x5 x6 x7 x8 x9 x10 x11 x12 x13 x14 x15 x16) : IsPk (V83 (F := Ideal) x0 x1 x2 x3 x4 x5 x6 x7 x8 x9 x10 x11 x12 x13 x14 x15 x16) (fun (p : Fin 1024) (k : Fin 4) (j : Fin 64) => Cert.Spec.h1 Cert.Spec.eluK Cert.Spec.spK P (ξx p k) (ξy p k) (ξz p k) (ξr p k) (ν p k) j) := fun p k j =>
  congrArg Ideal.tanh (layer_pk (pk73 hB) (slab_bd x13 (0 : Fin 11) _ hB.h13) (row_tile x14 (0 : Fin 11) _ hB.h14) p k j)

theorem pk98 (hB : Blocks P ξx ξy ξz ξr ν x0 x1 x2 x3 x4 x5 x6 x7 x8 x9 x10 x11 x12 x13 x14 x15 x16) : IsPk (V98 (F := Ideal) x0 x1 x2 x3 x4 x5 x6 x7 x8 x9 x10 x11 x12 x13 x14 x15 x16) (fun (p : Fin 1024) (k : Fin 4) (j : Fin 64) => Cert.Spec.h2 Cert.Spec.eluK Cert.Spec.spK P (ξx p k) (ξy p k) (ξz p k) (ξr p k) (ν p k) j) := fun p k j =>
  congrArg Cert.Spec.eluK (layer_pk (pk83 hB) (slab_bd x13 (1 : Fin 11) _ hB.h13) (row_tile x14 (1 : Fin 11) _ hB.h14) p k j)

theorem pk122 (hB : Blocks P ξx ξy ξz ξr ν x0 x1 x2 x3 x4 x5 x6 x7 x8 x9 x10 x11 x12 x13 x14 x15 x16) : IsPk (V122 (F := Ideal) x0 x1 x2 x3 x4 x5 x6 x7 x8 x9 x10 x11 x12 x13 x14 x15 x16) (fun (p : Fin 1024) (k : Fin 4) (j : Fin 64) => Cert.Spec.h3 Cert.Spec.eluK Cert.Spec.spK P (ξx p k) (ξy p k) (ξz p k) (ξr p k) (ν p k) j) := fun p k j =>
  congrArg Cert.Spec.spK (layer_pk ((pk98 hB).add (pk73 hB)) (slab_bd x13 (2 : Fin 11) _ hB.h13) (row_tile x14 (2 : Fin 11) _ hB.h14) p k j)

theorem pk134 (hB : Blocks P ξx ξy ξz ξr ν x0 x1 x2 x3 x4 x5 x6 x7 x8 x9 x10 x11 x12 x13 x14 x15 x16) : IsPk (V134 (F := Ideal) x0 x1 x2 x3 x4 x5 x6 x7 x8 x9 x10 x11 x12 x13 x14 x15 x16) (fun (p : Fin 1024) (k : Fin 4) (j : Fin 64) => Cert.Spec.h4 Cert.Spec.eluK Cert.Spec.spK P (ξx p k) (ξy p k) (ξz p k) (ξr p k) (ν p k) j) := fun p k j =>
  congrArg Ideal.sin (layer_pk (((pk122 hB).add (pk83 hB)).add (pk73 hB)) (slab_bd x13 (3 : Fin 11) _ hB.h13) (row_tile x14 (3 : Fin 11) _ hB.h14) p k j)

theorem pk148 (hB : Blocks P ξx ξy ξz ξr ν x0 x1 x2 x3 x4 x5 x6 x7 x8 x9 x10 x11 x12 x13 x14 x15 x16) : IsPk (V148 (F := Ideal) x0 x1 x2 x3 x4 x5 x6 x7 x8 x9 x10 x11 x12 x13 x14 x15 x16) (fun (p : Fin 1024) (k : Fin 4) (j : Fin 64) => Cert.Spec.h5 Cert.Spec.eluK Cert.Spec.spK P (ξx p k) (ξy p k) (ξz p k) (ξr p k) (ν p k) j) := fun p k j =>
  congrArg Cert.Spec.gauss (layer_pk ((pk134 hB).add (pk98 hB)) (slab_bd x13 (4 : Fin 11) _ hB.h13) (row_tile x14 (4 : Fin 11) _ hB.h14) p k j)

theorem pk159 (hB : Blocks P ξx ξy ξz ξr ν x0 x1 x2 x3 x4 x5 x6 x7 x8 x9 x10 x11 x12 x13 x14 x15 x16) : IsPk (V159 (F := Ideal) x0 x1 x2 x3 x4 x5 x6 x7 x8 x9 x10 x11 x12 x13 x14 x15 x16) (fun (p : Fin 1024) (k : Fin 4) (j : Fin 64) => Cert.Spec.h6 Cert.Spec.eluK Cert.Spec.spK Ideal.logistic P (ξx p k) (ξy p k) (ξz p k) (ξr p k) (ν p k) j) := fun p k j =>
  congrArg Ideal.logistic (layer_pk ((pk148 hB).add (pk122 hB)) (slab_bd x13 (5 : Fin 11) _ hB.h13) (row_tile x14 (5 : Fin 11) _ hB.h14) p k j)

theorem pk160 (hB : Blocks P ξx ξy ξz ξr ν x0 x1 x2 x3 x4 x5 x6 x7 x8 x9 x10 x11 x12 x13 x14 x15 x16) : IsPk (V160 (F := Ideal) x0 x1 x2 x3 x4 x5 x6 x7 x8 x9 x10 x11 x12 x13 x14 x15 x16) (fun p k j => (fun (p : Fin 1024) (k : Fin 4) (j : Fin 64) => Cert.Spec.h6 Cert.Spec.eluK Cert.Spec.spK Ideal.logistic P (ξx p k) (ξy p k) (ξz p k) (ξr p k) (ν p k) j) p k j + (fun (p : Fin 1024) (k : Fin 4) (j : Fin 64) => Cert.Spec.h4 Cert.Spec.eluK Cert.Spec.spK P (ξx p k) (ξy p k) (ξz p k) (ξr p k) (ν p k) j) p k j) :=
  (pk159 hB).add (pk134 hB)

theorem pk170 (hB : Blocks P ξx ξy ξz ξr ν x0 x1 x2 x3 x4 x5 x6 x7 x8 x9 x10 x11 x12 x13 x14 x15 x16) : IsPk (V170 (F := Ideal) x0 x1 x2 x3 x4 x5 x6 x7 x8 x9 x10 x11 x12 x13 x14 x15 x16) (fun (p : Fin 1024) (k : Fin 4) (j : Fin 64) => Cert.Spec.h7 Cert.Spec.eluK Cert.Spec.spK Ideal.logistic P (ξx p k) (ξy p k) (ξz p k) (ξr p k) (ν p k) j) := fun p k j =>
  congrArg Ideal.tanh (layer_pk (pk160 hB) (slab_bd x13 (6 : Fin 11) _ hB.h13) (row_tile x14 (6 : Fin 11) _ hB.h14) p k j)

theorem pk187 (hB : Blocks P ξx ξy ξz ξr ν x0 x1 x2 x3 x4 x5 x6 x7 x8 x9 x10 x11 x12 x13 x14 x15 x16) : IsPk (V187 (F := Ideal) x0 x1 x2 x3 x4 x5 x6 x7 x8 x9 x10 x11 x12 x13 x14 x15 x16) (fun (p : Fin 1024) (k : Fin 4) (j : Fin 64) => Cert.Spec.h8 Cert.Spec.eluK Cert.Spec.spK Ideal.logistic P (ξx p k) (ξy p k) (ξz p k) (ξr p k) (ν p k) j) := fun p k j =>
  congrArg Cert.Spec.eluK (layer_pk (((pk170 hB).add (pk148 hB)).add (pk73 hB)) (slab_bd x13 (7 : Fin 11) _ hB.h13) (row_tile x14 (7 : Fin 11) _ hB.h14) p k j)

/-- Nodes 9, 10 and 11 are computed inside the body's last stretch; as arrays: -/
def A9 (x0 : Vec Ideal S1024x4 .f32) (x1 : Vec Ideal S1024x4 .f32) (x2 : Vec Ideal S1024x4 .f32) (x3 : Vec Ideal S1024x4 .f32) (x4 : Vec Ideal S1024x64 .f32) (x5 : Vec Ideal S4x256 .bf16) (x6 : Vec Ideal S4x256 .bf16) (x7 : Vec Ideal S4x256 .bf16) (x8 : Vec Ideal S4x256 .bf16) (x9 : Vec Ideal S64x256 .bf16) (x10 : Vec Ideal S1x256 .f32) (x11 : Vec Ideal S256x256 .bf16) (x12 : Vec Ideal S1x256 .f32) (x13 : Vec Ideal S11x256x256 .bf16) (x14 : Vec Ideal S11x256 .f32) (x15 : Vec Ideal S256x12 .bf16) (x16 : Vec Ideal S1x12 .f32) : FVec Ideal S1024x256 .f32 := fun i => Cert.Spec.spK (V197 (F := Ideal) x0 x1 x2 x3 x4 x5 x6 x7 x8 x9 x10 x11 x12 x13 x14 x15 x16 i)
def A10 (x0 : Vec Ideal S1024x4 .f32) (x1 : Vec Ideal S1024x4 .f32) (x2 : Vec Ideal S1024x4 .f32) (x3 : Vec Ideal S1024x4 .f32) (x4 : Vec Ideal S1024x64 .f32) (x5 : Vec Ideal S4x256 .bf16) (x6 : Vec Ideal S4x256 .bf16) (x7 : Vec Ideal S4x256 .bf16) (x8 : Vec Ideal S4x256 .bf16) (x9 : Vec Ideal S64x256 .bf16) (x10 : Vec Ideal S1x256 .f32) (x11 : Vec Ideal S256x256 .bf16) (x12 : Vec Ideal S1x256 .f32) (x13 : Vec Ideal S11x256x256 .bf16) (x14 : Vec Ideal S11x256 .f32) (x15 : Vec Ideal S256x12 .bf16) (x16 : Vec Ideal S1x12 .f32) : FVec Ideal S1024x256 .f32 := fun i =>
  Ideal.sin ((addf (matmul dot_S1024x256_S256x256_S1024x256_1_0_0_1_n_n none (truncf .bf16 (addf (A9 x0 x1 x2 x3 x4 x5 x6 x7 x8 x9 x10 x11 x12 x13 x14 x15 x16) (V170 (F := Ideal) x0 x1 x2 x3 x4 x5 x6 x7 x8 x9 x10 x11 x12 x13 x14 x15 x16)) bitsLt_bf16_f32) (shapeCast S256x256 (View.ld x13 (Rect.unit (s := S11x256x256) ![9, 0, 0] S1x256x256.size inb_S11x256x256_S1x256x256_9_0_0)) shapeCasts_S1x256x256_S256x256 : FVec Ideal S256x256 .bf16) (constant S1024x256 .f32 0x00000000#32)) (broadcastTo S1024x256 (shapeCast S1x256 (shapeCast S256 (View.ld x14 (Rect.unit (s := S11x256) ![9, 0] S1x256.size inb_S11x256_S1x256_9_0)) shapeCasts_S1x256_S256) shapeCasts_S256_S1x256) broadcasts_S1x256_S1024x256)) i)
def A11 (x0 : Vec Ideal S1024x4 .f32) (x1 : Vec Ideal S1024x4 .f32) (x2 : Vec Ideal S1024x4 .f32) (x3 : Vec Ideal S1024x4 .f32) (x4 : Vec Ideal S1024x64 .f32) (x5 : Vec Ideal S4x256 .bf16) (x6 : Vec Ideal S4x256 .bf16) (x7 : Vec Ideal S4x256 .bf16) (x8 : Vec Ideal S4x256 .bf16) (x9 : Vec Ideal S64x256 .bf16) (x10 : Vec Ideal S1x256 .f32) (x11 : Vec Ideal S256x256 .bf16) (x12 : Vec Ideal S1x256 .f32) (x13 : Vec Ideal S11x256x256 .bf16) (x14 : Vec Ideal S11x256 .f32) (x15 : Vec Ideal S256x12 .bf16) (x16 : Vec Ideal S1x12 .f32) : FVec Ideal S1024x256 .f32 := fun i =>
  Cert.Spec.gauss ((addf (matmul dot_S1024x256_S256x256_S1024x256_1_0_0_1_n_n none (truncf .bf16 (addf (A10 x0 x1 x2 x3 x4 x5 x6 x7 x8 x9 x10 x11 x12 x13 x14 x15 x16) (V187 (F := Ideal) x0 x1 x2 x3 x4 x5 x6 x7 x8 x9 x10 x11 x12 x13 x14 x15 x16)) bitsLt_bf16_f32) (shapeCast S256x256 (View.ld x13 (Rect.unit (s := S11x256x256) ![10, 0, 0] S1x256x256.size inb_S11x256x256_S1x256x256_10_0_0)) shapeCasts_S1x256x256_S256x256 : FVec Ideal S256x256 .bf16) (constant S1024x256 .f32 0x00000000#32)) (broadcastTo S1024x256 (shapeCast S1x256 (shapeCast S256 (View.ld x14 (Rect.unit (s := S11x256) ![10, 0] S1x256.size inb_S11x256_S1x256_10_0)) shapeCasts_S1x256_S256) shapeCasts_S256_S1x256) broadcasts_S1x256_S1024x256)) i)

theorem pkA9 (hB : Blocks P ξx ξy ξz ξr ν x0 x1 x2 x3 x4 x5 x6 x7 x8 x9 x10 x11 x12 x13 x14 x15 x16) : IsPk (A9 x0 x1 x2 x3 x4 x5 x6 x7 x8 x9 x10 x11 x12 x13 x14 x15 x16) (fun (p : Fin 1024) (k : Fin 4) (j : Fin 64) => Cert.Spec.h9 Cert.Spec.eluK Cert.Spec.spK Ideal.logistic P (ξx p k) (ξy p k) (ξz p k) (ξr p k) (ν p k) j) := fun p k j =>
  congrArg Cert.Spec.spK (layer_pk ((pk187 hB).add (pk159 hB)) (slab_bd x13 (8 : Fin 11) _ hB.h13) (row_tile x14 (8 : Fin 11) _ hB.h14) p k j)

theorem pkA10 (hB : Blocks P ξx ξy ξz ξr ν x0 x1 x2 x3 x4 x5 x6 x7 x8 x9 x10 x11 x12 x13 x14 x15 x16) : IsPk (A10 x0 x1 x2 x3 x4 x5 x6 x7 x8 x9 x10 x11 x12 x13 x14 x15 x16) (fun (p : Fin 1024) (k : Fin 4) (j : Fin 64) => Cert.Spec.h10 Cert.Spec.eluK Cert.Spec.spK Ideal.logistic P (ξx p k) (ξy p k) (ξz p k) (ξr p k) (ν p k) j) := fun p k j =>
  congrArg Ideal.sin (layer_pk ((pkA9 hB).add (pk170 hB)) (slab_bd x13 (9 : Fin 11) _ hB.h13) (row_tile x14 (9 : Fin 11) _ hB.h14) p k j)

theorem pkA11 (hB : Blocks P ξx ξy ξz ξr ν x0 x1 x2 x3 x4 x5 x6 x7 x8 x9 x10 x11 x12 x13 x14 x15 x16) : IsPk (A11 x0 x1 x2 x3 x4 x5 x6 x7 x8 x9 x10 x11 x12 x13 x14 x15 x16) (fun (p : Fin 1024) (k : Fin 4) (j : Fin 64) => Cert.Spec.h11 Cert.Spec.eluK Cert.Spec.spK Ideal.logistic P (ξx p k) (ξy p k) (ξz p k) (ξr p k) (ν p k) j) := fun p k j =>
  congrArg Cert.Spec.gauss (layer_pk ((pkA10 hB).add (pk187 hB)) (slab_bd x13 (10 : Fin 11) _ hB.h13) (row_tile x14 (10 : Fin 11) _ hB.h14) p k j)

set_option maxHeartbeats 8000000 in
/-- The stored block packs the network's three outputs of every logical row. -/
theorem pay_pk (hB : Blocks P ξx ξy ξz ξr ν x0 x1 x2 x3 x4 x5 x6 x7 x8 x9 x10 x11 x12 x13 x14 x15 x16) :
    IsPk3 (PAY (F := Ideal) x0 x1 x2 x3 x4 x5 x6 x7 x8 x9 x10 x11 x12 x13 x14 x15 x16) (fun p k c => Cert.Spec.out Cert.Spec.eluK Cert.Spec.spK Ideal.logistic P (ξx p k) (ξy p k) (ξz p k) (ξr p k) (ν p k) c) := fun p k c => by
  show Ideal.logistic ((matmul dot_S1024x256_S256x12_S1024x12_1_0_0_1_n_n none (truncf .bf16 (A11 x0 x1 x2 x3 x4 x5 x6 x7 x8 x9 x10 x11 x12 x13 x14 x15 x16) bitsLt_bf16_f32) (shapeCast S256x12 x15 shapeCasts_S256x12_S256x12 : FVec Ideal S256x12 .bf16) (constant S1024x12 .f32 0x00000000#32)) (ix2 p (q3 k c)) + (broadcastTo S1024x12 (shapeCast S1x12 x16 shapeCasts_S1x12_S1x12) broadcasts_S1x12_S1024x12) (ix2 p (q3 k c))) = _
  rw [mm12_pk x15 (pkA11 hB) hB.h15, bias12_apply, hB.h16]
  rfl

end

end Cert.KernelIdeal.HandPay

end
-- ==== Proof.KIRows.lean ====
/-
  Which logical row a packed position is. The kernel's grid has 64 points; point t handles packed rows 1024·t … 1024·t+1023,
  and packed row g holds the logical rows 4·g … 4·g+3 side by side. So position (p, k) of point t's block is logical row
  4·(1024·t + p) + k, and packed row g is row g mod 1024 of point g / 1024.
-/
import Mathlib

namespace Cert.Rows

/-- The logical row at sub-row `k` of packed row `p` of grid point `t` (given as a number below 64). -/
def rowOf (t : ℕ) (ht : t < 64) (p : Fin 1024) (k : Fin 4) : Fin 262144 :=
  ⟨4 * (1024 * t + p.val) + k.val, by have := p.isLt; have := k.isLt; omega⟩

/-- The packed row of point `t`'s block at row `p`. -/
def prowOf (t : ℕ) (ht : t < 64) (p : Fin 1024) : Fin 65536 :=
  ⟨1024 * t + p.val, by have := p.isLt; omega⟩

theorem rowOf_val (t : ℕ) (ht : t < 64) (p : Fin 1024) (k : Fin 4) : (rowOf t ht p k).val = 4 * (prowOf t ht p).val + k.val := rfl

end Cert.Rows
-- ==== Proof.SpecWeights.lean ====
/- The network's weights read off the programs' weight arrays: each array element by its coordinates. -/
import proofs.«136870_j44341242364139_2_alg».proof.Proof.Spec
import Idealize.ShloMosaic.Lib.ValueIdx

noncomputable section

namespace Cert.Spec

open Idealize.ShloMosaic Idealize.ShloMosaic.ValueIdx

/-- The weights as the twelve weight arrays hold them: noise layer and bias, the four scalar branches' rows,
    the first dense layer and bias, the eleven stacked layers and biases, the output layer and bias. -/
def weightsOf
    (wn : (⟨2, ![16, 64]⟩ : Shape).Idx → EReal) (bn : (⟨1, ![64]⟩ : Shape).Idx → EReal)
    (wx wy wz wr : (⟨2, ![1, 64]⟩ : Shape).Idx → EReal)
    (w1 : (⟨2, ![64, 64]⟩ : Shape).Idx → EReal) (b1 : (⟨1, ![64]⟩ : Shape).Idx → EReal)
    (wg : (⟨3, ![11, 64, 64]⟩ : Shape).Idx → EReal) (bg : (⟨2, ![11, 64]⟩ : Shape).Idx → EReal)
    (wo : (⟨2, ![64, 3]⟩ : Shape).Idx → EReal) (bo : (⟨1, ![3]⟩ : Shape).Idx → EReal) : Weights where
  Wn i j := wn (ix2 i j)
  bn j := bn (ix1 j)
  Wx j := wx (ix2 (0 : Fin 1) j)
  Wy j := wy (ix2 (0 : Fin 1) j)
  Wz j := wz (ix2 (0 : Fin 1) j)
  Wr j := wr (ix2 (0 : Fin 1) j)
  W1 i j := w1 (ix2 i j)
  b1 j := b1 (ix1 j)
  Wg l i j := wg (ix3 l i j)
  bg l j := bg (ix2 l j)
  Wo i c := wo (ix2 i c)
  bo c := bo (ix1 c)

end Cert.Spec

end
-- ==== Proof.PackedResult.lean ====
/-
  The packed result as a function of the arguments: at packed row g and column q, output q mod 3 of the network
  (read with the kernel's spellings of its activations) for logical row 4g + q / 3.
-/
import proofs.«136870_j44341242364139_2_alg».proof.Proof.Spec
import Idealize.ShloMosaic.Lib.ValueIdx

noncomputable section

namespace Cert.Packed

open Idealize.ShloMosaic Idealize.ShloMosaic.ValueIdx

/-- The logical row of packed position (g, q). -/
def rowAt (i : (⟨2, ![65536, 12]⟩ : Shape).Idx) : Fin 262144 :=
  ⟨4 * (i 0).val + (i 1).val / 3, by have := idx2_lt0 i; have := idx2_lt1 i; omega⟩

/-- The output index of packed position (g, q). -/
def outAt (i : (⟨2, ![65536, 12]⟩ : Shape).Idx) : Fin 3 := ⟨(i 1).val % 3, Nat.mod_lt _ (by norm_num)⟩

/-- The packed result. -/
def GK (a0 a1 a2 a3 : (⟨2, ![262144, 1]⟩ : Shape).Idx → EReal) (a4 : (⟨2, ![262144, 16]⟩ : Shape).Idx → EReal) (W : Cert.Spec.Weights) :
    (⟨2, ![65536, 12]⟩ : Shape).Idx → EReal := fun i =>
  Cert.Spec.out Cert.Spec.eluK Cert.Spec.spK Ideal.logistic W
    (a0 (ix2 (rowAt i) (0 : Fin 1))) (a1 (ix2 (rowAt i) (0 : Fin 1))) (a2 (ix2 (rowAt i) (0 : Fin 1))) (a3 (ix2 (rowAt i) (0 : Fin 1)))
    (fun n => a4 (ix2 (rowAt i) n)) (outAt i)

end Cert.Packed

end
-- ==== Proof.KIPrefixGen.lean ====
/-
  Four arrays of one shape laid end to end along an axis, read at an index; and the four-by-four block matrix the host
  lines build from a weight matrix and a zero matrix (the weight on the diagonal blocks), read at an index: inside a
  diagonal block it is the weight at the position within the block, elsewhere it is zero. Stated over arbitrary
  extents; the program's literal shapes are instances.
-/
import Idealize.ShloMosaic.Lib.ValueIdx
import Idealize.ShloMosaic.Lib.Pipeline.Value

set_option maxRecDepth 16384

noncomputable section

namespace Cert.KernelIdeal.HandPrefix

open Idealize.ShloMosaic Idealize.ShloMosaic.ValueIdx

/-! ## Four pieces of one shape laid end to end, read at an index -/

section Generic
variable {α : Type}

/-- A concatenation of four pieces of one shape whose extent along the axis is `K`: the piece the axis coordinate over
    `K` names, at the axis coordinate modulo `K` and the other coordinates unchanged. -/
theorem cat4_apply {t s₁ : Shape} (a : Fin t.rank) (x0 x1 x2 x3 : s₁.Idx → α)
    (h : Shape.Concatenates [s₁, s₁, s₁, s₁] t a)
    (hr : s₁.rank = t.rank) (K : Nat) (hK : s₁.size (a.cast hr.symm) = K) (j : t.Idx) (n : Fin 4) (hn : (j a).val / K = n.val)
    (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

/-- The four-by-four block matrix with `w` on the diagonal blocks and `Z` elsewhere, as the host lines build it: each
    block row is four blocks side by side, and the four block rows are stacked. -/
def blockDiag {n0 n1 N0 N1 : Nat}
    (h1 : Shape.Concatenates [(⟨2, ![n0, n1]⟩ : Shape), ⟨2, ![n0, n1]⟩, ⟨2, ![n0, n1]⟩, ⟨2, ![n0, n1]⟩] ⟨2, ![n0, N1]⟩ 1)
    (h0 : Shape.Concatenates [(⟨2, ![n0, N1]⟩ : Shape), ⟨2, ![n0, N1]⟩, ⟨2, ![n0, N1]⟩, ⟨2, ![n0, N1]⟩] ⟨2, ![N0, N1]⟩ 0)
    (w Z : (⟨2, ![n0, n1]⟩ : Shape).Idx → α) : (⟨2, ![N0, N1]⟩ : Shape).Idx → α :=
  concatenate ⟨2, ![N0, N1]⟩ 0
    [⟨⟨2, ![n0, N1]⟩, concatenate ⟨2, ![n0, N1]⟩ 1 [⟨⟨2, ![n0, n1]⟩, w⟩, ⟨⟨2, ![n0, n1]⟩, Z⟩, ⟨⟨2, ![n0, n1]⟩, Z⟩, ⟨⟨2, ![n0, n1]⟩, Z⟩] h1⟩,
     ⟨⟨2, ![n0, N1]⟩, concatenate ⟨2, ![n0, N1]⟩ 1 [⟨⟨2, ![n0, n1]⟩, Z⟩, ⟨⟨2, ![n0, n1]⟩, w⟩, ⟨⟨2, ![n0, n1]⟩, Z⟩, ⟨⟨2, ![n0, n1]⟩, Z⟩] h1⟩,
     ⟨⟨2, ![n0, N1]⟩, concatenate ⟨2, ![n0, N1]⟩ 1 [⟨⟨2, ![n0, n1]⟩, Z⟩, ⟨⟨2, ![n0, n1]⟩, Z⟩, ⟨⟨2, ![n0, n1]⟩, w⟩, ⟨⟨2, ![n0, n1]⟩, Z⟩] h1⟩,
     ⟨⟨2, ![n0, N1]⟩, concatenate ⟨2, ![n0, N1]⟩ 1 [⟨⟨2, ![n0, n1]⟩, Z⟩, ⟨⟨2, ![n0, n1]⟩, Z⟩, ⟨⟨2, ![n0, n1]⟩, Z⟩, ⟨⟨2, ![n0, n1]⟩, w⟩] h1⟩] h0

/-- Read at row `a`, column `q`: inside diagonal block `a / n0 = q / n1` it is `w` at the position within the block;
    off the diagonal it is `Z`, which is constant. -/
theorem blockDiag_apply {n0 n1 N0 N1 : Nat} (hN0 : N0 = 4 * n0) (hN1 : N1 = 4 * n1)
    (h1 : Shape.Concatenates [(⟨2, ![n0, n1]⟩ : Shape), ⟨2, ![n0, n1]⟩, ⟨2, ![n0, n1]⟩, ⟨2, ![n0, n1]⟩] ⟨2, ![n0, N1]⟩ 1)
    (h0 : Shape.Concatenates [(⟨2, ![n0, N1]⟩ : Shape), ⟨2, ![n0, N1]⟩, ⟨2, ![n0, N1]⟩, ⟨2, ![n0, N1]⟩] ⟨2, ![N0, N1]⟩ 0)
    (w Z : (⟨2, ![n0, n1]⟩ : Shape).Idx → α) (zero : α) (hZ : ∀ i, Z i = zero) (a : Fin N0) (q : Fin N1)
    (ha : a.val % n0 < n0) (hq : q.val % n1 < n1) :
    blockDiag h1 h0 w Z (ix2 a q)
      = if q.val / n1 = a.val / n0 then w (ix2 ⟨a.val % n0, ha⟩ ⟨q.val % n1, hq⟩) else zero := by
  have hka : a.val / n0 < 4 := Nat.div_lt_of_lt_mul (by have := a.isLt; omega)
  have hkq : q.val / n1 < 4 := Nat.div_lt_of_lt_mul (by have := q.isLt; omega)
  obtain ⟨k, hk⟩ : ∃ k : Fin 4, a.val / n0 = k.val := ⟨⟨_, hka⟩, rfl⟩
  obtain ⟨l, hl⟩ : ∃ l : Fin 4, q.val / n1 = l.val := ⟨⟨_, hkq⟩, rfl⟩
  rw [hk, hl]
  have inner : ∀ x0 x1 x2 x3 : (⟨2, ![n0, n1]⟩ : Shape).Idx → α,
      concatenate ⟨2, ![n0, N1]⟩ 1 [⟨⟨2, ![n0, n1]⟩, x0⟩, ⟨⟨2, ![n0, n1]⟩, x1⟩, ⟨⟨2, ![n0, n1]⟩, x2⟩, ⟨⟨2, ![n0, n1]⟩, x3⟩] h1
          (ix2 (⟨a.val % n0, ha⟩ : Fin n0) q)
        = (![x0, x1, x2, x3] : Fin 4 → (⟨2, ![n0, n1]⟩ : Shape).Idx → α) l (ix2 ⟨a.val % n0, ha⟩ ⟨q.val % n1, hq⟩) :=
    fun x0 x1 x2 x3 => cat4_apply (t := ⟨2, ![n0, N1]⟩) (s₁ := ⟨2, ![n0, n1]⟩) 1 x0 x1 x2 x3 h1 rfl n1 rfl _ l hl _ rfl
      (fun b hb => match b, hb with | ⟨0, _⟩, _ => rfl | ⟨1, _⟩, hb => absurd rfl hb)
  unfold blockDiag
  refine (cat4_apply (t := ⟨2, ![N0, N1]⟩) (s₁ := ⟨2, ![n0, N1]⟩) 0 _ _ _ _ h0 rfl n0 rfl (ix2 a q) k hk
    (ix2 (⟨a.val % n0, ha⟩ : Fin n0) q) rfl
    (fun b hb => match b, hb with | ⟨0, _⟩, hb => absurd rfl hb | ⟨1, _⟩, _ => rfl)).trans ?_
  fin_cases k <;> refine (inner _ _ _ _).trans ?_ <;> fin_cases l <;> simp [hZ]

end Generic

section Generic3
variable {α : Type}

/-- The same block matrix with a leading axis carried along: for each leading index, `w`'s slice on the diagonal blocks
    and `Z` elsewhere; the block rows are built along the last axis and stacked along the middle one. -/
def blockDiag3 {L n0 n1 N0 N1 : Nat}
    (h2 : Shape.Concatenates [(⟨3, ![L, n0, n1]⟩ : Shape), ⟨3, ![L, n0, n1]⟩, ⟨3, ![L, n0, n1]⟩, ⟨3, ![L, n0, n1]⟩] ⟨3, ![L, n0, N1]⟩ 2)
    (h1 : Shape.Concatenates [(⟨3, ![L, n0, N1]⟩ : Shape), ⟨3, ![L, n0, N1]⟩, ⟨3, ![L, n0, N1]⟩, ⟨3, ![L, n0, N1]⟩] ⟨3, ![L, N0, N1]⟩ 1)
    (w Z : (⟨3, ![L, n0, n1]⟩ : Shape).Idx → α) : (⟨3, ![L, N0, N1]⟩ : Shape).Idx → α :=
  concatenate ⟨3, ![L, N0, N1]⟩ 1
    [⟨⟨3, ![L, n0, N1]⟩, concatenate ⟨3, ![L, n0, N1]⟩ 2 [⟨⟨3, ![L, n0, n1]⟩, w⟩, ⟨⟨3, ![L, n0, n1]⟩, Z⟩, ⟨⟨3, ![L, n0, n1]⟩, Z⟩, ⟨⟨3, ![L, n0, n1]⟩, Z⟩] h2⟩,
     ⟨⟨3, ![L, n0, N1]⟩, concatenate ⟨3, ![L, n0, N1]⟩ 2 [⟨⟨3, ![L, n0, n1]⟩, Z⟩, ⟨⟨3, ![L, n0, n1]⟩, w⟩, ⟨⟨3, ![L, n0, n1]⟩, Z⟩, ⟨⟨3, ![L, n0, n1]⟩, Z⟩] h2⟩,
     ⟨⟨3, ![L, n0, N1]⟩, concatenate ⟨3, ![L, n0, N1]⟩ 2 [⟨⟨3, ![L, n0, n1]⟩, Z⟩, ⟨⟨3, ![L, n0, n1]⟩, Z⟩, ⟨⟨3, ![L, n0, n1]⟩, w⟩, ⟨⟨3, ![L, n0, n1]⟩, Z⟩] h2⟩,
     ⟨⟨3, ![L, n0, N1]⟩, concatenate ⟨3, ![L, n0, N1]⟩ 2 [⟨⟨3, ![L, n0, n1]⟩, Z⟩, ⟨⟨3, ![L, n0, n1]⟩, Z⟩, ⟨⟨3, ![L, n0, n1]⟩, Z⟩, ⟨⟨3, ![L, n0, n1]⟩, w⟩] h2⟩] h1

/-- Read at leading index `l`, row `a`, column `q`. -/
theorem blockDiag3_apply {L n0 n1 N0 N1 : Nat} (hN0 : N0 = 4 * n0) (hN1 : N1 = 4 * n1)
    (h2 : Shape.Concatenates [(⟨3, ![L, n0, n1]⟩ : Shape), ⟨3, ![L, n0, n1]⟩, ⟨3, ![L, n0, n1]⟩, ⟨3, ![L, n0, n1]⟩] ⟨3, ![L, n0, N1]⟩ 2)
    (h1 : Shape.Concatenates [(⟨3, ![L, n0, N1]⟩ : Shape), ⟨3, ![L, n0, N1]⟩, ⟨3, ![L, n0, N1]⟩, ⟨3, ![L, n0, N1]⟩] ⟨3, ![L, N0, N1]⟩ 1)
    (w Z : (⟨3, ![L, n0, n1]⟩ : Shape).Idx → α) (zero : α) (hZ : ∀ i, Z i = zero) (l : Fin L) (a : Fin N0) (q : Fin N1)
    (ha : a.val % n0 < n0) (hq : q.val % n1 < n1) :
    blockDiag3 h2 h1 w Z (ix3 l a q)
      = if q.val / n1 = a.val / n0 then w (ix3 l ⟨a.val % n0, ha⟩ ⟨q.val % n1, hq⟩) else zero := by
  have hka : a.val / n0 < 4 := Nat.div_lt_of_lt_mul (by have := a.isLt; omega)
  have hkq : q.val / n1 < 4 := Nat.div_lt_of_lt_mul (by have := q.isLt; omega)
  obtain ⟨k, hk⟩ : ∃ k : Fin 4, a.val / n0 = k.val := ⟨⟨_, hka⟩, rfl⟩
  obtain ⟨p, hp⟩ : ∃ p : Fin 4, q.val / n1 = p.val := ⟨⟨_, hkq⟩, rfl⟩
  rw [hk, hp]
  have inner : ∀ x0 x1 x2 x3 : (⟨3, ![L, n0, n1]⟩ : Shape).Idx → α,
      concatenate ⟨3, ![L, n0, N1]⟩ 2 [⟨⟨3, ![L, n0, n1]⟩, x0⟩, ⟨⟨3, ![L, n0, n1]⟩, x1⟩, ⟨⟨3, ![L, n0, n1]⟩, x2⟩, ⟨⟨3, ![L, n0, n1]⟩, x3⟩] h2
          (ix3 l (⟨a.val % n0, ha⟩ : Fin n0) q)
        = (![x0, x1, x2, x3] : Fin 4 → (⟨3, ![L, n0, n1]⟩ : Shape).Idx → α) p (ix3 l ⟨a.val % n0, ha⟩ ⟨q.val % n1, hq⟩) :=
    fun x0 x1 x2 x3 => cat4_apply (t := ⟨3, ![L, n0, N1]⟩) (s₁ := ⟨3, ![L, n0, n1]⟩) 2 x0 x1 x2 x3 h2 rfl n1 rfl _ p hp _ rfl
      (fun b hb => match b, hb with | ⟨0, _⟩, _ => rfl | ⟨1, _⟩, _ => rfl | ⟨2, _⟩, hb => absurd rfl hb)
  unfold blockDiag3
  refine (cat4_apply (t := ⟨3, ![L, N0, N1]⟩) (s₁ := ⟨3, ![L, n0, N1]⟩) 1 _ _ _ _ h1 rfl n0 rfl (ix3 l a q) k hk
    (ix3 l (⟨a.val % n0, ha⟩ : Fin n0) q) rfl
    (fun b hb => match b, hb with | ⟨0, _⟩, _ => rfl | ⟨1, _⟩, hb => absurd rfl hb | ⟨2, _⟩, _ => rfl)).trans ?_
  fin_cases k <;> refine (inner _ _ _ _).trans ?_ <;> fin_cases p <;> simp [hZ]

end Generic3

end Cert.KernelIdeal.HandPrefix

end
-- ==== Proof.KIPrefixA.lean ====
/-
  What the region finds in the block-diagonal weight arrays, read at an index. The host lines build, from a weight matrix
  W of extents [A, B], the matrix of extents [4A, 4B] with W on the four diagonal blocks and zero elsewhere (each block row
  is W and three zero matrices side by side, the four block rows are stacked), and convert it to the narrower format,
  which is the identity on extended reals. So row a, column q holds W at (a mod A, q mod B) when q / B = a / A and zero
  otherwise. For the four row weights A = 1: row a holds the weights in its own B lanes.
-/
import proofs.«136870_j44341242364139_2_alg».proof.Proof.KIFrameA
import proofs.«136870_j44341242364139_2_alg».proof.Proof.KIPrefixGen
import Idealize.ShloMosaic.Lib.ValueIdx
import Idealize.ShloMosaic.Lib.Pipeline.Value

set_option maxRecDepth 16384

noncomputable section

namespace Cert.KernelIdeal.HandPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-! ## The zero blocks -/

/-- The printed zero constant, broadcast to [1, 64], reads the extended real 0. -/
theorem zero1x64_apply (i : S1x64.Idx) :
    broadcastInDim S1x64 ![] bcast_S_S1x64 (constant (F := Ideal) S_ .f32 0x00000000#32) i = (0 : EReal) := by
  show Ideal.ofBits .f32 0x00000000#32 = 0
  simp [Ideal.ofBits, Ideal.ieee]

/-- The printed zero constant, broadcast to [16, 64], reads the extended real 0. -/
theorem zero16x64_apply (i : S16x64.Idx) :
    broadcastInDim S16x64 ![] bcast_S_S16x64 (constant (F := Ideal) S_ .f32 0x00000000#32) i = (0 : EReal) := by
  show Ideal.ofBits .f32 0x00000000#32 = 0
  simp [Ideal.ofBits, Ideal.ieee]

/-- The printed zero constant, broadcast to [64, 64], reads the extended real 0. -/
theorem zero64x64_apply (i : S64x64.Idx) :
    broadcastInDim S64x64 ![] bcast_S_S64x64 (constant (F := Ideal) S_ .f32 0x00000000#32) i = (0 : EReal) := by
  show Ideal.ofBits .f32 0x00000000#32 = 0
  simp [Ideal.ofBits, Ideal.ieee]

/-- The printed zero constant, broadcast to [64, 3], reads the extended real 0. -/
theorem zero64x3_apply (i : S64x3.Idx) :
    broadcastInDim S64x3 ![] bcast_S_S64x3 (constant (F := Ideal) S_ .f32 0x00000000#32) i = (0 : EReal) := by
  show Ideal.ofBits .f32 0x00000000#32 = 0
  simp [Ideal.ofBits, Ideal.ieee]

/-! ## The four row weights: [1, 64] → [4, 256] -/

set_option maxHeartbeats 4000000 in
/-- What the region finds in the array: the block matrix of argument 7 and the zero matrix, converted. -/
theorem term_v14 (c : Dev nD) : (V m c main_v14 : S4x256.Idx → EReal) =
    truncf .bf16 (blockDiag concatenates_S1x64_S1x64_S1x64_S1x64_S1x256_d1 concatenates_S1x256_S1x256_S1x256_S1x256_S4x256_d0
      (m ((c : Thread nD τ).loc main_arg7) : S1x64.Idx → EReal)
      (broadcastInDim S1x64 ![] bcast_S_S1x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Row `a` of the packed row weights holds the weights in its own 64 lanes and zero elsewhere. -/
theorem read_v14 (c : Dev nD) (a : Fin 4) (q : Fin 256) :
    (V m c main_v14 : S4x256.Idx → EReal) (ix2 a q)
      = if q.val / 64 = a.val then (m ((c : Thread nD τ).loc main_arg7) : S1x64.Idx → EReal) (ix2 (0 : Fin 1) (⟨q.val % 64, by omega⟩ : Fin 64))
        else (0 : EReal) := by
  refine (congrFun (term_v14 m c) (ix2 a q)).trans ?_
  refine (truncf_apply (φ := .f32) (ψ := .bf16) _ bitsLt_bf16_f32 _).trans ?_
  refine (blockDiag_apply (n0 := 1) (n1 := 64) rfl rfl _ _ _ _ (0 : EReal) zero1x64_apply a q (by omega) (by omega)).trans ?_
  simp only [Nat.div_one, Nat.mod_one]
  rfl

set_option maxHeartbeats 4000000 in
/-- What the region finds in the array: the block matrix of argument 8 and the zero matrix, converted. -/
theorem term_v24 (c : Dev nD) : (V m c main_v24 : S4x256.Idx → EReal) =
    truncf .bf16 (blockDiag concatenates_S1x64_S1x64_S1x64_S1x64_S1x256_d1 concatenates_S1x256_S1x256_S1x256_S1x256_S4x256_d0
      (m ((c : Thread nD τ).loc main_arg8) : S1x64.Idx → EReal)
      (broadcastInDim S1x64 ![] bcast_S_S1x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Row `a` of the packed row weights holds the weights in its own 64 lanes and zero elsewhere. -/
theorem read_v24 (c : Dev nD) (a : Fin 4) (q : Fin 256) :
    (V m c main_v24 : S4x256.Idx → EReal) (ix2 a q)
      = if q.val / 64 = a.val then (m ((c : Thread nD τ).loc main_arg8) : S1x64.Idx → EReal) (ix2 (0 : Fin 1) (⟨q.val % 64, by omega⟩ : Fin 64))
        else (0 : EReal) := by
  refine (congrFun (term_v24 m c) (ix2 a q)).trans ?_
  refine (truncf_apply (φ := .f32) (ψ := .bf16) _ bitsLt_bf16_f32 _).trans ?_
  refine (blockDiag_apply (n0 := 1) (n1 := 64) rfl rfl _ _ _ _ (0 : EReal) zero1x64_apply a q (by omega) (by omega)).trans ?_
  simp only [Nat.div_one, Nat.mod_one]
  rfl

set_option maxHeartbeats 4000000 in
/-- What the region finds in the array: the block matrix of argument 9 and the zero matrix, converted. -/
theorem term_v34 (c : Dev nD) : (V m c main_v34 : S4x256.Idx → EReal) =
    truncf .bf16 (blockDiag concatenates_S1x64_S1x64_S1x64_S1x64_S1x256_d1 concatenates_S1x256_S1x256_S1x256_S1x256_S4x256_d0
      (m ((c : Thread nD τ).loc main_arg9) : S1x64.Idx → EReal)
      (broadcastInDim S1x64 ![] bcast_S_S1x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Row `a` of the packed row weights holds the weights in its own 64 lanes and zero elsewhere. -/
theorem read_v34 (c : Dev nD) (a : Fin 4) (q : Fin 256) :
    (V m c main_v34 : S4x256.Idx → EReal) (ix2 a q)
      = if q.val / 64 = a.val then (m ((c : Thread nD τ).loc main_arg9) : S1x64.Idx → EReal) (ix2 (0 : Fin 1) (⟨q.val % 64, by omega⟩ : Fin 64))
        else (0 : EReal) := by
  refine (congrFun (term_v34 m c) (ix2 a q)).trans ?_
  refine (truncf_apply (φ := .f32) (ψ := .bf16) _ bitsLt_bf16_f32 _).trans ?_
  refine (blockDiag_apply (n0 := 1) (n1 := 64) rfl rfl _ _ _ _ (0 : EReal) zero1x64_apply a q (by omega) (by omega)).trans ?_
  simp only [Nat.div_one, Nat.mod_one]
  rfl

set_option maxHeartbeats 4000000 in
/-- What the region finds in the array: the block matrix of argument 10 and the zero matrix, converted. -/
theorem term_v44 (c : Dev nD) : (V m c main_v44 : S4x256.Idx → EReal) =
    truncf .bf16 (blockDiag concatenates_S1x64_S1x64_S1x64_S1x64_S1x256_d1 concatenates_S1x256_S1x256_S1x256_S1x256_S4x256_d0
      (m ((c : Thread nD τ).loc main_arg10) : S1x64.Idx → EReal)
      (broadcastInDim S1x64 ![] bcast_S_S1x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Row `a` of the packed row weights holds the weights in its own 64 lanes and zero elsewhere. -/
theorem read_v44 (c : Dev nD) (a : Fin 4) (q : Fin 256) :
    (V m c main_v44 : S4x256.Idx → EReal) (ix2 a q)
      = if q.val / 64 = a.val then (m ((c : Thread nD τ).loc main_arg10) : S1x64.Idx → EReal) (ix2 (0 : Fin 1) (⟨q.val % 64, by omega⟩ : Fin 64))
        else (0 : EReal) := by
  refine (congrFun (term_v44 m c) (ix2 a q)).trans ?_
  refine (truncf_apply (φ := .f32) (ψ := .bf16) _ bitsLt_bf16_f32 _).trans ?_
  refine (blockDiag_apply (n0 := 1) (n1 := 64) rfl rfl _ _ _ _ (0 : EReal) zero1x64_apply a q (by omega) (by omega)).trans ?_
  simp only [Nat.div_one, Nat.mod_one]
  rfl

/-! ## The first layer's weight: [16, 64] → [64, 256] -/

set_option maxHeartbeats 4000000 in
/-- What the region finds in the array: the block matrix of argument 5 and the zero matrix, converted. -/
theorem term_v54 (c : Dev nD) : (V m c main_v54 : S64x256.Idx → EReal) =
    truncf .bf16 (blockDiag concatenates_S16x64_S16x64_S16x64_S16x64_S16x256_d1 concatenates_S16x256_S16x256_S16x256_S16x256_S64x256_d0
      (m ((c : Thread nD τ).loc main_arg5) : S16x64.Idx → EReal)
      (broadcastInDim S16x64 ![] bcast_S_S16x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Inside diagonal block `q / 64 = a / 16` the weight at the position within the block; zero elsewhere. -/
theorem read_v54 (c : Dev nD) (a : Fin 64) (q : Fin 256) :
    (V m c main_v54 : S64x256.Idx → EReal) (ix2 a q)
      = if q.val / 64 = a.val / 16 then (m ((c : Thread nD τ).loc main_arg5) : S16x64.Idx → EReal) (ix2 (⟨a.val % 16, by omega⟩ : Fin 16) (⟨q.val % 64, by omega⟩ : Fin 64))
        else (0 : EReal) := by
  refine (congrFun (term_v54 m c) (ix2 a q)).trans ?_
  refine (truncf_apply (φ := .f32) (ψ := .bf16) _ bitsLt_bf16_f32 _).trans ?_
  exact blockDiag_apply (n0 := 16) (n1 := 64) rfl rfl _ _ _ _ (0 : EReal) zero16x64_apply a q (by omega) (by omega)

/-! ## The second layer's weight: [64, 64] → [256, 256] -/

set_option maxHeartbeats 4000000 in
/-- What the region finds in the array: the block matrix of argument 11 and the zero matrix, converted. -/
theorem term_v68 (c : Dev nD) : (V m c main_v68 : S256x256.Idx → EReal) =
    truncf .bf16 (blockDiag concatenates_S64x64_S64x64_S64x64_S64x64_S64x256_d1 concatenates_S64x256_S64x256_S64x256_S64x256_S256x256_d0
      (m ((c : Thread nD τ).loc main_arg11) : S64x64.Idx → EReal)
      (broadcastInDim S64x64 ![] bcast_S_S64x64 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Inside diagonal block `q / 64 = a / 64` the weight at the position within the block; zero elsewhere. -/
theorem read_v68 (c : Dev nD) (a : Fin 256) (q : Fin 256) :
    (V m c main_v68 : S256x256.Idx → EReal) (ix2 a q)
      = if q.val / 64 = a.val / 64 then (m ((c : Thread nD τ).loc main_arg11) : S64x64.Idx → EReal) (ix2 (⟨a.val % 64, by omega⟩ : Fin 64) (⟨q.val % 64, by omega⟩ : Fin 64))
        else (0 : EReal) := by
  refine (congrFun (term_v68 m c) (ix2 a q)).trans ?_
  refine (truncf_apply (φ := .f32) (ψ := .bf16) _ bitsLt_bf16_f32 _).trans ?_
  exact blockDiag_apply (n0 := 64) (n1 := 64) rfl rfl _ _ _ _ (0 : EReal) zero64x64_apply a q (by omega) (by omega)

/-! ## The output layer's weight: [64, 3] → [256, 12] -/

set_option maxHeartbeats 4000000 in
/-- What the region finds in the array: the block matrix of argument 15 and the zero matrix, converted. -/
theorem term_v107 (c : Dev nD) : (V m c main_v107 : S256x12.Idx → EReal) =
    truncf .bf16 (blockDiag concatenates_S64x3_S64x3_S64x3_S64x3_S64x12_d1 concatenates_S64x12_S64x12_S64x12_S64x12_S256x12_d0
      (m ((c : Thread nD τ).loc main_arg15) : S64x3.Idx → EReal)
      (broadcastInDim S64x3 ![] bcast_S_S64x3 (constant (F := Ideal) S_ .f32 0x00000000#32))) bitsLt_bf16_f32 := by
  dsimp only [V, V0]
  simp only [hostOps0, List.flatten_cons, List.flatten_nil, List.append_nil, List.cons_append, List.nil_append]
  after_results_simp
  rfl

/-- Inside diagonal block `q / 3 = a / 64` the weight at the position within the block; zero elsewhere. -/
theorem read_v107 (c : Dev nD) (a : Fin 256) (q : Fin 12) :
    (V m c main_v107 : S256x12.Idx → EReal) (ix2 a q)
      = if q.val / 3 = a.val / 64 then (m ((c : Thread nD τ).loc main_arg15) : S64x3.Idx → EReal) (ix2 (⟨a.val % 64, by omega⟩ : Fin 64) (⟨q.val % 3, by omega⟩ : Fin 3))
        else (0 : EReal) := by
  refine (congrFun (term_v107 m c) (ix2 a q)).trans ?_
  refine (truncf_apply (φ := .f32) (ψ := .bf16) _ bitsLt_bf16_f32 _).trans ?_
  exact blockDiag_apply (n0 := 64) (n1 := 3) rfl rfl _ _ _ _ (0 : EReal) zero64x3_apply a q (by omega) (by omega)

end Cert.KernelIdeal.HandPrefix

end
-- ==== Proof.KIPrefixB.lean ====
/-
  What the region finds in the re-laid per-point inputs and the repeated biases, read at an index. A reshape keeps the
  row-major position, so [262144, C] read as [65536, 4C] puts logical row 4g + q / C, column q mod C at packed row g,
  lane q. A bias of extent B is read as one row, repeated on four rows, and read again as one row of 4B lanes: lane q
  holds the bias at q mod B. The per-layer biases [11, 64] go the same way with the layer index carried along.
-/
import proofs.«136870_j44341242364139_2_alg».proof.Proof.KIFrameA

import Idealize.ShloMosaic.Lib.ValueIdx
import Idealize.ShloMosaic.Lib.Pipeline.Value

set_option maxRecDepth 16384

noncomputable section

namespace Cert.KernelIdeal.HandPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-! ## Reshapes read at an index (no program in sight) -/

/-- [262144, 1] read as [65536, 4]: packed row `g`, lane `k` is logical row `4 g + k`. -/
theorem pack4_apply (x : S262144x1.Idx → EReal) (g : Fin 65536) (k : Fin 4) :
    shapeCast S65536x4 x shapeCasts_S262144x1_S65536x4 (ix2 g k)
      = x (ix2 (⟨4 * g.val + k.val, by omega⟩ : Fin 262144) (0 : Fin 1)) := by
  refine shapeCast_apply x _ _ _ ?_
  rw [Shape.rowMajor_val_two, Shape.rowMajor_val_two]
  show (4 * g.val + k.val) * 1 + 0 = g.val * 4 + k.val
  omega

/-- [262144, 16] read as [65536, 64]: packed row `g`, lane `q` is logical row `4 g + q / 16`, column `q mod 16`. -/
theorem pack4x16_apply (x : S262144x16.Idx → EReal) (g : Fin 65536) (q : Fin 64) :
    shapeCast S65536x64 x shapeCasts_S262144x16_S65536x64 (ix2 g q)
      = x (ix2 (⟨4 * g.val + q.val / 16, by omega⟩ : Fin 262144) (⟨q.val % 16, by omega⟩ : Fin 16)) := by
  refine shapeCast_apply x _ _ _ ?_
  rw [Shape.rowMajor_val_two, Shape.rowMajor_val_two]
  show (4 * g.val + q.val / 16) * 16 + q.val % 16 = g.val * 64 + q.val
  omega

/-- A bias of 64 entries read as a row, repeated on four rows and read as one row of 256 lanes: lane `q` holds entry
    `q mod 64`. -/
theorem tile64_apply (x : S64.Idx → EReal) (q : Fin 256) :
    shapeCast S1x256 (shapeCast S256 (broadcastInDim S4x64 ![0, 1] bcast_S1x64_S4x64_0_1 (shapeCast S1x64 x shapeCasts_S64_S1x64))
        shapeCasts_S4x64_S256) shapeCasts_S256_S1x256 (ix2 (0 : Fin 1) q)
      = x (ix1 (⟨q.val % 64, by omega⟩ : Fin 64)) := by
  refine (shapeCast_apply _ _ _ (ix1 q) ?_).trans ?_
  · rw [Shape.rowMajor_val_one, Shape.rowMajor_val_two]
    show q.val = 0 * 256 + q.val
    omega
  refine (shapeCast_apply _ _ _ (ix2 (⟨q.val / 64, by omega⟩ : Fin 4) (⟨q.val % 64, by omega⟩ : Fin 64)) ?_).trans ?_
  · rw [Shape.rowMajor_val_two, Shape.rowMajor_val_one]
    show q.val / 64 * 64 + q.val % 64 = q.val
    omega
  refine (broadcastInDim_apply _ _ _ _ (ix2 (0 : Fin 1) (⟨q.val % 64, by omega⟩ : Fin 64)) ?_).trans ?_
  · intro a
    match a with
    | ⟨0, _⟩ => rfl
    | ⟨1, _⟩ => rfl
  refine shapeCast_apply _ _ _ (ix1 (⟨q.val % 64, by omega⟩ : Fin 64)) ?_
  rw [Shape.rowMajor_val_one, Shape.rowMajor_val_two]
  show q.val % 64 = 0 * 64 + q.val % 64
  omega

/-- A bias of 3 entries read as a row, repeated on four rows and read as one row of 12 lanes: lane `q` holds entry
    `q mod 3`. -/
theorem tile3_apply (x : S3.Idx → EReal) (q : Fin 12) :
    shapeCast S1x12 (shapeCast S12 (broadcastInDim S4x3 ![0, 1] bcast_S1x3_S4x3_0_1 (shapeCast S1x3 x shapeCasts_S3_S1x3))
        shapeCasts_S4x3_S12) shapeCasts_S12_S1x12 (ix2 (0 : Fin 1) q)
      = x (ix1 (⟨q.val % 3, by omega⟩ : Fin 3)) := by
  refine (shapeCast_apply _ _ _ (ix1 q) ?_).trans ?_
  · rw [Shape.rowMajor_val_one, Shape.rowMajor_val_two]
    show q.val = 0 * 12 + q.val
    omega
  refine (shapeCast_apply _ _ _ (ix2 (⟨q.val / 3, by omega⟩ : Fin 4) (⟨q.val % 3, by omega⟩ : Fin 3)) ?_).trans ?_
  · rw [Shape.rowMajor_val_two, Shape.rowMajor_val_one]
    show q.val / 3 * 3 + q.val % 3 = q.val
    omega
  refine (broadcastInDim_apply _ _ _ _ (ix2 (0 : Fin 1) (⟨q.val % 3, by omega⟩ : Fin 3)) ?_).trans ?_
  · intro a
    match a with
    | ⟨0, _⟩ => rfl
    | ⟨1, _⟩ => rfl
  refine shapeCast_apply _ _ _ (ix1 (⟨q.val % 3, by omega⟩ : Fin 3)) ?_
  rw [Shape.rowMajor_val_one, Shape.rowMajor_val_two]
  show q.val % 3 = 0 * 3 + q.val % 3
  omega

/-- The per-layer biases [11, 64] read as [1, 11, 1, 64], repeated four times along the third axis and read as
    [11, 256]: layer `l`, lane `q` holds the layer's entry `q mod 64`. -/
theorem tile11x64_apply (x : S11x64.Idx → EReal) (l : Fin 11) (q : Fin 256) :
    shapeCast S11x256 (broadcastInDim S1x11x4x64 ![0, 1, 2, 3] bcast_S1x11x1x64_S1x11x4x64_0_1_2_3
        (shapeCast S1x11x1x64 x shapeCasts_S11x64_S1x11x1x64)) shapeCasts_S1x11x4x64_S11x256 (ix2 l q)
      = x (ix2 l (⟨q.val % 64, by omega⟩ : Fin 64)) := by
  refine (shapeCast_apply _ _ _ (ix4 (0 : Fin 1) l (⟨q.val / 64, by omega⟩ : Fin 4) (⟨q.val % 64, by omega⟩ : Fin 64)) ?_).trans ?_
  · rw [Shape.rowMajor_val_four, Shape.rowMajor_val_two]
    show ((0 * 11 + l.val) * 4 + q.val / 64) * 64 + q.val % 64 = l.val * 256 + q.val
    omega
  refine (broadcastInDim_apply _ _ _ _ (ix4 (0 : Fin 1) l (0 : Fin 1) (⟨q.val % 64, by omega⟩ : Fin 64)) ?_).trans ?_
  · intro a
    match a with
    | ⟨0, _⟩ => rfl
    | ⟨1, _⟩ => rfl
    | ⟨2, _⟩ => rfl
    | ⟨3, _⟩ => rfl
  refine shapeCast_apply _ _ _ (ix2 l (⟨q.val % 64, by omega⟩ : Fin 64)) ?_
  rw [Shape.rowMajor_val_two, Shape.rowMajor_val_four]
  show l.val * 64 + q.val % 64 = ((0 * 11 + l.val) * 1 + 0) * 64 + q.val % 64
  omega

/-! ## The per-point inputs -/

set_option maxHeartbeats 4000000 in
/-- What the region finds in the array: argument 0 re-read four rows to a packed row. -/
theorem term_v0 (c : Dev nD) : (V m c main_v0 : S65536x4.Idx → EReal) =
    shapeCast S65536x4 (m ((c : Thread nD τ).loc main_arg0) : S262144x1.Idx → EReal) shapeCasts_S262144x1_S65536x4 := by
  dsimp only [V, V0]
  simp only [hostOps0, List.flatten_cons, List.flatten_nil, List.append_nil, List.cons_append, List.nil_append]
  after_results_simp
  rfl

/-- Packed row `g`, lane `k` holds the input of logical row `4 g + k`. -/
theorem read_v0 (c : Dev nD) (g : Fin 65536) (k : Fin 4) :
    (V m c main_v0 : S65536x4.Idx → EReal) (ix2 g k)
      = (m ((c : Thread nD τ).loc main_arg0) : S262144x1.Idx → EReal) (ix2 (⟨4 * g.val + k.val, by omega⟩ : Fin 262144) (0 : Fin 1)) :=
  (congrFun (term_v0 m c) (ix2 g k)).trans (pack4_apply _ g k)

set_option maxHeartbeats 4000000 in
/-- What the region finds in the array: argument 1 re-read four rows to a packed row. -/
theorem term_v1 (c : Dev nD) : (V m c main_v1 : S65536x4.Idx → EReal) =
    shapeCast S65536x4 (m ((c : Thread nD τ).loc main_arg1) : S262144x1.Idx → EReal) shapeCasts_S262144x1_S65536x4 := by
  dsimp only [V, V0]
  simp only [hostOps0, List.flatten_cons, List.flatten_nil, List.append_nil, List.cons_append, List.nil_append]
  after_results_simp
  rfl

/-- Packed row `g`, lane `k` holds the input of logical row `4 g + k`. -/
theorem read_v1 (c : Dev nD) (g : Fin 65536) (k : Fin 4) :
    (V m c main_v1 : S65536x4.Idx → EReal) (ix2 g k)
      = (m ((c : Thread nD τ).loc main_arg1) : S262144x1.Idx → EReal) (ix2 (⟨4 * g.val + k.val, by omega⟩ : Fin 262144) (0 : Fin 1)) :=
  (congrFun (term_v1 m c) (ix2 g k)).trans (pack4_apply _ g k)

set_option maxHeartbeats 4000000 in
/-- What the region finds in the array: argument 2 re-read four rows to a packed row. -/
theorem term_v2 (c : Dev nD) : (V m c main_v2 : S65536x4.Idx → EReal) =
    shapeCast S65536x4 (m ((c : Thread nD τ).loc main_arg2) : S262144x1.Idx → EReal) shapeCasts_S262144x1_S65536x4 := by
  dsimp only [V, V0]
  simp only [hostOps0, List.flatten_cons, List.flatten_nil, List.append_nil, List.cons_append, List.nil_append]
  after_results_simp
  rfl

/-- Packed row `g`, lane `k` holds the input of logical row `4 g + k`. -/
theorem read_v2 (c : Dev nD) (g : Fin 65536) (k : Fin 4) :
    (V m c main_v2 : S65536x4.Idx → EReal) (ix2 g k)
      = (m ((c : Thread nD τ).loc main_arg2) : S262144x1.Idx → EReal) (ix2 (⟨4 * g.val + k.val, by omega⟩ : Fin 262144) (0 : Fin 1)) :=
  (congrFun (term_v2 m c) (ix2 g k)).trans (pack4_apply _ g k)

set_option maxHeartbeats 4000000 in
/-- What the region finds in the array: argument 3 re-read four rows to a packed row. -/
theorem term_v3 (c : Dev nD) : (V m c main_v3 : S65536x4.Idx → EReal) =
    shapeCast S65536x4 (m ((c : Thread nD τ).loc main_arg3) : S262144x1.Idx → EReal) shapeCasts_S262144x1_S65536x4 := by
  dsimp only [V, V0]
  simp only [hostOps0, List.flatten_cons, List.flatten_nil, List.append_nil, List.cons_append, List.nil_append]
  after_results_simp
  rfl

/-- Packed row `g`, lane `k` holds the input of logical row `4 g + k`. -/
theorem read_v3 (c : Dev nD) (g : Fin 65536) (k : Fin 4) :
    (V m c main_v3 : S65536x4.Idx → EReal) (ix2 g k)
      = (m ((c : Thread nD τ).loc main_arg3) : S262144x1.Idx → EReal) (ix2 (⟨4 * g.val + k.val, by omega⟩ : Fin 262144) (0 : Fin 1)) :=
  (congrFun (term_v3 m c) (ix2 g k)).trans (pack4_apply _ g k)

set_option maxHeartbeats 4000000 in
/-- What the region finds in the array: argument 4 re-read four rows to a packed row. -/
theorem term_v4 (c : Dev nD) : (V m c main_v4 : S65536x64.Idx → EReal) =
    shapeCast S65536x64 (m ((c : Thread nD τ).loc main_arg4) : S262144x16.Idx → EReal) shapeCasts_S262144x16_S65536x64 := by
  dsimp only [V, V0]
  simp only [hostOps0, List.flatten_cons, List.flatten_nil, List.append_nil, List.cons_append, List.nil_append]
  after_results_simp
  rfl

/-- Packed row `g`, lane `q` holds the noise of logical row `4 g + q / 16`, column `q mod 16`. -/
theorem read_v4 (c : Dev nD) (g : Fin 65536) (q : Fin 64) :
    (V m c main_v4 : S65536x64.Idx → EReal) (ix2 g q)
      = (m ((c : Thread nD τ).loc main_arg4) : S262144x16.Idx → EReal)
          (ix2 (⟨4 * g.val + q.val / 16, by omega⟩ : Fin 262144) (⟨q.val % 16, by omega⟩ : Fin 16)) :=
  (congrFun (term_v4 m c) (ix2 g q)).trans (pack4x16_apply _ g q)

/-! ## The repeated biases -/

set_option maxHeartbeats 4000000 in
/-- What the region finds in the array: argument 6 repeated four times along its row. -/
theorem term_v58 (c : Dev nD) : (V m c main_v58 : S1x256.Idx → EReal) =
    shapeCast S1x256 (shapeCast S256 (broadcastInDim S4x64 ![0, 1] bcast_S1x64_S4x64_0_1
        (shapeCast S1x64 (m ((c : Thread nD τ).loc main_arg6) : S64.Idx → EReal) shapeCasts_S64_S1x64))
      shapeCasts_S4x64_S256) shapeCasts_S256_S1x256 := by
  dsimp only [V, V0]
  simp only [hostOps0, List.flatten_cons, List.flatten_nil, List.append_nil, List.cons_append, List.nil_append]
  after_results_simp
  rfl

/-- Lane `q` holds the bias at `q mod 64`. -/
theorem read_v58 (c : Dev nD) (q : Fin 256) :
    (V m c main_v58 : S1x256.Idx → EReal) (ix2 (0 : Fin 1) q)
      = (m ((c : Thread nD τ).loc main_arg6) : S64.Idx → EReal) (ix1 (⟨q.val % 64, by omega⟩ : Fin 64)) :=
  (congrFun (term_v58 m c) (ix2 (0 : Fin 1) q)).trans (tile64_apply _ q)

set_option maxHeartbeats 4000000 in
/-- What the region finds in the array: argument 12 repeated four times along its row. -/
theorem term_v72 (c : Dev nD) : (V m c main_v72 : S1x256.Idx → EReal) =
    shapeCast S1x256 (shapeCast S256 (broadcastInDim S4x64 ![0, 1] bcast_S1x64_S4x64_0_1
        (shapeCast S1x64 (m ((c : Thread nD τ).loc main_arg12) : S64.Idx → EReal) shapeCasts_S64_S1x64))
      shapeCasts_S4x64_S256) shapeCasts_S256_S1x256 := by
  dsimp only [V, V0]
  simp only [hostOps0, List.flatten_cons, List.flatten_nil, List.append_nil, List.cons_append, List.nil_append]
  after_results_simp
  rfl

/-- Lane `q` holds the bias at `q mod 64`. -/
theorem read_v72 (c : Dev nD) (q : Fin 256) :
    (V m c main_v72 : S1x256.Idx → EReal) (ix2 (0 : Fin 1) q)
      = (m ((c : Thread nD τ).loc main_arg12) : S64.Idx → EReal) (ix1 (⟨q.val % 64, by omega⟩ : Fin 64)) :=
  (congrFun (term_v72 m c) (ix2 (0 : Fin 1) q)).trans (tile64_apply _ q)

set_option maxHeartbeats 4000000 in
/-- What the region finds in the array: argument 14 repeated four times along each layer's row. -/
theorem term_v97 (c : Dev nD) : (V m c main_v97 : S11x256.Idx → EReal) =
    shapeCast S11x256 (broadcastInDim S1x11x4x64 ![0, 1, 2, 3] bcast_S1x11x1x64_S1x11x4x64_0_1_2_3
        (shapeCast S1x11x1x64 (m ((c : Thread nD τ).loc main_arg14) : S11x64.Idx → EReal) shapeCasts_S11x64_S1x11x1x64))
      shapeCasts_S1x11x4x64_S11x256 := by
  dsimp only [V, V0]
  simp only [hostOps0, List.flatten_cons, List.flatten_nil, List.append_nil, List.cons_append, List.nil_append]
  after_results_simp
  rfl

/-- Layer `l`, lane `q` holds the layer's bias at `q mod 64`. -/
theorem read_v97 (c : Dev nD) (l : Fin 11) (q : Fin 256) :
    (V m c main_v97 : S11x256.Idx → EReal) (ix2 l q)
      = (m ((c : Thread nD τ).loc main_arg14) : S11x64.Idx → EReal) (ix2 l (⟨q.val % 64, by omega⟩ : Fin 64)) :=
  (congrFun (term_v97 m c) (ix2 l q)).trans (tile11x64_apply _ l q)

set_option maxHeartbeats 4000000 in
/-- What the region finds in the array: argument 16 repeated four times along its row. -/
theorem term_v111 (c : Dev nD) : (V m c main_v111 : S1x12.Idx → EReal) =
    shapeCast S1x12 (shapeCast S12 (broadcastInDim S4x3 ![0, 1] bcast_S1x3_S4x3_0_1
        (shapeCast S1x3 (m ((c : Thread nD τ).loc main_arg16) : S3.Idx → EReal) shapeCasts_S3_S1x3))
      shapeCasts_S4x3_S12) shapeCasts_S12_S1x12 := by
  dsimp only [V, V0]
  simp only [hostOps0, List.flatten_cons, List.flatten_nil, List.append_nil, List.cons_append, List.nil_append]
  after_results_simp
  rfl

/-- Lane `q` holds the bias at `q mod 3`. -/
theorem read_v111 (c : Dev nD) (q : Fin 12) :
    (V m c main_v111 : S1x12.Idx → EReal) (ix2 (0 : Fin 1) q)
      = (m ((c : Thread nD τ).loc main_arg16) : S3.Idx → EReal) (ix1 (⟨q.val % 3, by omega⟩ : Fin 3)) :=
  (congrFun (term_v111 m c) (ix2 (0 : Fin 1) q)).trans (tile3_apply _ q)

end Cert.KernelIdeal.HandPrefix

end
-- ==== Proof.KIPrefixC.lean ====
/-
  What the region finds in the block-diagonal per-layer weights, read at an index. For each of the eleven layers the host
  lines place the layer's [64, 64] weight on the four diagonal blocks of a [256, 256] matrix whose other blocks are zero
  (the zero matrix is a zero constant broadcast to [64, 64] and then to every layer), and convert to the narrower format,
  the identity on extended reals. So layer l, row a, column q holds the layer's weight at (a mod 64, q mod 64) when
  q / 64 = a / 64 and zero otherwise.
-/
import proofs.«136870_j44341242364139_2_alg».proof.Proof.KIFrameA
import proofs.«136870_j44341242364139_2_alg».proof.Proof.KIPrefixGen
import Idealize.ShloMosaic.Lib.ValueIdx
import Idealize.ShloMosaic.Lib.Pipeline.Value

set_option maxRecDepth 16384

noncomputable section

namespace Cert.KernelIdeal.HandPrefix

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-- The printed zero constant, broadcast to [64, 64] and then to every layer, reads the extended real 0. -/
theorem zero11x64x64_apply (i : S11x64x64.Idx) :
    broadcastInDim S11x64x64 ![1, 2] bcast_S64x64_S11x64x64_1_2
      (broadcastInDim S64x64 ![] bcast_S_S64x64 (constant (F := Ideal) S_ .f32 0x00000000#32)) i = (0 : EReal) := by
  show Ideal.ofBits .f32 0x00000000#32 = 0
  simp [Ideal.ofBits, Ideal.ieee]

set_option maxHeartbeats 4000000 in
/-- What the region finds in the array: per layer, the block matrix of argument 13 and the zero matrix, converted. -/
theorem term_v94 (c : Dev nD) : (V m c main_v94 : S11x256x256.Idx → EReal) =
    truncf .bf16 (blockDiag3 concatenates_S11x64x64_S11x64x64_S11x64x64_S11x64x64_S11x64x256_d2
      concatenates_S11x64x256_S11x64x256_S11x64x256_S11x64x256_S11x256x256_d1
      (m ((c : Thread nD τ).loc main_arg13) : S11x64x64.Idx → EReal)
      (broadcastInDim S11x64x64 ![1, 2] bcast_S64x64_S11x64x64_1_2
        (broadcastInDim S64x64 ![] bcast_S_S64x64 (constant (F := Ideal) S_ .f32 0x00000000#32)))) bitsLt_bf16_f32 := by
  dsimp only [V, V0]
  simp only [hostOps0, List.flatten_cons, List.flatten_nil, List.append_nil, List.cons_append, List.nil_append]
  after_results_simp
  rfl

/-- Layer `l`: inside diagonal block `q / 64 = a / 64` the layer's weight at the position within the block; zero
    elsewhere. -/
theorem read_v94 (c : Dev nD) (l : Fin 11) (a : Fin 256) (q : Fin 256) :
    (V m c main_v94 : S11x256x256.Idx → EReal) (ix3 l a q)
      = if q.val / 64 = a.val / 64 then (m ((c : Thread nD τ).loc main_arg13) : S11x64x64.Idx → EReal)
            (ix3 l (⟨a.val % 64, by omega⟩ : Fin 64) (⟨q.val % 64, by omega⟩ : Fin 64))
        else (0 : EReal) := by
  refine (congrFun (term_v94 m c) (ix3 l a q)).trans ?_
  refine (truncf_apply (φ := .f32) (ψ := .bf16) _ bitsLt_bf16_f32 _).trans ?_
  exact blockDiag3_apply (L := 11) (n0 := 64) (n1 := 64) rfl rfl _ _ _ _ (0 : EReal) zero11x64x64_apply l a q (by omega) (by omega)

end Cert.KernelIdeal.HandPrefix

end
-- ==== Proof.KIPrefix.lean ====
/-
  What the region finds in each of the seventeen arrays its windows stage, read at an index in terms of the argument
  arrays: the re-laid per-point inputs and repeated biases, the block-diagonal weights, and the per-layer block-diagonal
  weights.
-/
import proofs.«136870_j44341242364139_2_alg».proof.Proof.KIPrefixA
import proofs.«136870_j44341242364139_2_alg».proof.Proof.KIPrefixB
import proofs.«136870_j44341242364139_2_alg».proof.Proof.KIPrefixC
-- ==== Proof.KIBlocks.lean ====
/-
  What the kernel's seventeen input blocks hold at a grid point, entry by entry, in terms of the argument arrays. A
  window's block at a point is its array read at index × block size + the position within the block: the five data
  windows step down the packed rows with the point (block [1024, ·] at packed rows 1024 t …), the twelve weight windows
  stay put (the block is the whole array). Composed with what the host lines left in those arrays, a data block holds
  the inputs of logical rows 4 (1024 t + p) + k side by side, a weight block is block-diagonal in the weight read off its
  argument array, and a bias block repeats the bias four times.
-/
import proofs.«136870_j44341242364139_2_alg».proof.Proof.KIPrefix
import proofs.«136870_j44341242364139_2_alg».proof.Proof.KIPayValue
import proofs.«136870_j44341242364139_2_alg».proof.Proof.KIRows
import proofs.«136870_j44341242364139_2_alg».proof.Proof.SpecWeights

set_option maxRecDepth 16384
set_option Elab.async false

noncomputable section

namespace Cert.KernelIdeal.HandPrefix

open Cert.KernelIdeal Cert.KernelIdeal.Gen Cert.KernelIdeal.Hand Cert.KernelIdeal.HandPay
open Idealize.ShloMosaic Idealize.ShloMosaic.TcCoe Idealize.ShloMosaic.ValueIdx

variable (m : (ℓ : Loc nD τ sig) → Buf (Elt Ideal) ℓ)

/-! ## Arithmetic of the packed columns -/

theorem q64_div (k : Fin 4) (j : Fin 64) : (q64 k j).val / 64 = k.val := by
  show (k.val * 64 + j.val) / 64 = k.val
  have := j.isLt; omega
theorem q64_mod (k : Fin 4) (j : Fin 64) : (q64 k j).val % 64 = j.val := by
  show (k.val * 64 + j.val) % 64 = j.val
  have := j.isLt; omega
theorem q16_div (k : Fin 4) (i : Fin 16) : (q16 k i).val / 16 = k.val := by
  show (k.val * 16 + i.val) / 16 = k.val
  have := i.isLt; omega
theorem q16_mod (k : Fin 4) (i : Fin 16) : (q16 k i).val % 16 = i.val := by
  show (k.val * 16 + i.val) % 16 = i.val
  have := i.isLt; omega
theorem q3_div (k : Fin 4) (c : Fin 3) : (q3 k c).val / 3 = k.val := by
  show (k.val * 3 + c.val) / 3 = k.val
  have := c.isLt; omega
theorem q3_mod (k : Fin 4) (c : Fin 3) : (q3 k c).val % 3 = c.val := by
  show (k.val * 3 + c.val) % 3 = c.val
  have := c.isLt; omega

/-- The column block equals the row block exactly when the two block numbers agree, whichever way it is written. -/
theorem blk_iff {x y : ℕ} {t k : Fin 4} (hx : x = k.val) (hy : y = t.val) : x = y ↔ t = k := by
  subst hx; subst hy
  exact ⟨fun h => Fin.ext h.symm, fun h => h ▸ rfl⟩

theorem ix1_congr {n0 : ℕ} {a a' : Fin n0} (ha : a.val = a'.val) : ix1 a = ix1 a' := by
  obtain rfl := Fin.ext ha; rfl
theorem ix2_congr {n0 n1 : ℕ} {a a' : Fin n0} {b b' : Fin n1} (ha : a.val = a'.val) (hb : b.val = b'.val) :
    ix2 a b = ix2 a' b' := by
  obtain rfl := Fin.ext ha; obtain rfl := Fin.ext hb; rfl
theorem ix3_congr {n0 n1 n2 : ℕ} {l : Fin n0} {a a' : Fin n1} {b b' : Fin n2} (ha : a.val = a'.val) (hb : b.val = b'.val) :
    ix3 l a b = ix3 l a' b' := by
  obtain rfl := Fin.ext ha; obtain rfl := Fin.ext hb; rfl

/-! ## The printed index maps, decided over the grid -/

/-- The five data windows move down the packed rows with the grid point; their column block index is 0. -/
theorem idx_data : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The twelve weight windows stay on block 0 of every axis: the block is the whole array. -/
theorem idx_const : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 3) = 0 ∧ win0_13.index t (1 : Fin 3) = 0 ∧ win0_13.index t (2 : Fin 3) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-- A grid point's number is below 64. -/
theorem tlt (t : Fin cfg0.N) : t.val < 64 := lt_of_lt_of_eq t.isLt N_0

/-! ## A window's block at a grid point, read off its array -/

theorem iblk_0 (c : Dev nD) (t : Fin cfg0.N) (p : Fin 1024) (k : Fin 4) :
    (iblk m c 0 t : S1024x4.Idx → EReal) (ix2 p k)
      = (V m c main_v0 : S65536x4.Idx → EReal) (ix2 (Cert.Rows.prowOf t.val (tlt t) p) k) := by
  obtain ⟨e00, e01, e10, e11, e20, e21, e30, e31, e40, e41⟩ := idx_data t
  unfold iblk
  show (V m c main_v0 : S65536x4.Idx → EReal) (((cfg0.win 0).blk t).view.emb (ix2 p k)) = _
  refine congrArg _ ?_
  funext a; apply Fin.ext
  match a with
  | ⟨0, _⟩ => show win0_0.index t (0 : Fin 2) * 1024 + 1 * p.val = 1024 * t.val + p.val; omega
  | ⟨1, _⟩ => show win0_0.index t (1 : Fin 2) * 4 + 1 * k.val = k.val; omega

theorem iblk_1 (c : Dev nD) (t : Fin cfg0.N) (p : Fin 1024) (k : Fin 4) :
    (iblk m c 1 t : S1024x4.Idx → EReal) (ix2 p k)
      = (V m c main_v1 : S65536x4.Idx → EReal) (ix2 (Cert.Rows.prowOf t.val (tlt t) p) k) := by
  obtain ⟨e00, e01, e10, e11, e20, e21, e30, e31, e40, e41⟩ := idx_data t
  unfold iblk
  show (V m c main_v1 : S65536x4.Idx → EReal) (((cfg0.win 1).blk t).view.emb (ix2 p k)) = _
  refine congrArg _ ?_
  funext a; apply Fin.ext
  match a with
  | ⟨0, _⟩ => show win0_1.index t (0 : Fin 2) * 1024 + 1 * p.val = 1024 * t.val + p.val; omega
  | ⟨1, _⟩ => show win0_1.index t (1 : Fin 2) * 4 + 1 * k.val = k.val; omega

theorem iblk_2 (c : Dev nD) (t : Fin cfg0.N) (p : Fin 1024) (k : Fin 4) :
    (iblk m c 2 t : S1024x4.Idx → EReal) (ix2 p k)
      = (V m c main_v2 : S65536x4.Idx → EReal) (ix2 (Cert.Rows.prowOf t.val (tlt t) p) k) := by
  obtain ⟨e00, e01, e10, e11, e20, e21, e30, e31, e40, e41⟩ := idx_data t
  unfold iblk
  show (V m c main_v2 : S65536x4.Idx → EReal) (((cfg0.win 2).blk t).view.emb (ix2 p k)) = _
  refine congrArg _ ?_
  funext a; apply Fin.ext
  match a with
  | ⟨0, _⟩ => show win0_2.index t (0 : Fin 2) * 1024 + 1 * p.val = 1024 * t.val + p.val; omega
  | ⟨1, _⟩ => show win0_2.index t (1 : Fin 2) * 4 + 1 * k.val = k.val; omega

theorem iblk_3 (c : Dev nD) (t : Fin cfg0.N) (p : Fin 1024) (k : Fin 4) :
    (iblk m c 3 t : S1024x4.Idx → EReal) (ix2 p k)
      = (V m c main_v3 : S65536x4.Idx → EReal) (ix2 (Cert.Rows.prowOf t.val (tlt t) p) k) := by
  obtain ⟨e00, e01, e10, e11, e20, e21, e30, e31, e40, e41⟩ := idx_data t
  unfold iblk
  show (V m c main_v3 : S65536x4.Idx → EReal) (((cfg0.win 3).blk t).view.emb (ix2 p k)) = _
  refine congrArg _ ?_
  funext a; apply Fin.ext
  match a with
  | ⟨0, _⟩ => show win0_3.index t (0 : Fin 2) * 1024 + 1 * p.val = 1024 * t.val + p.val; omega
  | ⟨1, _⟩ => show win0_3.index t (1 : Fin 2) * 4 + 1 * k.val = k.val; omega

theorem iblk_4 (c : Dev nD) (t : Fin cfg0.N) (p : Fin 1024) (q : Fin 64) :
    (iblk m c 4 t : S1024x64.Idx → EReal) (ix2 p q)
      = (V m c main_v4 : S65536x64.Idx → EReal) (ix2 (Cert.Rows.prowOf t.val (tlt t) p) q) := by
  obtain ⟨e00, e01, e10, e11, e20, e21, e30, e31, e40, e41⟩ := idx_data t
  unfold iblk
  show (V m c main_v4 : S65536x64.Idx → EReal) (((cfg0.win 4).blk t).view.emb (ix2 p q)) = _
  refine congrArg _ ?_
  funext a; apply Fin.ext
  match a with
  | ⟨0, _⟩ => show win0_4.index t (0 : Fin 2) * 1024 + 1 * p.val = 1024 * t.val + p.val; omega
  | ⟨1, _⟩ => show win0_4.index t (1 : Fin 2) * 64 + 1 * q.val = q.val; omega

theorem iblk_5 (c : Dev nD) (t : Fin cfg0.N) (a : Fin 4) (q : Fin 256) :
    (iblk m c 5 t : S4x256.Idx → EReal) (ix2 a q) = (V m c main_v14 : S4x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v14 : S4x256.Idx → EReal) (((cfg0.win 5).blk t).view.emb (ix2 a q)) = _
  refine congrArg _ ?_
  funext b; apply Fin.ext
  match b with
  | ⟨0, _⟩ => show win0_5.index t (0 : Fin 2) * 4 + 1 * a.val = a.val; omega
  | ⟨1, _⟩ => show win0_5.index t (1 : Fin 2) * 256 + 1 * q.val = q.val; omega

theorem iblk_6 (c : Dev nD) (t : Fin cfg0.N) (a : Fin 4) (q : Fin 256) :
    (iblk m c 6 t : S4x256.Idx → EReal) (ix2 a q) = (V m c main_v24 : S4x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v24 : S4x256.Idx → EReal) (((cfg0.win 6).blk t).view.emb (ix2 a q)) = _
  refine congrArg _ ?_
  funext b; apply Fin.ext
  match b with
  | ⟨0, _⟩ => show win0_6.index t (0 : Fin 2) * 4 + 1 * a.val = a.val; omega
  | ⟨1, _⟩ => show win0_6.index t (1 : Fin 2) * 256 + 1 * q.val = q.val; omega

theorem iblk_7 (c : Dev nD) (t : Fin cfg0.N) (a : Fin 4) (q : Fin 256) :
    (iblk m c 7 t : S4x256.Idx → EReal) (ix2 a q) = (V m c main_v34 : S4x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v34 : S4x256.Idx → EReal) (((cfg0.win 7).blk t).view.emb (ix2 a q)) = _
  refine congrArg _ ?_
  funext b; apply Fin.ext
  match b with
  | ⟨0, _⟩ => show win0_7.index t (0 : Fin 2) * 4 + 1 * a.val = a.val; omega
  | ⟨1, _⟩ => show win0_7.index t (1 : Fin 2) * 256 + 1 * q.val = q.val; omega

theorem iblk_8 (c : Dev nD) (t : Fin cfg0.N) (a : Fin 4) (q : Fin 256) :
    (iblk m c 8 t : S4x256.Idx → EReal) (ix2 a q) = (V m c main_v44 : S4x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v44 : S4x256.Idx → EReal) (((cfg0.win 8).blk t).view.emb (ix2 a q)) = _
  refine congrArg _ ?_
  funext b; apply Fin.ext
  match b with
  | ⟨0, _⟩ => show win0_8.index t (0 : Fin 2) * 4 + 1 * a.val = a.val; omega
  | ⟨1, _⟩ => show win0_8.index t (1 : Fin 2) * 256 + 1 * q.val = q.val; omega

theorem iblk_9 (c : Dev nD) (t : Fin cfg0.N) (a : Fin 64) (q : Fin 256) :
    (iblk m c 9 t : S64x256.Idx → EReal) (ix2 a q) = (V m c main_v54 : S64x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v54 : S64x256.Idx → EReal) (((cfg0.win 9).blk t).view.emb (ix2 a q)) = _
  refine congrArg _ ?_
  funext b; apply Fin.ext
  match b with
  | ⟨0, _⟩ => show win0_9.index t (0 : Fin 2) * 64 + 1 * a.val = a.val; omega
  | ⟨1, _⟩ => show win0_9.index t (1 : Fin 2) * 256 + 1 * q.val = q.val; omega

theorem iblk_10 (c : Dev nD) (t : Fin cfg0.N) (a : Fin 1) (q : Fin 256) :
    (iblk m c 10 t : S1x256.Idx → EReal) (ix2 a q) = (V m c main_v58 : S1x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v58 : S1x256.Idx → EReal) (((cfg0.win 10).blk t).view.emb (ix2 a q)) = _
  refine congrArg _ ?_
  funext b; apply Fin.ext
  match b with
  | ⟨0, _⟩ => show win0_10.index t (0 : Fin 2) * 1 + 1 * a.val = a.val; omega
  | ⟨1, _⟩ => show win0_10.index t (1 : Fin 2) * 256 + 1 * q.val = q.val; omega

theorem iblk_11 (c : Dev nD) (t : Fin cfg0.N) (a : Fin 256) (q : Fin 256) :
    (iblk m c 11 t : S256x256.Idx → EReal) (ix2 a q) = (V m c main_v68 : S256x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v68 : S256x256.Idx → EReal) (((cfg0.win 11).blk t).view.emb (ix2 a q)) = _
  refine congrArg _ ?_
  funext b; apply Fin.ext
  match b with
  | ⟨0, _⟩ => show win0_11.index t (0 : Fin 2) * 256 + 1 * a.val = a.val; omega
  | ⟨1, _⟩ => show win0_11.index t (1 : Fin 2) * 256 + 1 * q.val = q.val; omega

theorem iblk_12 (c : Dev nD) (t : Fin cfg0.N) (a : Fin 1) (q : Fin 256) :
    (iblk m c 12 t : S1x256.Idx → EReal) (ix2 a q) = (V m c main_v72 : S1x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v72 : S1x256.Idx → EReal) (((cfg0.win 12).blk t).view.emb (ix2 a q)) = _
  refine congrArg _ ?_
  funext b; apply Fin.ext
  match b with
  | ⟨0, _⟩ => show win0_12.index t (0 : Fin 2) * 1 + 1 * a.val = a.val; omega
  | ⟨1, _⟩ => show win0_12.index t (1 : Fin 2) * 256 + 1 * q.val = q.val; omega

theorem iblk_14 (c : Dev nD) (t : Fin cfg0.N) (a : Fin 11) (q : Fin 256) :
    (iblk m c 14 t : S11x256.Idx → EReal) (ix2 a q) = (V m c main_v97 : S11x256.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v97 : S11x256.Idx → EReal) (((cfg0.win 14).blk t).view.emb (ix2 a q)) = _
  refine congrArg _ ?_
  funext b; apply Fin.ext
  match b with
  | ⟨0, _⟩ => show win0_14.index t (0 : Fin 2) * 11 + 1 * a.val = a.val; omega
  | ⟨1, _⟩ => show win0_14.index t (1 : Fin 2) * 256 + 1 * q.val = q.val; omega

theorem iblk_15 (c : Dev nD) (t : Fin cfg0.N) (a : Fin 256) (q : Fin 12) :
    (iblk m c 15 t : S256x12.Idx → EReal) (ix2 a q) = (V m c main_v107 : S256x12.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v107 : S256x12.Idx → EReal) (((cfg0.win 15).blk t).view.emb (ix2 a q)) = _
  refine congrArg _ ?_
  funext b; apply Fin.ext
  match b with
  | ⟨0, _⟩ => show win0_15.index t (0 : Fin 2) * 256 + 1 * a.val = a.val; omega
  | ⟨1, _⟩ => show win0_15.index t (1 : Fin 2) * 12 + 1 * q.val = q.val; omega

theorem iblk_16 (c : Dev nD) (t : Fin cfg0.N) (a : Fin 1) (q : Fin 12) :
    (iblk m c 16 t : S1x12.Idx → EReal) (ix2 a q) = (V m c main_v111 : S1x12.Idx → EReal) (ix2 a q) := by
  obtain ⟨e50, e51, e60, e61, e70, e71, e80, e81, e90, e91, e100, e101, e110, e111, e120, e121, e130, e131, e132, e140, e141, e150, e151, e160, e161⟩ := idx_const t
  unfold iblk
  show (V m c main_v111 : S1x12.Idx → EReal) (((cfg0.win 16).blk t).view.emb (ix2 a q)) = _
  refine congrArg _ ?_
  funext b; apply Fin.ext
  match b with
  | ⟨0, _⟩ => show win0_16.index t (0 : Fin 2) * 1 + 1 * a.val = a.val; omega
  | ⟨1, _⟩ => show win0_16.index t (1 : Fin 2) * 12 + 1 * q.val = q.val; omega

theorem iblk_13 (c : Dev nD) (t : Fin cfg0.N) (l : Fin 11) (a : Fin 256) (q : Fin 256) :
    (iblk m c 13 t : S11x256x256.Idx → EReal) (ix3 l a q) = (V m c main_v94 : S11x256x256.Idx → EReal) (ix3 l a q) := by
  obtain ⟨e50, e51, e60, e61, e70, e71, e80, e81, e90, e91, e100, e101, e110, e111, e120, e121, e130, e131, e132, e140, e141, e150, e151, e160, e161⟩ := idx_const t
  unfold iblk
  show (V m c main_v94 : S11x256x256.Idx → EReal) (((cfg0.win 13).blk t).view.emb (ix3 l a q)) = _
  refine congrArg _ ?_
  funext b; apply Fin.ext
  match b with
  | ⟨0, _⟩ => show win0_13.index t (0 : Fin 3) * 11 + 1 * l.val = l.val; omega
  | ⟨1, _⟩ => show win0_13.index t (1 : Fin 3) * 256 + 1 * a.val = a.val; omega
  | ⟨2, _⟩ => show win0_13.index t (2 : Fin 3) * 256 + 1 * q.val = q.val; omega

/-! ## What the blocks hold, entry by entry -/

section Fields
variable (c : Dev nD) (t : Fin cfg0.N)

theorem fld0 (p : Fin 1024) (k : Fin 4) :
    (iblk m c 0 t : S1024x4.Idx → EReal) (ix2 p k) = (m ((c : Thread nD τ).loc main_arg0) : S262144x1.Idx → EReal) (ix2 (Cert.Rows.rowOf t.val (tlt t) p k) (0 : Fin 1)) :=
  (iblk_0 m c t p k).trans (read_v0 m c _ k)

theorem fld1 (p : Fin 1024) (k : Fin 4) :
    (iblk m c 1 t : S1024x4.Idx → EReal) (ix2 p k) = (m ((c : Thread nD τ).loc main_arg1) : S262144x1.Idx → EReal) (ix2 (Cert.Rows.rowOf t.val (tlt t) p k) (0 : Fin 1)) :=
  (iblk_1 m c t p k).trans (read_v1 m c _ k)

theorem fld2 (p : Fin 1024) (k : Fin 4) :
    (iblk m c 2 t : S1024x4.Idx → EReal) (ix2 p k) = (m ((c : Thread nD τ).loc main_arg2) : S262144x1.Idx → EReal) (ix2 (Cert.Rows.rowOf t.val (tlt t) p k) (0 : Fin 1)) :=
  (iblk_2 m c t p k).trans (read_v2 m c _ k)

theorem fld3 (p : Fin 1024) (k : Fin 4) :
    (iblk m c 3 t : S1024x4.Idx → EReal) (ix2 p k) = (m ((c : Thread nD τ).loc main_arg3) : S262144x1.Idx → EReal) (ix2 (Cert.Rows.rowOf t.val (tlt t) p k) (0 : Fin 1)) :=
  (iblk_3 m c t p k).trans (read_v3 m c _ k)

theorem fld4 (p : Fin 1024) (k : Fin 4) (i : Fin 16) :
    (iblk m c 4 t : S1024x64.Idx → EReal) (ix2 p (q16 k i)) = (m ((c : Thread nD τ).loc main_arg4) : S262144x16.Idx → EReal) (ix2 (Cert.Rows.rowOf t.val (tlt t) p k) i) :=
  (iblk_4 m c t p (q16 k i)).trans ((read_v4 m c _ (q16 k i)).trans (congrArg (m ((c : Thread nD τ).loc main_arg4) : S262144x16.Idx → EReal)
    (ix2_congr (by show 4 * (1024 * t.val + p.val) + (q16 k i).val / 16 = 4 * (1024 * t.val + p.val) + k.val; rw [q16_div]) (q16_mod k i))))

theorem fld5 (r k : Fin 4) (j : Fin 64) :
    (iblk m c 5 t : S4x256.Idx → EReal) (ix2 r (q64 k j)) = if r = k then (m ((c : Thread nD τ).loc main_arg7) : S1x64.Idx → EReal) (ix2 (0 : Fin 1) j) else (0 : EReal) :=
  (iblk_5 m c t r (q64 k j)).trans ((read_v14 m c r (q64 k j)).trans
    (if_congr (blk_iff (q64_div k j) rfl) (congrArg (m ((c : Thread nD τ).loc main_arg7) : S1x64.Idx → EReal) (ix2_congr rfl (q64_mod k j))) rfl))

theorem fld6 (r k : Fin 4) (j : Fin 64) :
    (iblk m c 6 t : S4x256.Idx → EReal) (ix2 r (q64 k j)) = if r = k then (m ((c : Thread nD τ).loc main_arg8) : S1x64.Idx → EReal) (ix2 (0 : Fin 1) j) else (0 : EReal) :=
  (iblk_6 m c t r (q64 k j)).trans ((read_v24 m c r (q64 k j)).trans
    (if_congr (blk_iff (q64_div k j) rfl) (congrArg (m ((c : Thread nD τ).loc main_arg8) : S1x64.Idx → EReal) (ix2_congr rfl (q64_mod k j))) rfl))

theorem fld7 (r k : Fin 4) (j : Fin 64) :
    (iblk m c 7 t : S4x256.Idx → EReal) (ix2 r (q64 k j)) = if r = k then (m ((c : Thread nD τ).loc main_arg9) : S1x64.Idx → EReal) (ix2 (0 : Fin 1) j) else (0 : EReal) :=
  (iblk_7 m c t r (q64 k j)).trans ((read_v34 m c r (q64 k j)).trans
    (if_congr (blk_iff (q64_div k j) rfl) (congrArg (m ((c : Thread nD τ).loc main_arg9) : S1x64.Idx → EReal) (ix2_congr rfl (q64_mod k j))) rfl))

theorem fld8 (r k : Fin 4) (j : Fin 64) :
    (iblk m c 8 t : S4x256.Idx → EReal) (ix2 r (q64 k j)) = if r = k then (m ((c : Thread nD τ).loc main_arg10) : S1x64.Idx → EReal) (ix2 (0 : Fin 1) j) else (0 : EReal) :=
  (iblk_8 m c t r (q64 k j)).trans ((read_v44 m c r (q64 k j)).trans
    (if_congr (blk_iff (q64_div k j) rfl) (congrArg (m ((c : Thread nD τ).loc main_arg10) : S1x64.Idx → EReal) (ix2_congr rfl (q64_mod k j))) rfl))

theorem fld9 (r k : Fin 4) (i : Fin 16) (j : Fin 64) :
    (iblk m c 9 t : S64x256.Idx → EReal) (ix2 (q16 r i) (q64 k j)) = if r = k then (m ((c : Thread nD τ).loc main_arg5) : S16x64.Idx → EReal) (ix2 i j) else (0 : EReal) :=
  (iblk_9 m c t (q16 r i) (q64 k j)).trans ((read_v54 m c (q16 r i) (q64 k j)).trans
    (if_congr (blk_iff (q64_div k j) (q16_div r i)) (congrArg (m ((c : Thread nD τ).loc main_arg5) : S16x64.Idx → EReal) (ix2_congr (q16_mod r i) (q64_mod k j))) rfl))

theorem fld10 (k : Fin 4) (j : Fin 64) :
    (iblk m c 10 t : S1x256.Idx → EReal) (ix2 (0 : Fin 1) (q64 k j)) = (m ((c : Thread nD τ).loc main_arg6) : S64.Idx → EReal) (ix1 j) :=
  (iblk_10 m c t 0 (q64 k j)).trans ((read_v58 m c (q64 k j)).trans (congrArg (m ((c : Thread nD τ).loc main_arg6) : S64.Idx → EReal) (ix1_congr (q64_mod k j))))

theorem fld11 (r k : Fin 4) (i j : Fin 64) :
    (iblk m c 11 t : S256x256.Idx → EReal) (ix2 (q64 r i) (q64 k j)) = if r = k then (m ((c : Thread nD τ).loc main_arg11) : S64x64.Idx → EReal) (ix2 i j) else (0 : EReal) :=
  (iblk_11 m c t (q64 r i) (q64 k j)).trans ((read_v68 m c (q64 r i) (q64 k j)).trans
    (if_congr (blk_iff (q64_div k j) (q64_div r i)) (congrArg (m ((c : Thread nD τ).loc main_arg11) : S64x64.Idx → EReal) (ix2_congr (q64_mod r i) (q64_mod k j))) rfl))

theorem fld12 (k : Fin 4) (j : Fin 64) :
    (iblk m c 12 t : S1x256.Idx → EReal) (ix2 (0 : Fin 1) (q64 k j)) = (m ((c : Thread nD τ).loc main_arg12) : S64.Idx → EReal) (ix1 j) :=
  (iblk_12 m c t 0 (q64 k j)).trans ((read_v72 m c (q64 k j)).trans (congrArg (m ((c : Thread nD τ).loc main_arg12) : S64.Idx → EReal) (ix1_congr (q64_mod k j))))

theorem fld13 (l : Fin 11) (r k : Fin 4) (i j : Fin 64) :
    (iblk m c 13 t : S11x256x256.Idx → EReal) (ix3 l (q64 r i) (q64 k j)) = if r = k then (m ((c : Thread nD τ).loc main_arg13) : S11x64x64.Idx → EReal) (ix3 l i j) else (0 : EReal) :=
  (iblk_13 m c t l (q64 r i) (q64 k j)).trans ((read_v94 m c l (q64 r i) (q64 k j)).trans
    (if_congr (blk_iff (q64_div k j) (q64_div r i)) (congrArg (m ((c : Thread nD τ).loc main_arg13) : S11x64x64.Idx → EReal) (ix3_congr (q64_mod r i) (q64_mod k j))) rfl))

theorem fld14 (l : Fin 11) (k : Fin 4) (j : Fin 64) :
    (iblk m c 14 t : S11x256.Idx → EReal) (ix2 l (q64 k j)) = (m ((c : Thread nD τ).loc main_arg14) : S11x64.Idx → EReal) (ix2 l j) :=
  (iblk_14 m c t l (q64 k j)).trans ((read_v97 m c l (q64 k j)).trans (congrArg (m ((c : Thread nD τ).loc main_arg14) : S11x64.Idx → EReal) (ix2_congr rfl (q64_mod k j))))

theorem fld15 (r k : Fin 4) (i : Fin 64) (o : Fin 3) :
    (iblk m c 15 t : S256x12.Idx → EReal) (ix2 (q64 r i) (q3 k o)) = if r = k then (m ((c : Thread nD τ).loc main_arg15) : S64x3.Idx → EReal) (ix2 i o) else (0 : EReal) :=
  (iblk_15 m c t (q64 r i) (q3 k o)).trans ((read_v107 m c (q64 r i) (q3 k o)).trans
    (if_congr (blk_iff (q3_div k o) (q64_div r i)) (congrArg (m ((c : Thread nD τ).loc main_arg15) : S64x3.Idx → EReal) (ix2_congr (q64_mod r i) (q3_mod k o))) rfl))

theorem fld16 (k : Fin 4) (o : Fin 3) :
    (iblk m c 16 t : S1x12.Idx → EReal) (ix2 (0 : Fin 1) (q3 k o)) = (m ((c : Thread nD τ).loc main_arg16) : S3.Idx → EReal) (ix1 o) :=
  (iblk_16 m c t 0 (q3 k o)).trans ((read_v111 m c (q3 k o)).trans (congrArg (m ((c : Thread nD τ).loc main_arg16) : S3.Idx → EReal) (ix1_congr (q3_mod k o))))

end Fields

/-! ## The payload's hypotheses at a grid point -/

/-- At grid point `t` the seventeen input blocks hold what the packed network assumes: the logical rows' scalars and
    noise side by side, each weight on the diagonal blocks of its packed matrix, each bias repeated four times — with
    the weights read off the argument arrays and the logical rows those of the point's packed rows. -/
theorem blocks_at (c : Dev nD) (t : Fin cfg0.N) :
    Blocks (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal)
        (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))
      (fun p k => (m ((c : Thread nD τ).loc main_arg0) : S262144x1.Idx → EReal) (ix2 (Cert.Rows.rowOf t.val (tlt t) p k) (0 : Fin 1)))
      (fun p k => (m ((c : Thread nD τ).loc main_arg1) : S262144x1.Idx → EReal) (ix2 (Cert.Rows.rowOf t.val (tlt t) p k) (0 : Fin 1)))
      (fun p k => (m ((c : Thread nD τ).loc main_arg2) : S262144x1.Idx → EReal) (ix2 (Cert.Rows.rowOf t.val (tlt t) p k) (0 : Fin 1)))
      (fun p k => (m ((c : Thread nD τ).loc main_arg3) : S262144x1.Idx → EReal) (ix2 (Cert.Rows.rowOf t.val (tlt t) p k) (0 : Fin 1)))
      (fun p k i => (m ((c : Thread nD τ).loc main_arg4) : S262144x16.Idx → EReal) (ix2 (Cert.Rows.rowOf t.val (tlt t) p k) i))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) where
  h0 := fld0 m c t
  h1 := fld1 m c t
  h2 := fld2 m c t
  h3 := fld3 m c t
  h4 := fld4 m c t
  h5 := fld5 m c t
  h6 := fld6 m c t
  h7 := fld7 m c t
  h8 := fld8 m c t
  h9 := fld9 m c t
  h10 := fld10 m c t
  h11 := fld11 m c t
  h12 := fld12 m c t
  h13 := fld13 m c t
  h14 := fld14 m c t
  h15 := fld15 m c t
  h16 := fld16 m c t

end Cert.KernelIdeal.HandPrefix

end
-- ==== Proof.KIFinal.lean ====
/-
  The kernel's result as one function of its arguments. Point t of the grid stores, into packed rows 1024·t … 1024·t+1023
  of the packed result, the network's three outputs of each of the four logical rows of every packed row; the 64 points'
  blocks tile the packed result, so after the run the packed result holds, at packed row g and column 3k + c, output c of
  logical row 4g + k. The one host line after the region re-reads the packed result [65536, 12] row-major as [262144, 3]:
  entry (n, c) is packed entry (n / 4, 3·(n mod 4) + c), which is output c of logical row n.
-/
import proofs.«136870_j44341242364139_2_alg».proof.Proof.KIPayValue
import proofs.«136870_j44341242364139_2_alg».proof.Proof.KIRows
import proofs.«136870_j44341242364139_2_alg».proof.Proof.SpecWeights
import proofs.«136870_j44341242364139_2_alg».proof.Proof.PackedResult
import proofs.«136870_j44341242364139_2_alg».proof.Proof.KIBlocks
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.KernelIdeal.HandPay Idealize.ShloMosaic.ValueIdx Cert.Packed

/-- The output window's block index at point t is (t, 0). -/
theorem idx17 : ∀ t : Fin cfg0.N, win0_17.index t (0 : Fin 2) = t.val ∧ win0_17.index t (1 : Fin 2) = 0 :=
  (by decide +kernel : ∀ t : Fin grid0.N, _)

/-- An index of the packed result is in point t's block iff its row is among the block's 1024 rows. -/
theorem mem_blk17 (t : Fin cfg0.N) (i : S65536x12.Idx) :
    i ∈ ((cfg0.win 17).blk t).view.set ↔ ∀ a : Fin 2, win0_17.index t a * S1024x12.size a ≤ (i a).val ∧ (i a).val < win0_17.index t a * S1024x12.size a + S1024x12.size a := by
  show i ∈ ((View.whole main_v112).slice (win0_17.rect t)).set ↔ _
  rw [View.set_slice_whole, Rect.mem_set_unit]
  exact Iff.rfl

/-- Every index of the packed result lies in some point's block: row g in point g / 1024's. -/
theorem cover17 (i : S65536x12.Idx) : ∃ t : Fin cfg0.N, (cfg0.win 17).flush t = true ∧ i ∈ ((cfg0.win 17).blk t).view.set := by
  have hi0 : (i 0).val < 65536 := idx2_lt0 i
  have hi1 : (i 1).val < 12 := idx2_lt1 i
  refine ⟨⟨(i 0).val / 1024, by rw [show cfg0.N = 64 from N_0]; omega⟩, flush0_17 _, ?_⟩
  rw [mem_blk17]
  intro a
  obtain ⟨e0, e1⟩ := idx17 ⟨(i 0).val / 1024, by rw [show cfg0.N = 64 from N_0]; omega⟩
  match a with
  | ⟨0, _⟩ =>
    show win0_17.index _ (0 : Fin 2) * 1024 ≤ (i 0).val ∧ (i 0).val < win0_17.index _ (0 : Fin 2) * 1024 + 1024
    rw [e0]; dsimp only; omega
  | ⟨1, _⟩ =>
    show win0_17.index _ (1 : Fin 2) * 12 ≤ (i 1).val ∧ (i 1).val < win0_17.index _ (1 : Fin 2) * 12 + 12
    rw [e1]; omega

set_option maxHeartbeats 8000000 in
/-- What point `t` writes back is block `t` of the packed result. -/
theorem flushed17_eq (c : Dev nD) (t : Fin cfg0.N) :
    (dats m 0 c).flushed 17 t = ((cfg0.win 17).blk t).view.read (Elt Ideal) (GK (m ((c : Thread nD τ).loc main_arg0) : S262144x1.Idx → EReal) (m ((c : Thread nD τ).loc main_arg1) : S262144x1.Idx → EReal) (m ((c : Thread nD τ).loc main_arg2) : S262144x1.Idx → EReal) (m ((c : Thread nD τ).loc main_arg3) : S262144x1.Idx → EReal) (m ((c : Thread nD τ).loc main_arg4) : S262144x16.Idx → EReal) (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal) (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))) := by
  show (cfg0.win 17).cut (grid0.coords t) ((dats m 0 c).after 17 t) = _
  rw [after0_17, out0_17_eq]
  funext j
  have ht : t.val < 64 := lt_of_lt_of_eq t.isLt N_0
  obtain ⟨e0, e1⟩ := idx17 t
  have hj0 : (j 0).val < 1024 := (j 0).isLt
  have hj1 : (j 1).val < 12 := (j 1).isLt
  have hj : j = ix2 (⟨(j 0).val, hj0⟩ : Fin 1024) (q3 (⟨(j 1).val / 3, by omega⟩ : Fin 4) (⟨(j 1).val % 3, Nat.mod_lt _ (by norm_num)⟩ : Fin 3)) := by
    funext a; apply Fin.ext
    match a with
    | ⟨0, _⟩ => rfl
    | ⟨1, _⟩ => show (j 1).val = (j 1).val / 3 * 3 + (j 1).val % 3; omega
  have hemb : ((cfg0.win 17).blk t).view.emb j
      = ix2 (Cert.Rows.prowOf t.val ht (⟨(j 0).val, hj0⟩ : Fin 1024)) (q3 (⟨(j 1).val / 3, by omega⟩ : Fin 4) (⟨(j 1).val % 3, Nat.mod_lt _ (by norm_num)⟩ : Fin 3)) := by
    funext a; apply Fin.ext
    match a with
    | ⟨0, _⟩ => show win0_17.index t (0 : Fin 2) * 1024 + 1 * (j 0).val = 1024 * t.val + (j 0).val; rw [e0]; omega
    | ⟨1, _⟩ => show win0_17.index t (1 : Fin 2) * 12 + 1 * (j 1).val = (j 1).val / 3 * 3 + (j 1).val % 3; rw [e1]; omega
  show PAY (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = (GK (m ((c : Thread nD τ).loc main_arg0) : S262144x1.Idx → EReal) (m ((c : Thread nD τ).loc main_arg1) : S262144x1.Idx → EReal) (m ((c : Thread nD τ).loc main_arg2) : S262144x1.Idx → EReal) (m ((c : Thread nD τ).loc main_arg3) : S262144x1.Idx → EReal) (m ((c : Thread nD τ).loc main_arg4) : S262144x16.Idx → EReal) (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal) (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))) (((cfg0.win 17).blk t).view.emb j)
  rw [hemb]
  refine (congrArg (PAY (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) hj).trans ?_
  refine (pay_pk (Cert.KernelIdeal.HandPrefix.blocks_at m c t) _ _ _).trans ?_
  have hrow : Cert.Rows.rowOf t.val ht (⟨(j 0).val, hj0⟩ : Fin 1024) (⟨(j 1).val / 3, by omega⟩ : Fin 4)
      = rowAt (ix2 (Cert.Rows.prowOf t.val ht (⟨(j 0).val, hj0⟩ : Fin 1024)) (q3 (⟨(j 1).val / 3, by omega⟩ : Fin 4) (⟨(j 1).val % 3, Nat.mod_lt _ (by norm_num)⟩ : Fin 3))) :=
    Fin.ext (by show 4 * (1024 * t.val + (j 0).val) + (j 1).val / 3 = 4 * (1024 * t.val + (j 0).val) + ((j 1).val / 3 * 3 + (j 1).val % 3) / 3; omega)
  have hc : (⟨(j 1).val % 3, Nat.mod_lt _ (by norm_num)⟩ : Fin 3)
      = outAt (ix2 (Cert.Rows.prowOf t.val ht (⟨(j 0).val, hj0⟩ : Fin 1024)) (q3 (⟨(j 1).val / 3, by omega⟩ : Fin 4) (⟨(j 1).val % 3, Nat.mod_lt _ (by norm_num)⟩ : Fin 3))) :=
    Fin.ext (by show (j 1).val % 3 = ((j 1).val / 3 * 3 + (j 1).val % 3) % 3; omega)
  unfold GK
  rw [← hrow, ← hc]

/-- After the run the packed result is that function of the arguments. -/
theorem final17 (c : Dev nD) : (dats m 0 c).arrAt 17 cfg0.N = (GK (m ((c : Thread nD τ).loc main_arg0) : S262144x1.Idx → EReal) (m ((c : Thread nD τ).loc main_arg1) : S262144x1.Idx → EReal) (m ((c : Thread nD τ).loc main_arg2) : S262144x1.Idx → EReal) (m ((c : Thread nD τ).loc main_arg3) : S262144x1.Idx → EReal) (m ((c : Thread nD τ).loc main_arg4) : S262144x16.Idx → EReal) (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal) (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))) :=
  (dats m 0 c).arrAt_eq_of_cover 17 (GK (m ((c : Thread nD τ).loc main_arg0) : S262144x1.Idx → EReal) (m ((c : Thread nD τ).loc main_arg1) : S262144x1.Idx → EReal) (m ((c : Thread nD τ).loc main_arg2) : S262144x1.Idx → EReal) (m ((c : Thread nD τ).loc main_arg3) : S262144x1.Idx → EReal) (m ((c : Thread nD τ).loc main_arg4) : S262144x16.Idx → EReal) (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal) (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))) (fun t _ => flushed17_eq m c t) cover17

/-- The kernel program's result: the packed result re-read row-major as [262144, 3]. -/
def KRES (c : Dev nD) : S262144x3.Idx → EReal :=
  shapeCast S262144x3 (GK (m ((c : Thread nD τ).loc main_arg0) : S262144x1.Idx → EReal) (m ((c : Thread nD τ).loc main_arg1) : S262144x1.Idx → EReal) (m ((c : Thread nD τ).loc main_arg2) : S262144x1.Idx → EReal) (m ((c : Thread nD τ).loc main_arg3) : S262144x1.Idx → EReal) (m ((c : Thread nD τ).loc main_arg4) : S262144x16.Idx → EReal) (Cert.Spec.weightsOf (m ((c : Thread nD τ).loc main_arg5) : S16x64.Idx → EReal) (m ((c : Thread nD τ).loc main_arg6) : S64.Idx → EReal) (m ((c : Thread nD τ).loc main_arg7) : S1x64.Idx → EReal) (m ((c : Thread nD τ).loc main_arg8) : S1x64.Idx → EReal) (m ((c : Thread nD τ).loc main_arg9) : S1x64.Idx → EReal) (m ((c : Thread nD τ).loc main_arg10) : S1x64.Idx → EReal) (m ((c : Thread nD τ).loc main_arg11) : S64x64.Idx → EReal) (m ((c : Thread nD τ).loc main_arg12) : S64.Idx → EReal) (m ((c : Thread nD τ).loc main_arg13) : S11x64x64.Idx → EReal) (m ((c : Thread nD τ).loc main_arg14) : S11x64.Idx → EReal) (m ((c : Thread nD τ).loc main_arg15) : S64x3.Idx → EReal) (m ((c : Thread nD τ).loc main_arg16) : S3.Idx → EReal))) shapeCasts_S65536x12_S262144x3

/-- The host line after the region applied to what the region leaves. -/
theorem tail_v113 (c : Dev nD) :
    Pipeline.afterTail₀ cfgs (dats m) 0 (V0 m) [hostOps1] c main_v113 = KRES m c := by
  unfold Pipeline.afterTail₀ KRES
  show StableHlo.after hostOps1 _ (Proc.devRef .tc main_v113) = _
  after_results
  rw [Pipeline.withArrays_arr spec0 launch0.win.arr_inj c _ _ 17, final17]
  rfl

/-- The run of the idealized kernel program, read: the result buffer ends at the re-read packed result, the arguments
    unchanged. -/
theorem krun : θ_run defs (onTc (τ := τ) (main (F := Ideal))) ⟨m, fun _ => 0, ρ⟩ (fun r => ∀ c : Dev nD,
      r.2.mem ((c.tc : Thread nD τ).loc main_v113) = KRES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v113 (Pipeline.mem_restRefs_of main_v113 (by decide) (by decide))).trans (tail_v113 m c),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    (((h c).2 main_arg7 (Pipeline.mem_restRefs_of main_arg7 (by decide) (by decide))).trans (W_main_arg7 m (dats m) c)),
    (((h c).2 main_arg8 (Pipeline.mem_restRefs_of main_arg8 (by decide) (by decide))).trans (W_main_arg8 m (dats m) c)),
    (((h c).2 main_arg9 (Pipeline.mem_restRefs_of main_arg9 (by decide) (by decide))).trans (W_main_arg9 m (dats m) c)),
    (((h c).2 main_arg10 (Pipeline.mem_restRefs_of main_arg10 (by decide) (by decide))).trans (W_main_arg10 m (dats m) c)),
    (((h c).2 main_arg11 (Pipeline.mem_restRefs_of main_arg11 (by decide) (by decide))).trans (W_main_arg11 m (dats m) c)),
    (((h c).2 main_arg12 (Pipeline.mem_restRefs_of main_arg12 (by decide) (by decide))).trans (W_main_arg12 m (dats m) c)),
    (((h c).2 main_arg13 (Pipeline.mem_restRefs_of main_arg13 (by decide) (by decide))).trans (W_main_arg13 m (dats m) c)),
    (((h c).2 main_arg14 (Pipeline.mem_restRefs_of main_arg14 (by decide) (by decide))).trans (W_main_arg14 m (dats m) c)),
    (((h c).2 main_arg15 (Pipeline.mem_restRefs_of main_arg15 (by decide) (by decide))).trans (W_main_arg15 m (dats m) c)),
    (((h c).2 main_arg16 (Pipeline.mem_restRefs_of main_arg16 (by decide) (by decide))).trans (W_main_arg16 m (dats m) c))⟩) (run_main m ρ)

end Cert.KernelIdeal.Hand

end
-- ==== Proof.RefRunOps.lean ====
/- The reference's @main as a list of its 245 host operations, in execution order, each outlined
   function's operations written at its call site over the buffers that call owns (calling a function is
   substituting its body, so the flat list is the same program). The list is cut into 9 consecutive
   segments; the windows of @main are concatenations of segments. -/
import proofs.«136870_j44341242364139_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Folding two lines one after the other is folding their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations of segment 0 (29 of them, in window 0). -/
abbrev seg0 : List (HloOp τ sig (Elt F)) :=
  [ binary main_arg4 main_arg5 main_v0 ((fun l r => Host.dotGeneral dot_S262144x16_S16x64_S262144x64_1_0_0_1_n_n none l r) : (⟨S262144x16, .f32⟩ : BufTy).Contents (Elt F) → (⟨S16x64, .f32⟩ : BufTy).Contents (Elt F) → (⟨S262144x64, .f32⟩ : BufTy).Contents (Elt F)),
    unary main_arg6 main_v1 (broadcastInDim S1x64 ![1] bcast_S64_S1x64_1 : (⟨S64, .f32⟩ : BufTy).Contents (Elt F) → (⟨S1x64, .f32⟩ : BufTy).Contents (Elt F)),
    unary main_v1 main_v2 (broadcastInDim S262144x64 ![0, 1] bcast_S1x64_S262144x64_0_1 : (⟨S1x64, .f32⟩ : BufTy).Contents (Elt F) → (⟨S262144x64, .f32⟩ : BufTy).Contents (Elt F)),
    binary main_v0 main_v2 main_v3 (addf : (⟨S262144x64, .f32⟩ : BufTy).Contents (Elt F) → (⟨S262144x64, .f32⟩ : BufTy).Contents (Elt F) → (⟨S262144x64, .f32⟩ : BufTy).Contents (Elt F)),
    unary main_v3 main_v4 (Host.tanh : (⟨S262144x64, .f32⟩ : BufTy).Contents (Elt F) → (⟨S262144x64, .f32⟩ : BufTy).Contents (Elt F)),
    binary main_arg2 main_arg9 main_v5 ((fun l r => Host.dotGeneral dot_S262144x1_S1x64_S262144x64_1_0_0_1_n_n none l r) : (⟨S262144x1, .f32⟩ : BufTy).Contents (Elt F) → (⟨S1x64, .f32⟩ : BufTy).Contents (Elt F) → (⟨S262144x64, .f32⟩ : BufTy).Contents (Elt F)),
    nullary main_call0_cst (constant S_ .f32 0x00000000#32),
    unary main_call0_cst main_call0_v0 (broadcastInDim S262144x64 ![] bcast_S_S262144x64 : (⟨S_, .f32⟩ : BufTy).Contents (Elt F) → (⟨S262144x64, .f32⟩ : BufTy).Contents (Elt F)),
    binary main_v5 main_call0_v0 main_call0_v1 (cmpf .ogt : (⟨S262144x64, .f32⟩ : BufTy).Contents (Elt F) → (⟨S262144x64, .f32⟩ : BufTy).Contents (Elt F) → (⟨S262144x64, .i1⟩ : BufTy).Contents (Elt F)),
    nullary main_call0_cst_0 (constant S_ .f32 0x00000000#32),
    unary main_call0_cst_0 main_call0_v2 (broadcastInDim S262144x64 ![] bcast_S_S262144x64 : (⟨S_, .f32⟩ : BufTy).Contents (Elt F) → (⟨S262144x64, .f32⟩ : BufTy).Contents (Elt F)),
    binary main_v5 main_call0_v2 main_call0_v3 (cmpf .ogt : (⟨S262144x64, .f32⟩ : BufTy).Contents (Elt F) → (⟨S262144x64, .f32⟩ : BufTy).Contents (Elt F) → (⟨S262144x64, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S262144x64 ![] bcast_S_S262144x64 : (⟨S_, .f32⟩ : BufTy).Contents (Elt F) → (⟨S262144x64, .f32⟩ : BufTy).Contents (Elt F)),
    ternary main_call0_v3 main_call0_call0_v1 main_v5 main_call0_v4 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    unary main_call0_v4 main_call0_v5 (Host.expm1 : (⟨S262144x64, .f32⟩ : BufTy).Contents (Elt F) → (⟨S262144x64, .f32⟩ : BufTy).Contents (Elt F)),
    nullary main_call0_cst_2 (constant S_ .f32 0x3F800000#32),
    unary main_call0_cst_2 main_call0_v6 (broadcastInDim S262144x64 ![] bcast_S_S262144x64 : (⟨S_, .f32⟩ : BufTy).Contents (Elt F) → (⟨S262144x64, .f32⟩ : BufTy).Contents (Elt F)),
    binary main_call0_v6 main_call0_v5 main_call0_v7 (mulf : (⟨S262144x64, .f32⟩ : BufTy).Contents (Elt F) → (⟨S262144x64, .f32⟩ : BufTy).Contents (Elt F) → (⟨S262144x64, .f32⟩ : BufTy).Contents (Elt F)),
    ternary main_call0_v1 main_v5 main_call0_v7 main_v6 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_arg3 main_arg10 main_v7 ((fun l r => Host.dotGeneral dot_S262144x1_S1x64_S262144x64_1_0_0_1_n_n none l r) : (⟨S262144x1, .f32⟩ : BufTy).Contents (Elt F) → (⟨S1x64, .f32⟩ : BufTy).Contents (Elt F) → (⟨S262144x64, .f32⟩ : BufTy).Contents (Elt F)),
    nullary main_call1_cst (constant S_ .f32 0x00000000#32),
    unary main_call1_cst main_call1_v0 (broadcastInDim S262144x64 ![] bcast_S_S262144x64 : (⟨S_, .f32⟩ : BufTy).Contents (Elt F) → (⟨S262144x64, .f32⟩ : BufTy).Contents (Elt F)),
    binary main_v7 main_call1_v0 main_call1_v1 (maximumf : (⟨S262144x64, .f32⟩ : BufTy).Contents (Elt F) → (⟨S262144x64, .f32⟩ : BufTy).Contents (Elt F) → (⟨S262144x64, .f32⟩ : BufTy).Contents (Elt F)),
    unary main_call1_cst main_call1_v2 (broadcastInDim S262144x64 ![] bcast_S_S262144x64 : (⟨S_, .f32⟩ : BufTy).Contents (Elt F) → (⟨S262144x64, .f32⟩ : BufTy).Contents (Elt F)),
    binary main_v7 main_call1_v2 main_call1_v3 (subf : (⟨S262144x64, .f32⟩ : BufTy).Contents (Elt F) → (⟨S262144x64, .f32⟩ : BufTy).Contents (Elt F) → (⟨S262144x64, .f32⟩ : BufTy).Contents (Elt F)),
    binary main_call1_v3 main_call1_v3 main_call1_v4 (cmpf .une : (⟨S262144x64, .f32⟩ : BufTy).Contents (Elt F) → (⟨S262144x64, .f32⟩ : BufTy).Contents (Elt F) → (⟨S262144x64, .i1⟩ : BufTy).Contents (Elt F)),
    unary main_call1_cst main_call1_v5 (broadcastInDim S262144x64 ![] bcast_S_S262144x64 : (⟨S_, .f32⟩ : BufTy).Contents (Elt F) → (⟨S262144x64, .f32⟩ : BufTy).Contents (Elt F)) ]

/-- The buffers segment 0 writes. -/
abbrev seg0_W : List (Ref sig .tc) := [main_v0, main_v1, main_v2, main_v3, main_v4, main_v5, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v6, main_v7, main_call1_cst, main_call1_v0, main_call1_v1, main_call1_v2, main_call1_v3, main_call1_v4, main_call1_v5]

set_option maxRecDepth 8192 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg0_sub : (seg0 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., unary_bufs_sub .., binary_bufs_sub .., binary_bufs_sub .., unary_bufs_sub ..⟩

/-- Operations of segment 1 (29 of them, in window 0). -/
abbrev seg1 : List (HloOp τ sig (Elt F)) :=
  [ binary main_v7 main_call1_v5 main_call1_v6 (addf : (⟨S262144x64, .f32⟩ : BufTy).Contents (Elt F) → (⟨S262144x64, .f32⟩ : BufTy).Contents (Elt F) → (⟨S262144x64, .f32⟩ : BufTy).Contents (Elt F)),
    unary main_call1_v3 main_call1_v7 (Host.absf : (⟨S262144x64, .f32⟩ : BufTy).Contents (Elt F) → (⟨S262144x64, .f32⟩ : BufTy).Contents (Elt F)),
    unary main_call1_v7 main_call1_v8 (Host.negf : (⟨S262144x64, .f32⟩ : BufTy).Contents (Elt F) → (⟨S262144x64, .f32⟩ : BufTy).Contents (Elt F)),
    unary main_call1_v8 main_call1_v9 (Host.exp : (⟨S262144x64, .f32⟩ : BufTy).Contents (Elt F) → (⟨S262144x64, .f32⟩ : BufTy).Contents (Elt F)),
    unary main_call1_v9 main_call1_v10 (Host.log1p : (⟨S262144x64, .f32⟩ : BufTy).Contents (Elt F) → (⟨S262144x64, .f32⟩ : BufTy).Contents (Elt F)),
    binary main_call1_v1 main_call1_v10 main_call1_v11 (addf : (⟨S262144x64, .f32⟩ : BufTy).Contents (Elt F) → (⟨S262144x64, .f32⟩ : BufTy).Contents (Elt F) → (⟨S262144x64, .f32⟩ : BufTy).Contents (Elt F)),
    ternary main_call1_v4 main_call1_v6 main_call1_v11 main_v8 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_arg1 main_arg8 main_v9 ((fun l r => Host.dotGeneral dot_S262144x1_S1x64_S262144x64_1_0_0_1_n_n none l r) : (⟨S262144x1, .f32⟩ : BufTy).Contents (Elt F) → (⟨S1x64, .f32⟩ : BufTy).Contents (Elt F) → (⟨S262144x64, .f32⟩ : BufTy).Contents (Elt F)),
    unary main_v9 main_v10 (Host.tanh : (⟨S262144x64, .f32⟩ : BufTy).Contents (Elt F) → (⟨S262144x64, .f32⟩ : BufTy).Contents (Elt F)),
    binary main_arg0 main_arg7 main_v11 ((fun l r => Host.dotGeneral dot_S262144x1_S1x64_S262144x64_1_0_0_1_n_n none l r) : (⟨S262144x1, .f32⟩ : BufTy).Contents (Elt F) → (⟨S1x64, .f32⟩ : BufTy).Contents (Elt F) → (⟨S262144x64, .f32⟩ : BufTy).Contents (Elt F)),
    nullary main_cst (constant S_ .f32 0xBF000000#32),
    unary main_cst main_v12 (broadcastInDim S262144x64 ![] bcast_S_S262144x64 : (⟨S_, .f32⟩ : BufTy).Contents (Elt F) → (⟨S262144x64, .f32⟩ : BufTy).Contents (Elt F)),
    binary main_v12 main_v11 main_v13 (mulf : (⟨S262144x64, .f32⟩ : BufTy).Contents (Elt F) → (⟨S262144x64, .f32⟩ : BufTy).Contents (Elt F) → (⟨S262144x64, .f32⟩ : BufTy).Contents (Elt F)),
    binary main_v13 main_v11 main_v14 (mulf : (⟨S262144x64, .f32⟩ : BufTy).Contents (Elt F) → (⟨S262144x64, .f32⟩ : BufTy).Contents (Elt F) → (⟨S262144x64, .f32⟩ : BufTy).Contents (Elt F)),
    unary main_v14 main_v15 (Host.exp : (⟨S262144x64, .f32⟩ : BufTy).Contents (Elt F) → (⟨S262144x64, .f32⟩ : BufTy).Contents (Elt F)),
    binary main_v6 main_v15 main_v16 (addf : (⟨S262144x64, .f32⟩ : BufTy).Contents (Elt F) → (⟨S262144x64, .f32⟩ : BufTy).Contents (Elt F) → (⟨S262144x64, .f32⟩ : BufTy).Contents (Elt F)),
    binary main_v16 main_v10 main_v17 (addf : (⟨S262144x64, .f32⟩ : BufTy).Contents (Elt F) → (⟨S262144x64, .f32⟩ : BufTy).Contents (Elt F) → (⟨S262144x64, .f32⟩ : BufTy).Contents (Elt F)),
    binary main_v17 main_v8 main_v18 (addf : (⟨S262144x64, .f32⟩ : BufTy).Contents (Elt F) → (⟨S262144x64, .f32⟩ : BufTy).Contents (Elt F) → (⟨S262144x64, .f32⟩ : BufTy).Contents (Elt F)),
    binary main_v18 main_v4 main_v19 (addf : (⟨S262144x64, .f32⟩ : BufTy).Contents (Elt F) → (⟨S262144x64, .f32⟩ : BufTy).Contents (Elt F) → (⟨S262144x64, .f32⟩ : BufTy).Contents (Elt F)),
    unary main_v19 main_v20 (Host.sin : (⟨S262144x64, .f32⟩ : BufTy).Contents (Elt F) → (⟨S262144x64, .f32⟩ : BufTy).Contents (Elt F)),
    binary main_v20 main_arg11 main_v21 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg12 main_v22 (broadcastInDim S1x64 ![1] bcast_S64_S1x64_1 : (⟨S64, .f32⟩ : BufTy).Contents (Elt F) → (⟨S1x64, .f32⟩ : BufTy).Contents (Elt F)),
    unary main_v22 main_v23 (broadcastInDim S262144x64 ![0, 1] bcast_S1x64_S262144x64_0_1 : (⟨S1x64, .f32⟩ : BufTy).Contents (Elt F) → (⟨S262144x64, .f32⟩ : BufTy).Contents (Elt F)),
    binary main_v21 main_v23 main_v24 (addf : (⟨S262144x64, .f32⟩ : BufTy).Contents (Elt F) → (⟨S262144x64, .f32⟩ : BufTy).Contents (Elt F) → (⟨S262144x64, .f32⟩ : BufTy).Contents (Elt F)),
    unary main_v24 main_v25 (Host.tanh : (⟨S262144x64, .f32⟩ : BufTy).Contents (Elt F) → (⟨S262144x64, .f32⟩ : BufTy).Contents (Elt F)),
    unary main_arg13 main_v26 ((extractStridedSlice S1x64x64 ![0, 0, 0] · slices_S11x64x64_S1x64x64_0_0_0) : (⟨S11x64x64, .f32⟩ : BufTy).Contents (Elt F) → (⟨S1x64x64, .f32⟩ : BufTy).Contents (Elt F)),
    reshape main_v26 main_v27 rfl shapeCasts_S1x64x64_S64x64,
    binary main_v25 main_v27 main_v28 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v29 ((extractStridedSlice S1x64 ![0, 0] · slices_S11x64_S1x64_0_0) : (⟨S11x64, .f32⟩ : BufTy).Contents (Elt F) → (⟨S1x64, .f32⟩ : BufTy).Contents (Elt F)) ]

/-- The buffers segment 1 writes. -/
abbrev seg1_W : List (Ref sig .tc) := [main_call1_v6, main_call1_v7, main_call1_v8, main_call1_v9, main_call1_v10, main_call1_v11, main_v8, main_v9, main_v10, main_v11, main_cst, main_v12, main_v13, main_v14, main_v15, main_v16, main_v17, main_v18, main_v19, main_v20, main_v21, main_v22, main_v23, main_v24, main_v25, main_v26, main_v27, main_v28, main_v29]

set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg1_sub : (seg1 : List (HloOp τ sig (Elt F))).Forall fun op => op.bufs ⊆ tcRefs τ sig :=
  ⟨binary_bufs_sub .., unary_bufs_sub .., unary_bufs_sub .., unary_bufs_sub .., unary_bufs_sub .., binary_bufs_sub .., ternary_bufs_sub .., binary_bufs_sub .., unary_bufs_sub .., binary_bufs_sub .., nullary_bufs_sub .., unary_bufs_sub .., binary_bufs_sub .., binary_bufs_sub .., unary_bufs_sub .., binary_bufs_sub .., binary_bufs_sub .., binary_bufs_sub .., binary_bufs_sub .., unary_bufs_sub .., binary_bufs_sub .., unary_bufs_sub .., unary_bufs_sub .., binary_bufs_sub .., unary_bufs_sub .., unary_bufs_sub .., reshape_bufs_sub .., binary_bufs_sub .., unary_bufs_sub ..⟩

/-- Operations of segment 2 (29 of them, in window 0). -/
abbrev seg2 : List (HloOp τ sig (Elt F)) :=
  [ reshape main_v29 main_v30 rfl shapeCasts_S1x64_S64,
    unary main_v30 main_v31 (broadcastInDim S1x64 ![1] bcast_S64_S1x64_1 : (⟨S64, .f32⟩ : BufTy).Contents (Elt F) → (⟨S1x64, .f32⟩ : BufTy).Contents (Elt F)),
    unary main_v31 main_v32 (broadcastInDim S262144x64 ![0, 1] bcast_S1x64_S262144x64_0_1 : (⟨S1x64, .f32⟩ : BufTy).Contents (Elt F) → (⟨S262144x64, .f32⟩ : BufTy).Contents (Elt F)),
    binary main_v28 main_v32 main_v33 (addf : (⟨S262144x64, .f32⟩ : BufTy).Contents (Elt F) → (⟨S262144x64, .f32⟩ : BufTy).Contents (Elt F) → (⟨S262144x64, .f32⟩ : BufTy).Contents (Elt F)),
    unary main_v33 main_v34 (Host.tanh : (⟨S262144x64, .f32⟩ : BufTy).Contents (Elt F) → (⟨S262144x64, .f32⟩ : BufTy).Contents (Elt F)),
    unary main_arg13 main_v35 ((extractStridedSlice S1x64x64 ![1, 0, 0] · slices_S11x64x64_S1x64x64_1_0_0) : (⟨S11x64x64, .f32⟩ : BufTy).Contents (Elt F) → (⟨S1x64x64, .f32⟩ : BufTy).Contents (Elt F)),
    reshape main_v35 main_v36 rfl shapeCasts_S1x64x64_S64x64,
    binary main_v34 main_v36 main_v37 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v38 ((extractStridedSlice S1x64 ![1, 0] · slices_S11x64_S1x64_1_0) : (⟨S11x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S262144x64 ![0, 1] bcast_S1x64_S262144x64_0_1 : (⟨S1x64, .f32⟩ : BufTy).Contents (Elt F) → (⟨S262144x64, .f32⟩ : BufTy).Contents (Elt F)),
    binary main_v37 main_v41 main_v42 (addf : (⟨S262144x64, .f32⟩ : BufTy).Contents (Elt F) → (⟨S262144x64, .f32⟩ : BufTy).Contents (Elt F) → (⟨S262144x64, .f32⟩ : BufTy).Contents (Elt F)),
    nullary main_call2_cst (constant S_ .f32 0x00000000#32),
    unary main_call2_cst main_call2_v0 (broadcastInDim S262144x64 ![] bcast_S_S262144x64 : (⟨S_, .f32⟩ : BufTy).Contents (Elt F) → (⟨S262144x64, .f32⟩ : BufTy).Contents (Elt F)),
    binary main_v42 main_call2_v0 main_call2_v1 (cmpf .ogt : (⟨S262144x64, .f32⟩ : BufTy).Contents (Elt F) → (⟨S262144x64, .f32⟩ : BufTy).Contents (Elt F) → (⟨S262144x64, .i1⟩ : BufTy).Contents (Elt F)),
    nullary main_call2_cst_0 (constant S_ .f32 0x00000000#32),
    unary main_call2_cst_0 main_call2_v2 (broadcastInDim S262144x64 ![] bcast_S_S262144x64 : (⟨S_, .f32⟩ : BufTy).Contents (Elt F) → (⟨S262144x64, .f32⟩ : BufTy).Contents (Elt F)),
    binary main_v42 main_call2_v2 main_call2_v3 (cmpf .ogt : (⟨S262144x64, .f32⟩ : BufTy).Contents (Elt F) → (⟨S262144x64, .f32⟩ : BufTy).Contents (Elt F) → (⟨S262144x64, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S262144x64 ![] bcast_S_S262144x64 : (⟨S_, .f32⟩ : BufTy).Contents (Elt F) → (⟨S262144x64, .f32⟩ : BufTy).Contents (Elt F)),
    ternary main_call2_v3 main_call2_call0_v1 main_v42 main_call2_v4 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    unary main_call2_v4 main_call2_v5 (Host.expm1 : (⟨S262144x64, .f32⟩ : BufTy).Contents (Elt F) → (⟨S262144x64, .f32⟩ : BufTy).Contents (Elt F)),
    nullary main_call2_cst_2 (constant S_ .f32 0x3F800000#32),
    unary main_call2_cst_2 main_call2_v6 (broadcastInDim S262144x64 ![] bcast_S_S262144x64 : (⟨S_, .f32⟩ : BufTy).Contents (Elt F) → (⟨S262144x64, .f32⟩ : BufTy).Contents (Elt F)),
    binary main_call2_v6 main_call2_v5 main_call2_v7 (mulf : (⟨S262144x64, .f32⟩ : BufTy).Contents (Elt F) → (⟨S262144x64, .f32⟩ : BufTy).Contents (Elt F) → (⟨S262144x64, .f32⟩ : BufTy).Contents (Elt F)),
    ternary main_call2_v1 main_v42 main_call2_v7 main_v43 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_v43 main_v25 main_v44 (addf : (⟨S262144x64, .f32⟩ : BufTy).Contents (Elt F) → (⟨S262144x64, .f32⟩ : BufTy).Contents (Elt F) → (⟨S262144x64, .f32⟩ : BufTy).Contents (Elt F)) ]

/-- The buffers segment 2 writes. -/
abbrev seg2_W : List (Ref sig .tc) := [main_v30, main_v31, main_v32, main_v33, main_v34, main_v35, main_v36, main_v37, main_v38, main_v39, main_v40, main_v41, main_v42, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v43, main_v44]

set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg2_sub : (seg2 : List (HloOp τ sig (Elt F))).Forall fun op => op.bufs ⊆ tcRefs τ sig :=
  ⟨reshape_bufs_sub .., unary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

/-- Operations of segment 3 (27 of them, in window 0). -/
abbrev seg3 : List (HloOp τ sig (Elt F)) :=
  [ unary main_arg13 main_v45 ((extractStridedSlice S1x64x64 ![2, 0, 0] · slices_S11x64x64_S1x64x64_2_0_0) : (⟨S11x64x64, .f32⟩ : BufTy).Contents (Elt F) → (⟨S1x64x64, .f32⟩ : BufTy).Contents (Elt F)),
    reshape main_v45 main_v46 rfl shapeCasts_S1x64x64_S64x64,
    binary main_v44 main_v46 main_v47 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v48 ((extractStridedSlice S1x64 ![2, 0] · slices_S11x64_S1x64_2_0) : (⟨S11x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S262144x64 ![0, 1] bcast_S1x64_S262144x64_0_1 : (⟨S1x64, .f32⟩ : BufTy).Contents (Elt F) → (⟨S262144x64, .f32⟩ : BufTy).Contents (Elt F)),
    binary main_v47 main_v51 main_v52 (addf : (⟨S262144x64, .f32⟩ : BufTy).Contents (Elt F) → (⟨S262144x64, .f32⟩ : BufTy).Contents (Elt F) → (⟨S262144x64, .f32⟩ : BufTy).Contents (Elt F)),
    nullary main_call3_cst (constant S_ .f32 0x00000000#32),
    unary main_call3_cst main_call3_v0 (broadcastInDim S262144x64 ![] bcast_S_S262144x64 : (⟨S_, .f32⟩ : BufTy).Contents (Elt F) → (⟨S262144x64, .f32⟩ : BufTy).Contents (Elt F)),
    binary main_v52 main_call3_v0 main_call3_v1 (maximumf : (⟨S262144x64, .f32⟩ : BufTy).Contents (Elt F) → (⟨S262144x64, .f32⟩ : BufTy).Contents (Elt F) → (⟨S262144x64, .f32⟩ : BufTy).Contents (Elt F)),
    unary main_call3_cst main_call3_v2 (broadcastInDim S262144x64 ![] bcast_S_S262144x64 : (⟨S_, .f32⟩ : BufTy).Contents (Elt F) → (⟨S262144x64, .f32⟩ : BufTy).Contents (Elt F)),
    binary main_v52 main_call3_v2 main_call3_v3 (subf : (⟨S262144x64, .f32⟩ : BufTy).Contents (Elt F) → (⟨S262144x64, .f32⟩ : BufTy).Contents (Elt F) → (⟨S262144x64, .f32⟩ : BufTy).Contents (Elt F)),
    binary main_call3_v3 main_call3_v3 main_call3_v4 (cmpf .une : (⟨S262144x64, .f32⟩ : BufTy).Contents (Elt F) → (⟨S262144x64, .f32⟩ : BufTy).Contents (Elt F) → (⟨S262144x64, .i1⟩ : BufTy).Contents (Elt F)),
    unary main_call3_cst main_call3_v5 (broadcastInDim S262144x64 ![] bcast_S_S262144x64 : (⟨S_, .f32⟩ : BufTy).Contents (Elt F) → (⟨S262144x64, .f32⟩ : BufTy).Contents (Elt F)),
    binary main_v52 main_call3_v5 main_call3_v6 (addf : (⟨S262144x64, .f32⟩ : BufTy).Contents (Elt F) → (⟨S262144x64, .f32⟩ : BufTy).Contents (Elt F) → (⟨S262144x64, .f32⟩ : BufTy).Contents (Elt F)),
    unary main_call3_v3 main_call3_v7 (Host.absf : (⟨S262144x64, .f32⟩ : BufTy).Contents (Elt F) → (⟨S262144x64, .f32⟩ : BufTy).Contents (Elt F)),
    unary main_call3_v7 main_call3_v8 (Host.negf : (⟨S262144x64, .f32⟩ : BufTy).Contents (Elt F) → (⟨S262144x64, .f32⟩ : BufTy).Contents (Elt F)),
    unary main_call3_v8 main_call3_v9 (Host.exp : (⟨S262144x64, .f32⟩ : BufTy).Contents (Elt F) → (⟨S262144x64, .f32⟩ : BufTy).Contents (Elt F)),
    unary main_call3_v9 main_call3_v10 (Host.log1p : (⟨S262144x64, .f32⟩ : BufTy).Contents (Elt F) → (⟨S262144x64, .f32⟩ : BufTy).Contents (Elt F)),
    binary main_call3_v1 main_call3_v10 main_call3_v11 (addf : (⟨S262144x64, .f32⟩ : BufTy).Contents (Elt F) → (⟨S262144x64, .f32⟩ : BufTy).Contents (Elt F) → (⟨S262144x64, .f32⟩ : BufTy).Contents (Elt F)),
    ternary main_call3_v4 main_call3_v6 main_call3_v11 main_v53 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_v53 main_v34 main_v54 (addf : (⟨S262144x64, .f32⟩ : BufTy).Contents (Elt F) → (⟨S262144x64, .f32⟩ : BufTy).Contents (Elt F) → (⟨S262144x64, .f32⟩ : BufTy).Contents (Elt F)),
    binary main_v54 main_v25 main_v55 (addf : (⟨S262144x64, .f32⟩ : BufTy).Contents (Elt F) → (⟨S262144x64, .f32⟩ : BufTy).Contents (Elt F) → (⟨S262144x64, .f32⟩ : BufTy).Contents (Elt F)),
    unary main_arg13 main_v56 ((extractStridedSlice S1x64x64 ![3, 0, 0] · slices_S11x64x64_S1x64x64_3_0_0) : (⟨S11x64x64, .f32⟩ : BufTy).Contents (Elt F) → (⟨S1x64x64, .f32⟩ : BufTy).Contents (Elt F)),
    reshape main_v56 main_v57 rfl shapeCasts_S1x64x64_S64x64,
    binary main_v55 main_v57 main_v58 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)) ]

/-- The buffers segment 3 writes. -/
abbrev seg3_W : List (Ref sig .tc) := [main_v45, main_v46, main_v47, main_v48, main_v49, main_v50, main_v51, main_v52, main_call3_cst, main_call3_v0, main_call3_v1, main_call3_v2, main_call3_v3, main_call3_v4, main_call3_v5, main_call3_v6, main_call3_v7, main_call3_v8, main_call3_v9, main_call3_v10, main_call3_v11, main_v53, main_v54, main_v55, main_v56, main_v57, main_v58]

set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg3_sub : (seg3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., unary_bufs_sub .., reshape_bufs_sub .., binary_bufs_sub ..⟩

/-- Operations of segment 4 (25 of them, in window 1). -/
abbrev seg4 : List (HloOp τ sig (Elt F)) :=
  [ unary main_arg14 main_v59 ((extractStridedSlice S1x64 ![3, 0] · slices_S11x64_S1x64_3_0) : (⟨S11x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S262144x64 ![0, 1] bcast_S1x64_S262144x64_0_1 : (⟨S1x64, .f32⟩ : BufTy).Contents (Elt F) → (⟨S262144x64, .f32⟩ : BufTy).Contents (Elt F)),
    binary main_v58 main_v62 main_v63 (addf : (⟨S262144x64, .f32⟩ : BufTy).Contents (Elt F) → (⟨S262144x64, .f32⟩ : BufTy).Contents (Elt F) → (⟨S262144x64, .f32⟩ : BufTy).Contents (Elt F)),
    unary main_v63 main_v64 (Host.sin : (⟨S262144x64, .f32⟩ : BufTy).Contents (Elt F) → (⟨S262144x64, .f32⟩ : BufTy).Contents (Elt F)),
    binary main_v64 main_v43 main_v65 (addf : (⟨S262144x64, .f32⟩ : BufTy).Contents (Elt F) → (⟨S262144x64, .f32⟩ : BufTy).Contents (Elt F) → (⟨S262144x64, .f32⟩ : BufTy).Contents (Elt F)),
    unary main_arg13 main_v66 ((extractStridedSlice S1x64x64 ![4, 0, 0] · slices_S11x64x64_S1x64x64_4_0_0) : (⟨S11x64x64, .f32⟩ : BufTy).Contents (Elt F) → (⟨S1x64x64, .f32⟩ : BufTy).Contents (Elt F)),
    reshape main_v66 main_v67 rfl shapeCasts_S1x64x64_S64x64,
    binary main_v65 main_v67 main_v68 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v69 ((extractStridedSlice S1x64 ![4, 0] · slices_S11x64_S1x64_4_0) : (⟨S11x64, .f32⟩ : BufTy).Contents (Elt F) → (⟨S1x64, .f32⟩ : BufTy).Contents (Elt F)),
    reshape main_v69 main_v70 rfl shapeCasts_S1x64_S64,
    unary main_v70 main_v71 (broadcastInDim S1x64 ![1] bcast_S64_S1x64_1 : (⟨S64, .f32⟩ : BufTy).Contents (Elt F) → (⟨S1x64, .f32⟩ : BufTy).Contents (Elt F)),
    unary main_v71 main_v72 (broadcastInDim S262144x64 ![0, 1] bcast_S1x64_S262144x64_0_1 : (⟨S1x64, .f32⟩ : BufTy).Contents (Elt F) → (⟨S262144x64, .f32⟩ : BufTy).Contents (Elt F)),
    binary main_v68 main_v72 main_v73 (addf : (⟨S262144x64, .f32⟩ : BufTy).Contents (Elt F) → (⟨S262144x64, .f32⟩ : BufTy).Contents (Elt F) → (⟨S262144x64, .f32⟩ : BufTy).Contents (Elt F)),
    nullary main_cst_0 (constant S_ .f32 0xBF000000#32),
    unary main_cst_0 main_v74 (broadcastInDim S262144x64 ![] bcast_S_S262144x64 : (⟨S_, .f32⟩ : BufTy).Contents (Elt F) → (⟨S262144x64, .f32⟩ : BufTy).Contents (Elt F)),
    binary main_v74 main_v73 main_v75 (mulf : (⟨S262144x64, .f32⟩ : BufTy).Contents (Elt F) → (⟨S262144x64, .f32⟩ : BufTy).Contents (Elt F) → (⟨S262144x64, .f32⟩ : BufTy).Contents (Elt F)),
    binary main_v75 main_v73 main_v76 (mulf : (⟨S262144x64, .f32⟩ : BufTy).Contents (Elt F) → (⟨S262144x64, .f32⟩ : BufTy).Contents (Elt F) → (⟨S262144x64, .f32⟩ : BufTy).Contents (Elt F)),
    unary main_v76 main_v77 (Host.exp : (⟨S262144x64, .f32⟩ : BufTy).Contents (Elt F) → (⟨S262144x64, .f32⟩ : BufTy).Contents (Elt F)),
    binary main_v77 main_v53 main_v78 (addf : (⟨S262144x64, .f32⟩ : BufTy).Contents (Elt F) → (⟨S262144x64, .f32⟩ : BufTy).Contents (Elt F) → (⟨S262144x64, .f32⟩ : BufTy).Contents (Elt F)),
    unary main_arg13 main_v79 ((extractStridedSlice S1x64x64 ![5, 0, 0] · slices_S11x64x64_S1x64x64_5_0_0) : (⟨S11x64x64, .f32⟩ : BufTy).Contents (Elt F) → (⟨S1x64x64, .f32⟩ : BufTy).Contents (Elt F)),
    reshape main_v79 main_v80 rfl shapeCasts_S1x64x64_S64x64,
    binary main_v78 main_v80 main_v81 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v82 ((extractStridedSlice S1x64 ![5, 0] · slices_S11x64_S1x64_5_0) : (⟨S11x64, .f32⟩ : BufTy).Contents (Elt F) → (⟨S1x64, .f32⟩ : BufTy).Contents (Elt F)) ]

/-- The buffers segment 4 writes. -/
abbrev seg4_W : List (Ref sig .tc) := [main_v59, main_v60, main_v61, main_v62, main_v63, main_v64, main_v65, main_v66, main_v67, main_v68, main_v69, main_v70, main_v71, main_v72, main_v73, main_cst_0, main_v74, main_v75, main_v76, main_v77, main_v78, main_v79, main_v80, main_v81, main_v82]

set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg4_sub : (seg4 : List (HloOp τ sig (Elt F))).Forall fun op => op.bufs ⊆ tcRefs τ sig :=
  ⟨unary_bufs_sub .., reshape_bufs_sub .., unary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., binary_bufs_sub .., unary_bufs_sub .., reshape_bufs_sub .., binary_bufs_sub .., unary_bufs_sub ..⟩

/-- Operations of segment 5 (25 of them, in window 1). -/
abbrev seg5 : List (HloOp τ sig (Elt F)) :=
  [ reshape main_v82 main_v83 rfl shapeCasts_S1x64_S64,
    unary main_v83 main_v84 (broadcastInDim S1x64 ![1] bcast_S64_S1x64_1 : (⟨S64, .f32⟩ : BufTy).Contents (Elt F) → (⟨S1x64, .f32⟩ : BufTy).Contents (Elt F)),
    unary main_v84 main_v85 (broadcastInDim S262144x64 ![0, 1] bcast_S1x64_S262144x64_0_1 : (⟨S1x64, .f32⟩ : BufTy).Contents (Elt F) → (⟨S262144x64, .f32⟩ : BufTy).Contents (Elt F)),
    binary main_v81 main_v85 main_v86 (addf : (⟨S262144x64, .f32⟩ : BufTy).Contents (Elt F) → (⟨S262144x64, .f32⟩ : BufTy).Contents (Elt F) → (⟨S262144x64, .f32⟩ : BufTy).Contents (Elt F)),
    unary main_v86 main_v87 (Host.negf : (⟨S262144x64, .f32⟩ : BufTy).Contents (Elt F) → (⟨S262144x64, .f32⟩ : BufTy).Contents (Elt F)),
    unary main_v87 main_v88 (Host.exp : (⟨S262144x64, .f32⟩ : BufTy).Contents (Elt F) → (⟨S262144x64, .f32⟩ : BufTy).Contents (Elt F)),
    nullary main_cst_1 (constant S_ .f32 0x3F800000#32),
    unary main_cst_1 main_v89 (broadcastInDim S262144x64 ![] bcast_S_S262144x64 : (⟨S_, .f32⟩ : BufTy).Contents (Elt F) → (⟨S262144x64, .f32⟩ : BufTy).Contents (Elt F)),
    binary main_v89 main_v88 main_v90 (addf : (⟨S262144x64, .f32⟩ : BufTy).Contents (Elt F) → (⟨S262144x64, .f32⟩ : BufTy).Contents (Elt F) → (⟨S262144x64, .f32⟩ : BufTy).Contents (Elt F)),
    nullary main_cst_2 (constant S_ .f32 0x3F800000#32),
    unary main_cst_2 main_v91 (broadcastInDim S262144x64 ![] bcast_S_S262144x64 : (⟨S_, .f32⟩ : BufTy).Contents (Elt F) → (⟨S262144x64, .f32⟩ : BufTy).Contents (Elt F)),
    binary main_v91 main_v90 main_v92 (Host.divf : (⟨S262144x64, .f32⟩ : BufTy).Contents (Elt F) → (⟨S262144x64, .f32⟩ : BufTy).Contents (Elt F) → (⟨S262144x64, .f32⟩ : BufTy).Contents (Elt F)),
    binary main_v92 main_v64 main_v93 (addf : (⟨S262144x64, .f32⟩ : BufTy).Contents (Elt F) → (⟨S262144x64, .f32⟩ : BufTy).Contents (Elt F) → (⟨S262144x64, .f32⟩ : BufTy).Contents (Elt F)),
    unary main_arg13 main_v94 ((extractStridedSlice S1x64x64 ![6, 0, 0] · slices_S11x64x64_S1x64x64_6_0_0) : (⟨S11x64x64, .f32⟩ : BufTy).Contents (Elt F) → (⟨S1x64x64, .f32⟩ : BufTy).Contents (Elt F)),
    reshape main_v94 main_v95 rfl shapeCasts_S1x64x64_S64x64,
    binary main_v93 main_v95 main_v96 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v97 ((extractStridedSlice S1x64 ![6, 0] · slices_S11x64_S1x64_6_0) : (⟨S11x64, .f32⟩ : BufTy).Contents (Elt F) → (⟨S1x64, .f32⟩ : BufTy).Contents (Elt F)),
    reshape main_v97 main_v98 rfl shapeCasts_S1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S262144x64 ![0, 1] bcast_S1x64_S262144x64_0_1 : (⟨S1x64, .f32⟩ : BufTy).Contents (Elt F) → (⟨S262144x64, .f32⟩ : BufTy).Contents (Elt F)),
    binary main_v96 main_v100 main_v101 (addf : (⟨S262144x64, .f32⟩ : BufTy).Contents (Elt F) → (⟨S262144x64, .f32⟩ : BufTy).Contents (Elt F) → (⟨S262144x64, .f32⟩ : BufTy).Contents (Elt F)),
    unary main_v101 main_v102 (Host.tanh : (⟨S262144x64, .f32⟩ : BufTy).Contents (Elt F) → (⟨S262144x64, .f32⟩ : BufTy).Contents (Elt F)),
    binary main_v102 main_v77 main_v103 (addf : (⟨S262144x64, .f32⟩ : BufTy).Contents (Elt F) → (⟨S262144x64, .f32⟩ : BufTy).Contents (Elt F) → (⟨S262144x64, .f32⟩ : BufTy).Contents (Elt F)),
    binary main_v103 main_v25 main_v104 (addf : (⟨S262144x64, .f32⟩ : BufTy).Contents (Elt F) → (⟨S262144x64, .f32⟩ : BufTy).Contents (Elt F) → (⟨S262144x64, .f32⟩ : BufTy).Contents (Elt F)),
    unary main_arg13 main_v105 ((extractStridedSlice S1x64x64 ![7, 0, 0] · slices_S11x64x64_S1x64x64_7_0_0) : (⟨S11x64x64, .f32⟩ : BufTy).Contents (Elt F) → (⟨S1x64x64, .f32⟩ : BufTy).Contents (Elt F)) ]

/-- The buffers segment 5 writes. -/
abbrev seg5_W : List (Ref sig .tc) := [main_v83, main_v84, main_v85, main_v86, main_v87, main_v88, main_cst_1, main_v89, main_v90, main_cst_2, main_v91, main_v92, main_v93, main_v94, main_v95, main_v96, main_v97, main_v98, main_v99, main_v100, main_v101, main_v102, main_v103, main_v104, main_v105]

set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg5_sub : (seg5 : List (HloOp τ sig (Elt F))).Forall fun op => op.bufs ⊆ tcRefs τ sig :=
  ⟨reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., binary_bufs_sub .., unary_bufs_sub ..⟩

/-- Operations of segment 6 (24 of them, in window 1). -/
abbrev seg6 : List (HloOp τ sig (Elt F)) :=
  [ reshape main_v105 main_v106 rfl shapeCasts_S1x64x64_S64x64,
    binary main_v104 main_v106 main_v107 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v108 ((extractStridedSlice S1x64 ![7, 0] · slices_S11x64_S1x64_7_0) : (⟨S11x64, .f32⟩ : BufTy).Contents (Elt F) → (⟨S1x64, .f32⟩ : BufTy).Contents (Elt F)),
    reshape main_v108 main_v109 rfl shapeCasts_S1x64_S64,
    unary main_v109 main_v110 (broadcastInDim S1x64 ![1] bcast_S64_S1x64_1 : (⟨S64, .f32⟩ : BufTy).Contents (Elt F) → (⟨S1x64, .f32⟩ : BufTy).Contents (Elt F)),
    unary main_v110 main_v111 (broadcastInDim S262144x64 ![0, 1] bcast_S1x64_S262144x64_0_1 : (⟨S1x64, .f32⟩ : BufTy).Contents (Elt F) → (⟨S262144x64, .f32⟩ : BufTy).Contents (Elt F)),
    binary main_v107 main_v111 main_v112 (addf : (⟨S262144x64, .f32⟩ : BufTy).Contents (Elt F) → (⟨S262144x64, .f32⟩ : BufTy).Contents (Elt F) → (⟨S262144x64, .f32⟩ : BufTy).Contents (Elt F)),
    nullary main_call4_cst (constant S_ .f32 0x00000000#32),
    unary main_call4_cst main_call4_v0 (broadcastInDim S262144x64 ![] bcast_S_S262144x64 : (⟨S_, .f32⟩ : BufTy).Contents (Elt F) → (⟨S262144x64, .f32⟩ : BufTy).Contents (Elt F)),
    binary main_v112 main_call4_v0 main_call4_v1 (cmpf .ogt : (⟨S262144x64, .f32⟩ : BufTy).Contents (Elt F) → (⟨S262144x64, .f32⟩ : BufTy).Contents (Elt F) → (⟨S262144x64, .i1⟩ : BufTy).Contents (Elt F)),
    nullary main_call4_cst_0 (constant S_ .f32 0x00000000#32),
    unary main_call4_cst_0 main_call4_v2 (broadcastInDim S262144x64 ![] bcast_S_S262144x64 : (⟨S_, .f32⟩ : BufTy).Contents (Elt F) → (⟨S262144x64, .f32⟩ : BufTy).Contents (Elt F)),
    binary main_v112 main_call4_v2 main_call4_v3 (cmpf .ogt : (⟨S262144x64, .f32⟩ : BufTy).Contents (Elt F) → (⟨S262144x64, .f32⟩ : BufTy).Contents (Elt F) → (⟨S262144x64, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S262144x64 ![] bcast_S_S262144x64 : (⟨S_, .f32⟩ : BufTy).Contents (Elt F) → (⟨S262144x64, .f32⟩ : BufTy).Contents (Elt F)),
    ternary main_call4_v3 main_call4_call0_v1 main_v112 main_call4_v4 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    unary main_call4_v4 main_call4_v5 (Host.expm1 : (⟨S262144x64, .f32⟩ : BufTy).Contents (Elt F) → (⟨S262144x64, .f32⟩ : BufTy).Contents (Elt F)),
    nullary main_call4_cst_2 (constant S_ .f32 0x3F800000#32),
    unary main_call4_cst_2 main_call4_v6 (broadcastInDim S262144x64 ![] bcast_S_S262144x64 : (⟨S_, .f32⟩ : BufTy).Contents (Elt F) → (⟨S262144x64, .f32⟩ : BufTy).Contents (Elt F)),
    binary main_call4_v6 main_call4_v5 main_call4_v7 (mulf : (⟨S262144x64, .f32⟩ : BufTy).Contents (Elt F) → (⟨S262144x64, .f32⟩ : BufTy).Contents (Elt F) → (⟨S262144x64, .f32⟩ : BufTy).Contents (Elt F)),
    ternary main_call4_v1 main_v112 main_call4_v7 main_v113 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_v113 main_v92 main_v114 (addf : (⟨S262144x64, .f32⟩ : BufTy).Contents (Elt F) → (⟨S262144x64, .f32⟩ : BufTy).Contents (Elt F) → (⟨S262144x64, .f32⟩ : BufTy).Contents (Elt F)),
    unary main_arg13 main_v115 ((extractStridedSlice S1x64x64 ![8, 0, 0] · slices_S11x64x64_S1x64x64_8_0_0) : (⟨S11x64x64, .f32⟩ : BufTy).Contents (Elt F) → (⟨S1x64x64, .f32⟩ : BufTy).Contents (Elt F)) ]

/-- The buffers segment 6 writes. -/
abbrev seg6_W : List (Ref sig .tc) := [main_v106, main_v107, main_v108, main_v109, main_v110, main_v111, main_v112, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v113, main_v114, main_v115]

set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg6_sub : (seg6 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub ..⟩

/-- Operations of segment 7 (29 of them, in window 2). -/
abbrev seg7 : List (HloOp τ sig (Elt F)) :=
  [ reshape main_v115 main_v116 rfl shapeCasts_S1x64x64_S64x64,
    binary main_v114 main_v116 main_v117 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v118 ((extractStridedSlice S1x64 ![8, 0] · slices_S11x64_S1x64_8_0) : (⟨S11x64, .f32⟩ : BufTy).Contents (Elt F) → (⟨S1x64, .f32⟩ : BufTy).Contents (Elt F)),
    reshape main_v118 main_v119 rfl shapeCasts_S1x64_S64,
    unary main_v119 main_v120 (broadcastInDim S1x64 ![1] bcast_S64_S1x64_1 : (⟨S64, .f32⟩ : BufTy).Contents (Elt F) → (⟨S1x64, .f32⟩ : BufTy).Contents (Elt F)),
    unary main_v120 main_v121 (broadcastInDim S262144x64 ![0, 1] bcast_S1x64_S262144x64_0_1 : (⟨S1x64, .f32⟩ : BufTy).Contents (Elt F) → (⟨S262144x64, .f32⟩ : BufTy).Contents (Elt F)),
    binary main_v117 main_v121 main_v122 (addf : (⟨S262144x64, .f32⟩ : BufTy).Contents (Elt F) → (⟨S262144x64, .f32⟩ : BufTy).Contents (Elt F) → (⟨S262144x64, .f32⟩ : BufTy).Contents (Elt F)),
    nullary main_call5_cst (constant S_ .f32 0x00000000#32),
    unary main_call5_cst main_call5_v0 (broadcastInDim S262144x64 ![] bcast_S_S262144x64 : (⟨S_, .f32⟩ : BufTy).Contents (Elt F) → (⟨S262144x64, .f32⟩ : BufTy).Contents (Elt F)),
    binary main_v122 main_call5_v0 main_call5_v1 (maximumf : (⟨S262144x64, .f32⟩ : BufTy).Contents (Elt F) → (⟨S262144x64, .f32⟩ : BufTy).Contents (Elt F) → (⟨S262144x64, .f32⟩ : BufTy).Contents (Elt F)),
    unary main_call5_cst main_call5_v2 (broadcastInDim S262144x64 ![] bcast_S_S262144x64 : (⟨S_, .f32⟩ : BufTy).Contents (Elt F) → (⟨S262144x64, .f32⟩ : BufTy).Contents (Elt F)),
    binary main_v122 main_call5_v2 main_call5_v3 (subf : (⟨S262144x64, .f32⟩ : BufTy).Contents (Elt F) → (⟨S262144x64, .f32⟩ : BufTy).Contents (Elt F) → (⟨S262144x64, .f32⟩ : BufTy).Contents (Elt F)),
    binary main_call5_v3 main_call5_v3 main_call5_v4 (cmpf .une : (⟨S262144x64, .f32⟩ : BufTy).Contents (Elt F) → (⟨S262144x64, .f32⟩ : BufTy).Contents (Elt F) → (⟨S262144x64, .i1⟩ : BufTy).Contents (Elt F)),
    unary main_call5_cst main_call5_v5 (broadcastInDim S262144x64 ![] bcast_S_S262144x64 : (⟨S_, .f32⟩ : BufTy).Contents (Elt F) → (⟨S262144x64, .f32⟩ : BufTy).Contents (Elt F)),
    binary main_v122 main_call5_v5 main_call5_v6 (addf : (⟨S262144x64, .f32⟩ : BufTy).Contents (Elt F) → (⟨S262144x64, .f32⟩ : BufTy).Contents (Elt F) → (⟨S262144x64, .f32⟩ : BufTy).Contents (Elt F)),
    unary main_call5_v3 main_call5_v7 (Host.absf : (⟨S262144x64, .f32⟩ : BufTy).Contents (Elt F) → (⟨S262144x64, .f32⟩ : BufTy).Contents (Elt F)),
    unary main_call5_v7 main_call5_v8 (Host.negf : (⟨S262144x64, .f32⟩ : BufTy).Contents (Elt F) → (⟨S262144x64, .f32⟩ : BufTy).Contents (Elt F)),
    unary main_call5_v8 main_call5_v9 (Host.exp : (⟨S262144x64, .f32⟩ : BufTy).Contents (Elt F) → (⟨S262144x64, .f32⟩ : BufTy).Contents (Elt F)),
    unary main_call5_v9 main_call5_v10 (Host.log1p : (⟨S262144x64, .f32⟩ : BufTy).Contents (Elt F) → (⟨S262144x64, .f32⟩ : BufTy).Contents (Elt F)),
    binary main_call5_v1 main_call5_v10 main_call5_v11 (addf : (⟨S262144x64, .f32⟩ : BufTy).Contents (Elt F) → (⟨S262144x64, .f32⟩ : BufTy).Contents (Elt F) → (⟨S262144x64, .f32⟩ : BufTy).Contents (Elt F)),
    ternary main_call5_v4 main_call5_v6 main_call5_v11 main_v123 (select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F)),
    binary main_v123 main_v102 main_v124 (addf : (⟨S262144x64, .f32⟩ : BufTy).Contents (Elt F) → (⟨S262144x64, .f32⟩ : BufTy).Contents (Elt F) → (⟨S262144x64, .f32⟩ : BufTy).Contents (Elt F)),
    unary main_arg13 main_v125 ((extractStridedSlice S1x64x64 ![9, 0, 0] · slices_S11x64x64_S1x64x64_9_0_0) : (⟨S11x64x64, .f32⟩ : BufTy).Contents (Elt F) → (⟨S1x64x64, .f32⟩ : BufTy).Contents (Elt F)),
    reshape main_v125 main_v126 rfl shapeCasts_S1x64x64_S64x64,
    binary main_v124 main_v126 main_v127 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v128 ((extractStridedSlice S1x64 ![9, 0] · slices_S11x64_S1x64_9_0) : (⟨S11x64, .f32⟩ : BufTy).Contents (Elt F) → (⟨S1x64, .f32⟩ : BufTy).Contents (Elt F)),
    reshape main_v128 main_v129 rfl shapeCasts_S1x64_S64,
    unary main_v129 main_v130 (broadcastInDim S1x64 ![1] bcast_S64_S1x64_1 : (⟨S64, .f32⟩ : BufTy).Contents (Elt F) → (⟨S1x64, .f32⟩ : BufTy).Contents (Elt F)),
    unary main_v130 main_v131 (broadcastInDim S262144x64 ![0, 1] bcast_S1x64_S262144x64_0_1 : (⟨S1x64, .f32⟩ : BufTy).Contents (Elt F) → (⟨S262144x64, .f32⟩ : BufTy).Contents (Elt F)) ]

/-- The buffers segment 7 writes. -/
abbrev seg7_W : List (Ref sig .tc) := [main_v116, main_v117, main_v118, main_v119, main_v120, main_v121, main_v122, main_call5_cst, main_call5_v0, main_call5_v1, main_call5_v2, main_call5_v3, main_call5_v4, main_call5_v5, main_call5_v6, main_call5_v7, main_call5_v8, main_call5_v9, main_call5_v10, main_call5_v11, main_v123, main_v124, main_v125, main_v126, main_v127, main_v128, main_v129, main_v130, main_v131]

set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg7_sub : (seg7 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub ..⟩

/-- Operations of segment 8 (28 of them, in window 2). -/
abbrev seg8 : List (HloOp τ sig (Elt F)) :=
  [ binary main_v127 main_v131 main_v132 (addf : (⟨S262144x64, .f32⟩ : BufTy).Contents (Elt F) → (⟨S262144x64, .f32⟩ : BufTy).Contents (Elt F) → (⟨S262144x64, .f32⟩ : BufTy).Contents (Elt F)),
    unary main_v132 main_v133 (Host.sin : (⟨S262144x64, .f32⟩ : BufTy).Contents (Elt F) → (⟨S262144x64, .f32⟩ : BufTy).Contents (Elt F)),
    binary main_v133 main_v113 main_v134 (addf : (⟨S262144x64, .f32⟩ : BufTy).Contents (Elt F) → (⟨S262144x64, .f32⟩ : BufTy).Contents (Elt F) → (⟨S262144x64, .f32⟩ : BufTy).Contents (Elt F)),
    unary main_arg13 main_v135 ((extractStridedSlice S1x64x64 ![10, 0, 0] · slices_S11x64x64_S1x64x64_10_0_0) : (⟨S11x64x64, .f32⟩ : BufTy).Contents (Elt F) → (⟨S1x64x64, .f32⟩ : BufTy).Contents (Elt F)),
    reshape main_v135 main_v136 rfl shapeCasts_S1x64x64_S64x64,
    binary main_v134 main_v136 main_v137 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_arg14 main_v138 ((extractStridedSlice S1x64 ![10, 0] · slices_S11x64_S1x64_10_0) : (⟨S11x64, .f32⟩ : BufTy).Contents (Elt F) → (⟨S1x64, .f32⟩ : BufTy).Contents (Elt F)),
    reshape main_v138 main_v139 rfl shapeCasts_S1x64_S64,
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S262144x64 ![0, 1] bcast_S1x64_S262144x64_0_1 : (⟨S1x64, .f32⟩ : BufTy).Contents (Elt F) → (⟨S262144x64, .f32⟩ : BufTy).Contents (Elt F)),
    binary main_v137 main_v141 main_v142 (addf : (⟨S262144x64, .f32⟩ : BufTy).Contents (Elt F) → (⟨S262144x64, .f32⟩ : BufTy).Contents (Elt F) → (⟨S262144x64, .f32⟩ : BufTy).Contents (Elt F)),
    nullary main_cst_3 (constant S_ .f32 0xBF000000#32),
    unary main_cst_3 main_v143 (broadcastInDim S262144x64 ![] bcast_S_S262144x64 : (⟨S_, .f32⟩ : BufTy).Contents (Elt F) → (⟨S262144x64, .f32⟩ : BufTy).Contents (Elt F)),
    binary main_v143 main_v142 main_v144 (mulf : (⟨S262144x64, .f32⟩ : BufTy).Contents (Elt F) → (⟨S262144x64, .f32⟩ : BufTy).Contents (Elt F) → (⟨S262144x64, .f32⟩ : BufTy).Contents (Elt F)),
    binary main_v144 main_v142 main_v145 (mulf : (⟨S262144x64, .f32⟩ : BufTy).Contents (Elt F) → (⟨S262144x64, .f32⟩ : BufTy).Contents (Elt F) → (⟨S262144x64, .f32⟩ : BufTy).Contents (Elt F)),
    unary main_v145 main_v146 (Host.exp : (⟨S262144x64, .f32⟩ : BufTy).Contents (Elt F) → (⟨S262144x64, .f32⟩ : BufTy).Contents (Elt F)),
    binary main_v146 main_arg15 main_v147 ((fun l r => Host.dotGeneral dot_S262144x64_S64x3_S262144x3_1_0_0_1_n_n none l r) : (⟨S262144x64, .f32⟩ : BufTy).Contents (Elt F) → (⟨S64x3, .f32⟩ : BufTy).Contents (Elt F) → (⟨S262144x3, .f32⟩ : BufTy).Contents (Elt F)),
    unary main_arg16 main_v148 (broadcastInDim S1x3 ![1] bcast_S3_S1x3_1 : (⟨S3, .f32⟩ : BufTy).Contents (Elt F) → (⟨S1x3, .f32⟩ : BufTy).Contents (Elt F)),
    unary main_v148 main_v149 (broadcastInDim S262144x3 ![0, 1] bcast_S1x3_S262144x3_0_1 : (⟨S1x3, .f32⟩ : BufTy).Contents (Elt F) → (⟨S262144x3, .f32⟩ : BufTy).Contents (Elt F)),
    binary main_v147 main_v149 main_v150 (addf : (⟨S262144x3, .f32⟩ : BufTy).Contents (Elt F) → (⟨S262144x3, .f32⟩ : BufTy).Contents (Elt F) → (⟨S262144x3, .f32⟩ : BufTy).Contents (Elt F)),
    unary main_v150 main_v151 (Host.negf : (⟨S262144x3, .f32⟩ : BufTy).Contents (Elt F) → (⟨S262144x3, .f32⟩ : BufTy).Contents (Elt F)),
    unary main_v151 main_v152 (Host.exp : (⟨S262144x3, .f32⟩ : BufTy).Contents (Elt F) → (⟨S262144x3, .f32⟩ : BufTy).Contents (Elt F)),
    nullary main_cst_4 (constant S_ .f32 0x3F800000#32),
    unary main_cst_4 main_v153 (broadcastInDim S262144x3 ![] bcast_S_S262144x3 : (⟨S_, .f32⟩ : BufTy).Contents (Elt F) → (⟨S262144x3, .f32⟩ : BufTy).Contents (Elt F)),
    binary main_v153 main_v152 main_v154 (addf : (⟨S262144x3, .f32⟩ : BufTy).Contents (Elt F) → (⟨S262144x3, .f32⟩ : BufTy).Contents (Elt F) → (⟨S262144x3, .f32⟩ : BufTy).Contents (Elt F)),
    nullary main_cst_5 (constant S_ .f32 0x3F800000#32),
    unary main_cst_5 main_v155 (broadcastInDim S262144x3 ![] bcast_S_S262144x3 : (⟨S_, .f32⟩ : BufTy).Contents (Elt F) → (⟨S262144x3, .f32⟩ : BufTy).Contents (Elt F)),
    binary main_v155 main_v154 main_v156 (Host.divf : (⟨S262144x3, .f32⟩ : BufTy).Contents (Elt F) → (⟨S262144x3, .f32⟩ : BufTy).Contents (Elt F) → (⟨S262144x3, .f32⟩ : BufTy).Contents (Elt F)) ]

/-- The buffers segment 8 writes. -/
abbrev seg8_W : List (Ref sig .tc) := [main_v132, main_v133, main_v134, main_v135, main_v136, main_v137, main_v138, main_v139, main_v140, main_v141, main_v142, main_cst_3, main_v143, main_v144, main_v145, main_v146, main_v147, main_v148, main_v149, main_v150, main_v151, main_v152, main_cst_4, main_v153, main_v154, main_cst_5, main_v155, main_v156]

set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem seg8_sub : (seg8 : List (HloOp τ sig (Elt F))).Forall fun op => op.bufs ⊆ tcRefs τ sig :=
  ⟨binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Window 0 of @main: its segments in order. -/
abbrev ops_part0 : List (HloOp τ sig (Elt F)) := seg0 ++ (seg1 ++ (seg2 ++ (seg3)))

/-- Window 1 of @main: its segments in order. -/
abbrev ops_part1 : List (HloOp τ sig (Elt F)) := seg4 ++ (seg5 ++ (seg6))

/-- Window 2 of @main: its segments in order. -/
abbrev ops_part2 : List (HloOp τ sig (Elt F)) := seg7 ++ (seg8)

/-- @main's 245 operations, in order. -/
abbrev ops : List (HloOp τ sig (Elt F)) := ops_part0 ++ (ops_part1 ++ ops_part2)

set_option maxRecDepth 16384 in
set_option maxHeartbeats 4000000 in
/-- Window 0 is the straight line of its operations: the functions' definitions unfolded at their calls, sequencing
    reassociated, both sides are one chain of steps. -/
theorem main_part0_eq (c : Dev nD) : main_part0 (F := F) c = seq ops_part0 := by
  simp only [main_part0, fn_elu.body, fn_softplus.body, fn_where.body, fn_where_0.body, ops_part0, seq_append, seg0, seg1, seg2, seg3, seq, bind_assoc, pure_bind]
  rfl

set_option maxRecDepth 16384 in
set_option maxHeartbeats 4000000 in
/-- Window 1 is the straight line of its operations: the functions' definitions unfolded at their calls, sequencing
    reassociated, both sides are one chain of steps. -/
theorem main_part1_eq (c : Dev nD) : main_part1 (F := F) c = seq ops_part1 := by
  simp only [main_part1, fn_elu.body, fn_softplus.body, fn_where.body, fn_where_0.body, ops_part1, seq_append, seg4, seg5, seg6, seq, bind_assoc, pure_bind]
  rfl

set_option maxRecDepth 16384 in
set_option maxHeartbeats 4000000 in
/-- Window 2 is the straight line of its operations: the functions' definitions unfolded at their calls, sequencing
    reassociated, both sides are one chain of steps. -/
theorem main_part2_eq (c : Dev nD) : main_part2 (F := F) c = seq ops_part2 := by
  simp only [main_part2, fn_elu.body, fn_softplus.body, fn_where.body, fn_where_0.body, ops_part2, seq_append, seg7, seg8, seq, bind_assoc, pure_bind]
  rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops_part0, ops_part1, ops_part2, List.mem_append] at h
    rcases h with (h | h | h | h) | (h | h | h) | (h | h)
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h]

/-- The fold over all of @main is the segments' folds composed. -/
theorem after_ops (V : Valuation τ sig (Elt F)) :
    after ops V = after seg8 (after seg7 (after seg6 (after seg5 (after seg4 (after seg3 (after seg2 (after seg1 (after seg0 (V))))))))) := by
  simp only [ops, ops_part0, ops_part1, ops_part2, after_app]

end Cert.ReferenceIdeal.HandRun

end
-- ==== Proof.RefRunVals.lean ====
/- The reference's result as a function of its seventeen argument arrays, one definition per tensor value of the
   program: each value is its operation applied to the values of its operands, so the result unfolds one operation
   at a time. -/
import proofs.«136870_j44341242364139_2_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents of the seventeen argument arrays. -/
structure Args (F : FTy → Type) where
  a0 : (⟨S262144x1, .f32⟩ : BufTy).Contents (Elt F)
  a1 : (⟨S262144x1, .f32⟩ : BufTy).Contents (Elt F)
  a2 : (⟨S262144x1, .f32⟩ : BufTy).Contents (Elt F)
  a3 : (⟨S262144x1, .f32⟩ : BufTy).Contents (Elt F)
  a4 : (⟨S262144x16, .f32⟩ : BufTy).Contents (Elt F)
  a5 : (⟨S16x64, .f32⟩ : BufTy).Contents (Elt F)
  a6 : (⟨S64, .f32⟩ : BufTy).Contents (Elt F)
  a7 : (⟨S1x64, .f32⟩ : BufTy).Contents (Elt F)
  a8 : (⟨S1x64, .f32⟩ : BufTy).Contents (Elt F)
  a9 : (⟨S1x64, .f32⟩ : BufTy).Contents (Elt F)
  a10 : (⟨S1x64, .f32⟩ : BufTy).Contents (Elt F)
  a11 : (⟨S64x64, .f32⟩ : BufTy).Contents (Elt F)
  a12 : (⟨S64, .f32⟩ : BufTy).Contents (Elt F)
  a13 : (⟨S11x64x64, .f32⟩ : BufTy).Contents (Elt F)
  a14 : (⟨S11x64, .f32⟩ : BufTy).Contents (Elt F)
  a15 : (⟨S64x3, .f32⟩ : BufTy).Contents (Elt F)
  a16 : (⟨S3, .f32⟩ : BufTy).Contents (Elt F)

/-- The value of `main_v0`. -/
def val_main_v0 (a : Args F) : (⟨S262144x64, .f32⟩ : BufTy).Contents (Elt F) :=
  Host.dotGeneral dot_S262144x16_S16x64_S262144x64_1_0_0_1_n_n none a.a4 a.a5

/-- The value of `main_v1`. -/
def val_main_v1 (a : Args F) : (⟨S1x64, .f32⟩ : BufTy).Contents (Elt F) :=
  broadcastInDim S1x64 ![1] bcast_S64_S1x64_1 a.a6

/-- The value of `main_v2`. -/
def val_main_v2 (a : Args F) : (⟨S262144x64, .f32⟩ : BufTy).Contents (Elt F) :=
  broadcastInDim S262144x64 ![0, 1] bcast_S1x64_S262144x64_0_1 (val_main_v1 a)

/-- The value of `main_v3`. -/
def val_main_v3 (a : Args F) : (⟨S262144x64, .f32⟩ : BufTy).Contents (Elt F) :=
  addf (val_main_v0 a) (val_main_v2 a)

/-- The value of `main_v4`. -/
def val_main_v4 (a : Args F) : (⟨S262144x64, .f32⟩ : BufTy).Contents (Elt F) :=
  Host.tanh (val_main_v3 a)

/-- The value of `main_v5`. -/
def val_main_v5 (a : Args F) : (⟨S262144x64, .f32⟩ : BufTy).Contents (Elt F) :=
  Host.dotGeneral dot_S262144x1_S1x64_S262144x64_1_0_0_1_n_n none a.a2 a.a9

/-- The value of `main_call0_cst`. -/
def val_main_call0_cst (a : Args F) : (⟨S_, .f32⟩ : BufTy).Contents (Elt F) :=
  constant S_ .f32 0x00000000#32

/-- The value of `main_call0_v0`. -/
def val_main_call0_v0 (a : Args F) : (⟨S262144x64, .f32⟩ : BufTy).Contents (Elt F) :=
  broadcastInDim S262144x64 ![] bcast_S_S262144x64 (val_main_call0_cst a)

/-- The value of `main_call0_v1`. -/
def val_main_call0_v1 (a : Args F) : (⟨S262144x64, .i1⟩ : BufTy).Contents (Elt F) :=
  cmpf .ogt (val_main_v5 a) (val_main_call0_v0 a)

/-- The value of `main_call0_cst_0`. -/
def val_main_call0_cst_0 (a : Args F) : (⟨S_, .f32⟩ : BufTy).Contents (Elt F) :=
  constant S_ .f32 0x00000000#32

/-- The value of `main_call0_v2`. -/
def val_main_call0_v2 (a : Args F) : (⟨S262144x64, .f32⟩ : BufTy).Contents (Elt F) :=
  broadcastInDim S262144x64 ![] bcast_S_S262144x64 (val_main_call0_cst_0 a)

/-- The value of `main_call0_v3`. -/
def val_main_call0_v3 (a : Args F) : (⟨S262144x64, .i1⟩ : BufTy).Contents (Elt F) :=
  cmpf .ogt (val_main_v5 a) (val_main_call0_v2 a)

/-- The value of `main_call0_cst_1`. -/
def val_main_call0_cst_1 (a : Args F) : (⟨S_, .f32⟩ : BufTy).Contents (Elt F) :=
  constant S_ .f32 0x00000000#32

/-- The value of `main_call0_call0_v0`. -/
def val_main_call0_call0_v0 (a : Args F) : (⟨S_, .f32⟩ : BufTy).Contents (Elt F) :=
  id (val_main_call0_cst_1 a)

/-- The value of `main_call0_call0_v1`. -/
def val_main_call0_call0_v1 (a : Args F) : (⟨S262144x64, .f32⟩ : BufTy).Contents (Elt F) :=
  broadcastInDim S262144x64 ![] bcast_S_S262144x64 (val_main_call0_call0_v0 a)

/-- The value of `main_call0_v4`. -/
def val_main_call0_v4 (a : Args F) : (⟨S262144x64, .f32⟩ : BufTy).Contents (Elt F) :=
  select (val_main_call0_v3 a) (val_main_call0_call0_v1 a) (val_main_v5 a)

/-- The value of `main_call0_v5`. -/
def val_main_call0_v5 (a : Args F) : (⟨S262144x64, .f32⟩ : BufTy).Contents (Elt F) :=
  Host.expm1 (val_main_call0_v4 a)

/-- The value of `main_call0_cst_2`. -/
def val_main_call0_cst_2 (a : Args F) : (⟨S_, .f32⟩ : BufTy).Contents (Elt F) :=
  constant S_ .f32 0x3F800000#32

/-- The value of `main_call0_v6`. -/
def val_main_call0_v6 (a : Args F) : (⟨S262144x64, .f32⟩ : BufTy).Contents (Elt F) :=
  broadcastInDim S262144x64 ![] bcast_S_S262144x64 (val_main_call0_cst_2 a)

/-- The value of `main_call0_v7`. -/
def val_main_call0_v7 (a : Args F) : (⟨S262144x64, .f32⟩ : BufTy).Contents (Elt F) :=
  mulf (val_main_call0_v6 a) (val_main_call0_v5 a)

/-- The value of `main_v6`. -/
def val_main_v6 (a : Args F) : (⟨S262144x64, .f32⟩ : BufTy).Contents (Elt F) :=
  select (val_main_call0_v1 a) (val_main_v5 a) (val_main_call0_v7 a)

/-- The value of `main_v7`. -/
def val_main_v7 (a : Args F) : (⟨S262144x64, .f32⟩ : BufTy).Contents (Elt F) :=
  Host.dotGeneral dot_S262144x1_S1x64_S262144x64_1_0_0_1_n_n none a.a3 a.a10

/-- The value of `main_call1_cst`. -/
def val_main_call1_cst (a : Args F) : (⟨S_, .f32⟩ : BufTy).Contents (Elt F) :=
  constant S_ .f32 0x00000000#32

/-- The value of `main_call1_v0`. -/
def val_main_call1_v0 (a : Args F) : (⟨S262144x64, .f32⟩ : BufTy).Contents (Elt F) :=
  broadcastInDim S262144x64 ![] bcast_S_S262144x64 (val_main_call1_cst a)

/-- The value of `main_call1_v1`. -/
def val_main_call1_v1 (a : Args F) : (⟨S262144x64, .f32⟩ : BufTy).Contents (Elt F) :=
  maximumf (val_main_v7 a) (val_main_call1_v0 a)

/-- The value of `main_call1_v2`. -/
def val_main_call1_v2 (a : Args F) : (⟨S262144x64, .f32⟩ : BufTy).Contents (Elt F) :=
  broadcastInDim S262144x64 ![] bcast_S_S262144x64 (val_main_call1_cst a)

/-- The value of `main_call1_v3`. -/
def val_main_call1_v3 (a : Args F) : (⟨S262144x64, .f32⟩ : BufTy).Contents (Elt F) :=
  subf (val_main_v7 a) (val_main_call1_v2 a)

/-- The value of `main_call1_v4`. -/
def val_main_call1_v4 (a : Args F) : (⟨S262144x64, .i1⟩ : BufTy).Contents (Elt F) :=
  cmpf .une (val_main_call1_v3 a) (val_main_call1_v3 a)

/-- The value of `main_call1_v5`. -/
def val_main_call1_v5 (a : Args F) : (⟨S262144x64, .f32⟩ : BufTy).Contents (Elt F) :=
  broadcastInDim S262144x64 ![] bcast_S_S262144x64 (val_main_call1_cst a)

/-- The value of `main_call1_v6`. -/
def val_main_call1_v6 (a : Args F) : (⟨S262144x64, .f32⟩ : BufTy).Contents (Elt F) :=
  addf (val_main_v7 a) (val_main_call1_v5 a)

/-- The value of `main_call1_v7`. -/
def val_main_call1_v7 (a : Args F) : (⟨S262144x64, .f32⟩ : BufTy).Contents (Elt F) :=
  Host.absf (val_main_call1_v3 a)

/-- The value of `main_call1_v8`. -/
def val_main_call1_v8 (a : Args F) : (⟨S262144x64, .f32⟩ : BufTy).Contents (Elt F) :=
  Host.negf (val_main_call1_v7 a)

/-- The value of `main_call1_v9`. -/
def val_main_call1_v9 (a : Args F) : (⟨S262144x64, .f32⟩ : BufTy).Contents (Elt F) :=
  Host.exp (val_main_call1_v8 a)

/-- The value of `main_call1_v10`. -/
def val_main_call1_v10 (a : Args F) : (⟨S262144x64, .f32⟩ : BufTy).Contents (Elt F) :=
  Host.log1p (val_main_call1_v9 a)

/-- The value of `main_call1_v11`. -/
def val_main_call1_v11 (a : Args F) : (⟨S262144x64, .f32⟩ : BufTy).Contents (Elt F) :=
  addf (val_main_call1_v1 a) (val_main_call1_v10 a)

/-- The value of `main_v8`. -/
def val_main_v8 (a : Args F) : (⟨S262144x64, .f32⟩ : BufTy).Contents (Elt F) :=
  select (val_main_call1_v4 a) (val_main_call1_v6 a) (val_main_call1_v11 a)

/-- The value of `main_v9`. -/
def val_main_v9 (a : Args F) : (⟨S262144x64, .f32⟩ : BufTy).Contents (Elt F) :=
  Host.dotGeneral dot_S262144x1_S1x64_S262144x64_1_0_0_1_n_n none a.a1 a.a8

/-- The value of `main_v10`. -/
def val_main_v10 (a : Args F) : (⟨S262144x64, .f32⟩ : BufTy).Contents (Elt F) :=
  Host.tanh (val_main_v9 a)

/-- The value of `main_v11`. -/
def val_main_v11 (a : Args F) : (⟨S262144x64, .f32⟩ : BufTy).Contents (Elt F) :=
  Host.dotGeneral dot_S262144x1_S1x64_S262144x64_1_0_0_1_n_n none a.a0 a.a7

/-- The value of `main_cst`. -/
def val_main_cst (a : Args F) : (⟨S_, .f32⟩ : BufTy).Contents (Elt F) :=
  constant S_ .f32 0xBF000000#32

/-- The value of `main_v12`. -/
def val_main_v12 (a : Args F) : (⟨S262144x64, .f32⟩ : BufTy).Contents (Elt F) :=
  broadcastInDim S262144x64 ![] bcast_S_S262144x64 (val_main_cst a)

/-- The value of `main_v13`. -/
def val_main_v13 (a : Args F) : (⟨S262144x64, .f32⟩ : BufTy).Contents (Elt F) :=
  mulf (val_main_v12 a) (val_main_v11 a)

/-- The value of `main_v14`. -/
def val_main_v14 (a : Args F) : (⟨S262144x64, .f32⟩ : BufTy).Contents (Elt F) :=
  mulf (val_main_v13 a) (val_main_v11 a)

/-- The value of `main_v15`. -/
def val_main_v15 (a : Args F) : (⟨S262144x64, .f32⟩ : BufTy).Contents (Elt F) :=
  Host.exp (val_main_v14 a)

/-- The value of `main_v16`. -/
def val_main_v16 (a : Args F) : (⟨S262144x64, .f32⟩ : BufTy).Contents (Elt F) :=
  addf (val_main_v6 a) (val_main_v15 a)

/-- The value of `main_v17`. -/
def val_main_v17 (a : Args F) : (⟨S262144x64, .f32⟩ : BufTy).Contents (Elt F) :=
  addf (val_main_v16 a) (val_main_v10 a)

/-- The value of `main_v18`. -/
def val_main_v18 (a : Args F) : (⟨S262144x64, .f32⟩ : BufTy).Contents (Elt F) :=
  addf (val_main_v17 a) (val_main_v8 a)

/-- The value of `main_v19`. -/
def val_main_v19 (a : Args F) : (⟨S262144x64, .f32⟩ : BufTy).Contents (Elt F) :=
  addf (val_main_v18 a) (val_main_v4 a)

/-- The value of `main_v20`. -/
def val_main_v20 (a : Args F) : (⟨S262144x64, .f32⟩ : BufTy).Contents (Elt F) :=
  Host.sin (val_main_v19 a)

/-- The value of `main_v21`. -/
def val_main_v21 (a : Args F) : (⟨S262144x64, .f32⟩ : BufTy).Contents (Elt F) :=
  Host.dotGeneral dot_S262144x64_S64x64_S262144x64_1_0_0_1_n_n none (val_main_v20 a) a.a11

/-- The value of `main_v22`. -/
def val_main_v22 (a : Args F) : (⟨S1x64, .f32⟩ : BufTy).Contents (Elt F) :=
  broadcastInDim S1x64 ![1] bcast_S64_S1x64_1 a.a12

/-- The value of `main_v23`. -/
def val_main_v23 (a : Args F) : (⟨S262144x64, .f32⟩ : BufTy).Contents (Elt F) :=
  broadcastInDim S262144x64 ![0, 1] bcast_S1x64_S262144x64_0_1 (val_main_v22 a)

/-- The value of `main_v24`. -/
def val_main_v24 (a : Args F) : (⟨S262144x64, .f32⟩ : BufTy).Contents (Elt F) :=
  addf (val_main_v21 a) (val_main_v23 a)

/-- The value of `main_v25`. -/
def val_main_v25 (a : Args F) : (⟨S262144x64, .f32⟩ : BufTy).Contents (Elt F) :=
  Host.tanh (val_main_v24 a)

/-- The value of `main_v26`. -/
def val_main_v26 (a : Args F) : (⟨S1x64x64, .f32⟩ : BufTy).Contents (Elt F) :=
  extractStridedSlice S1x64x64 ![0, 0, 0] a.a13 slices_S11x64x64_S1x64x64_0_0_0

/-- The value of `main_v27`. -/
def val_main_v27 (a : Args F) : (⟨S64x64, .f32⟩ : BufTy).Contents (Elt F) :=
  shapeCast S64x64 (val_main_v26 a) shapeCasts_S1x64x64_S64x64

/-- The value of `main_v28`. -/
def val_main_v28 (a : Args F) : (⟨S262144x64, .f32⟩ : BufTy).Contents (Elt F) :=
  Host.dotGeneral dot_S262144x64_S64x64_S262144x64_1_0_0_1_n_n none (val_main_v25 a) (val_main_v27 a)

/-- The value of `main_v29`. -/
def val_main_v29 (a : Args F) : (⟨S1x64, .f32⟩ : BufTy).Contents (Elt F) :=
  extractStridedSlice S1x64 ![0, 0] a.a14 slices_S11x64_S1x64_0_0

/-- The value of `main_v30`. -/
def val_main_v30 (a : Args F) : (⟨S64, .f32⟩ : BufTy).Contents (Elt F) :=
  shapeCast S64 (val_main_v29 a) shapeCasts_S1x64_S64

/-- The value of `main_v31`. -/
def val_main_v31 (a : Args F) : (⟨S1x64, .f32⟩ : BufTy).Contents (Elt F) :=
  broadcastInDim S1x64 ![1] bcast_S64_S1x64_1 (val_main_v30 a)

/-- The value of `main_v32`. -/
def val_main_v32 (a : Args F) : (⟨S262144x64, .f32⟩ : BufTy).Contents (Elt F) :=
  broadcastInDim S262144x64 ![0, 1] bcast_S1x64_S262144x64_0_1 (val_main_v31 a)

/-- The value of `main_v33`. -/
def val_main_v33 (a : Args F) : (⟨S262144x64, .f32⟩ : BufTy).Contents (Elt F) :=
  addf (val_main_v28 a) (val_main_v32 a)

/-- The value of `main_v34`. -/
def val_main_v34 (a : Args F) : (⟨S262144x64, .f32⟩ : BufTy).Contents (Elt F) :=
  Host.tanh (val_main_v33 a)

/-- The value of `main_v35`. -/
def val_main_v35 (a : Args F) : (⟨S1x64x64, .f32⟩ : BufTy).Contents (Elt F) :=
  extractStridedSlice S1x64x64 ![1, 0, 0] a.a13 slices_S11x64x64_S1x64x64_1_0_0

/-- The value of `main_v36`. -/
def val_main_v36 (a : Args F) : (⟨S64x64, .f32⟩ : BufTy).Contents (Elt F) :=
  shapeCast S64x64 (val_main_v35 a) shapeCasts_S1x64x64_S64x64

/-- The value of `main_v37`. -/
def val_main_v37 (a : Args F) : (⟨S262144x64, .f32⟩ : BufTy).Contents (Elt F) :=
  Host.dotGeneral dot_S262144x64_S64x64_S262144x64_1_0_0_1_n_n none (val_main_v34 a) (val_main_v36 a)

/-- The value of `main_v38`. -/
def val_main_v38 (a : Args F) : (⟨S1x64, .f32⟩ : BufTy).Contents (Elt F) :=
  extractStridedSlice S1x64 ![1, 0] a.a14 slices_S11x64_S1x64_1_0

/-- The value of `main_v39`. -/
def val_main_v39 (a : Args F) : (⟨S64, .f32⟩ : BufTy).Contents (Elt F) :=
  shapeCast S64 (val_main_v38 a) shapeCasts_S1x64_S64

/-- The value of `main_v40`. -/
def val_main_v40 (a : Args F) : (⟨S1x64, .f32⟩ : BufTy).Contents (Elt F) :=
  broadcastInDim S1x64 ![1] bcast_S64_S1x64_1 (val_main_v39 a)

/-- The value of `main_v41`. -/
def val_main_v41 (a : Args F) : (⟨S262144x64, .f32⟩ : BufTy).Contents (Elt F) :=
  broadcastInDim S262144x64 ![0, 1] bcast_S1x64_S262144x64_0_1 (val_main_v40 a)

/-- The value of `main_v42`. -/
def val_main_v42 (a : Args F) : (⟨S262144x64, .f32⟩ : BufTy).Contents (Elt F) :=
  addf (val_main_v37 a) (val_main_v41 a)

/-- The value of `main_call2_cst`. -/
def val_main_call2_cst (a : Args F) : (⟨S_, .f32⟩ : BufTy).Contents (Elt F) :=
  constant S_ .f32 0x00000000#32

/-- The value of `main_call2_v0`. -/
def val_main_call2_v0 (a : Args F) : (⟨S262144x64, .f32⟩ : BufTy).Contents (Elt F) :=
  broadcastInDim S262144x64 ![] bcast_S_S262144x64 (val_main_call2_cst a)

/-- The value of `main_call2_v1`. -/
def val_main_call2_v1 (a : Args F) : (⟨S262144x64, .i1⟩ : BufTy).Contents (Elt F) :=
  cmpf .ogt (val_main_v42 a) (val_main_call2_v0 a)

/-- The value of `main_call2_cst_0`. -/
def val_main_call2_cst_0 (a : Args F) : (⟨S_, .f32⟩ : BufTy).Contents (Elt F) :=
  constant S_ .f32 0x00000000#32

/-- The value of `main_call2_v2`. -/
def val_main_call2_v2 (a : Args F) : (⟨S262144x64, .f32⟩ : BufTy).Contents (Elt F) :=
  broadcastInDim S262144x64 ![] bcast_S_S262144x64 (val_main_call2_cst_0 a)

/-- The value of `main_call2_v3`. -/
def val_main_call2_v3 (a : Args F) : (⟨S262144x64, .i1⟩ : BufTy).Contents (Elt F) :=
  cmpf .ogt (val_main_v42 a) (val_main_call2_v2 a)

/-- The value of `main_call2_cst_1`. -/
def val_main_call2_cst_1 (a : Args F) : (⟨S_, .f32⟩ : BufTy).Contents (Elt F) :=
  constant S_ .f32 0x00000000#32

/-- The value of `main_call2_call0_v0`. -/
def val_main_call2_call0_v0 (a : Args F) : (⟨S_, .f32⟩ : BufTy).Contents (Elt F) :=
  id (val_main_call2_cst_1 a)

/-- The value of `main_call2_call0_v1`. -/
def val_main_call2_call0_v1 (a : Args F) : (⟨S262144x64, .f32⟩ : BufTy).Contents (Elt F) :=
  broadcastInDim S262144x64 ![] bcast_S_S262144x64 (val_main_call2_call0_v0 a)

/-- The value of `main_call2_v4`. -/
def val_main_call2_v4 (a : Args F) : (⟨S262144x64, .f32⟩ : BufTy).Contents (Elt F) :=
  select (val_main_call2_v3 a) (val_main_call2_call0_v1 a) (val_main_v42 a)

/-- The value of `main_call2_v5`. -/
def val_main_call2_v5 (a : Args F) : (⟨S262144x64, .f32⟩ : BufTy).Contents (Elt F) :=
  Host.expm1 (val_main_call2_v4 a)

/-- The value of `main_call2_cst_2`. -/
def val_main_call2_cst_2 (a : Args F) : (⟨S_, .f32⟩ : BufTy).Contents (Elt F) :=
  constant S_ .f32 0x3F800000#32

/-- The value of `main_call2_v6`. -/
def val_main_call2_v6 (a : Args F) : (⟨S262144x64, .f32⟩ : BufTy).Contents (Elt F) :=
  broadcastInDim S262144x64 ![] bcast_S_S262144x64 (val_main_call2_cst_2 a)

/-- The value of `main_call2_v7`. -/
def val_main_call2_v7 (a : Args F) : (⟨S262144x64, .f32⟩ : BufTy).Contents (Elt F) :=
  mulf (val_main_call2_v6 a) (val_main_call2_v5 a)

/-- The value of `main_v43`. -/
def val_main_v43 (a : Args F) : (⟨S262144x64, .f32⟩ : BufTy).Contents (Elt F) :=
  select (val_main_call2_v1 a) (val_main_v42 a) (val_main_call2_v7 a)

/-- The value of `main_v44`. -/
def val_main_v44 (a : Args F) : (⟨S262144x64, .f32⟩ : BufTy).Contents (Elt F) :=
  addf (val_main_v43 a) (val_main_v25 a)

/-- The value of `main_v45`. -/
def val_main_v45 (a : Args F) : (⟨S1x64x64, .f32⟩ : BufTy).Contents (Elt F) :=
  extractStridedSlice S1x64x64 ![2, 0, 0] a.a13 slices_S11x64x64_S1x64x64_2_0_0

/-- The value of `main_v46`. -/
def val_main_v46 (a : Args F) : (⟨S64x64, .f32⟩ : BufTy).Contents (Elt F) :=
  shapeCast S64x64 (val_main_v45 a) shapeCasts_S1x64x64_S64x64

/-- The value of `main_v47`. -/
def val_main_v47 (a : Args F) : (⟨S262144x64, .f32⟩ : BufTy).Contents (Elt F) :=
  Host.dotGeneral dot_S262144x64_S64x64_S262144x64_1_0_0_1_n_n none (val_main_v44 a) (val_main_v46 a)

/-- The value of `main_v48`. -/
def val_main_v48 (a : Args F) : (⟨S1x64, .f32⟩ : BufTy).Contents (Elt F) :=
  extractStridedSlice S1x64 ![2, 0] a.a14 slices_S11x64_S1x64_2_0

/-- The value of `main_v49`. -/
def val_main_v49 (a : Args F) : (⟨S64, .f32⟩ : BufTy).Contents (Elt F) :=
  shapeCast S64 (val_main_v48 a) shapeCasts_S1x64_S64

/-- The value of `main_v50`. -/
def val_main_v50 (a : Args F) : (⟨S1x64, .f32⟩ : BufTy).Contents (Elt F) :=
  broadcastInDim S1x64 ![1] bcast_S64_S1x64_1 (val_main_v49 a)

/-- The value of `main_v51`. -/
def val_main_v51 (a : Args F) : (⟨S262144x64, .f32⟩ : BufTy).Contents (Elt F) :=
  broadcastInDim S262144x64 ![0, 1] bcast_S1x64_S262144x64_0_1 (val_main_v50 a)

/-- The value of `main_v52`. -/
def val_main_v52 (a : Args F) : (⟨S262144x64, .f32⟩ : BufTy).Contents (Elt F) :=
  addf (val_main_v47 a) (val_main_v51 a)

/-- The value of `main_call3_cst`. -/
def val_main_call3_cst (a : Args F) : (⟨S_, .f32⟩ : BufTy).Contents (Elt F) :=
  constant S_ .f32 0x00000000#32

/-- The value of `main_call3_v0`. -/
def val_main_call3_v0 (a : Args F) : (⟨S262144x64, .f32⟩ : BufTy).Contents (Elt F) :=
  broadcastInDim S262144x64 ![] bcast_S_S262144x64 (val_main_call3_cst a)

/-- The value of `main_call3_v1`. -/
def val_main_call3_v1 (a : Args F) : (⟨S262144x64, .f32⟩ : BufTy).Contents (Elt F) :=
  maximumf (val_main_v52 a) (val_main_call3_v0 a)

/-- The value of `main_call3_v2`. -/
def val_main_call3_v2 (a : Args F) : (⟨S262144x64, .f32⟩ : BufTy).Contents (Elt F) :=
  broadcastInDim S262144x64 ![] bcast_S_S262144x64 (val_main_call3_cst a)

/-- The value of `main_call3_v3`. -/
def val_main_call3_v3 (a : Args F) : (⟨S262144x64, .f32⟩ : BufTy).Contents (Elt F) :=
  subf (val_main_v52 a) (val_main_call3_v2 a)

/-- The value of `main_call3_v4`. -/
def val_main_call3_v4 (a : Args F) : (⟨S262144x64, .i1⟩ : BufTy).Contents (Elt F) :=
  cmpf .une (val_main_call3_v3 a) (val_main_call3_v3 a)

/-- The value of `main_call3_v5`. -/
def val_main_call3_v5 (a : Args F) : (⟨S262144x64, .f32⟩ : BufTy).Contents (Elt F) :=
  broadcastInDim S262144x64 ![] bcast_S_S262144x64 (val_main_call3_cst a)

/-- The value of `main_call3_v6`. -/
def val_main_call3_v6 (a : Args F) : (⟨S262144x64, .f32⟩ : BufTy).Contents (Elt F) :=
  addf (val_main_v52 a) (val_main_call3_v5 a)

/-- The value of `main_call3_v7`. -/
def val_main_call3_v7 (a : Args F) : (⟨S262144x64, .f32⟩ : BufTy).Contents (Elt F) :=
  Host.absf (val_main_call3_v3 a)

/-- The value of `main_call3_v8`. -/
def val_main_call3_v8 (a : Args F) : (⟨S262144x64, .f32⟩ : BufTy).Contents (Elt F) :=
  Host.negf (val_main_call3_v7 a)

/-- The value of `main_call3_v9`. -/
def val_main_call3_v9 (a : Args F) : (⟨S262144x64, .f32⟩ : BufTy).Contents (Elt F) :=
  Host.exp (val_main_call3_v8 a)

/-- The value of `main_call3_v10`. -/
def val_main_call3_v10 (a : Args F) : (⟨S262144x64, .f32⟩ : BufTy).Contents (Elt F) :=
  Host.log1p (val_main_call3_v9 a)

/-- The value of `main_call3_v11`. -/
def val_main_call3_v11 (a : Args F) : (⟨S262144x64, .f32⟩ : BufTy).Contents (Elt F) :=
  addf (val_main_call3_v1 a) (val_main_call3_v10 a)

/-- The value of `main_v53`. -/
def val_main_v53 (a : Args F) : (⟨S262144x64, .f32⟩ : BufTy).Contents (Elt F) :=
  select (val_main_call3_v4 a) (val_main_call3_v6 a) (val_main_call3_v11 a)

/-- The value of `main_v54`. -/
def val_main_v54 (a : Args F) : (⟨S262144x64, .f32⟩ : BufTy).Contents (Elt F) :=
  addf (val_main_v53 a) (val_main_v34 a)

/-- The value of `main_v55`. -/
def val_main_v55 (a : Args F) : (⟨S262144x64, .f32⟩ : BufTy).Contents (Elt F) :=
  addf (val_main_v54 a) (val_main_v25 a)

/-- The value of `main_v56`. -/
def val_main_v56 (a : Args F) : (⟨S1x64x64, .f32⟩ : BufTy).Contents (Elt F) :=
  extractStridedSlice S1x64x64 ![3, 0, 0] a.a13 slices_S11x64x64_S1x64x64_3_0_0

/-- The value of `main_v57`. -/
def val_main_v57 (a : Args F) : (⟨S64x64, .f32⟩ : BufTy).Contents (Elt F) :=
  shapeCast S64x64 (val_main_v56 a) shapeCasts_S1x64x64_S64x64

/-- The value of `main_v58`. -/
def val_main_v58 (a : Args F) : (⟨S262144x64, .f32⟩ : BufTy).Contents (Elt F) :=
  Host.dotGeneral dot_S262144x64_S64x64_S262144x64_1_0_0_1_n_n none (val_main_v55 a) (val_main_v57 a)

/-- The value of `main_v59`. -/
def val_main_v59 (a : Args F) : (⟨S1x64, .f32⟩ : BufTy).Contents (Elt F) :=
  extractStridedSlice S1x64 ![3, 0] a.a14 slices_S11x64_S1x64_3_0

/-- The value of `main_v60`. -/
def val_main_v60 (a : Args F) : (⟨S64, .f32⟩ : BufTy).Contents (Elt F) :=
  shapeCast S64 (val_main_v59 a) shapeCasts_S1x64_S64

/-- The value of `main_v61`. -/
def val_main_v61 (a : Args F) : (⟨S1x64, .f32⟩ : BufTy).Contents (Elt F) :=
  broadcastInDim S1x64 ![1] bcast_S64_S1x64_1 (val_main_v60 a)

/-- The value of `main_v62`. -/
def val_main_v62 (a : Args F) : (⟨S262144x64, .f32⟩ : BufTy).Contents (Elt F) :=
  broadcastInDim S262144x64 ![0, 1] bcast_S1x64_S262144x64_0_1 (val_main_v61 a)

/-- The value of `main_v63`. -/
def val_main_v63 (a : Args F) : (⟨S262144x64, .f32⟩ : BufTy).Contents (Elt F) :=
  addf (val_main_v58 a) (val_main_v62 a)

/-- The value of `main_v64`. -/
def val_main_v64 (a : Args F) : (⟨S262144x64, .f32⟩ : BufTy).Contents (Elt F) :=
  Host.sin (val_main_v63 a)

/-- The value of `main_v65`. -/
def val_main_v65 (a : Args F) : (⟨S262144x64, .f32⟩ : BufTy).Contents (Elt F) :=
  addf (val_main_v64 a) (val_main_v43 a)

/-- The value of `main_v66`. -/
def val_main_v66 (a : Args F) : (⟨S1x64x64, .f32⟩ : BufTy).Contents (Elt F) :=
  extractStridedSlice S1x64x64 ![4, 0, 0] a.a13 slices_S11x64x64_S1x64x64_4_0_0

/-- The value of `main_v67`. -/
def val_main_v67 (a : Args F) : (⟨S64x64, .f32⟩ : BufTy).Contents (Elt F) :=
  shapeCast S64x64 (val_main_v66 a) shapeCasts_S1x64x64_S64x64

/-- The value of `main_v68`. -/
def val_main_v68 (a : Args F) : (⟨S262144x64, .f32⟩ : BufTy).Contents (Elt F) :=
  Host.dotGeneral dot_S262144x64_S64x64_S262144x64_1_0_0_1_n_n none (val_main_v65 a) (val_main_v67 a)

/-- The value of `main_v69`. -/
def val_main_v69 (a : Args F) : (⟨S1x64, .f32⟩ : BufTy).Contents (Elt F) :=
  extractStridedSlice S1x64 ![4, 0] a.a14 slices_S11x64_S1x64_4_0

/-- The value of `main_v70`. -/
def val_main_v70 (a : Args F) : (⟨S64, .f32⟩ : BufTy).Contents (Elt F) :=
  shapeCast S64 (val_main_v69 a) shapeCasts_S1x64_S64

/-- The value of `main_v71`. -/
def val_main_v71 (a : Args F) : (⟨S1x64, .f32⟩ : BufTy).Contents (Elt F) :=
  broadcastInDim S1x64 ![1] bcast_S64_S1x64_1 (val_main_v70 a)

/-- The value of `main_v72`. -/
def val_main_v72 (a : Args F) : (⟨S262144x64, .f32⟩ : BufTy).Contents (Elt F) :=
  broadcastInDim S262144x64 ![0, 1] bcast_S1x64_S262144x64_0_1 (val_main_v71 a)

/-- The value of `main_v73`. -/
def val_main_v73 (a : Args F) : (⟨S262144x64, .f32⟩ : BufTy).Contents (Elt F) :=
  addf (val_main_v68 a) (val_main_v72 a)

/-- The value of `main_cst_0`. -/
def val_main_cst_0 (a : Args F) : (⟨S_, .f32⟩ : BufTy).Contents (Elt F) :=
  constant S_ .f32 0xBF000000#32

/-- The value of `main_v74`. -/
def val_main_v74 (a : Args F) : (⟨S262144x64, .f32⟩ : BufTy).Contents (Elt F) :=
  broadcastInDim S262144x64 ![] bcast_S_S262144x64 (val_main_cst_0 a)

/-- The value of `main_v75`. -/
def val_main_v75 (a : Args F) : (⟨S262144x64, .f32⟩ : BufTy).Contents (Elt F) :=
  mulf (val_main_v74 a) (val_main_v73 a)

/-- The value of `main_v76`. -/
def val_main_v76 (a : Args F) : (⟨S262144x64, .f32⟩ : BufTy).Contents (Elt F) :=
  mulf (val_main_v75 a) (val_main_v73 a)

/-- The value of `main_v77`. -/
def val_main_v77 (a : Args F) : (⟨S262144x64, .f32⟩ : BufTy).Contents (Elt F) :=
  Host.exp (val_main_v76 a)

/-- The value of `main_v78`. -/
def val_main_v78 (a : Args F) : (⟨S262144x64, .f32⟩ : BufTy).Contents (Elt F) :=
  addf (val_main_v77 a) (val_main_v53 a)

/-- The value of `main_v79`. -/
def val_main_v79 (a : Args F) : (⟨S1x64x64, .f32⟩ : BufTy).Contents (Elt F) :=
  extractStridedSlice S1x64x64 ![5, 0, 0] a.a13 slices_S11x64x64_S1x64x64_5_0_0

/-- The value of `main_v80`. -/
def val_main_v80 (a : Args F) : (⟨S64x64, .f32⟩ : BufTy).Contents (Elt F) :=
  shapeCast S64x64 (val_main_v79 a) shapeCasts_S1x64x64_S64x64

/-- The value of `main_v81`. -/
def val_main_v81 (a : Args F) : (⟨S262144x64, .f32⟩ : BufTy).Contents (Elt F) :=
  Host.dotGeneral dot_S262144x64_S64x64_S262144x64_1_0_0_1_n_n none (val_main_v78 a) (val_main_v80 a)

/-- The value of `main_v82`. -/
def val_main_v82 (a : Args F) : (⟨S1x64, .f32⟩ : BufTy).Contents (Elt F) :=
  extractStridedSlice S1x64 ![5, 0] a.a14 slices_S11x64_S1x64_5_0

/-- The value of `main_v83`. -/
def val_main_v83 (a : Args F) : (⟨S64, .f32⟩ : BufTy).Contents (Elt F) :=
  shapeCast S64 (val_main_v82 a) shapeCasts_S1x64_S64

/-- The value of `main_v84`. -/
def val_main_v84 (a : Args F) : (⟨S1x64, .f32⟩ : BufTy).Contents (Elt F) :=
  broadcastInDim S1x64 ![1] bcast_S64_S1x64_1 (val_main_v83 a)

/-- The value of `main_v85`. -/
def val_main_v85 (a : Args F) : (⟨S262144x64, .f32⟩ : BufTy).Contents (Elt F) :=
  broadcastInDim S262144x64 ![0, 1] bcast_S1x64_S262144x64_0_1 (val_main_v84 a)

/-- The value of `main_v86`. -/
def val_main_v86 (a : Args F) : (⟨S262144x64, .f32⟩ : BufTy).Contents (Elt F) :=
  addf (val_main_v81 a) (val_main_v85 a)

/-- The value of `main_v87`. -/
def val_main_v87 (a : Args F) : (⟨S262144x64, .f32⟩ : BufTy).Contents (Elt F) :=
  Host.negf (val_main_v86 a)

/-- The value of `main_v88`. -/
def val_main_v88 (a : Args F) : (⟨S262144x64, .f32⟩ : BufTy).Contents (Elt F) :=
  Host.exp (val_main_v87 a)

/-- The value of `main_cst_1`. -/
def val_main_cst_1 (a : Args F) : (⟨S_, .f32⟩ : BufTy).Contents (Elt F) :=
  constant S_ .f32 0x3F800000#32

/-- The value of `main_v89`. -/
def val_main_v89 (a : Args F) : (⟨S262144x64, .f32⟩ : BufTy).Contents (Elt F) :=
  broadcastInDim S262144x64 ![] bcast_S_S262144x64 (val_main_cst_1 a)

/-- The value of `main_v90`. -/
def val_main_v90 (a : Args F) : (⟨S262144x64, .f32⟩ : BufTy).Contents (Elt F) :=
  addf (val_main_v89 a) (val_main_v88 a)

/-- The value of `main_cst_2`. -/
def val_main_cst_2 (a : Args F) : (⟨S_, .f32⟩ : BufTy).Contents (Elt F) :=
  constant S_ .f32 0x3F800000#32

/-- The value of `main_v91`. -/
def val_main_v91 (a : Args F) : (⟨S262144x64, .f32⟩ : BufTy).Contents (Elt F) :=
  broadcastInDim S262144x64 ![] bcast_S_S262144x64 (val_main_cst_2 a)

/-- The value of `main_v92`. -/
def val_main_v92 (a : Args F) : (⟨S262144x64, .f32⟩ : BufTy).Contents (Elt F) :=
  Host.divf (val_main_v91 a) (val_main_v90 a)

/-- The value of `main_v93`. -/
def val_main_v93 (a : Args F) : (⟨S262144x64, .f32⟩ : BufTy).Contents (Elt F) :=
  addf (val_main_v92 a) (val_main_v64 a)

/-- The value of `main_v94`. -/
def val_main_v94 (a : Args F) : (⟨S1x64x64, .f32⟩ : BufTy).Contents (Elt F) :=
  extractStridedSlice S1x64x64 ![6, 0, 0] a.a13 slices_S11x64x64_S1x64x64_6_0_0

/-- The value of `main_v95`. -/
def val_main_v95 (a : Args F) : (⟨S64x64, .f32⟩ : BufTy).Contents (Elt F) :=
  shapeCast S64x64 (val_main_v94 a) shapeCasts_S1x64x64_S64x64

/-- The value of `main_v96`. -/
def val_main_v96 (a : Args F) : (⟨S262144x64, .f32⟩ : BufTy).Contents (Elt F) :=
  Host.dotGeneral dot_S262144x64_S64x64_S262144x64_1_0_0_1_n_n none (val_main_v93 a) (val_main_v95 a)

/-- The value of `main_v97`. -/
def val_main_v97 (a : Args F) : (⟨S1x64, .f32⟩ : BufTy).Contents (Elt F) :=
  extractStridedSlice S1x64 ![6, 0] a.a14 slices_S11x64_S1x64_6_0

/-- The value of `main_v98`. -/
def val_main_v98 (a : Args F) : (⟨S64, .f32⟩ : BufTy).Contents (Elt F) :=
  shapeCast S64 (val_main_v97 a) shapeCasts_S1x64_S64

/-- The value of `main_v99`. -/
def val_main_v99 (a : Args F) : (⟨S1x64, .f32⟩ : BufTy).Contents (Elt F) :=
  broadcastInDim S1x64 ![1] bcast_S64_S1x64_1 (val_main_v98 a)

/-- The value of `main_v100`. -/
def val_main_v100 (a : Args F) : (⟨S262144x64, .f32⟩ : BufTy).Contents (Elt F) :=
  broadcastInDim S262144x64 ![0, 1] bcast_S1x64_S262144x64_0_1 (val_main_v99 a)

/-- The value of `main_v101`. -/
def val_main_v101 (a : Args F) : (⟨S262144x64, .f32⟩ : BufTy).Contents (Elt F) :=
  addf (val_main_v96 a) (val_main_v100 a)

/-- The value of `main_v102`. -/
def val_main_v102 (a : Args F) : (⟨S262144x64, .f32⟩ : BufTy).Contents (Elt F) :=
  Host.tanh (val_main_v101 a)

/-- The value of `main_v103`. -/
def val_main_v103 (a : Args F) : (⟨S262144x64, .f32⟩ : BufTy).Contents (Elt F) :=
  addf (val_main_v102 a) (val_main_v77 a)

/-- The value of `main_v104`. -/
def val_main_v104 (a : Args F) : (⟨S262144x64, .f32⟩ : BufTy).Contents (Elt F) :=
  addf (val_main_v103 a) (val_main_v25 a)

/-- The value of `main_v105`. -/
def val_main_v105 (a : Args F) : (⟨S1x64x64, .f32⟩ : BufTy).Contents (Elt F) :=
  extractStridedSlice S1x64x64 ![7, 0, 0] a.a13 slices_S11x64x64_S1x64x64_7_0_0

/-- The value of `main_v106`. -/
def val_main_v106 (a : Args F) : (⟨S64x64, .f32⟩ : BufTy).Contents (Elt F) :=
  shapeCast S64x64 (val_main_v105 a) shapeCasts_S1x64x64_S64x64

/-- The value of `main_v107`. -/
def val_main_v107 (a : Args F) : (⟨S262144x64, .f32⟩ : BufTy).Contents (Elt F) :=
  Host.dotGeneral dot_S262144x64_S64x64_S262144x64_1_0_0_1_n_n none (val_main_v104 a) (val_main_v106 a)

/-- The value of `main_v108`. -/
def val_main_v108 (a : Args F) : (⟨S1x64, .f32⟩ : BufTy).Contents (Elt F) :=
  extractStridedSlice S1x64 ![7, 0] a.a14 slices_S11x64_S1x64_7_0

/-- The value of `main_v109`. -/
def val_main_v109 (a : Args F) : (⟨S64, .f32⟩ : BufTy).Contents (Elt F) :=
  shapeCast S64 (val_main_v108 a) shapeCasts_S1x64_S64

/-- The value of `main_v110`. -/
def val_main_v110 (a : Args F) : (⟨S1x64, .f32⟩ : BufTy).Contents (Elt F) :=
  broadcastInDim S1x64 ![1] bcast_S64_S1x64_1 (val_main_v109 a)

/-- The value of `main_v111`. -/
def val_main_v111 (a : Args F) : (⟨S262144x64, .f32⟩ : BufTy).Contents (Elt F) :=
  broadcastInDim S262144x64 ![0, 1] bcast_S1x64_S262144x64_0_1 (val_main_v110 a)

/-- The value of `main_v112`. -/
def val_main_v112 (a : Args F) : (⟨S262144x64, .f32⟩ : BufTy).Contents (Elt F) :=
  addf (val_main_v107 a) (val_main_v111 a)

/-- The value of `main_call4_cst`. -/
def val_main_call4_cst (a : Args F) : (⟨S_, .f32⟩ : BufTy).Contents (Elt F) :=
  constant S_ .f32 0x00000000#32

/-- The value of `main_call4_v0`. -/
def val_main_call4_v0 (a : Args F) : (⟨S262144x64, .f32⟩ : BufTy).Contents (Elt F) :=
  broadcastInDim S262144x64 ![] bcast_S_S262144x64 (val_main_call4_cst a)

/-- The value of `main_call4_v1`. -/
def val_main_call4_v1 (a : Args F) : (⟨S262144x64, .i1⟩ : BufTy).Contents (Elt F) :=
  cmpf .ogt (val_main_v112 a) (val_main_call4_v0 a)

/-- The value of `main_call4_cst_0`. -/
def val_main_call4_cst_0 (a : Args F) : (⟨S_, .f32⟩ : BufTy).Contents (Elt F) :=
  constant S_ .f32 0x00000000#32

/-- The value of `main_call4_v2`. -/
def val_main_call4_v2 (a : Args F) : (⟨S262144x64, .f32⟩ : BufTy).Contents (Elt F) :=
  broadcastInDim S262144x64 ![] bcast_S_S262144x64 (val_main_call4_cst_0 a)

/-- The value of `main_call4_v3`. -/
def val_main_call4_v3 (a : Args F) : (⟨S262144x64, .i1⟩ : BufTy).Contents (Elt F) :=
  cmpf .ogt (val_main_v112 a) (val_main_call4_v2 a)

/-- The value of `main_call4_cst_1`. -/
def val_main_call4_cst_1 (a : Args F) : (⟨S_, .f32⟩ : BufTy).Contents (Elt F) :=
  constant S_ .f32 0x00000000#32

/-- The value of `main_call4_call0_v0`. -/
def val_main_call4_call0_v0 (a : Args F) : (⟨S_, .f32⟩ : BufTy).Contents (Elt F) :=
  id (val_main_call4_cst_1 a)

/-- The value of `main_call4_call0_v1`. -/
def val_main_call4_call0_v1 (a : Args F) : (⟨S262144x64, .f32⟩ : BufTy).Contents (Elt F) :=
  broadcastInDim S262144x64 ![] bcast_S_S262144x64 (val_main_call4_call0_v0 a)

/-- The value of `main_call4_v4`. -/
def val_main_call4_v4 (a : Args F) : (⟨S262144x64, .f32⟩ : BufTy).Contents (Elt F) :=
  select (val_main_call4_v3 a) (val_main_call4_call0_v1 a) (val_main_v112 a)

/-- The value of `main_call4_v5`. -/
def val_main_call4_v5 (a : Args F) : (⟨S262144x64, .f32⟩ : BufTy).Contents (Elt F) :=
  Host.expm1 (val_main_call4_v4 a)

/-- The value of `main_call4_cst_2`. -/
def val_main_call4_cst_2 (a : Args F) : (⟨S_, .f32⟩ : BufTy).Contents (Elt F) :=
  constant S_ .f32 0x3F800000#32

/-- The value of `main_call4_v6`. -/
def val_main_call4_v6 (a : Args F) : (⟨S262144x64, .f32⟩ : BufTy).Contents (Elt F) :=
  broadcastInDim S262144x64 ![] bcast_S_S262144x64 (val_main_call4_cst_2 a)

/-- The value of `main_call4_v7`. -/
def val_main_call4_v7 (a : Args F) : (⟨S262144x64, .f32⟩ : BufTy).Contents (Elt F) :=
  mulf (val_main_call4_v6 a) (val_main_call4_v5 a)

/-- The value of `main_v113`. -/
def val_main_v113 (a : Args F) : (⟨S262144x64, .f32⟩ : BufTy).Contents (Elt F) :=
  select (val_main_call4_v1 a) (val_main_v112 a) (val_main_call4_v7 a)

/-- The value of `main_v114`. -/
def val_main_v114 (a : Args F) : (⟨S262144x64, .f32⟩ : BufTy).Contents (Elt F) :=
  addf (val_main_v113 a) (val_main_v92 a)

/-- The value of `main_v115`. -/
def val_main_v115 (a : Args F) : (⟨S1x64x64, .f32⟩ : BufTy).Contents (Elt F) :=
  extractStridedSlice S1x64x64 ![8, 0, 0] a.a13 slices_S11x64x64_S1x64x64_8_0_0

/-- The value of `main_v116`. -/
def val_main_v116 (a : Args F) : (⟨S64x64, .f32⟩ : BufTy).Contents (Elt F) :=
  shapeCast S64x64 (val_main_v115 a) shapeCasts_S1x64x64_S64x64

/-- The value of `main_v117`. -/
def val_main_v117 (a : Args F) : (⟨S262144x64, .f32⟩ : BufTy).Contents (Elt F) :=
  Host.dotGeneral dot_S262144x64_S64x64_S262144x64_1_0_0_1_n_n none (val_main_v114 a) (val_main_v116 a)

/-- The value of `main_v118`. -/
def val_main_v118 (a : Args F) : (⟨S1x64, .f32⟩ : BufTy).Contents (Elt F) :=
  extractStridedSlice S1x64 ![8, 0] a.a14 slices_S11x64_S1x64_8_0

/-- The value of `main_v119`. -/
def val_main_v119 (a : Args F) : (⟨S64, .f32⟩ : BufTy).Contents (Elt F) :=
  shapeCast S64 (val_main_v118 a) shapeCasts_S1x64_S64

/-- The value of `main_v120`. -/
def val_main_v120 (a : Args F) : (⟨S1x64, .f32⟩ : BufTy).Contents (Elt F) :=
  broadcastInDim S1x64 ![1] bcast_S64_S1x64_1 (val_main_v119 a)

/-- The value of `main_v121`. -/
def val_main_v121 (a : Args F) : (⟨S262144x64, .f32⟩ : BufTy).Contents (Elt F) :=
  broadcastInDim S262144x64 ![0, 1] bcast_S1x64_S262144x64_0_1 (val_main_v120 a)

/-- The value of `main_v122`. -/
def val_main_v122 (a : Args F) : (⟨S262144x64, .f32⟩ : BufTy).Contents (Elt F) :=
  addf (val_main_v117 a) (val_main_v121 a)

/-- The value of `main_call5_cst`. -/
def val_main_call5_cst (a : Args F) : (⟨S_, .f32⟩ : BufTy).Contents (Elt F) :=
  constant S_ .f32 0x00000000#32

/-- The value of `main_call5_v0`. -/
def val_main_call5_v0 (a : Args F) : (⟨S262144x64, .f32⟩ : BufTy).Contents (Elt F) :=
  broadcastInDim S262144x64 ![] bcast_S_S262144x64 (val_main_call5_cst a)

/-- The value of `main_call5_v1`. -/
def val_main_call5_v1 (a : Args F) : (⟨S262144x64, .f32⟩ : BufTy).Contents (Elt F) :=
  maximumf (val_main_v122 a) (val_main_call5_v0 a)

/-- The value of `main_call5_v2`. -/
def val_main_call5_v2 (a : Args F) : (⟨S262144x64, .f32⟩ : BufTy).Contents (Elt F) :=
  broadcastInDim S262144x64 ![] bcast_S_S262144x64 (val_main_call5_cst a)

/-- The value of `main_call5_v3`. -/
def val_main_call5_v3 (a : Args F) : (⟨S262144x64, .f32⟩ : BufTy).Contents (Elt F) :=
  subf (val_main_v122 a) (val_main_call5_v2 a)

/-- The value of `main_call5_v4`. -/
def val_main_call5_v4 (a : Args F) : (⟨S262144x64, .i1⟩ : BufTy).Contents (Elt F) :=
  cmpf .une (val_main_call5_v3 a) (val_main_call5_v3 a)

/-- The value of `main_call5_v5`. -/
def val_main_call5_v5 (a : Args F) : (⟨S262144x64, .f32⟩ : BufTy).Contents (Elt F) :=
  broadcastInDim S262144x64 ![] bcast_S_S262144x64 (val_main_call5_cst a)

/-- The value of `main_call5_v6`. -/
def val_main_call5_v6 (a : Args F) : (⟨S262144x64, .f32⟩ : BufTy).Contents (Elt F) :=
  addf (val_main_v122 a) (val_main_call5_v5 a)

/-- The value of `main_call5_v7`. -/
def val_main_call5_v7 (a : Args F) : (⟨S262144x64, .f32⟩ : BufTy).Contents (Elt F) :=
  Host.absf (val_main_call5_v3 a)

/-- The value of `main_call5_v8`. -/
def val_main_call5_v8 (a : Args F) : (⟨S262144x64, .f32⟩ : BufTy).Contents (Elt F) :=
  Host.negf (val_main_call5_v7 a)

/-- The value of `main_call5_v9`. -/
def val_main_call5_v9 (a : Args F) : (⟨S262144x64, .f32⟩ : BufTy).Contents (Elt F) :=
  Host.exp (val_main_call5_v8 a)

/-- The value of `main_call5_v10`. -/
def val_main_call5_v10 (a : Args F) : (⟨S262144x64, .f32⟩ : BufTy).Contents (Elt F) :=
  Host.log1p (val_main_call5_v9 a)

/-- The value of `main_call5_v11`. -/
def val_main_call5_v11 (a : Args F) : (⟨S262144x64, .f32⟩ : BufTy).Contents (Elt F) :=
  addf (val_main_call5_v1 a) (val_main_call5_v10 a)

/-- The value of `main_v123`. -/
def val_main_v123 (a : Args F) : (⟨S262144x64, .f32⟩ : BufTy).Contents (Elt F) :=
  select (val_main_call5_v4 a) (val_main_call5_v6 a) (val_main_call5_v11 a)

/-- The value of `main_v124`. -/
def val_main_v124 (a : Args F) : (⟨S262144x64, .f32⟩ : BufTy).Contents (Elt F) :=
  addf (val_main_v123 a) (val_main_v102 a)

/-- The value of `main_v125`. -/
def val_main_v125 (a : Args F) : (⟨S1x64x64, .f32⟩ : BufTy).Contents (Elt F) :=
  extractStridedSlice S1x64x64 ![9, 0, 0] a.a13 slices_S11x64x64_S1x64x64_9_0_0

/-- The value of `main_v126`. -/
def val_main_v126 (a : Args F) : (⟨S64x64, .f32⟩ : BufTy).Contents (Elt F) :=
  shapeCast S64x64 (val_main_v125 a) shapeCasts_S1x64x64_S64x64

/-- The value of `main_v127`. -/
def val_main_v127 (a : Args F) : (⟨S262144x64, .f32⟩ : BufTy).Contents (Elt F) :=
  Host.dotGeneral dot_S262144x64_S64x64_S262144x64_1_0_0_1_n_n none (val_main_v124 a) (val_main_v126 a)

/-- The value of `main_v128`. -/
def val_main_v128 (a : Args F) : (⟨S1x64, .f32⟩ : BufTy).Contents (Elt F) :=
  extractStridedSlice S1x64 ![9, 0] a.a14 slices_S11x64_S1x64_9_0

/-- The value of `main_v129`. -/
def val_main_v129 (a : Args F) : (⟨S64, .f32⟩ : BufTy).Contents (Elt F) :=
  shapeCast S64 (val_main_v128 a) shapeCasts_S1x64_S64

/-- The value of `main_v130`. -/
def val_main_v130 (a : Args F) : (⟨S1x64, .f32⟩ : BufTy).Contents (Elt F) :=
  broadcastInDim S1x64 ![1] bcast_S64_S1x64_1 (val_main_v129 a)

/-- The value of `main_v131`. -/
def val_main_v131 (a : Args F) : (⟨S262144x64, .f32⟩ : BufTy).Contents (Elt F) :=
  broadcastInDim S262144x64 ![0, 1] bcast_S1x64_S262144x64_0_1 (val_main_v130 a)

/-- The value of `main_v132`. -/
def val_main_v132 (a : Args F) : (⟨S262144x64, .f32⟩ : BufTy).Contents (Elt F) :=
  addf (val_main_v127 a) (val_main_v131 a)

/-- The value of `main_v133`. -/
def val_main_v133 (a : Args F) : (⟨S262144x64, .f32⟩ : BufTy).Contents (Elt F) :=
  Host.sin (val_main_v132 a)

/-- The value of `main_v134`. -/
def val_main_v134 (a : Args F) : (⟨S262144x64, .f32⟩ : BufTy).Contents (Elt F) :=
  addf (val_main_v133 a) (val_main_v113 a)

/-- The value of `main_v135`. -/
def val_main_v135 (a : Args F) : (⟨S1x64x64, .f32⟩ : BufTy).Contents (Elt F) :=
  extractStridedSlice S1x64x64 ![10, 0, 0] a.a13 slices_S11x64x64_S1x64x64_10_0_0

/-- The value of `main_v136`. -/
def val_main_v136 (a : Args F) : (⟨S64x64, .f32⟩ : BufTy).Contents (Elt F) :=
  shapeCast S64x64 (val_main_v135 a) shapeCasts_S1x64x64_S64x64

/-- The value of `main_v137`. -/
def val_main_v137 (a : Args F) : (⟨S262144x64, .f32⟩ : BufTy).Contents (Elt F) :=
  Host.dotGeneral dot_S262144x64_S64x64_S262144x64_1_0_0_1_n_n none (val_main_v134 a) (val_main_v136 a)

/-- The value of `main_v138`. -/
def val_main_v138 (a : Args F) : (⟨S1x64, .f32⟩ : BufTy).Contents (Elt F) :=
  extractStridedSlice S1x64 ![10, 0] a.a14 slices_S11x64_S1x64_10_0

/-- The value of `main_v139`. -/
def val_main_v139 (a : Args F) : (⟨S64, .f32⟩ : BufTy).Contents (Elt F) :=
  shapeCast S64 (val_main_v138 a) shapeCasts_S1x64_S64

/-- The value of `main_v140`. -/
def val_main_v140 (a : Args F) : (⟨S1x64, .f32⟩ : BufTy).Contents (Elt F) :=
  broadcastInDim S1x64 ![1] bcast_S64_S1x64_1 (val_main_v139 a)

/-- The value of `main_v141`. -/
def val_main_v141 (a : Args F) : (⟨S262144x64, .f32⟩ : BufTy).Contents (Elt F) :=
  broadcastInDim S262144x64 ![0, 1] bcast_S1x64_S262144x64_0_1 (val_main_v140 a)

/-- The value of `main_v142`. -/
def val_main_v142 (a : Args F) : (⟨S262144x64, .f32⟩ : BufTy).Contents (Elt F) :=
  addf (val_main_v137 a) (val_main_v141 a)

/-- The value of `main_cst_3`. -/
def val_main_cst_3 (a : Args F) : (⟨S_, .f32⟩ : BufTy).Contents (Elt F) :=
  constant S_ .f32 0xBF000000#32

/-- The value of `main_v143`. -/
def val_main_v143 (a : Args F) : (⟨S262144x64, .f32⟩ : BufTy).Contents (Elt F) :=
  broadcastInDim S262144x64 ![] bcast_S_S262144x64 (val_main_cst_3 a)

/-- The value of `main_v144`. -/
def val_main_v144 (a : Args F) : (⟨S262144x64, .f32⟩ : BufTy).Contents (Elt F) :=
  mulf (val_main_v143 a) (val_main_v142 a)

/-- The value of `main_v145`. -/
def val_main_v145 (a : Args F) : (⟨S262144x64, .f32⟩ : BufTy).Contents (Elt F) :=
  mulf (val_main_v144 a) (val_main_v142 a)

/-- The value of `main_v146`. -/
def val_main_v146 (a : Args F) : (⟨S262144x64, .f32⟩ : BufTy).Contents (Elt F) :=
  Host.exp (val_main_v145 a)

/-- The value of `main_v147`. -/
def val_main_v147 (a : Args F) : (⟨S262144x3, .f32⟩ : BufTy).Contents (Elt F) :=
  Host.dotGeneral dot_S262144x64_S64x3_S262144x3_1_0_0_1_n_n none (val_main_v146 a) a.a15

/-- The value of `main_v148`. -/
def val_main_v148 (a : Args F) : (⟨S1x3, .f32⟩ : BufTy).Contents (Elt F) :=
  broadcastInDim S1x3 ![1] bcast_S3_S1x3_1 a.a16

/-- The value of `main_v149`. -/
def val_main_v149 (a : Args F) : (⟨S262144x3, .f32⟩ : BufTy).Contents (Elt F) :=
  broadcastInDim S262144x3 ![0, 1] bcast_S1x3_S262144x3_0_1 (val_main_v148 a)

/-- The value of `main_v150`. -/
def val_main_v150 (a : Args F) : (⟨S262144x3, .f32⟩ : BufTy).Contents (Elt F) :=
  addf (val_main_v147 a) (val_main_v149 a)

/-- The value of `main_v151`. -/
def val_main_v151 (a : Args F) : (⟨S262144x3, .f32⟩ : BufTy).Contents (Elt F) :=
  Host.negf (val_main_v150 a)

/-- The value of `main_v152`. -/
def val_main_v152 (a : Args F) : (⟨S262144x3, .f32⟩ : BufTy).Contents (Elt F) :=
  Host.exp (val_main_v151 a)

/-- The value of `main_cst_4`. -/
def val_main_cst_4 (a : Args F) : (⟨S_, .f32⟩ : BufTy).Contents (Elt F) :=
  constant S_ .f32 0x3F800000#32

/-- The value of `main_v153`. -/
def val_main_v153 (a : Args F) : (⟨S262144x3, .f32⟩ : BufTy).Contents (Elt F) :=
  broadcastInDim S262144x3 ![] bcast_S_S262144x3 (val_main_cst_4 a)

/-- The value of `main_v154`. -/
def val_main_v154 (a : Args F) : (⟨S262144x3, .f32⟩ : BufTy).Contents (Elt F) :=
  addf (val_main_v153 a) (val_main_v152 a)

/-- The value of `main_cst_5`. -/
def val_main_cst_5 (a : Args F) : (⟨S_, .f32⟩ : BufTy).Contents (Elt F) :=
  constant S_ .f32 0x3F800000#32

/-- The value of `main_v155`. -/
def val_main_v155 (a : Args F) : (⟨S262144x3, .f32⟩ : BufTy).Contents (Elt F) :=
  broadcastInDim S262144x3 ![] bcast_S_S262144x3 (val_main_cst_5 a)

/-- The value of `main_v156`. -/
def val_main_v156 (a : Args F) : (⟨S262144x3, .f32⟩ : BufTy).Contents (Elt F) :=
  Host.divf (val_main_v155 a) (val_main_v154 a)

/-- The reference's result, of the argument arrays. -/
def result (a0 : (⟨S262144x1, .f32⟩ : BufTy).Contents (Elt F)) (a1 : (⟨S262144x1, .f32⟩ : BufTy).Contents (Elt F)) (a2 : (⟨S262144x1, .f32⟩ : BufTy).Contents (Elt F)) (a3 : (⟨S262144x1, .f32⟩ : BufTy).Contents (Elt F)) (a4 : (⟨S262144x16, .f32⟩ : BufTy).Contents (Elt F)) (a5 : (⟨S16x64, .f32⟩ : BufTy).Contents (Elt F)) (a6 : (⟨S64, .f32⟩ : BufTy).Contents (Elt F)) (a7 : (⟨S1x64, .f32⟩ : BufTy).Contents (Elt F)) (a8 : (⟨S1x64, .f32⟩ : BufTy).Contents (Elt F)) (a9 : (⟨S1x64, .f32⟩ : BufTy).Contents (Elt F)) (a10 : (⟨S1x64, .f32⟩ : BufTy).Contents (Elt F)) (a11 : (⟨S64x64, .f32⟩ : BufTy).Contents (Elt F)) (a12 : (⟨S64, .f32⟩ : BufTy).Contents (Elt F)) (a13 : (⟨S11x64x64, .f32⟩ : BufTy).Contents (Elt F)) (a14 : (⟨S11x64, .f32⟩ : BufTy).Contents (Elt F)) (a15 : (⟨S64x3, .f32⟩ : BufTy).Contents (Elt F)) (a16 : (⟨S3, .f32⟩ : BufTy).Contents (Elt F)) :
    (⟨S262144x3, .f32⟩ : BufTy).Contents (Elt F) :=
  val_main_v156 ⟨a0, a1, a2, a3, a4, a5, a6, a7, a8, a9, a10, a11, a12, a13, a14, a15, a16⟩

end Cert.ReferenceIdeal.HandRun

end
-- ==== Proof.RefRun.lean ====
/- The reference's run, read back: every weakly fair execution of @main terminates with the result buffer at
   `result` of the argument arrays' launch contents and the arguments unchanged. `Live k` says which values the
   buffers hold between segment k-1 and segment k of the operation list: the arguments, and every value already
   computed that a later operation still reads. Each segment carries `Live k` to `Live (k+1)`: a buffer the segment
   does not write keeps its value; a buffer it writes holds its operation's value of its operands' values, which are
   the named ones by the hypotheses (values from before the segment) or by unfolding (values computed inside it).
   The fold of the whole list over the launch contents is the segments' folds composed. -/
import proofs.«136870_j44341242364139_2_alg».proof.Proof.RefRunOps
import proofs.«136870_j44341242364139_2_alg».proof.Proof.RefRunVals

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- What the buffers hold at the start: the arguments, and the values still to be read. -/
abbrev Live0 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16

/-- What the buffers hold between segments 0 and 1: the arguments, and the values still to be read. -/
abbrev Live1 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v4) = val_main_v4 a
  ∧ W (Proc.devRef .tc main_v6) = val_main_v6 a
  ∧ W (Proc.devRef .tc main_v7) = val_main_v7 a
  ∧ W (Proc.devRef .tc main_call1_v1) = val_main_call1_v1 a
  ∧ W (Proc.devRef .tc main_call1_v3) = val_main_call1_v3 a
  ∧ W (Proc.devRef .tc main_call1_v4) = val_main_call1_v4 a
  ∧ W (Proc.devRef .tc main_call1_v5) = val_main_call1_v5 a

/-- What the buffers hold between segments 1 and 2: the arguments, and the values still to be read. -/
abbrev Live2 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v25) = val_main_v25 a
  ∧ W (Proc.devRef .tc main_v28) = val_main_v28 a
  ∧ W (Proc.devRef .tc main_v29) = val_main_v29 a

/-- What the buffers hold between segments 2 and 3: the arguments, and the values still to be read. -/
abbrev Live3 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v25) = val_main_v25 a
  ∧ W (Proc.devRef .tc main_v34) = val_main_v34 a
  ∧ W (Proc.devRef .tc main_v43) = val_main_v43 a
  ∧ W (Proc.devRef .tc main_v44) = val_main_v44 a

/-- What the buffers hold between segments 3 and 4: the arguments, and the values still to be read. -/
abbrev Live4 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v25) = val_main_v25 a
  ∧ W (Proc.devRef .tc main_v43) = val_main_v43 a
  ∧ W (Proc.devRef .tc main_v53) = val_main_v53 a
  ∧ W (Proc.devRef .tc main_v58) = val_main_v58 a

/-- What the buffers hold between segments 4 and 5: the arguments, and the values still to be read. -/
abbrev Live5 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v25) = val_main_v25 a
  ∧ W (Proc.devRef .tc main_v64) = val_main_v64 a
  ∧ W (Proc.devRef .tc main_v77) = val_main_v77 a
  ∧ W (Proc.devRef .tc main_v81) = val_main_v81 a
  ∧ W (Proc.devRef .tc main_v82) = val_main_v82 a

/-- What the buffers hold between segments 5 and 6: the arguments, and the values still to be read. -/
abbrev Live6 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v92) = val_main_v92 a
  ∧ W (Proc.devRef .tc main_v102) = val_main_v102 a
  ∧ W (Proc.devRef .tc main_v104) = val_main_v104 a
  ∧ W (Proc.devRef .tc main_v105) = val_main_v105 a

/-- What the buffers hold between segments 6 and 7: the arguments, and the values still to be read. -/
abbrev Live7 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v102) = val_main_v102 a
  ∧ W (Proc.devRef .tc main_v113) = val_main_v113 a
  ∧ W (Proc.devRef .tc main_v114) = val_main_v114 a
  ∧ W (Proc.devRef .tc main_v115) = val_main_v115 a

/-- What the buffers hold between segments 7 and 8: the arguments, and the values still to be read. -/
abbrev Live8 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v113) = val_main_v113 a
  ∧ W (Proc.devRef .tc main_v127) = val_main_v127 a
  ∧ W (Proc.devRef .tc main_v131) = val_main_v131 a

/-- What the buffers hold at the end: the arguments, and the values still to be read (the result). -/
abbrev Live9 (W : Valuation τ sig (Elt F)) (a : Args F) : Prop :=
  W (Proc.devRef .tc main_arg0) = a.a0
  ∧ W (Proc.devRef .tc main_arg1) = a.a1
  ∧ W (Proc.devRef .tc main_arg2) = a.a2
  ∧ W (Proc.devRef .tc main_arg3) = a.a3
  ∧ W (Proc.devRef .tc main_arg4) = a.a4
  ∧ W (Proc.devRef .tc main_arg5) = a.a5
  ∧ W (Proc.devRef .tc main_arg6) = a.a6
  ∧ W (Proc.devRef .tc main_arg7) = a.a7
  ∧ W (Proc.devRef .tc main_arg8) = a.a8
  ∧ W (Proc.devRef .tc main_arg9) = a.a9
  ∧ W (Proc.devRef .tc main_arg10) = a.a10
  ∧ W (Proc.devRef .tc main_arg11) = a.a11
  ∧ W (Proc.devRef .tc main_arg12) = a.a12
  ∧ W (Proc.devRef .tc main_arg13) = a.a13
  ∧ W (Proc.devRef .tc main_arg14) = a.a14
  ∧ W (Proc.devRef .tc main_arg15) = a.a15
  ∧ W (Proc.devRef .tc main_arg16) = a.a16
  ∧ W (Proc.devRef .tc main_v156) = val_main_v156 a

set_option maxRecDepth 8192 in
set_option maxHeartbeats 4000000 in
theorem seg0_live (W : Valuation τ sig (Elt F)) (a : Args F) (h : Live0 W a) : Live1 (after seg0 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16⟩ := h
  refine ⟨?_, ?_, ?_, ?_, ?_, ?_, ?_, ?_, ?_, ?_, ?_, ?_, ?_, ?_, ?_, ?_, ?_, ?_, ?_, ?_, ?_, ?_, ?_, ?_⟩
  · exact (after_of_writes_sub seg0 W seg0_writes (by decide)).trans h_main_arg0
  · exact (after_of_writes_sub seg0 W seg0_writes (by decide)).trans h_main_arg1
  · exact (after_of_writes_sub seg0 W seg0_writes (by decide)).trans h_main_arg2
  · exact (after_of_writes_sub seg0 W seg0_writes (by decide)).trans h_main_arg3
  · exact (after_of_writes_sub seg0 W seg0_writes (by decide)).trans h_main_arg4
  · exact (after_of_writes_sub seg0 W seg0_writes (by decide)).trans h_main_arg5
  · exact (after_of_writes_sub seg0 W seg0_writes (by decide)).trans h_main_arg6
  · exact (after_of_writes_sub seg0 W seg0_writes (by decide)).trans h_main_arg7
  · exact (after_of_writes_sub seg0 W seg0_writes (by decide)).trans h_main_arg8
  · exact (after_of_writes_sub seg0 W seg0_writes (by decide)).trans h_main_arg9
  · exact (after_of_writes_sub seg0 W seg0_writes (by decide)).trans h_main_arg10
  · exact (after_of_writes_sub seg0 W seg0_writes (by decide)).trans h_main_arg11
  · exact (after_of_writes_sub seg0 W seg0_writes (by decide)).trans h_main_arg12
  · exact (after_of_writes_sub seg0 W seg0_writes (by decide)).trans h_main_arg13
  · exact (after_of_writes_sub seg0 W seg0_writes (by decide)).trans h_main_arg14
  · exact (after_of_writes_sub seg0 W seg0_writes (by decide)).trans h_main_arg15
  · exact (after_of_writes_sub seg0 W seg0_writes (by decide)).trans h_main_arg16
  · show after seg0 W (Proc.devRef .tc main_v4) = val_main_v4 a
    simp only [seg0]
    after_results_simp
    simp only [h_main_arg4, h_main_arg5, h_main_arg6]
    simp only [val_main_v4, val_main_v3, val_main_v0, val_main_v2, val_main_v1] <;> rfl
  · show after seg0 W (Proc.devRef .tc main_v6) = val_main_v6 a
    simp only [seg0]
    after_results_simp
    simp only [h_main_arg2, h_main_arg9]
    simp only [val_main_v6, val_main_call0_v1, val_main_v5, val_main_call0_v0, val_main_call0_cst, val_main_call0_v7, val_main_call0_v6, val_main_call0_cst_2, val_main_call0_v5, val_main_call0_v4, val_main_call0_v3, val_main_call0_v2, val_main_call0_cst_0, val_main_call0_call0_v1, val_main_call0_call0_v0, val_main_call0_cst_1] <;> rfl
  · show after seg0 W (Proc.devRef .tc main_v7) = val_main_v7 a
    simp only [seg0]
    after_results_simp
    simp only [h_main_arg3, h_main_arg10]
    simp only [val_main_v7] <;> rfl
  · show after seg0 W (Proc.devRef .tc main_call1_v1) = val_main_call1_v1 a
    simp only [seg0]
    after_results_simp
    simp only [h_main_arg3, h_main_arg10]
    simp only [val_main_call1_v1, val_main_v7, val_main_call1_v0, val_main_call1_cst] <;> rfl
  · show after seg0 W (Proc.devRef .tc main_call1_v3) = val_main_call1_v3 a
    simp only [seg0]
    after_results_simp
    simp only [h_main_arg3, h_main_arg10]
    simp only [val_main_call1_v3, val_main_v7, val_main_call1_v2, val_main_call1_cst] <;> rfl
  · show after seg0 W (Proc.devRef .tc main_call1_v4) = val_main_call1_v4 a
    simp only [seg0]
    after_results_simp
    simp only [h_main_arg3, h_main_arg10]
    simp only [val_main_call1_v4, val_main_call1_v3, val_main_v7, val_main_call1_v2, val_main_call1_cst] <;> rfl
  · show after seg0 W (Proc.devRef .tc main_call1_v5) = val_main_call1_v5 a
    simp only [seg0]
    after_results_simp
    simp only [val_main_call1_v5, val_main_call1_cst] <;> rfl

set_option maxRecDepth 8192 in
set_option maxHeartbeats 4000000 in
theorem seg1_live (W : Valuation τ sig (Elt F)) (a : Args F) (h : Live1 W a) : Live2 (after seg1 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v4, h_main_v6, h_main_v7, h_main_call1_v1, h_main_call1_v3, h_main_call1_v4, h_main_call1_v5⟩ := h
  refine ⟨?_, ?_, ?_, ?_, ?_, ?_, ?_, ?_, ?_, ?_, ?_, ?_, ?_, ?_, ?_, ?_, ?_, ?_, ?_, ?_⟩
  · exact (after_of_writes_sub seg1 W seg1_writes (by decide)).trans h_main_arg0
  · exact (after_of_writes_sub seg1 W seg1_writes (by decide)).trans h_main_arg1
  · exact (after_of_writes_sub seg1 W seg1_writes (by decide)).trans h_main_arg2
  · exact (after_of_writes_sub seg1 W seg1_writes (by decide)).trans h_main_arg3
  · exact (after_of_writes_sub seg1 W seg1_writes (by decide)).trans h_main_arg4
  · exact (after_of_writes_sub seg1 W seg1_writes (by decide)).trans h_main_arg5
  · exact (after_of_writes_sub seg1 W seg1_writes (by decide)).trans h_main_arg6
  · exact (after_of_writes_sub seg1 W seg1_writes (by decide)).trans h_main_arg7
  · exact (after_of_writes_sub seg1 W seg1_writes (by decide)).trans h_main_arg8
  · exact (after_of_writes_sub seg1 W seg1_writes (by decide)).trans h_main_arg9
  · exact (after_of_writes_sub seg1 W seg1_writes (by decide)).trans h_main_arg10
  · exact (after_of_writes_sub seg1 W seg1_writes (by decide)).trans h_main_arg11
  · exact (after_of_writes_sub seg1 W seg1_writes (by decide)).trans h_main_arg12
  · exact (after_of_writes_sub seg1 W seg1_writes (by decide)).trans h_main_arg13
  · exact (after_of_writes_sub seg1 W seg1_writes (by decide)).trans h_main_arg14
  · exact (after_of_writes_sub seg1 W seg1_writes (by decide)).trans h_main_arg15
  · exact (after_of_writes_sub seg1 W seg1_writes (by decide)).trans h_main_arg16
  · show after seg1 W (Proc.devRef .tc main_v25) = val_main_v25 a
    simp only [seg1]
    after_results_simp
    simp only [h_main_v6, h_main_arg0, h_main_arg7, h_main_arg1, h_main_arg8, h_main_call1_v4, h_main_v7, h_main_call1_v5, h_main_call1_v1, h_main_call1_v3, h_main_v4, h_main_arg11, h_main_arg12]
    simp only [val_main_v25, val_main_v24, val_main_v21, val_main_v20, val_main_v19, val_main_v18, val_main_v17, val_main_v16, val_main_v15, val_main_v14, val_main_v13, val_main_v12, val_main_cst, val_main_v11, val_main_v10, val_main_v9, val_main_v8, val_main_call1_v6, val_main_call1_v11, val_main_call1_v10, val_main_call1_v9, val_main_call1_v8, val_main_call1_v7, val_main_v23, val_main_v22] <;> rfl
  · show after seg1 W (Proc.devRef .tc main_v28) = val_main_v28 a
    simp only [seg1]
    after_results_simp
    simp only [h_main_v6, h_main_arg0, h_main_arg7, h_main_arg1, h_main_arg8, h_main_call1_v4, h_main_v7, h_main_call1_v5, h_main_call1_v1, h_main_call1_v3, h_main_v4, h_main_arg11, h_main_arg12, h_main_arg13]
    simp only [val_main_v28, val_main_v25, val_main_v24, val_main_v21, val_main_v20, val_main_v19, val_main_v18, val_main_v17, val_main_v16, val_main_v15, val_main_v14, val_main_v13, val_main_v12, val_main_cst, val_main_v11, val_main_v10, val_main_v9, val_main_v8, val_main_call1_v6, val_main_call1_v11, val_main_call1_v10, val_main_call1_v9, val_main_call1_v8, val_main_call1_v7, val_main_v23, val_main_v22, val_main_v27, val_main_v26] <;> rfl
  · show after seg1 W (Proc.devRef .tc main_v29) = val_main_v29 a
    simp only [seg1]
    after_results_simp
    simp only [h_main_arg14]
    simp only [val_main_v29] <;> rfl

set_option maxRecDepth 8192 in
set_option maxHeartbeats 4000000 in
theorem seg2_live (W : Valuation τ sig (Elt F)) (a : Args F) (h : Live2 W a) : Live3 (after seg2 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v25, h_main_v28, h_main_v29⟩ := h
  refine ⟨?_, ?_, ?_, ?_, ?_, ?_, ?_, ?_, ?_, ?_, ?_, ?_, ?_, ?_, ?_, ?_, ?_, ?_, ?_, ?_, ?_⟩
  · exact (after_of_writes_sub seg2 W seg2_writes (by decide)).trans h_main_arg0
  · exact (after_of_writes_sub seg2 W seg2_writes (by decide)).trans h_main_arg1
  · exact (after_of_writes_sub seg2 W seg2_writes (by decide)).trans h_main_arg2
  · exact (after_of_writes_sub seg2 W seg2_writes (by decide)).trans h_main_arg3
  · exact (after_of_writes_sub seg2 W seg2_writes (by decide)).trans h_main_arg4
  · exact (after_of_writes_sub seg2 W seg2_writes (by decide)).trans h_main_arg5
  · exact (after_of_writes_sub seg2 W seg2_writes (by decide)).trans h_main_arg6
  · exact (after_of_writes_sub seg2 W seg2_writes (by decide)).trans h_main_arg7
  · exact (after_of_writes_sub seg2 W seg2_writes (by decide)).trans h_main_arg8
  · exact (after_of_writes_sub seg2 W seg2_writes (by decide)).trans h_main_arg9
  · exact (after_of_writes_sub seg2 W seg2_writes (by decide)).trans h_main_arg10
  · exact (after_of_writes_sub seg2 W seg2_writes (by decide)).trans h_main_arg11
  · exact (after_of_writes_sub seg2 W seg2_writes (by decide)).trans h_main_arg12
  · exact (after_of_writes_sub seg2 W seg2_writes (by decide)).trans h_main_arg13
  · exact (after_of_writes_sub seg2 W seg2_writes (by decide)).trans h_main_arg14
  · exact (after_of_writes_sub seg2 W seg2_writes (by decide)).trans h_main_arg15
  · exact (after_of_writes_sub seg2 W seg2_writes (by decide)).trans h_main_arg16
  · exact (after_of_writes_sub seg2 W seg2_writes (by decide)).trans h_main_v25
  · show after seg2 W (Proc.devRef .tc main_v34) = val_main_v34 a
    simp only [seg2]
    after_results_simp
    simp only [h_main_v28, h_main_v29]
    simp only [val_main_v34, val_main_v33, val_main_v32, val_main_v31, val_main_v30] <;> rfl
  · show after seg2 W (Proc.devRef .tc main_v43) = val_main_v43 a
    simp only [seg2]
    after_results_simp
    simp only [h_main_v28, h_main_v29, h_main_arg13, h_main_arg14]
    simp only [val_main_v43, val_main_call2_v1, val_main_v42, val_main_v37, val_main_v34, val_main_v33, val_main_v32, val_main_v31, val_main_v30, val_main_v36, val_main_v35, val_main_v41, val_main_v40, val_main_v39, val_main_v38, val_main_call2_v0, val_main_call2_cst, val_main_call2_v7, val_main_call2_v6, val_main_call2_cst_2, val_main_call2_v5, val_main_call2_v4, val_main_call2_v3, val_main_call2_v2, val_main_call2_cst_0, val_main_call2_call0_v1, val_main_call2_call0_v0, val_main_call2_cst_1] <;> rfl
  · show after seg2 W (Proc.devRef .tc main_v44) = val_main_v44 a
    simp only [seg2]
    after_results_simp
    simp only [h_main_v28, h_main_v29, h_main_arg13, h_main_arg14, h_main_v25]
    simp only [val_main_v44, val_main_v43, val_main_call2_v1, val_main_v42, val_main_v37, val_main_v34, val_main_v33, val_main_v32, val_main_v31, val_main_v30, val_main_v36, val_main_v35, val_main_v41, val_main_v40, val_main_v39, val_main_v38, val_main_call2_v0, val_main_call2_cst, val_main_call2_v7, val_main_call2_v6, val_main_call2_cst_2, val_main_call2_v5, val_main_call2_v4, val_main_call2_v3, val_main_call2_v2, val_main_call2_cst_0, val_main_call2_call0_v1, val_main_call2_call0_v0, val_main_call2_cst_1] <;> rfl

set_option maxRecDepth 8192 in
set_option maxHeartbeats 4000000 in
theorem seg3_live (W : Valuation τ sig (Elt F)) (a : Args F) (h : Live3 W a) : Live4 (after seg3 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v25, h_main_v34, h_main_v43, h_main_v44⟩ := h
  refine ⟨?_, ?_, ?_, ?_, ?_, ?_, ?_, ?_, ?_, ?_, ?_, ?_, ?_, ?_, ?_, ?_, ?_, ?_, ?_, ?_, ?_⟩
  · exact (after_of_writes_sub seg3 W seg3_writes (by decide)).trans h_main_arg0
  · exact (after_of_writes_sub seg3 W seg3_writes (by decide)).trans h_main_arg1
  · exact (after_of_writes_sub seg3 W seg3_writes (by decide)).trans h_main_arg2
  · exact (after_of_writes_sub seg3 W seg3_writes (by decide)).trans h_main_arg3
  · exact (after_of_writes_sub seg3 W seg3_writes (by decide)).trans h_main_arg4
  · exact (after_of_writes_sub seg3 W seg3_writes (by decide)).trans h_main_arg5
  · exact (after_of_writes_sub seg3 W seg3_writes (by decide)).trans h_main_arg6
  · exact (after_of_writes_sub seg3 W seg3_writes (by decide)).trans h_main_arg7
  · exact (after_of_writes_sub seg3 W seg3_writes (by decide)).trans h_main_arg8
  · exact (after_of_writes_sub seg3 W seg3_writes (by decide)).trans h_main_arg9
  · exact (after_of_writes_sub seg3 W seg3_writes (by decide)).trans h_main_arg10
  · exact (after_of_writes_sub seg3 W seg3_writes (by decide)).trans h_main_arg11
  · exact (after_of_writes_sub seg3 W seg3_writes (by decide)).trans h_main_arg12
  · exact (after_of_writes_sub seg3 W seg3_writes (by decide)).trans h_main_arg13
  · exact (after_of_writes_sub seg3 W seg3_writes (by decide)).trans h_main_arg14
  · exact (after_of_writes_sub seg3 W seg3_writes (by decide)).trans h_main_arg15
  · exact (after_of_writes_sub seg3 W seg3_writes (by decide)).trans h_main_arg16
  · exact (after_of_writes_sub seg3 W seg3_writes (by decide)).trans h_main_v25
  · exact (after_of_writes_sub seg3 W seg3_writes (by decide)).trans h_main_v43
  · show after seg3 W (Proc.devRef .tc main_v53) = val_main_v53 a
    simp only [seg3]
    after_results_simp
    simp only [h_main_v44, h_main_arg13, h_main_arg14]
    simp only [val_main_v53, val_main_call3_v4, val_main_call3_v3, val_main_v52, val_main_v47, val_main_v46, val_main_v45, val_main_v51, val_main_v50, val_main_v49, val_main_v48, val_main_call3_v2, val_main_call3_cst, val_main_call3_v6, val_main_call3_v5, val_main_call3_v11, val_main_call3_v1, val_main_call3_v0, val_main_call3_v10, val_main_call3_v9, val_main_call3_v8, val_main_call3_v7] <;> rfl
  · show after seg3 W (Proc.devRef .tc main_v58) = val_main_v58 a
    simp only [seg3]
    after_results_simp
    simp only [h_main_v44, h_main_arg13, h_main_arg14, h_main_v34, h_main_v25]
    simp only [val_main_v58, val_main_v55, val_main_v54, val_main_v53, val_main_call3_v4, val_main_call3_v3, val_main_v52, val_main_v47, val_main_v46, val_main_v45, val_main_v51, val_main_v50, val_main_v49, val_main_v48, val_main_call3_v2, val_main_call3_cst, val_main_call3_v6, val_main_call3_v5, val_main_call3_v11, val_main_call3_v1, val_main_call3_v0, val_main_call3_v10, val_main_call3_v9, val_main_call3_v8, val_main_call3_v7, val_main_v57, val_main_v56] <;> rfl

set_option maxRecDepth 8192 in
set_option maxHeartbeats 4000000 in
theorem seg4_live (W : Valuation τ sig (Elt F)) (a : Args F) (h : Live4 W a) : Live5 (after seg4 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v25, h_main_v43, h_main_v53, h_main_v58⟩ := h
  refine ⟨?_, ?_, ?_, ?_, ?_, ?_, ?_, ?_, ?_, ?_, ?_, ?_, ?_, ?_, ?_, ?_, ?_, ?_, ?_, ?_, ?_, ?_⟩
  · exact (after_of_writes_sub seg4 W seg4_writes (by decide)).trans h_main_arg0
  · exact (after_of_writes_sub seg4 W seg4_writes (by decide)).trans h_main_arg1
  · exact (after_of_writes_sub seg4 W seg4_writes (by decide)).trans h_main_arg2
  · exact (after_of_writes_sub seg4 W seg4_writes (by decide)).trans h_main_arg3
  · exact (after_of_writes_sub seg4 W seg4_writes (by decide)).trans h_main_arg4
  · exact (after_of_writes_sub seg4 W seg4_writes (by decide)).trans h_main_arg5
  · exact (after_of_writes_sub seg4 W seg4_writes (by decide)).trans h_main_arg6
  · exact (after_of_writes_sub seg4 W seg4_writes (by decide)).trans h_main_arg7
  · exact (after_of_writes_sub seg4 W seg4_writes (by decide)).trans h_main_arg8
  · exact (after_of_writes_sub seg4 W seg4_writes (by decide)).trans h_main_arg9
  · exact (after_of_writes_sub seg4 W seg4_writes (by decide)).trans h_main_arg10
  · exact (after_of_writes_sub seg4 W seg4_writes (by decide)).trans h_main_arg11
  · exact (after_of_writes_sub seg4 W seg4_writes (by decide)).trans h_main_arg12
  · exact (after_of_writes_sub seg4 W seg4_writes (by decide)).trans h_main_arg13
  · exact (after_of_writes_sub seg4 W seg4_writes (by decide)).trans h_main_arg14
  · exact (after_of_writes_sub seg4 W seg4_writes (by decide)).trans h_main_arg15
  · exact (after_of_writes_sub seg4 W seg4_writes (by decide)).trans h_main_arg16
  · exact (after_of_writes_sub seg4 W seg4_writes (by decide)).trans h_main_v25
  · show after seg4 W (Proc.devRef .tc main_v64) = val_main_v64 a
    simp only [seg4]
    after_results_simp
    simp only [h_main_v58, h_main_arg14]
    simp only [val_main_v64, val_main_v63, val_main_v62, val_main_v61, val_main_v60, val_main_v59] <;> rfl
  · show after seg4 W (Proc.devRef .tc main_v77) = val_main_v77 a
    simp only [seg4]
    after_results_simp
    simp only [h_main_v58, h_main_arg14, h_main_v43, h_main_arg13]
    simp only [val_main_v77, val_main_v76, val_main_v75, val_main_v74, val_main_cst_0, val_main_v73, val_main_v68, val_main_v65, val_main_v64, val_main_v63, val_main_v62, val_main_v61, val_main_v60, val_main_v59, val_main_v67, val_main_v66, val_main_v72, val_main_v71, val_main_v70, val_main_v69] <;> rfl
  · show after seg4 W (Proc.devRef .tc main_v81) = val_main_v81 a
    simp only [seg4]
    after_results_simp
    simp only [h_main_v58, h_main_arg14, h_main_v43, h_main_arg13, h_main_v53]
    simp only [val_main_v81, val_main_v78, val_main_v77, val_main_v76, val_main_v75, val_main_v74, val_main_cst_0, val_main_v73, val_main_v68, val_main_v65, val_main_v64, val_main_v63, val_main_v62, val_main_v61, val_main_v60, val_main_v59, val_main_v67, val_main_v66, val_main_v72, val_main_v71, val_main_v70, val_main_v69, val_main_v80, val_main_v79] <;> rfl
  · show after seg4 W (Proc.devRef .tc main_v82) = val_main_v82 a
    simp only [seg4]
    after_results_simp
    simp only [h_main_arg14]
    simp only [val_main_v82] <;> rfl

set_option maxRecDepth 8192 in
set_option maxHeartbeats 4000000 in
theorem seg5_live (W : Valuation τ sig (Elt F)) (a : Args F) (h : Live5 W a) : Live6 (after seg5 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v25, h_main_v64, h_main_v77, h_main_v81, h_main_v82⟩ := h
  refine ⟨?_, ?_, ?_, ?_, ?_, ?_, ?_, ?_, ?_, ?_, ?_, ?_, ?_, ?_, ?_, ?_, ?_, ?_, ?_, ?_, ?_⟩
  · exact (after_of_writes_sub seg5 W seg5_writes (by decide)).trans h_main_arg0
  · exact (after_of_writes_sub seg5 W seg5_writes (by decide)).trans h_main_arg1
  · exact (after_of_writes_sub seg5 W seg5_writes (by decide)).trans h_main_arg2
  · exact (after_of_writes_sub seg5 W seg5_writes (by decide)).trans h_main_arg3
  · exact (after_of_writes_sub seg5 W seg5_writes (by decide)).trans h_main_arg4
  · exact (after_of_writes_sub seg5 W seg5_writes (by decide)).trans h_main_arg5
  · exact (after_of_writes_sub seg5 W seg5_writes (by decide)).trans h_main_arg6
  · exact (after_of_writes_sub seg5 W seg5_writes (by decide)).trans h_main_arg7
  · exact (after_of_writes_sub seg5 W seg5_writes (by decide)).trans h_main_arg8
  · exact (after_of_writes_sub seg5 W seg5_writes (by decide)).trans h_main_arg9
  · exact (after_of_writes_sub seg5 W seg5_writes (by decide)).trans h_main_arg10
  · exact (after_of_writes_sub seg5 W seg5_writes (by decide)).trans h_main_arg11
  · exact (after_of_writes_sub seg5 W seg5_writes (by decide)).trans h_main_arg12
  · exact (after_of_writes_sub seg5 W seg5_writes (by decide)).trans h_main_arg13
  · exact (after_of_writes_sub seg5 W seg5_writes (by decide)).trans h_main_arg14
  · exact (after_of_writes_sub seg5 W seg5_writes (by decide)).trans h_main_arg15
  · exact (after_of_writes_sub seg5 W seg5_writes (by decide)).trans h_main_arg16
  · show after seg5 W (Proc.devRef .tc main_v92) = val_main_v92 a
    simp only [seg5]
    after_results_simp
    simp only [h_main_v81, h_main_v82]
    simp only [val_main_v92, val_main_v91, val_main_cst_2, val_main_v90, val_main_v89, val_main_cst_1, val_main_v88, val_main_v87, val_main_v86, val_main_v85, val_main_v84, val_main_v83] <;> rfl
  · show after seg5 W (Proc.devRef .tc main_v102) = val_main_v102 a
    simp only [seg5]
    after_results_simp
    simp only [h_main_v81, h_main_v82, h_main_v64, h_main_arg13, h_main_arg14]
    simp only [val_main_v102, val_main_v101, val_main_v96, val_main_v93, val_main_v92, val_main_v91, val_main_cst_2, val_main_v90, val_main_v89, val_main_cst_1, val_main_v88, val_main_v87, val_main_v86, val_main_v85, val_main_v84, val_main_v83, val_main_v95, val_main_v94, val_main_v100, val_main_v99, val_main_v98, val_main_v97] <;> rfl
  · show after seg5 W (Proc.devRef .tc main_v104) = val_main_v104 a
    simp only [seg5]
    after_results_simp
    simp only [h_main_v81, h_main_v82, h_main_v64, h_main_arg13, h_main_arg14, h_main_v77, h_main_v25]
    simp only [val_main_v104, val_main_v103, val_main_v102, val_main_v101, val_main_v96, val_main_v93, val_main_v92, val_main_v91, val_main_cst_2, val_main_v90, val_main_v89, val_main_cst_1, val_main_v88, val_main_v87, val_main_v86, val_main_v85, val_main_v84, val_main_v83, val_main_v95, val_main_v94, val_main_v100, val_main_v99, val_main_v98, val_main_v97] <;> rfl
  · show after seg5 W (Proc.devRef .tc main_v105) = val_main_v105 a
    simp only [seg5]
    after_results_simp
    simp only [h_main_arg13]
    simp only [val_main_v105] <;> rfl

set_option maxRecDepth 8192 in
set_option maxHeartbeats 4000000 in
theorem seg6_live (W : Valuation τ sig (Elt F)) (a : Args F) (h : Live6 W a) : Live7 (after seg6 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v92, h_main_v102, h_main_v104, h_main_v105⟩ := h
  refine ⟨?_, ?_, ?_, ?_, ?_, ?_, ?_, ?_, ?_, ?_, ?_, ?_, ?_, ?_, ?_, ?_, ?_, ?_, ?_, ?_, ?_⟩
  · exact (after_of_writes_sub seg6 W seg6_writes (by decide)).trans h_main_arg0
  · exact (after_of_writes_sub seg6 W seg6_writes (by decide)).trans h_main_arg1
  · exact (after_of_writes_sub seg6 W seg6_writes (by decide)).trans h_main_arg2
  · exact (after_of_writes_sub seg6 W seg6_writes (by decide)).trans h_main_arg3
  · exact (after_of_writes_sub seg6 W seg6_writes (by decide)).trans h_main_arg4
  · exact (after_of_writes_sub seg6 W seg6_writes (by decide)).trans h_main_arg5
  · exact (after_of_writes_sub seg6 W seg6_writes (by decide)).trans h_main_arg6
  · exact (after_of_writes_sub seg6 W seg6_writes (by decide)).trans h_main_arg7
  · exact (after_of_writes_sub seg6 W seg6_writes (by decide)).trans h_main_arg8
  · exact (after_of_writes_sub seg6 W seg6_writes (by decide)).trans h_main_arg9
  · exact (after_of_writes_sub seg6 W seg6_writes (by decide)).trans h_main_arg10
  · exact (after_of_writes_sub seg6 W seg6_writes (by decide)).trans h_main_arg11
  · exact (after_of_writes_sub seg6 W seg6_writes (by decide)).trans h_main_arg12
  · exact (after_of_writes_sub seg6 W seg6_writes (by decide)).trans h_main_arg13
  · exact (after_of_writes_sub seg6 W seg6_writes (by decide)).trans h_main_arg14
  · exact (after_of_writes_sub seg6 W seg6_writes (by decide)).trans h_main_arg15
  · exact (after_of_writes_sub seg6 W seg6_writes (by decide)).trans h_main_arg16
  · exact (after_of_writes_sub seg6 W seg6_writes (by decide)).trans h_main_v102
  · show after seg6 W (Proc.devRef .tc main_v113) = val_main_v113 a
    simp only [seg6]
    after_results_simp
    simp only [h_main_v104, h_main_v105, h_main_arg14]
    simp only [val_main_v113, val_main_call4_v1, val_main_v112, val_main_v107, val_main_v106, val_main_v111, val_main_v110, val_main_v109, val_main_v108, val_main_call4_v0, val_main_call4_cst, val_main_call4_v7, val_main_call4_v6, val_main_call4_cst_2, val_main_call4_v5, val_main_call4_v4, val_main_call4_v3, val_main_call4_v2, val_main_call4_cst_0, val_main_call4_call0_v1, val_main_call4_call0_v0, val_main_call4_cst_1] <;> rfl
  · show after seg6 W (Proc.devRef .tc main_v114) = val_main_v114 a
    simp only [seg6]
    after_results_simp
    simp only [h_main_v104, h_main_v105, h_main_arg14, h_main_v92]
    simp only [val_main_v114, val_main_v113, val_main_call4_v1, val_main_v112, val_main_v107, val_main_v106, val_main_v111, val_main_v110, val_main_v109, val_main_v108, val_main_call4_v0, val_main_call4_cst, val_main_call4_v7, val_main_call4_v6, val_main_call4_cst_2, val_main_call4_v5, val_main_call4_v4, val_main_call4_v3, val_main_call4_v2, val_main_call4_cst_0, val_main_call4_call0_v1, val_main_call4_call0_v0, val_main_call4_cst_1] <;> rfl
  · show after seg6 W (Proc.devRef .tc main_v115) = val_main_v115 a
    simp only [seg6]
    after_results_simp
    simp only [h_main_arg13]
    simp only [val_main_v115] <;> rfl

set_option maxRecDepth 8192 in
set_option maxHeartbeats 4000000 in
theorem seg7_live (W : Valuation τ sig (Elt F)) (a : Args F) (h : Live7 W a) : Live8 (after seg7 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v102, h_main_v113, h_main_v114, h_main_v115⟩ := h
  refine ⟨?_, ?_, ?_, ?_, ?_, ?_, ?_, ?_, ?_, ?_, ?_, ?_, ?_, ?_, ?_, ?_, ?_, ?_, ?_, ?_⟩
  · exact (after_of_writes_sub seg7 W seg7_writes (by decide)).trans h_main_arg0
  · exact (after_of_writes_sub seg7 W seg7_writes (by decide)).trans h_main_arg1
  · exact (after_of_writes_sub seg7 W seg7_writes (by decide)).trans h_main_arg2
  · exact (after_of_writes_sub seg7 W seg7_writes (by decide)).trans h_main_arg3
  · exact (after_of_writes_sub seg7 W seg7_writes (by decide)).trans h_main_arg4
  · exact (after_of_writes_sub seg7 W seg7_writes (by decide)).trans h_main_arg5
  · exact (after_of_writes_sub seg7 W seg7_writes (by decide)).trans h_main_arg6
  · exact (after_of_writes_sub seg7 W seg7_writes (by decide)).trans h_main_arg7
  · exact (after_of_writes_sub seg7 W seg7_writes (by decide)).trans h_main_arg8
  · exact (after_of_writes_sub seg7 W seg7_writes (by decide)).trans h_main_arg9
  · exact (after_of_writes_sub seg7 W seg7_writes (by decide)).trans h_main_arg10
  · exact (after_of_writes_sub seg7 W seg7_writes (by decide)).trans h_main_arg11
  · exact (after_of_writes_sub seg7 W seg7_writes (by decide)).trans h_main_arg12
  · exact (after_of_writes_sub seg7 W seg7_writes (by decide)).trans h_main_arg13
  · exact (after_of_writes_sub seg7 W seg7_writes (by decide)).trans h_main_arg14
  · exact (after_of_writes_sub seg7 W seg7_writes (by decide)).trans h_main_arg15
  · exact (after_of_writes_sub seg7 W seg7_writes (by decide)).trans h_main_arg16
  · exact (after_of_writes_sub seg7 W seg7_writes (by decide)).trans h_main_v113
  · show after seg7 W (Proc.devRef .tc main_v127) = val_main_v127 a
    simp only [seg7]
    after_results_simp
    simp only [h_main_v114, h_main_v115, h_main_arg14, h_main_v102, h_main_arg13]
    simp only [val_main_v127, val_main_v124, val_main_v123, val_main_call5_v4, val_main_call5_v3, val_main_v122, val_main_v117, val_main_v116, val_main_v121, val_main_v120, val_main_v119, val_main_v118, val_main_call5_v2, val_main_call5_cst, val_main_call5_v6, val_main_call5_v5, val_main_call5_v11, val_main_call5_v1, val_main_call5_v0, val_main_call5_v10, val_main_call5_v9, val_main_call5_v8, val_main_call5_v7, val_main_v126, val_main_v125] <;> rfl
  · show after seg7 W (Proc.devRef .tc main_v131) = val_main_v131 a
    simp only [seg7]
    after_results_simp
    simp only [h_main_arg14]
    simp only [val_main_v131, val_main_v130, val_main_v129, val_main_v128] <;> rfl

set_option maxRecDepth 8192 in
set_option maxHeartbeats 4000000 in
theorem seg8_live (W : Valuation τ sig (Elt F)) (a : Args F) (h : Live8 W a) : Live9 (after seg8 W) a := by
  obtain ⟨h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_v113, h_main_v127, h_main_v131⟩ := h
  refine ⟨?_, ?_, ?_, ?_, ?_, ?_, ?_, ?_, ?_, ?_, ?_, ?_, ?_, ?_, ?_, ?_, ?_, ?_⟩
  · exact (after_of_writes_sub seg8 W seg8_writes (by decide)).trans h_main_arg0
  · exact (after_of_writes_sub seg8 W seg8_writes (by decide)).trans h_main_arg1
  · exact (after_of_writes_sub seg8 W seg8_writes (by decide)).trans h_main_arg2
  · exact (after_of_writes_sub seg8 W seg8_writes (by decide)).trans h_main_arg3
  · exact (after_of_writes_sub seg8 W seg8_writes (by decide)).trans h_main_arg4
  · exact (after_of_writes_sub seg8 W seg8_writes (by decide)).trans h_main_arg5
  · exact (after_of_writes_sub seg8 W seg8_writes (by decide)).trans h_main_arg6
  · exact (after_of_writes_sub seg8 W seg8_writes (by decide)).trans h_main_arg7
  · exact (after_of_writes_sub seg8 W seg8_writes (by decide)).trans h_main_arg8
  · exact (after_of_writes_sub seg8 W seg8_writes (by decide)).trans h_main_arg9
  · exact (after_of_writes_sub seg8 W seg8_writes (by decide)).trans h_main_arg10
  · exact (after_of_writes_sub seg8 W seg8_writes (by decide)).trans h_main_arg11
  · exact (after_of_writes_sub seg8 W seg8_writes (by decide)).trans h_main_arg12
  · exact (after_of_writes_sub seg8 W seg8_writes (by decide)).trans h_main_arg13
  · exact (after_of_writes_sub seg8 W seg8_writes (by decide)).trans h_main_arg14
  · exact (after_of_writes_sub seg8 W seg8_writes (by decide)).trans h_main_arg15
  · exact (after_of_writes_sub seg8 W seg8_writes (by decide)).trans h_main_arg16
  · show after seg8 W (Proc.devRef .tc main_v156) = val_main_v156 a
    simp only [seg8]
    after_results_simp
    simp only [h_main_v127, h_main_v131, h_main_v113, h_main_arg13, h_main_arg14, h_main_arg15, h_main_arg16]
    simp only [val_main_v156, val_main_v155, val_main_cst_5, val_main_v154, val_main_v153, val_main_cst_4, val_main_v152, val_main_v151, val_main_v150, val_main_v147, val_main_v146, val_main_v145, val_main_v144, val_main_v143, val_main_cst_3, val_main_v142, val_main_v137, val_main_v134, val_main_v133, val_main_v132, val_main_v136, val_main_v135, val_main_v141, val_main_v140, val_main_v139, val_main_v138, val_main_v149, val_main_v148] <;> rfl

/-- From buffers holding the arguments, the whole operation list leaves the result buffer at the result's value of them
    and the arguments where they were. -/
theorem after_ops_live (V : Valuation τ sig (Elt F)) (a : Args F) (h : Live0 V a) : Live9 (after ops V) a := by
  rw [after_ops]
  exact seg8_live _ a (seg7_live _ a (seg6_live _ a (seg5_live _ a (seg4_live _ a (seg3_live _ a (seg2_live _ a (seg1_live _ a (seg0_live _ a (h)))))))))

/-- On every device, for any float values, from any memory with zero counters: every weakly fair execution of
    @main terminates with the result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v156) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
      obtain ⟨h0, h1, h2, h3, h4, h5, h6, h7, h8, h9, h10, h11, h12, h13, h14, h15, h16, hres⟩ :=
        after_ops_live (F := F) (launchContents m c) ⟨(m ((c.tc : Thread nD τ).loc main_arg0)), (m ((c.tc : Thread nD τ).loc main_arg1)), (m ((c.tc : Thread nD τ).loc main_arg2)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16))⟩
          ⟨rfl, rfl, rfl, rfl, rfl, rfl, rfl, rfl, rfl, rfl, rfl, rfl, rfl, rfl, rfl, rfl, rfl⟩
      exact ⟨(h c main_v156).trans hres, (h c main_arg0).trans h0, (h c main_arg1).trans h1, (h c main_arg2).trans h2, (h c main_arg3).trans h3, (h c main_arg4).trans h4, (h c main_arg5).trans h5, (h c main_arg6).trans h6, (h c main_arg7).trans h7, (h c main_arg8).trans h8, (h c main_arg9).trans h9, (h c main_arg10).trans h10, (h c main_arg11).trans h11, (h c main_arg12).trans h12, (h c main_arg13).trans h13, (h c main_arg14).trans h14, (h c main_arg15).trans h15, (h c main_arg16).trans h16⟩)
    (run_seq scopedRefs_eq scopedSems_eq defs main (fun _ => ops) main_eq (fun _ => ops_sub) m ρ)

/-- The run with the result forgotten: @main terminates and leaves its arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => (h c).2) (run m ρ)

end Cert.ReferenceIdeal.HandRun

end
-- ==== Proof.RefValue.lean ====
/- The reference's result read one element at a time: row n's three outputs are the network of Spec.lean applied to row
   n's four scalars and sixteen noise values, with the weights read off the weight arrays. First the program's
   operations read at an index (a product contracting one axis is a finite sum over that axis; a layer's weights and
   bias are the stacked arrays at that layer; a broadcast bias or constant reads its source), then, node by node of the
   network, the program's value at (n, j) is the network's node at j: each node unfolds to the previous nodes through
   one dense layer and one activation. -/
import proofs.«136870_j44341242364139_2_alg».proof.Proof.RefRunVals
import proofs.«136870_j44341242364139_2_alg».proof.Proof.SpecWeights
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.HandValue

open Cert.ReferenceIdeal Cert.ReferenceIdeal.Gen Cert.ReferenceIdeal.HandRun Idealize.ShloMosaic Idealize.ShloMosaic.ValueIdx
open scoped BigOperators

/-! ## Building blocks: the reference's operations read at an index, at the ideal instance -/

/-- A two-dimensional product contracting the left operand's columns with the right operand's rows, read at an
    index, is the sum over the shared coordinate. The four coordinate hypotheses hold by computation at literal
    dimension numbers. -/
theorem dot2_apply {M K N : Nat} (D : DotDims ⟨2, ![M, K]⟩ ⟨2, ![K, N]⟩ ⟨2, ![M, N]⟩)
    (hrk : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (l : FVec Ideal ⟨2, ![M, K]⟩ .f32) (r : FVec Ideal ⟨2, ![K, N]⟩ .f32)
    (m : Fin M) (n : Fin N) :
    Host.dotGeneral D prec l r (ix2 m n) = ∑ k : Fin K, l (ix2 m k) * r (ix2 k n) := by
  show FloatOps.dotGeneral D prec .single l r (ix2 m n) = _
  rw [Ideal.dotGeneral_apply, ← Equiv.sum_comp (contrEquiv1 D K hrk hs).symm]
  refine Finset.sum_congr rfl fun k _ => ?_
  have e1 : D.lhsIdx (ix2 m n) ((contrEquiv1 D K hrk hs).symm k) = ix2 m k := by
    funext a
    match a with
    | ⟨0, _⟩ => exact Fin.ext (hl0 _ _)
    | ⟨1, _⟩ => exact Fin.ext ((hl1 _ _).trans (contrEquiv1_symm_val D K hrk hs k))
  have e2 : D.rhsIdx (ix2 m n) ((contrEquiv1 D K hrk hs).symm k) = ix2 k n := by
    funext a
    match a with
    | ⟨0, _⟩ => exact Fin.ext ((hr0 _ _).trans (contrEquiv1_symm_val D K hrk hs k))
    | ⟨1, _⟩ => exact Fin.ext (hr1 _ _)
  rw [e1, e2]

theorem dot_16_apply (l : FVec Ideal S262144x16 .f32) (r : FVec Ideal S16x64 .f32) (m : Fin 262144) (n : Fin 64) :
    Host.dotGeneral dot_S262144x16_S16x64_S262144x64_1_0_0_1_n_n none l r (ix2 m n) = ∑ k : Fin 16, l (ix2 m k) * r (ix2 k n) :=
  dot2_apply _ rfl rfl (fun _ _ => rfl) (fun _ _ => rfl) (fun _ _ => rfl) (fun _ _ => rfl) none l r m n

theorem dot_1_apply (l : FVec Ideal S262144x1 .f32) (r : FVec Ideal S1x64 .f32) (m : Fin 262144) (n : Fin 64) :
    Host.dotGeneral dot_S262144x1_S1x64_S262144x64_1_0_0_1_n_n none l r (ix2 m n) = l (ix2 m (0 : Fin 1)) * r (ix2 (0 : Fin 1) n) := by
  rw [dot2_apply _ rfl rfl (fun _ _ => rfl) (fun _ _ => rfl) (fun _ _ => rfl) (fun _ _ => rfl) none l r m n]
  exact Fin.sum_univ_one _

theorem dot_64_apply (l : FVec Ideal S262144x64 .f32) (r : FVec Ideal S64x64 .f32) (m : Fin 262144) (n : Fin 64) :
    Host.dotGeneral dot_S262144x64_S64x64_S262144x64_1_0_0_1_n_n none l r (ix2 m n) = ∑ k : Fin 64, l (ix2 m k) * r (ix2 k n) :=
  dot2_apply _ rfl rfl (fun _ _ => rfl) (fun _ _ => rfl) (fun _ _ => rfl) (fun _ _ => rfl) none l r m n

theorem dot_3_apply (l : FVec Ideal S262144x64 .f32) (r : FVec Ideal S64x3 .f32) (m : Fin 262144) (n : Fin 3) :
    Host.dotGeneral dot_S262144x64_S64x3_S262144x3_1_0_0_1_n_n none l r (ix2 m n) = ∑ k : Fin 64, l (ix2 m k) * r (ix2 k n) :=
  dot2_apply _ rfl rfl (fun _ _ => rfl) (fun _ _ => rfl) (fun _ _ => rfl) (fun _ _ => rfl) none l r m n

/-- Layer `l` of the stacked weights: the slice of one layer, its unit axis dropped, at `(i, j)`. -/
theorem wg_apply {α : Type} (l : Nat) (hl : l < 11) (w : S11x64x64.Idx → α)
    (hs : S11x64x64.Slices ![l, 0, 0] S1x64x64) (hc : S1x64x64.ShapeCasts S64x64) (i j : Fin 64) :
    shapeCast S64x64 (extractStridedSlice S1x64x64 ![l, 0, 0] w hs) hc (ix2 i j) = w (ix3 (⟨l, hl⟩ : Fin 11) i j) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- A vector of 64 as a one-row matrix. -/
theorem row64_apply {α : Type} (v : S64.Idx → α) (h : S64.BroadcastsInDim S1x64 (![1] : Fin 1 → Fin 2)) (u : Fin 1) (j : Fin 64) :
    broadcastInDim S1x64 (![1] : Fin 1 → Fin 2) h v (ix2 u j) = v (ix1 j) :=
  broadcastInDim_apply _ h v _ _ (fun a => by
    match a with
    | ⟨0, _⟩ => rfl)

/-- A vector of 3 as a one-row matrix. -/
theorem row3_apply {α : Type} (v : S3.Idx → α) (h : S3.BroadcastsInDim S1x3 (![1] : Fin 1 → Fin 2)) (u : Fin 1) (j : Fin 3) :
    broadcastInDim S1x3 (![1] : Fin 1 → Fin 2) h v (ix2 u j) = v (ix1 j) :=
  broadcastInDim_apply _ h v _ _ (fun a => by
    match a with
    | ⟨0, _⟩ => rfl)

/-- A bias vector of 64 added to every row. -/
theorem bias64_apply {α : Type} (v : S64.Idx → α) (h1 : S64.BroadcastsInDim S1x64 (![1] : Fin 1 → Fin 2))
    (h2 : S1x64.BroadcastsInDim S262144x64 (![0, 1] : Fin 2 → Fin 2)) (n : Fin 262144) (j : Fin 64) :
    broadcastInDim S262144x64 (![0, 1] : Fin 2 → Fin 2) h2 (broadcastInDim S1x64 (![1] : Fin 1 → Fin 2) h1 v) (ix2 n j) = v (ix1 j) := by
  rw [broadcastInDim_oneRow_apply, row64_apply]

/-- The output bias vector of 3 added to every row. -/
theorem bias3_apply {α : Type} (v : S3.Idx → α) (h1 : S3.BroadcastsInDim S1x3 (![1] : Fin 1 → Fin 2))
    (h2 : S1x3.BroadcastsInDim S262144x3 (![0, 1] : Fin 2 → Fin 2)) (n : Fin 262144) (j : Fin 3) :
    broadcastInDim S262144x3 (![0, 1] : Fin 2 → Fin 2) h2 (broadcastInDim S1x3 (![1] : Fin 1 → Fin 2) h1 v) (ix2 n j) = v (ix1 j) := by
  rw [broadcastInDim_oneRow_apply, row3_apply]

/-- Layer `l` of the stacked biases: the slice of one row, its unit axis dropped, at `j`. -/
theorem bgrow_apply {α : Type} (l : Nat) (hl : l < 11) (b : S11x64.Idx → α)
    (hs : S11x64.Slices ![l, 0] S1x64) (hc : S1x64.ShapeCasts S64) (j : Fin 64) :
    shapeCast S64 (extractStridedSlice S1x64 ![l, 0] b hs) hc (ix1 j) = b (ix2 (⟨l, hl⟩ : Fin 11) j) := by
  rw [shapeCast_1a_a_apply, slice2_axis0_eq]
  rfl

/-- A scalar spread over a matrix reads the scalar. -/
theorem splat64_apply {α : Type} (h : S_.BroadcastsInDim S262144x64 (![] : Fin 0 → Fin 2)) (x : S_.Idx → α) (j : S262144x64.Idx) :
    broadcastInDim S262144x64 (![] : Fin 0 → Fin 2) h x j = x ix0 := broadcastInDim_scalar_apply h x j
theorem splat3_apply {α : Type} (h : S_.BroadcastsInDim S262144x3 (![] : Fin 0 → Fin 2)) (x : S_.Idx → α) (j : S262144x3.Idx) :
    broadcastInDim S262144x3 (![] : Fin 0 → Fin 2) h x j = x ix0 := broadcastInDim_scalar_apply h x j

/-- The host's elementwise functions at an index are the ideal instance's functions of the element. -/
theorem hTanh_apply {s : Shape} (x : FVec Ideal s .f32) (i : s.Idx) : Host.tanh x i = Ideal.tanh (x i) := rfl
theorem hSin_apply {s : Shape} (x : FVec Ideal s .f32) (i : s.Idx) : Host.sin x i = Ideal.sin (x i) := rfl
theorem hExp_apply {s : Shape} (x : FVec Ideal s .f32) (i : s.Idx) : Host.exp x i = Ideal.exp (x i) := rfl
theorem hNeg_apply {s : Shape} (x : FVec Ideal s .f32) (i : s.Idx) : Host.negf x i = -(x i) := rfl
theorem hAbs_apply {s : Shape} (x : FVec Ideal s .f32) (i : s.Idx) : Host.absf x i = max (x i) (-(x i)) := rfl
theorem hExpm1_apply {s : Shape} (x : FVec Ideal s .f32) (i : s.Idx) : Host.expm1 x i = Ideal.exp (x i) - 1 := rfl
theorem hLog1p_apply {s : Shape} (x : FVec Ideal s .f32) (i : s.Idx) : Host.log1p x i = Ideal.log1p (x i) := rfl
theorem hCmp_apply {s : Shape} (p : CmpFPredicate) (x y : FVec Ideal s .f32) (i : s.Idx) :
    cmpf p x y i = Ideal.cmp p (x i) (y i) := rfl

/-- Layer `l`'s weights and bias as the program reads them, for each of the eleven layers. -/
theorem wg0_apply {α : Type} (w : S11x64x64.Idx → α) (hs : S11x64x64.Slices ![0, 0, 0] S1x64x64) (hc : S1x64x64.ShapeCasts S64x64) (i j : Fin 64) :
    shapeCast S64x64 (extractStridedSlice S1x64x64 ![0, 0, 0] w hs) hc (ix2 i j) = w (ix3 (0 : Fin 11) i j) :=
  wg_apply 0 (by decide) w hs hc i j
theorem bg0_apply {α : Type} (b : S11x64.Idx → α) (hs : S11x64.Slices ![0, 0] S1x64) (hc : S1x64.ShapeCasts S64) (j : Fin 64) :
    shapeCast S64 (extractStridedSlice S1x64 ![0, 0] b hs) hc (ix1 j) = b (ix2 (0 : Fin 11) j) :=
  bgrow_apply 0 (by decide) b hs hc j
theorem wg1_apply {α : Type} (w : S11x64x64.Idx → α) (hs : S11x64x64.Slices ![1, 0, 0] S1x64x64) (hc : S1x64x64.ShapeCasts S64x64) (i j : Fin 64) :
    shapeCast S64x64 (extractStridedSlice S1x64x64 ![1, 0, 0] w hs) hc (ix2 i j) = w (ix3 (1 : Fin 11) i j) :=
  wg_apply 1 (by decide) w hs hc i j
theorem bg1_apply {α : Type} (b : S11x64.Idx → α) (hs : S11x64.Slices ![1, 0] S1x64) (hc : S1x64.ShapeCasts S64) (j : Fin 64) :
    shapeCast S64 (extractStridedSlice S1x64 ![1, 0] b hs) hc (ix1 j) = b (ix2 (1 : Fin 11) j) :=
  bgrow_apply 1 (by decide) b hs hc j
theorem wg2_apply {α : Type} (w : S11x64x64.Idx → α) (hs : S11x64x64.Slices ![2, 0, 0] S1x64x64) (hc : S1x64x64.ShapeCasts S64x64) (i j : Fin 64) :
    shapeCast S64x64 (extractStridedSlice S1x64x64 ![2, 0, 0] w hs) hc (ix2 i j) = w (ix3 (2 : Fin 11) i j) :=
  wg_apply 2 (by decide) w hs hc i j
theorem bg2_apply {α : Type} (b : S11x64.Idx → α) (hs : S11x64.Slices ![2, 0] S1x64) (hc : S1x64.ShapeCasts S64) (j : Fin 64) :
    shapeCast S64 (extractStridedSlice S1x64 ![2, 0] b hs) hc (ix1 j) = b (ix2 (2 : Fin 11) j) :=
  bgrow_apply 2 (by decide) b hs hc j
theorem wg3_apply {α : Type} (w : S11x64x64.Idx → α) (hs : S11x64x64.Slices ![3, 0, 0] S1x64x64) (hc : S1x64x64.ShapeCasts S64x64) (i j : Fin 64) :
    shapeCast S64x64 (extractStridedSlice S1x64x64 ![3, 0, 0] w hs) hc (ix2 i j) = w (ix3 (3 : Fin 11) i j) :=
  wg_apply 3 (by decide) w hs hc i j
theorem bg3_apply {α : Type} (b : S11x64.Idx → α) (hs : S11x64.Slices ![3, 0] S1x64) (hc : S1x64.ShapeCasts S64) (j : Fin 64) :
    shapeCast S64 (extractStridedSlice S1x64 ![3, 0] b hs) hc (ix1 j) = b (ix2 (3 : Fin 11) j) :=
  bgrow_apply 3 (by decide) b hs hc j
theorem wg4_apply {α : Type} (w : S11x64x64.Idx → α) (hs : S11x64x64.Slices ![4, 0, 0] S1x64x64) (hc : S1x64x64.ShapeCasts S64x64) (i j : Fin 64) :
    shapeCast S64x64 (extractStridedSlice S1x64x64 ![4, 0, 0] w hs) hc (ix2 i j) = w (ix3 (4 : Fin 11) i j) :=
  wg_apply 4 (by decide) w hs hc i j
theorem bg4_apply {α : Type} (b : S11x64.Idx → α) (hs : S11x64.Slices ![4, 0] S1x64) (hc : S1x64.ShapeCasts S64) (j : Fin 64) :
    shapeCast S64 (extractStridedSlice S1x64 ![4, 0] b hs) hc (ix1 j) = b (ix2 (4 : Fin 11) j) :=
  bgrow_apply 4 (by decide) b hs hc j
theorem wg5_apply {α : Type} (w : S11x64x64.Idx → α) (hs : S11x64x64.Slices ![5, 0, 0] S1x64x64) (hc : S1x64x64.ShapeCasts S64x64) (i j : Fin 64) :
    shapeCast S64x64 (extractStridedSlice S1x64x64 ![5, 0, 0] w hs) hc (ix2 i j) = w (ix3 (5 : Fin 11) i j) :=
  wg_apply 5 (by decide) w hs hc i j
theorem bg5_apply {α : Type} (b : S11x64.Idx → α) (hs : S11x64.Slices ![5, 0] S1x64) (hc : S1x64.ShapeCasts S64) (j : Fin 64) :
    shapeCast S64 (extractStridedSlice S1x64 ![5, 0] b hs) hc (ix1 j) = b (ix2 (5 : Fin 11) j) :=
  bgrow_apply 5 (by decide) b hs hc j
theorem wg6_apply {α : Type} (w : S11x64x64.Idx → α) (hs : S11x64x64.Slices ![6, 0, 0] S1x64x64) (hc : S1x64x64.ShapeCasts S64x64) (i j : Fin 64) :
    shapeCast S64x64 (extractStridedSlice S1x64x64 ![6, 0, 0] w hs) hc (ix2 i j) = w (ix3 (6 : Fin 11) i j) :=
  wg_apply 6 (by decide) w hs hc i j
theorem bg6_apply {α : Type} (b : S11x64.Idx → α) (hs : S11x64.Slices ![6, 0] S1x64) (hc : S1x64.ShapeCasts S64) (j : Fin 64) :
    shapeCast S64 (extractStridedSlice S1x64 ![6, 0] b hs) hc (ix1 j) = b (ix2 (6 : Fin 11) j) :=
  bgrow_apply 6 (by decide) b hs hc j
theorem wg7_apply {α : Type} (w : S11x64x64.Idx → α) (hs : S11x64x64.Slices ![7, 0, 0] S1x64x64) (hc : S1x64x64.ShapeCasts S64x64) (i j : Fin 64) :
    shapeCast S64x64 (extractStridedSlice S1x64x64 ![7, 0, 0] w hs) hc (ix2 i j) = w (ix3 (7 : Fin 11) i j) :=
  wg_apply 7 (by decide) w hs hc i j
theorem bg7_apply {α : Type} (b : S11x64.Idx → α) (hs : S11x64.Slices ![7, 0] S1x64) (hc : S1x64.ShapeCasts S64) (j : Fin 64) :
    shapeCast S64 (extractStridedSlice S1x64 ![7, 0] b hs) hc (ix1 j) = b (ix2 (7 : Fin 11) j) :=
  bgrow_apply 7 (by decide) b hs hc j
theorem wg8_apply {α : Type} (w : S11x64x64.Idx → α) (hs : S11x64x64.Slices ![8, 0, 0] S1x64x64) (hc : S1x64x64.ShapeCasts S64x64) (i j : Fin 64) :
    shapeCast S64x64 (extractStridedSlice S1x64x64 ![8, 0, 0] w hs) hc (ix2 i j) = w (ix3 (8 : Fin 11) i j) :=
  wg_apply 8 (by decide) w hs hc i j
theorem bg8_apply {α : Type} (b : S11x64.Idx → α) (hs : S11x64.Slices ![8, 0] S1x64) (hc : S1x64.ShapeCasts S64) (j : Fin 64) :
    shapeCast S64 (extractStridedSlice S1x64 ![8, 0] b hs) hc (ix1 j) = b (ix2 (8 : Fin 11) j) :=
  bgrow_apply 8 (by decide) b hs hc j
theorem wg9_apply {α : Type} (w : S11x64x64.Idx → α) (hs : S11x64x64.Slices ![9, 0, 0] S1x64x64) (hc : S1x64x64.ShapeCasts S64x64) (i j : Fin 64) :
    shapeCast S64x64 (extractStridedSlice S1x64x64 ![9, 0, 0] w hs) hc (ix2 i j) = w (ix3 (9 : Fin 11) i j) :=
  wg_apply 9 (by decide) w hs hc i j
theorem bg9_apply {α : Type} (b : S11x64.Idx → α) (hs : S11x64.Slices ![9, 0] S1x64) (hc : S1x64.ShapeCasts S64) (j : Fin 64) :
    shapeCast S64 (extractStridedSlice S1x64 ![9, 0] b hs) hc (ix1 j) = b (ix2 (9 : Fin 11) j) :=
  bgrow_apply 9 (by decide) b hs hc j
theorem wg10_apply {α : Type} (w : S11x64x64.Idx → α) (hs : S11x64x64.Slices ![10, 0, 0] S1x64x64) (hc : S1x64x64.ShapeCasts S64x64) (i j : Fin 64) :
    shapeCast S64x64 (extractStridedSlice S1x64x64 ![10, 0, 0] w hs) hc (ix2 i j) = w (ix3 (10 : Fin 11) i j) :=
  wg_apply 10 (by decide) w hs hc i j
theorem bg10_apply {α : Type} (b : S11x64.Idx → α) (hs : S11x64.Slices ![10, 0] S1x64) (hc : S1x64.ShapeCasts S64) (j : Fin 64) :
    shapeCast S64 (extractStridedSlice S1x64 ![10, 0] b hs) hc (ix1 j) = b (ix2 (10 : Fin 11) j) :=
  bgrow_apply 10 (by decide) b hs hc j

/-! ## The network's weights and one row's inputs, from the argument arrays -/

/-- The weights, read off the twelve weight arrays. -/
abbrev Wt (a : Args Ideal) : Cert.Spec.Weights :=
  Cert.Spec.weightsOf a.a5 a.a6 a.a7 a.a8 a.a9 a.a10 a.a11 a.a12 a.a13 a.a14 a.a15 a.a16
/-- Row `n`'s four scalars and sixteen noise values. -/
abbrev XX (a : Args Ideal) (n : Fin 262144) : EReal := a.a0 (ix2 n (0 : Fin 1))
abbrev YY (a : Args Ideal) (n : Fin 262144) : EReal := a.a1 (ix2 n (0 : Fin 1))
abbrev ZZ (a : Args Ideal) (n : Fin 262144) : EReal := a.a2 (ix2 n (0 : Fin 1))
abbrev RR (a : Args Ideal) (n : Fin 262144) : EReal := a.a3 (ix2 n (0 : Fin 1))
abbrev NZ (a : Args Ideal) (n : Fin 262144) : Fin 16 → EReal := fun i => a.a4 (ix2 n i)

/-! ## The program's row values are the network's, node by node -/

set_option maxRecDepth 4096 in
theorem main_v4_at (a : Args Ideal) (n : Fin 262144) (j : Fin 64) :
    val_main_v4 a (ix2 n j) = Ideal.tanh (Cert.Spec.lin (NZ a n) (Wt a).Wn (Wt a).bn j) := by
  simp only [val_main_v4, val_main_v3, val_main_v0, val_main_v2, val_main_v1, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply]
  rfl

set_option maxRecDepth 4096 in
theorem main_v6_at (a : Args Ideal) (n : Fin 262144) (j : Fin 64) :
    val_main_v6 a (ix2 n j) = Cert.Spec.eluRef (ZZ a n * (Wt a).Wz j) := by
  simp only [val_main_v6, val_main_call0_v1, val_main_v5, val_main_call0_v0, val_main_call0_cst, val_main_call0_v7, val_main_call0_v6, val_main_call0_cst_2, val_main_call0_v5, val_main_call0_v4, val_main_call0_v3, val_main_call0_v2, val_main_call0_cst_0, val_main_call0_call0_v1, val_main_call0_call0_v0, val_main_call0_cst_1, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply]
  rfl

set_option maxRecDepth 4096 in
theorem main_v8_at (a : Args Ideal) (n : Fin 262144) (j : Fin 64) :
    val_main_v8 a (ix2 n j) = Cert.Spec.spRef (RR a n * (Wt a).Wr j) := by
  simp only [val_main_v8, val_main_call1_v4, val_main_call1_v3, val_main_v7, val_main_call1_v2, val_main_call1_cst, val_main_call1_v6, val_main_call1_v5, val_main_call1_v11, val_main_call1_v1, val_main_call1_v0, val_main_call1_v10, val_main_call1_v9, val_main_call1_v8, val_main_call1_v7, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply]
  rfl

set_option maxRecDepth 4096 in
theorem main_v10_at (a : Args Ideal) (n : Fin 262144) (j : Fin 64) :
    val_main_v10 a (ix2 n j) = Ideal.tanh (YY a n * (Wt a).Wy j) := by
  simp only [val_main_v10, val_main_v9, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply]
  rfl

set_option maxRecDepth 4096 in
theorem main_v15_at (a : Args Ideal) (n : Fin 262144) (j : Fin 64) :
    val_main_v15 a (ix2 n j) = Cert.Spec.gauss (XX a n * (Wt a).Wx j) := by
  simp only [val_main_v15, val_main_v14, val_main_v13, val_main_v12, val_main_cst, val_main_v11, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply]
  rfl

set_option maxRecDepth 4096 in
theorem main_v20_at (a : Args Ideal) (n : Fin 262144) (j : Fin 64) :
    val_main_v20 a (ix2 n j) = Cert.Spec.s Cert.Spec.eluRef Cert.Spec.spRef (Wt a) (XX a n) (YY a n) (ZZ a n) (RR a n) (NZ a n) j := by
  simp only [val_main_v20, val_main_v19, val_main_v18, val_main_v17, val_main_v16, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v6_at, main_v15_at, main_v10_at, main_v8_at, main_v4_at]
  rfl

set_option maxRecDepth 4096 in
theorem main_v25_at (a : Args Ideal) (n : Fin 262144) (j : Fin 64) :
    val_main_v25 a (ix2 n j) = Cert.Spec.h0 Cert.Spec.eluRef Cert.Spec.spRef (Wt a) (XX a n) (YY a n) (ZZ a n) (RR a n) (NZ a n) j := by
  simp only [val_main_v25, val_main_v24, val_main_v21, val_main_v23, val_main_v22, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v20_at]
  rfl

set_option maxRecDepth 4096 in
theorem main_v34_at (a : Args Ideal) (n : Fin 262144) (j : Fin 64) :
    val_main_v34 a (ix2 n j) = Cert.Spec.h1 Cert.Spec.eluRef Cert.Spec.spRef (Wt a) (XX a n) (YY a n) (ZZ a n) (RR a n) (NZ a n) j := by
  simp only [val_main_v34, val_main_v33, val_main_v28, val_main_v27, val_main_v26, val_main_v32, val_main_v31, val_main_v30, val_main_v29, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v25_at]
  rfl

set_option maxRecDepth 4096 in
theorem main_v43_at (a : Args Ideal) (n : Fin 262144) (j : Fin 64) :
    val_main_v43 a (ix2 n j) = Cert.Spec.h2 Cert.Spec.eluRef Cert.Spec.spRef (Wt a) (XX a n) (YY a n) (ZZ a n) (RR a n) (NZ a n) j := by
  simp only [val_main_v43, val_main_call2_v1, val_main_v42, val_main_v37, val_main_v36, val_main_v35, val_main_v41, val_main_v40, val_main_v39, val_main_v38, val_main_call2_v0, val_main_call2_cst, val_main_call2_v7, val_main_call2_v6, val_main_call2_cst_2, val_main_call2_v5, val_main_call2_v4, val_main_call2_v3, val_main_call2_v2, val_main_call2_cst_0, val_main_call2_call0_v1, val_main_call2_call0_v0, val_main_call2_cst_1, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v34_at]
  rfl

set_option maxRecDepth 4096 in
theorem main_v53_at (a : Args Ideal) (n : Fin 262144) (j : Fin 64) :
    val_main_v53 a (ix2 n j) = Cert.Spec.h3 Cert.Spec.eluRef Cert.Spec.spRef (Wt a) (XX a n) (YY a n) (ZZ a n) (RR a n) (NZ a n) j := by
  simp only [val_main_v53, val_main_call3_v4, val_main_call3_v3, val_main_v52, val_main_v47, val_main_v44, val_main_v46, val_main_v45, val_main_v51, val_main_v50, val_main_v49, val_main_v48, val_main_call3_v2, val_main_call3_cst, val_main_call3_v6, val_main_call3_v5, val_main_call3_v11, val_main_call3_v1, val_main_call3_v0, val_main_call3_v10, val_main_call3_v9, val_main_call3_v8, val_main_call3_v7, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v43_at, main_v25_at]
  rfl

set_option maxRecDepth 4096 in
theorem main_v64_at (a : Args Ideal) (n : Fin 262144) (j : Fin 64) :
    val_main_v64 a (ix2 n j) = Cert.Spec.h4 Cert.Spec.eluRef Cert.Spec.spRef (Wt a) (XX a n) (YY a n) (ZZ a n) (RR a n) (NZ a n) j := by
  simp only [val_main_v64, val_main_v63, val_main_v58, val_main_v55, val_main_v54, val_main_v57, val_main_v56, val_main_v62, val_main_v61, val_main_v60, val_main_v59, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v53_at, main_v34_at, main_v25_at]
  rfl

set_option maxRecDepth 4096 in
theorem main_v77_at (a : Args Ideal) (n : Fin 262144) (j : Fin 64) :
    val_main_v77 a (ix2 n j) = Cert.Spec.h5 Cert.Spec.eluRef Cert.Spec.spRef (Wt a) (XX a n) (YY a n) (ZZ a n) (RR a n) (NZ a n) j := by
  simp only [val_main_v77, val_main_v76, val_main_v75, val_main_v74, val_main_cst_0, val_main_v73, val_main_v68, val_main_v65, val_main_v67, val_main_v66, val_main_v72, val_main_v71, val_main_v70, val_main_v69, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v64_at, main_v43_at]
  rfl

set_option maxRecDepth 4096 in
theorem main_v92_at (a : Args Ideal) (n : Fin 262144) (j : Fin 64) :
    val_main_v92 a (ix2 n j) = Cert.Spec.h6 Cert.Spec.eluRef Cert.Spec.spRef Cert.Spec.sgRef (Wt a) (XX a n) (YY a n) (ZZ a n) (RR a n) (NZ a n) j := by
  simp only [val_main_v92, val_main_v91, val_main_cst_2, val_main_v90, val_main_v89, val_main_cst_1, val_main_v88, val_main_v87, val_main_v86, val_main_v81, val_main_v78, val_main_v80, val_main_v79, val_main_v85, val_main_v84, val_main_v83, val_main_v82, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v77_at, main_v53_at]
  rfl

set_option maxRecDepth 4096 in
theorem main_v102_at (a : Args Ideal) (n : Fin 262144) (j : Fin 64) :
    val_main_v102 a (ix2 n j) = Cert.Spec.h7 Cert.Spec.eluRef Cert.Spec.spRef Cert.Spec.sgRef (Wt a) (XX a n) (YY a n) (ZZ a n) (RR a n) (NZ a n) j := by
  simp only [val_main_v102, val_main_v101, val_main_v96, val_main_v93, val_main_v95, val_main_v94, val_main_v100, val_main_v99, val_main_v98, val_main_v97, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v92_at, main_v64_at]
  rfl

set_option maxRecDepth 4096 in
theorem main_v113_at (a : Args Ideal) (n : Fin 262144) (j : Fin 64) :
    val_main_v113 a (ix2 n j) = Cert.Spec.h8 Cert.Spec.eluRef Cert.Spec.spRef Cert.Spec.sgRef (Wt a) (XX a n) (YY a n) (ZZ a n) (RR a n) (NZ a n) j := by
  simp only [val_main_v113, val_main_call4_v1, val_main_v112, val_main_v107, val_main_v104, val_main_v103, val_main_v106, val_main_v105, val_main_v111, val_main_v110, val_main_v109, val_main_v108, val_main_call4_v0, val_main_call4_cst, val_main_call4_v7, val_main_call4_v6, val_main_call4_cst_2, val_main_call4_v5, val_main_call4_v4, val_main_call4_v3, val_main_call4_v2, val_main_call4_cst_0, val_main_call4_call0_v1, val_main_call4_call0_v0, val_main_call4_cst_1, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v102_at, main_v77_at, main_v25_at]
  rfl

set_option maxRecDepth 4096 in
theorem main_v123_at (a : Args Ideal) (n : Fin 262144) (j : Fin 64) :
    val_main_v123 a (ix2 n j) = Cert.Spec.h9 Cert.Spec.eluRef Cert.Spec.spRef Cert.Spec.sgRef (Wt a) (XX a n) (YY a n) (ZZ a n) (RR a n) (NZ a n) j := by
  simp only [val_main_v123, val_main_call5_v4, val_main_call5_v3, val_main_v122, val_main_v117, val_main_v114, val_main_v116, val_main_v115, val_main_v121, val_main_v120, val_main_v119, val_main_v118, val_main_call5_v2, val_main_call5_cst, val_main_call5_v6, val_main_call5_v5, val_main_call5_v11, val_main_call5_v1, val_main_call5_v0, val_main_call5_v10, val_main_call5_v9, val_main_call5_v8, val_main_call5_v7, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v113_at, main_v92_at]
  rfl

set_option maxRecDepth 4096 in
theorem main_v133_at (a : Args Ideal) (n : Fin 262144) (j : Fin 64) :
    val_main_v133 a (ix2 n j) = Cert.Spec.h10 Cert.Spec.eluRef Cert.Spec.spRef Cert.Spec.sgRef (Wt a) (XX a n) (YY a n) (ZZ a n) (RR a n) (NZ a n) j := by
  simp only [val_main_v133, val_main_v132, val_main_v127, val_main_v124, val_main_v126, val_main_v125, val_main_v131, val_main_v130, val_main_v129, val_main_v128, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v123_at, main_v102_at]
  rfl

set_option maxRecDepth 4096 in
theorem main_v146_at (a : Args Ideal) (n : Fin 262144) (j : Fin 64) :
    val_main_v146 a (ix2 n j) = Cert.Spec.h11 Cert.Spec.eluRef Cert.Spec.spRef Cert.Spec.sgRef (Wt a) (XX a n) (YY a n) (ZZ a n) (RR a n) (NZ a n) j := by
  simp only [val_main_v146, val_main_v145, val_main_v144, val_main_v143, val_main_cst_3, val_main_v142, val_main_v137, val_main_v134, val_main_v136, val_main_v135, val_main_v141, val_main_v140, val_main_v139, val_main_v138, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v133_at, main_v113_at]
  rfl

set_option maxRecDepth 4096 in
theorem main_v156_at (a : Args Ideal) (n : Fin 262144) (c : Fin 3) :
    val_main_v156 a (ix2 n c) = Cert.Spec.out Cert.Spec.eluRef Cert.Spec.spRef Cert.Spec.sgRef (Wt a) (XX a n) (YY a n) (ZZ a n) (RR a n) (NZ a n) c := by
  simp only [val_main_v156, val_main_v155, val_main_cst_5, val_main_v154, val_main_v153, val_main_cst_4, val_main_v152, val_main_v151, val_main_v150, val_main_v147, val_main_v149, val_main_v148, hTanh_apply, hSin_apply, hExp_apply, hNeg_apply, hAbs_apply, hExpm1_apply, hLog1p_apply, hostDivf_apply, addf_apply, subf_apply, mulf_apply, maximumf_apply, cmpf_apply, select_apply, splat64_apply, splat3_apply, constant_apply, id_eq, dot_16_apply, dot_1_apply, dot_64_apply, dot_3_apply, bias64_apply, bias3_apply, wg0_apply, bg0_apply, wg1_apply, bg1_apply, wg2_apply, bg2_apply, wg3_apply, bg3_apply, wg4_apply, bg4_apply, wg5_apply, bg5_apply, wg6_apply, bg6_apply, wg7_apply, bg7_apply, wg8_apply, bg8_apply, wg9_apply, bg9_apply, wg10_apply, bg10_apply, main_v146_at]
  rfl

/-- THE REFERENCE'S RESULT, element by element: row `n`'s three outputs are the network's on row `n`'s inputs. -/
theorem result_at (a0 : (⟨S262144x1, .f32⟩ : BufTy).Contents (Elt Ideal)) (a1 : (⟨S262144x1, .f32⟩ : BufTy).Contents (Elt Ideal)) (a2 : (⟨S262144x1, .f32⟩ : BufTy).Contents (Elt Ideal)) (a3 : (⟨S262144x1, .f32⟩ : BufTy).Contents (Elt Ideal)) (a4 : (⟨S262144x16, .f32⟩ : BufTy).Contents (Elt Ideal)) (a5 : (⟨S16x64, .f32⟩ : BufTy).Contents (Elt Ideal)) (a6 : (⟨S64, .f32⟩ : BufTy).Contents (Elt Ideal)) (a7 : (⟨S1x64, .f32⟩ : BufTy).Contents (Elt Ideal)) (a8 : (⟨S1x64, .f32⟩ : BufTy).Contents (Elt Ideal)) (a9 : (⟨S1x64, .f32⟩ : BufTy).Contents (Elt Ideal)) (a10 : (⟨S1x64, .f32⟩ : BufTy).Contents (Elt Ideal)) (a11 : (⟨S64x64, .f32⟩ : BufTy).Contents (Elt Ideal)) (a12 : (⟨S64, .f32⟩ : BufTy).Contents (Elt Ideal)) (a13 : (⟨S11x64x64, .f32⟩ : BufTy).Contents (Elt Ideal)) (a14 : (⟨S11x64, .f32⟩ : BufTy).Contents (Elt Ideal)) (a15 : (⟨S64x3, .f32⟩ : BufTy).Contents (Elt Ideal)) (a16 : (⟨S3, .f32⟩ : BufTy).Contents (Elt Ideal))
    (n : Fin 262144) (c : Fin 3) :
    result a0 a1 a2 a3 a4 a5 a6 a7 a8 a9 a10 a11 a12 a13 a14 a15 a16 (ix2 n c)
      = Cert.Spec.out Cert.Spec.eluRef Cert.Spec.spRef Cert.Spec.sgRef
          (Cert.Spec.weightsOf a5 a6 a7 a8 a9 a10 a11 a12 a13 a14 a15 a16)
          (a0 (ix2 n (0 : Fin 1))) (a1 (ix2 n (0 : Fin 1))) (a2 (ix2 n (0 : Fin 1))) (a3 (ix2 n (0 : Fin 1)))
          (fun i => a4 (ix2 n i)) c :=
  main_v156_at ⟨a0, a1, a2, a3, a4, a5, a6, a7, a8, a9, a10, a11, a12, a13, a14, a15, a16⟩ n c

end Cert.ReferenceIdeal.HandValue

end
-- ==== Proof.Bridge.lean ====
/- The reference's result and the kernel's packed result are one array: the packed result, its rows of twelve read as
   four logical rows of three, is at every (row, output) the network on that row's inputs, and so is the reference's
   result. -/
import proofs.«136870_j44341242364139_2_alg».proof.Proof.PackedResult
import proofs.«136870_j44341242364139_2_alg».proof.Proof.SpecWeights
import proofs.«136870_j44341242364139_2_alg».proof.Proof.RefValue
import proofs.«136870_j44341242364139_2_alg».proof.Proof.RefRunVals
import Idealize.ShloMosaic.Lib.ValueIdx
import Idealize.ShloMosaic.Lib.Pipeline.Value

noncomputable section

namespace Cert.Bridge

open Idealize.ShloMosaic Idealize.ShloMosaic.ValueIdx Cert.ReferenceIdeal

/-- The packed result unpacked: logical row `n`, output `cc` sits at packed row `n / 4`, column `3 (n mod 4) + cc`
    (the two positions are the same row-major offset `3 n + cc`), and that packed position's logical row and output
    index are `n` and `cc` again. -/
theorem unpack_at (a0 a1 a2 a3 : (⟨2, ![262144, 1]⟩ : Shape).Idx → EReal) (a4 : (⟨2, ![262144, 16]⟩ : Shape).Idx → EReal)
    (W : Cert.Spec.Weights) (h : (⟨2, ![65536, 12]⟩ : Shape).ShapeCasts ⟨2, ![262144, 3]⟩) (n : Fin 262144) (cc : Fin 3) :
    shapeCast ⟨2, ![262144, 3]⟩ (Cert.Packed.GK a0 a1 a2 a3 a4 W) h (ix2 n cc)
      = Cert.Spec.out Cert.Spec.eluK Cert.Spec.spK Ideal.logistic W
          (a0 (ix2 n (0 : Fin 1))) (a1 (ix2 n (0 : Fin 1))) (a2 (ix2 n (0 : Fin 1))) (a3 (ix2 n (0 : Fin 1)))
          (fun i => a4 (ix2 n i)) cc := by
  have hn := n.isLt
  have hc := cc.isLt
  have hg : n.val / 4 < 65536 := by omega
  have hq : 3 * (n.val % 4) + cc.val < 12 := by omega
  have hr : Cert.Packed.rowAt (ix2 (⟨n.val / 4, hg⟩ : Fin 65536) (⟨3 * (n.val % 4) + cc.val, hq⟩ : Fin 12)) = n :=
    Fin.ext (by show 4 * (n.val / 4) + (3 * (n.val % 4) + cc.val) / 3 = n.val; omega)
  have ho : Cert.Packed.outAt (ix2 (⟨n.val / 4, hg⟩ : Fin 65536) (⟨3 * (n.val % 4) + cc.val, hq⟩ : Fin 12)) = cc :=
    Fin.ext (by show (3 * (n.val % 4) + cc.val) % 3 = cc.val; omega)
  rw [shapeCast_apply (Cert.Packed.GK a0 a1 a2 a3 a4 W) h (ix2 n cc)
    (ix2 (⟨n.val / 4, hg⟩ : Fin 65536) (⟨3 * (n.val % 4) + cc.val, hq⟩ : Fin 12)) (by
      rw [Shape.rowMajor_val_two, Shape.rowMajor_val_two]
      show n.val / 4 * 12 + (3 * (n.val % 4) + cc.val) = n.val * 3 + cc.val
      omega)]
  simp only [Cert.Packed.GK, hr, ho]

/-- The reference's result is the packed result unpacked: element by element both are the network on that row's
    inputs, read with the reference's and with the kernel's spellings of the activations, which agree. -/
theorem result_eq (a0 : (⟨S262144x1, .f32⟩ : BufTy).Contents (Elt Ideal))
    (a1 : (⟨S262144x1, .f32⟩ : BufTy).Contents (Elt Ideal))
    (a2 : (⟨S262144x1, .f32⟩ : BufTy).Contents (Elt Ideal))
    (a3 : (⟨S262144x1, .f32⟩ : BufTy).Contents (Elt Ideal))
    (a4 : (⟨S262144x16, .f32⟩ : BufTy).Contents (Elt Ideal))
    (a5 : (⟨S16x64, .f32⟩ : BufTy).Contents (Elt Ideal))
    (a6 : (⟨S64, .f32⟩ : BufTy).Contents (Elt Ideal))
    (a7 : (⟨S1x64, .f32⟩ : BufTy).Contents (Elt Ideal))
    (a8 : (⟨S1x64, .f32⟩ : BufTy).Contents (Elt Ideal))
    (a9 : (⟨S1x64, .f32⟩ : BufTy).Contents (Elt Ideal))
    (a10 : (⟨S1x64, .f32⟩ : BufTy).Contents (Elt Ideal))
    (a11 : (⟨S64x64, .f32⟩ : BufTy).Contents (Elt Ideal))
    (a12 : (⟨S64, .f32⟩ : BufTy).Contents (Elt Ideal))
    (a13 : (⟨S11x64x64, .f32⟩ : BufTy).Contents (Elt Ideal))
    (a14 : (⟨S11x64, .f32⟩ : BufTy).Contents (Elt Ideal))
    (a15 : (⟨S64x3, .f32⟩ : BufTy).Contents (Elt Ideal))
    (a16 : (⟨S3, .f32⟩ : BufTy).Contents (Elt Ideal))
    (h : (⟨2, ![65536, 12]⟩ : Shape).ShapeCasts ⟨2, ![262144, 3]⟩) :
    HandRun.result a0 a1 a2 a3 a4 a5 a6 a7 a8 a9 a10 a11 a12 a13 a14 a15 a16
      = shapeCast ⟨2, ![262144, 3]⟩
          (Cert.Packed.GK a0 a1 a2 a3 a4 (Cert.Spec.weightsOf a5 a6 a7 a8 a9 a10 a11 a12 a13 a14 a15 a16)) h := by
  funext i
  obtain ⟨n, cc, rfl⟩ : ∃ (n : Fin 262144) (cc : Fin 3), i = ix2 n cc := ⟨i 0, i 1, eq_ix2 i⟩
  rw [HandValue.result_at, unpack_at, Cert.Spec.out_kernel_eq_out_ref]

end Cert.Bridge

end
-- ==== Proof.lean ====
/-
  The certificate. A Pallas kernel evaluates a small network — five input branches, a dense layer, eleven graph nodes
  and an output layer — on 262144 points, four points to a packed row: the host reshapes the inputs four rows to one,
  places every weight matrix four times on the diagonal of a block matrix and repeats every bias four times; the kernel
  then computes, at every grid point, ordinary dense layers on packed rows. The reference evaluates the same network one
  point per row. On the extended reals the two agree entry by entry: a product with a block-diagonal matrix keeps the four
  points of a packed row apart (the other blocks contribute products with zero, which vanish whatever the other factor),
  the repeated biases add the same bias to each point, every activation acts entry by entry, and the three activations
  the two programs spell differently (exponential linear unit, softplus, logistic) are the same functions of an extended
  real. Nothing is asked of the inputs for that.

  The three frames: each kernel program is its host lines, the pipelined region and one host line; the region's body is
  run symbolically once, on any staging buffers, and the library's frame run around a region does the rest. The
  reference is a straight line of host operations.
-/
import proofs.«136870_j44341242364139_2_alg».proof.Defs
import proofs.«136870_j44341242364139_2_alg».proof.Proof.Gen.Kernel
import proofs.«136870_j44341242364139_2_alg».proof.Proof.Gen.KernelIdeal
import proofs.«136870_j44341242364139_2_alg».proof.Proof.Gen.ReferenceIdeal
import proofs.«136870_j44341242364139_2_alg».proof.Proof.Gen.Pre_finite_inputs
import proofs.«136870_j44341242364139_2_alg».proof.Proof.KBFrameB
import proofs.«136870_j44341242364139_2_alg».proof.Proof.KIFinal
import proofs.«136870_j44341242364139_2_alg».proof.Proof.RefRun
import proofs.«136870_j44341242364139_2_alg».proof.Proof.Bridge

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.HandRun.frame (F := Ideal) m ρ

/-- The ideal pass rewrote nothing. -/
theorem preserves : Cert.preserves_Kernel_KernelIdeal := trivial

/-- Both idealized programs end with the same result: the kernel program's is the packed network re-read row by row,
    the reference's the network row by row, and those are one function of the arguments. -/
theorem algebraic : Cert.algebraic_KernelIdeal_ReferenceIdeal := by
  intro m ρ m' ρ' _ hagree
  refine ⟨fun c => Cert.KernelIdeal.Hand.KRES m c, Cert.KernelIdeal.Hand.krun m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  exact Cert.Bridge.result_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
